-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg4 : FVec F S128x256 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg4
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S4096x128 .f32) (main_arg1 : FVec F S4096x4096 .f32) (main_arg2 : FVec F S128x128 .f32) (main_arg3 : FVec F S128 .f32) (main_arg4 : FVec F S128x256 .f32) (main_arg5 : FVec F S128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S512x4096 : Shape := ⟨2, ![512, 4096]⟩
abbrev S512x128 : Shape := ⟨2, ![512, 128]⟩
abbrev S512x512 : Shape := ⟨2, ![512, 512]⟩
abbrev S512x1024 : Shape := ⟨2, ![512, 1024]⟩
abbrev S1024x128 : Shape := ⟨2, ![1024, 128]⟩
abbrev S512x1536 : Shape := ⟨2, ![512, 1536]⟩
abbrev S1536x128 : Shape := ⟨2, ![1536, 128]⟩
abbrev S512x2048 : Shape := ⟨2, ![512, 2048]⟩
abbrev S2048x128 : Shape := ⟨2, ![2048, 128]⟩
abbrev S512x2560 : Shape := ⟨2, ![512, 2560]⟩
abbrev S2560x128 : Shape := ⟨2, ![2560, 128]⟩
abbrev S512x3072 : Shape := ⟨2, ![512, 3072]⟩
abbrev S3072x128 : Shape := ⟨2, ![3072, 128]⟩
abbrev S512x3584 : Shape := ⟨2, ![512, 3584]⟩
abbrev S3584x128 : Shape := ⟨2, ![3584, 128]⟩

abbrev nBuf : Space → Nat
  | .hbm => 9
  | .vmem => 13
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S4096x128, .f32⟩
  | .local _ .vmem, ⟨0, _⟩ => ⟨S4096x128, .f32⟩
  | .local _ .vmem, ⟨1, _⟩ => ⟨S128x128, .f32⟩
  | .local _ .vmem, ⟨2, _⟩ => ⟨S512x4096, .f32⟩
  | .local _ .vmem, ⟨3, _⟩ => ⟨S512x4096, .f32⟩
  | .local _ .vmem, ⟨4, _⟩ => ⟨S128x256, .f32⟩
  | .local _ .vmem, ⟨5, _⟩ => ⟨S1x128, .f32⟩
  | .local _ .vmem, ⟨6, _⟩ => ⟨S1x128, .f32⟩
  | .local _ .vmem, ⟨7, _⟩ => ⟨S512x128, .f32⟩
  | .local _ .vmem, ⟨8, _⟩ => ⟨S512x128, .f32⟩
  | .local _ .vmem, ⟨9, _⟩ => ⟨S4096x128, .bf16⟩
  | .local _ .vmem, ⟨10, _⟩ => ⟨S4096x128, .bf16⟩
  | .local _ .vmem, ⟨11, _⟩ => ⟨S4096x128, .f32⟩
  | .local _ .vmem, ⟨12, _⟩ => ⟨S4096x4096, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def k0_cond10 (i : grid0.Coords) : BitVec 1 :=
  let arg0 : BitVec 32 := BitVec.ofNat 32 (i 0).val
  let c8_i32 : BitVec 32 := 8#32
  let v27 : BitVec 1 := Scalar.cmpi .eq arg0 c8_i32
  let v28 : BitVec 32 := Scalar.extui v27
  let c0_i32_10 : BitVec 32 := 0#32
  let v29 : BitVec 1 := Scalar.cmpi .ne v28 c0_i32_10
  v29

def k0_cond11 (i : grid0.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_11 : BitVec 32 := 0#32
  let v32 : BitVec 1 := Scalar.cmpi .ne v31 c0_i32_11
  v32

def k0_cond12 (i : grid0.Coords) : BitVec 1 :=
  let arg0 : BitVec 32 := BitVec.ofNat 32 (i 0).val
  let c10_i32 : BitVec 32 := 10#32
  let v33 : BitVec 1 := Scalar.cmpi .eq arg0 c10_i32
  let v34 : BitVec 32 := Scalar.extui v33
  let c0_i32_12 : BitVec 32 := 0#32
  let v35 : BitVec 1 := Scalar.cmpi .ne v34 c0_i32_12
  v35

def k0_cond13 (i : grid0.Coords) : BitVec 1 :=
  let arg0 : BitVec 32 := BitVec.ofNat 32 (i 0).val
  let c11_i32 : BitVec 32 := 11#32
  let v36 : BitVec 1 := Scalar.cmpi .eq arg0 c11_i32
  let v37 : BitVec 32 := Scalar.extui v36
  let c0_i32_13 : BitVec 32 := 0#32
  let v38 : BitVec 1 := Scalar.cmpi .ne v37 c0_i32_13
  v38

def k0_cond14 (i : grid0.Coords) : BitVec 1 :=
  let arg0 : BitVec 32 := BitVec.ofNat 32 (i 0).val
  let c12_i32 : BitVec 32 := 12#32
  let v39 : BitVec 1 := Scalar.cmpi .eq arg0 c12_i32
  let v40 : BitVec 32 := Scalar.extui v39
  let c0_i32_14 : BitVec 32 := 0#32
  let v41 : BitVec 1 := Scalar.cmpi .ne v40 c0_i32_14
  v41

def k0_cond15 (i : grid0.Coords) : BitVec 1 :=
  let arg0 : BitVec 32 := BitVec.ofNat 32 (i 0).val
  let c13_i32 : BitVec 32 := 13#32
  let v42 : BitVec 1 := Scalar.cmpi .eq arg0 c13_i32
  let v43 : BitVec 32 := Scalar.extui v42
  let c0_i32_15 : BitVec 32 := 0#32
  let v44 : BitVec 1 := Scalar.cmpi .ne v43 c0_i32_15
  v44

def k0_cond16 (i : grid0.Coords) : BitVec 1 :=
  let arg0 : BitVec 32 := BitVec.ofNat 32 (i 0).val
  let c14_i32 : BitVec 32 := 14#32
  let v45 : BitVec 1 := Scalar.cmpi .eq arg0 c14_i32
  let v46 : BitVec 32 := Scalar.extui v45
  let c0_i32_16 : BitVec 32 := 0#32
  let v47 : BitVec 1 := Scalar.cmpi .ne v46 c0_i32_16
  v47

def k0_cond17 (i : grid0.Coords) : BitVec 1 :=
  let arg0 : BitVec 32 := BitVec.ofNat 32 (i 0).val
  let c15_i32 : BitVec 32 := 15#32
  let v48 : BitVec 1 := Scalar.cmpi .eq arg0 c15_i32
  let v49 : BitVec 32 := Scalar.extui v48
  let c0_i32_17 : BitVec 32 := 0#32
  let v50 : BitVec 1 := Scalar.cmpi .ne v49 c0_i32_17
  v50

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S512x4096_S512x4096_0_0 : ∀ a, (![0, 0] : Fin 2 → Nat) a + S512x4096.size a ≤ S512x4096.size a
  h_S512x4096 : 0 < S512x4096.numel
  inb_S4096x4096_S512x4096_0_0 : ∀ a, (![0, 0] : Fin 2 → Nat) a + S512x4096.size a ≤ S4096x4096.size a
  shapeCasts_S512x4096_S512x4096 : S512x4096.ShapeCasts S512x4096
  packedbf16_S4096x4096_S512x4096_0_0 : (Rect.unit (s := S4096x4096) ![0, 0] S512x4096.size inb_S4096x4096_S512x4096_0_0).PackedRows (EltTy.packing .bf16)
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  packedbf16_S4096x128_S512x128_0_0 : (Rect.unit (s := S4096x128) ![0, 0] S512x128.size inb_S4096x128_S512x128_0_0).PackedRows (EltTy.packing .bf16)
  slices_S512x4096_o0_0_S512x512 : S512x4096.Slices ![0, 0] S512x512
  inb_S4096x4096_S512x4096_512_0 : ∀ a, (![512, 0] : Fin 2 → Nat) a + S512x4096.size a ≤ S4096x4096.size a
  packedbf16_S4096x4096_S512x4096_512_0 : (Rect.unit (s := S4096x4096) ![512, 0] S512x4096.size inb_S4096x4096_S512x4096_512_0).PackedRows (EltTy.packing .bf16)
  inb_S4096x128_S512x128_512_0 : ∀ a, (![512, 0] : Fin 2 → Nat) a + S512x128.size a ≤ S4096x128.size a
  packedbf16_S4096x128_S512x128_512_0 : (Rect.unit (s := S4096x128) ![512, 0] S512x128.size inb_S4096x128_S512x128_512_0).PackedRows (EltTy.packing .bf16)
  slices_S512x4096_o0_0_S512x1024 : S512x4096.Slices ![0, 0] S512x1024
  inb_S4096x128_S1024x128_0_0 : ∀ a, (![0, 0] : Fin 2 → Nat) a + S1024x128.size a ≤ S4096x128.size a
  h_S1024x128 : 0 < S1024x128.numel
  inb_S4096x4096_S512x512_0_512 : ∀ a, (![0, 512] : Fin 2 → Nat) a + S512x512.size a ≤ S4096x4096.size a
  h_S512x512 : 0 < S512x512.numel
  inb_S4096x4096_S512x4096_1024_0 : ∀ a, (![1024, 0] : Fin 2 → Nat) a + S512x4096.size a ≤ S4096x4096.size a
  packedbf16_S4096x4096_S512x4096_1024_0 : (Rect.unit (s := S4096x4096) ![1024, 0] S512x4096.size inb_S4096x4096_S512x4096_1024_0).PackedRows (EltTy.packing .bf16)
  inb_S4096x128_S512x128_1024_0 : ∀ a, (![1024, 0] : Fin 2 → Nat) a + S512x128.size a ≤ S4096x128.size a
  packedbf16_S4096x128_S512x128_1024_0 : (Rect.unit (s := S4096x128) ![1024, 0] S512x128.size inb_S4096x128_S512x128_1024_0).PackedRows (EltTy.packing .bf16)
  slices_S512x4096_o0_0_S512x1536 : S512x4096.Slices ![0, 0] S512x1536
  inb_S4096x128_S1536x128_0_0 : ∀ a, (![0, 0] : Fin 2 → Nat) a + S1536x128.size a ≤ S4096x128.size a
  h_S1536x128 : 0 < S1536x128.numel
  inb_S4096x4096_S512x512_0_1024 : ∀ a, (![0, 1024] : Fin 2 → Nat) a + S512x512.size a ≤ S4096x4096.size a
  inb_S4096x4096_S512x512_512_1024 : ∀ a, (![512, 1024] : Fin 2 → Nat) a + S512x512.size a ≤ S4096x4096.size a
  inb_S4096x4096_S512x4096_1536_0 : ∀ a, (![1536, 0] : Fin 2 → Nat) a + S512x4096.size a ≤ S4096x4096.size a
  packedbf16_S4096x4096_S512x4096_1536_0 : (Rect.unit (s := S4096x4096) ![1536, 0] S512x4096.size inb_S4096x4096_S512x4096_1536_0).PackedRows (EltTy.packing .bf16)
  inb_S4096x128_S512x128_1536_0 : ∀ a, (![1536, 0] : Fin 2 → Nat) a + S512x128.size a ≤ S4096x128.size a
  packedbf16_S4096x128_S512x128_1536_0 : (Rect.unit (s := S4096x128) ![1536, 0] S512x128.size inb_S4096x128_S512x128_1536_0).PackedRows (EltTy.packing .bf16)
  slices_S512x4096_o0_0_S512x2048 : S512x4096.Slices ![0, 0] S512x2048
  inb_S4096x128_S2048x128_0_0 : ∀ a, (![0, 0] : Fin 2 → Nat) a + S2048x128.size a ≤ S4096x128.size a
  h_S2048x128 : 0 < S2048x128.numel
  inb_S4096x4096_S512x512_0_1536 : ∀ a, (![0, 1536] : Fin 2 → Nat) a + S512x512.size a ≤ S4096x4096.size a
  inb_S4096x4096_S512x512_512_1536 : ∀ a, (![512, 1536] : Fin 2 → Nat) a + S512x512.size a ≤ S4096x4096.size a
  inb_S4096x4096_S512x512_1024_1536 : ∀ a, (![1024, 1536] : Fin 2 → Nat) a + S512x512.size a ≤ S4096x4096.size a
  inb_S4096x4096_S512x4096_2048_0 : ∀ a, (![2048, 0] : Fin 2 → Nat) a + S512x4096.size a ≤ S4096x4096.size a
  packedbf16_S4096x4096_S512x4096_2048_0 : (Rect.unit (s := S4096x4096) ![2048, 0] S512x4096.size inb_S4096x4096_S512x4096_2048_0).PackedRows (EltTy.packing .bf16)
  inb_S4096x128_S512x128_2048_0 : ∀ a, (![2048, 0] : Fin 2 → Nat) a + S512x128.size a ≤ S4096x128.size a
  packedbf16_S4096x128_S512x128_2048_0 : (Rect.unit (s := S4096x128) ![2048, 0] S512x128.size inb_S4096x128_S512x128_2048_0).PackedRows (EltTy.packing .bf16)
  slices_S512x4096_o0_0_S512x2560 : S512x4096.Slices ![0, 0] S512x2560
  inb_S4096x128_S2560x128_0_0 : ∀ a, (![0, 0] : Fin 2 → Nat) a + S2560x128.size a ≤ S4096x128.size a
  h_S2560x128 : 0 < S2560x128.numel
  inb_S4096x4096_S512x512_0_2048 : ∀ a, (![0, 2048] : Fin 2 → Nat) a + S512x512.size a ≤ S4096x4096.size a
  inb_S4096x4096_S512x512_512_2048 : ∀ a, (![512, 2048] : Fin 2 → Nat) a + S512x512.size a ≤ S4096x4096.size a
  inb_S4096x4096_S512x512_1024_2048 : ∀ a, (![1024, 2048] : Fin 2 → Nat) a + S512x512.size a ≤ S4096x4096.size a
  inb_S4096x4096_S512x512_1536_2048 : ∀ a, (![1536, 2048] : Fin 2 → Nat) a + S512x512.size a ≤ S4096x4096.size a
  inb_S4096x4096_S512x4096_2560_0 : ∀ a, (![2560, 0] : Fin 2 → Nat) a + S512x4096.size a ≤ S4096x4096.size a
  packedbf16_S4096x4096_S512x4096_2560_0 : (Rect.unit (s := S4096x4096) ![2560, 0] S512x4096.size inb_S4096x4096_S512x4096_2560_0).PackedRows (EltTy.packing .bf16)
  inb_S4096x128_S512x128_2560_0 : ∀ a, (![2560, 0] : Fin 2 → Nat) a + S512x128.size a ≤ S4096x128.size a
  packedbf16_S4096x128_S512x128_2560_0 : (Rect.unit (s := S4096x128) ![2560, 0] S512x128.size inb_S4096x128_S512x128_2560_0).PackedRows (EltTy.packing .bf16)
  slices_S512x4096_o0_0_S512x3072 : S512x4096.Slices ![0, 0] S512x3072
  inb_S4096x128_S3072x128_0_0 : ∀ a, (![0, 0] : Fin 2 → Nat) a + S3072x128.size a ≤ S4096x128.size a
  h_S3072x128 : 0 < S3072x128.numel
  inb_S4096x4096_S512x512_0_2560 : ∀ a, (![0, 2560] : Fin 2 → Nat) a + S512x512.size a ≤ S4096x4096.size a
  inb_S4096x4096_S512x512_512_2560 : ∀ a, (![512, 2560] : Fin 2 → Nat) a + S512x512.size a ≤ S4096x4096.size a
  inb_S4096x4096_S512x512_1024_2560 : ∀ a, (![1024, 2560] : Fin 2 → Nat) a + S512x512.size a ≤ S4096x4096.size a
  inb_S4096x4096_S512x512_1536_2560 : ∀ a, (![1536, 2560] : Fin 2 → Nat) a + S512x512.size a ≤ S4096x4096.size a
  inb_S4096x4096_S512x512_2048_2560 : ∀ a, (![2048, 2560] : Fin 2 → Nat) a + S512x512.size a ≤ S4096x4096.size a
  inb_S4096x4096_S512x4096_3072_0 : ∀ a, (![3072, 0] : Fin 2 → Nat) a + S512x4096.size a ≤ S4096x4096.size a
  packedbf16_S4096x4096_S512x4096_3072_0 : (Rect.unit (s := S4096x4096) ![3072, 0] S512x4096.size inb_S4096x4096_S512x4096_3072_0).PackedRows (EltTy.packing .bf16)
  inb_S4096x128_S512x128_3072_0 : ∀ a, (![3072, 0] : Fin 2 → Nat) a + S512x128.size a ≤ S4096x128.size a
  packedbf16_S4096x128_S512x128_3072_0 : (Rect.unit (s := S4096x128) ![3072, 0] S512x128.size inb_S4096x128_S512x128_3072_0).PackedRows (EltTy.packing .bf16)
  slices_S512x4096_o0_0_S512x3584 : S512x4096.Slices ![0, 0] S512x3584
  inb_S4096x128_S3584x128_0_0 : ∀ a, (![0, 0] : Fin 2 → Nat) a + S3584x128.size a ≤ S4096x128.size a
  h_S3584x128 : 0 < S3584x128.numel
  inb_S4096x4096_S512x512_0_3072 : ∀ a, (![0, 3072] : Fin 2 → Nat) a + S512x512.size a ≤ S4096x4096.size a
  inb_S4096x4096_S512x512_512_3072 : ∀ a, (![512, 3072] : Fin 2 → Nat) a + S512x512.size a ≤ S4096x4096.size a
  inb_S4096x4096_S512x512_1024_3072 : ∀ a, (![1024, 3072] : Fin 2 → Nat) a + S512x512.size a ≤ S4096x4096.size a
  inb_S4096x4096_S512x512_1536_3072 : ∀ a, (![1536, 3072] : Fin 2 → Nat) a + S512x512.size a ≤ S4096x4096.size a
  inb_S4096x4096_S512x512_2048_3072 : ∀ a, (![2048, 3072] : Fin 2 → Nat) a + S512x512.size a ≤ S4096x4096.size a
  inb_S4096x4096_S512x512_2560_3072 : ∀ a, (![2560, 3072] : Fin 2 → Nat) a + S512x512.size a ≤ S4096x4096.size a
  inb_S4096x4096_S512x4096_3584_0 : ∀ a, (![3584, 0] : Fin 2 → Nat) a + S512x4096.size a ≤ S4096x4096.size a
  packedbf16_S4096x4096_S512x4096_3584_0 : (Rect.unit (s := S4096x4096) ![3584, 0] S512x4096.size inb_S4096x4096_S512x4096_3584_0).PackedRows (EltTy.packing .bf16)
  inb_S4096x128_S512x128_3584_0 : ∀ a, (![3584, 0] : Fin 2 → Nat) a + S512x128.size a ≤ S4096x128.size a
  packedbf16_S4096x128_S512x128_3584_0 : (Rect.unit (s := S4096x128) ![3584, 0] S512x128.size inb_S4096x128_S512x128_3584_0).PackedRows (EltTy.packing .bf16)
  inb_S4096x4096_S512x512_0_3584 : ∀ a, (![0, 3584] : Fin 2 → Nat) a + S512x512.size a ≤ S4096x4096.size a
  inb_S4096x4096_S512x512_512_3584 : ∀ a, (![512, 3584] : Fin 2 → Nat) a + S512x512.size a ≤ S4096x4096.size a
  inb_S4096x4096_S512x512_1024_3584 : ∀ a, (![1024, 3584] : Fin 2 → Nat) a + S512x512.size a ≤ S4096x4096.size a
  inb_S4096x4096_S512x512_1536_3584 : ∀ a, (![1536, 3584] : Fin 2 → Nat) a + S512x512.size a ≤ S4096x4096.size a
  inb_S4096x4096_S512x512_2048_3584 : ∀ a, (![2048, 3584] : Fin 2 → Nat) a + S512x512.size a ≤ S4096x4096.size a
  inb_S4096x4096_S512x512_2560_3584 : ∀ a, (![2560, 3584] : Fin 2 → Nat) a + S512x512.size a ≤ S4096x4096.size a
  inb_S4096x4096_S512x512_3072_3584 : ∀ a, (![3072, 3584] : Fin 2 → Nat) a + S512x512.size a ≤ S4096x4096.size a
  inb_S128x256_S128x128_0_0 : ∀ a, (![0, 0] : Fin 2 → Nat) a + S128x128.size a ≤ S128x256.size a
  inb_S128x256_S128x128_0_128 : ∀ a, (![0, 128] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  dot_S4096x128_S128x128_S4096x128_1_0_0_1_n_n_wf : DotDims.WF S4096x128 S128x128 S4096x128 [1] [0] [0] [1] [] []
  dot_S512x4096_S4096x128_S512x128_1_0_0_1_n_n_wf : DotDims.WF S512x4096 S4096x128 S512x128 [1] [0] [0] [1] [] []
  dot_S512x512_S512x128_S512x128_1_0_0_1_n_n_wf : DotDims.WF S512x512 S512x128 S512x128 [1] [0] [0] [1] [] []
  dot_S512x1024_S1024x128_S512x128_1_0_0_1_n_n_wf : DotDims.WF S512x1024 S1024x128 S512x128 [1] [0] [0] [1] [] []
  dot_S512x1536_S1536x128_S512x128_1_0_0_1_n_n_wf : DotDims.WF S512x1536 S1536x128 S512x128 [1] [0] [0] [1] [] []
  dot_S512x2048_S2048x128_S512x128_1_0_0_1_n_n_wf : DotDims.WF S512x2048 S2048x128 S512x128 [1] [0] [0] [1] [] []
  dot_S512x2560_S2560x128_S512x128_1_0_0_1_n_n_wf : DotDims.WF S512x2560 S2560x128 S512x128 [1] [0] [0] [1] [] []
  dot_S512x3072_S3072x128_S512x128_1_0_0_1_n_n_wf : DotDims.WF S512x3072 S3072x128 S512x128 [1] [0] [0] [1] [] []
  dot_S512x3584_S3584x128_S512x128_1_0_0_1_n_n_wf : DotDims.WF S512x3584 S3584x128 S512x128 [1] [0] [0] [1] [] []
  dot_S512x128_S128x128_S512x128_1_1_0_0_n_n_wf : DotDims.WF S512x128 S128x128 S512x128 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S4096x4096.size a
  hwx0_2 : ∀ i : grid0.Coords, EltTy.bits .f32 = 32 ∨ (Rect.block (s := S4096x4096) S512x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S4096x128.size a
  hwx0_6 : ∀ i : grid0.Coords, EltTy.bits .f32 = 32 ∨ (Rect.block (s := S4096x128) S512x128.size (cc0_transform_6 i) (hinb0_6 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S512x1536_S1536x128_S512x128_1_0_0_1_n_n : DotDims S512x1536 S1536x128 S512x128 where
  lhsContracting := [1]
  rhsContracting := [0]
  lhsNonContracting := [0]
  rhsNonContracting := [1]
  lhsBatch := []
  rhsBatch := []
  wf := dot_S512x1536_S1536x128_S512x128_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x2560_S2560x128_S512x128_1_0_0_1_n_n : DotDims S512x2560 S2560x128 S512x128 where
  lhsContracting := [1]
  rhsContracting := [0]
  lhsNonContracting := [0]
  rhsNonContracting := [1]
  lhsBatch := []
  rhsBatch := []
  wf := dot_S512x2560_S2560x128_S512x128_1_0_0_1_n_n_wf
def dot_S512x3072_S3072x128_S512x128_1_0_0_1_n_n : DotDims S512x3072 S3072x128 S512x128 where
  lhsContracting := [1]
  rhsContracting := [0]
  lhsNonContracting := [0]
  rhsNonContracting := [1]
  lhsBatch := []
  rhsBatch := []
  wf := dot_S512x3072_S3072x128_S512x128_1_0_0_1_n_n_wf
def dot_S512x3584_S3584x128_S512x128_1_0_0_1_n_n : DotDims S512x3584 S3584x128 S512x128 where
  lhsContracting := [1]
  rhsContracting := [0]
  lhsNonContracting := [0]
  rhsNonContracting := [1]
  lhsBatch := []
  rhsBatch := []
  wf := dot_S512x3584_S3584x128_S512x128_1_0_0_1_n_n_wf
def dot_S512x128_S128x128_S512x128_1_1_0_0_n_n : DotDims S512x128 S128x128 S512x128 where
  lhsContracting := [1]
  rhsContracting := [1]
  lhsNonContracting := [0]
  rhsNonContracting := [0]
  lhsBatch := []
  rhsBatch := []
  wf := dot_S512x128_S128x128_S512x128_1_1_0_0_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S512x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S512x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond10 i == 1#1) && !(k0_cond11 i == 1#1) && !(k0_cond12 i == 1#1) && !(k0_cond13 i == 1#1) && !(k0_cond14 i == 1#1) && !(k0_cond15 i == 1#1) && !(k0_cond16 i == 1#1) && !(k0_cond17 i == 1#1) | ⟨_ + 7, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S128x256 : Shape := ⟨2, ![128, 256]⟩
abbrev S_ : Shape := ⟨0, ![]⟩
abbrev S4096x256 : Shape := ⟨2, ![4096, 256]⟩
abbrev S256x128 : Shape := ⟨2, ![256, 128]⟩
abbrev S1x128 : Shape := ⟨2, ![1, 128]⟩

abbrev nBuf : Space → Nat
  | .hbm => 32
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128, .f32⟩
  | .hbm, ⟨4, _⟩ => ⟨S128x256, .f32⟩
  | .hbm, ⟨5, _⟩ => ⟨S128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .f32⟩
  | .hbm, ⟨13, _⟩ => ⟨S4096x128, .f32⟩
  | .hbm, ⟨14, _⟩ => ⟨S4096x128, .f32⟩
  | .hbm, ⟨15, _⟩ => ⟨S4096x256, .f32⟩
  | .hbm, ⟨16, _⟩ => ⟨S256x128, .f32⟩
  | .hbm, ⟨17, _⟩ => ⟨S4096x128, .f32⟩
  | .hbm, ⟨18, _⟩ => ⟨S1x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S_, .f32⟩
  | .hbm, ⟨23, _⟩ => ⟨S4096x128, .f32⟩
  | .hbm, ⟨24, _⟩ => ⟨S4096x128, .i1⟩
  | .hbm, ⟨25, _⟩ => ⟨S_, .f32⟩
  | .hbm, ⟨26, _⟩ => ⟨S4096x128, .f32⟩
  | .hbm, ⟨27, _⟩ => ⟨S4096x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call1_cst : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩

abbrev nD : Nat := 1
abbrev τ : Topo := Topo.v7x

variable {F : FTy → Type} [FloatOps F]

class Facts₀ : Prop where
  bcast_S_S4096x128 : S_.BroadcastsInDim S4096x128 (![] : Fin 0 → Fin S4096x128.rank)
  concatenates_S4096x128_S4096x128_S4096x256_d1 : Shape.Concatenates [S4096x128, S4096x128] S4096x256 1
  transposes_S128x256_S256x128_1_0 : S128x256.Transposes [1, 0] S256x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  dot_S4096x128_S128x128_S4096x128_1_0_0_1_n_n_wf : DotDims.WF S4096x128 S128x128 S4096x128 [1] [0] [0] [1] [] []
  dot_S4096x4096_S4096x128_S4096x128_1_0_0_1_n_n_wf : DotDims.WF S4096x4096 S4096x128 S4096x128 [1] [0] [0] [1] [] []
  dot_S4096x256_S256x128_S4096x128_1_0_0_1_n_n_wf : DotDims.WF S4096x256 S256x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

class Facts : Prop extends Facts₀ where

variable [Facts]
-- ==== Proof.RefRun.lean ====
import proofs.«166091_g16140487098644_cont_week2b_486_32_alg».proof.Proof.Gen.ReferenceIdeal
import Idealize.ShloMosaic.Lib.StableHlo.Run

/-!
The reference program as a straight line of host operations, and what its run leaves.

The reference computes, from its six arguments (feature, adj, weight, bias, cat_w, cat_b):
support = max(feature · weight, 0), low = adj · support + support,
mid = adj · (adj · support) - support, the two halves joined along the columns and
multiplied by the transpose of cat_w, cat_b added along the rows, the leaky rectifier with
slope 0.2 (x where x ≥ 0, else 0.2 · x), and bias added along the rows.
Its three outlined helpers (the rectifier, the leaky rectifier and the selection inside it) are
listed at their call sites over the buffers of each call, so that the whole program is one list
of operations; the run then ends with the result buffer at the operations' composed term of the
argument arrays, and the arguments unchanged.
-/

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The reference's 26 operations in order, the helpers' bodies in place of their calls. -/
abbrev ops : List (HloOp τ sig (Elt F)) :=
  [ binary main_arg0 main_arg2 main_v0 (fun l r => Host.dotGeneral dot_S4096x128_S128x128_S4096x128_1_0_0_1_n_n none l r : (⟨S4096x128, .f32⟩ : BufTy).Contents (Elt F) → (⟨S128x128, .f32⟩ : BufTy).Contents (Elt F) → (⟨S4096x128, .f32⟩ : BufTy).Contents (Elt F)),
    TRef.nullary main_call0.cst (constant S_ .f32 0x00000000#32),
    TRef.unary main_call0.cst main_call0.v0 (broadcastInDim S4096x128 ![] bcast_S_S4096x128),
    TRef.binary (.of main_v0) main_call0.v0 main_call0.v1 maximumf,
    binary main_arg1 main_v1 main_v2 (fun l r => Host.dotGeneral dot_S4096x4096_S4096x128_S4096x128_1_0_0_1_n_n none l r : (⟨S4096x4096, .f32⟩ : BufTy).Contents (Elt F) → (⟨S4096x128, .f32⟩ : BufTy).Contents (Elt F) → (⟨S4096x128, .f32⟩ : BufTy).Contents (Elt F)),
    binary main_v2 main_v1 main_v3 (addf : (⟨S4096x128, .f32⟩ : BufTy).Contents (Elt F) → (⟨S4096x128, .f32⟩ : BufTy).Contents (Elt F) → (⟨S4096x128, .f32⟩ : BufTy).Contents (Elt F)),
    binary main_arg1 main_v1 main_v4 (fun l r => Host.dotGeneral dot_S4096x4096_S4096x128_S4096x128_1_0_0_1_n_n none l r : (⟨S4096x4096, .f32⟩ : BufTy).Contents (Elt F) → (⟨S4096x128, .f32⟩ : BufTy).Contents (Elt F) → (⟨S4096x128, .f32⟩ : BufTy).Contents (Elt F)),
    binary main_arg1 main_v4 main_v5 (fun l r => Host.dotGeneral dot_S4096x4096_S4096x128_S4096x128_1_0_0_1_n_n none l r : (⟨S4096x4096, .f32⟩ : BufTy).Contents (Elt F) → (⟨S4096x128, .f32⟩ : BufTy).Contents (Elt F) → (⟨S4096x128, .f32⟩ : BufTy).Contents (Elt F)),
    binary main_v5 main_v1 main_v6 (subf : (⟨S4096x128, .f32⟩ : BufTy).Contents (Elt F) → (⟨S4096x128, .f32⟩ : BufTy).Contents (Elt F) → (⟨S4096x128, .f32⟩ : BufTy).Contents (Elt F)),
    binary main_v3 main_v6 main_v7 (fun a b => concatenate S4096x256 1 [⟨S4096x128, a⟩, ⟨S4096x128, b⟩] concatenates_S4096x128_S4096x128_S4096x256_d1 : (⟨S4096x128, .f32⟩ : BufTy).Contents (Elt F) → (⟨S4096x128, .f32⟩ : BufTy).Contents (Elt F) → (⟨S4096x256, .f32⟩ : BufTy).Contents (Elt F)),
    unary main_arg4 main_v8 (transpose S256x128 [1, 0] · transposes_S128x256_S256x128_1_0 : (⟨S128x256, .f32⟩ : BufTy).Contents (Elt F) → (⟨S256x128, .f32⟩ : BufTy).Contents (Elt F)),
    binary main_v7 main_v8 main_v9 (fun l r => Host.dotGeneral dot_S4096x256_S256x128_S4096x128_1_0_0_1_n_n none l r : (⟨S4096x256, .f32⟩ : BufTy).Contents (Elt F) → (⟨S256x128, .f32⟩ : BufTy).Contents (Elt F) → (⟨S4096x128, .f32⟩ : BufTy).Contents (Elt F)),
    unary main_arg5 main_v10 (broadcastInDim S1x128 ![1] bcast_S128_S1x128_1 : (⟨S128, .f32⟩ : BufTy).Contents (Elt F) → (⟨S1x128, .f32⟩ : BufTy).Contents (Elt F)),
    unary main_v10 main_v11 (broadcastInDim S4096x128 ![0, 1] bcast_S1x128_S4096x128_0_1 : (⟨S1x128, .f32⟩ : BufTy).Contents (Elt F) → (⟨S4096x128, .f32⟩ : BufTy).Contents (Elt F)),
    binary main_v9 main_v11 main_v12 (addf : (⟨S4096x128, .f32⟩ : BufTy).Contents (Elt F) → (⟨S4096x128, .f32⟩ : BufTy).Contents (Elt F) → (⟨S4096x128, .f32⟩ : BufTy).Contents (Elt F)),
    nullary main_cst (constant S_ .f32 0x3E4CCCCD#32),
    TRef.nullary main_call1.cst (constant S_ .f32 0x00000000#32),
    TRef.unary main_call1.cst main_call1.v0 (broadcastInDim S4096x128 ![] bcast_S_S4096x128),
    TRef.binary (.of main_v12) main_call1.v0 main_call1.v1 (cmpf .oge),
    TRef.unary (.of main_cst) main_call1.v2 id,
    TRef.unary main_call1.v2 main_call1.v3 (broadcastInDim S4096x128 ![] bcast_S_S4096x128),
    TRef.binary main_call1.v3 (.of main_v12) main_call1.v4 mulf,
    TRef.ternary main_call1.v1 (.of main_v12) main_call1.v4 main_call1.call0.v0 select,
    unary main_arg3 main_v14 (broadcastInDim S1x128 ![1] bcast_S128_S1x128_1 : (⟨S128, .f32⟩ : BufTy).Contents (Elt F) → (⟨S1x128, .f32⟩ : BufTy).Contents (Elt F)),
    unary main_v14 main_v15 (broadcastInDim S4096x128 ![0, 1] bcast_S1x128_S4096x128_0_1 : (⟨S1x128, .f32⟩ : BufTy).Contents (Elt F) → (⟨S4096x128, .f32⟩ : BufTy).Contents (Elt F)),
    binary main_v13 main_v15 main_v16 (addf : (⟨S4096x128, .f32⟩ : BufTy).Contents (Elt F) → (⟨S4096x128, .f32⟩ : BufTy).Contents (Elt F) → (⟨S4096x128, .f32⟩ : BufTy).Contents (Elt F)) ]

set_option maxRecDepth 1024 in
/-- The program is that straight line: the helpers' definitions opened at their calls, sequencing reassociated. -/
theorem main_eq (c : Dev nD) : main (F := F) c = seq ops := by
  simp only [main, fn_relu.body, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., nullary_bufs_sub .., unary_bufs_sub .., binary_bufs_sub .., binary_bufs_sub .., binary_bufs_sub ..,
    binary_bufs_sub .., binary_bufs_sub .., binary_bufs_sub .., binary_bufs_sub .., unary_bufs_sub .., binary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., unary_bufs_sub ..,
    unary_bufs_sub .., binary_bufs_sub ..⟩

/-- The rectified product max(feature · weight, 0). -/
def support (feature : (⟨S4096x128, .f32⟩ : BufTy).Contents (Elt F)) (weight : (⟨S128x128, .f32⟩ : BufTy).Contents (Elt F)) : (⟨S4096x128, .f32⟩ : BufTy).Contents (Elt F) :=
  maximumf (Host.dotGeneral dot_S4096x128_S128x128_S4096x128_1_0_0_1_n_n none feature weight) (broadcastInDim S4096x128 ![] bcast_S_S4096x128 (constant S_ .f32 0x00000000#32))

/-- The value before the leaky rectifier: the joined halves times the transposed cat_w, plus cat_b along the rows. -/
def linear (adj : (⟨S4096x4096, .f32⟩ : BufTy).Contents (Elt F)) (sup : (⟨S4096x128, .f32⟩ : BufTy).Contents (Elt F)) (cat_w : (⟨S128x256, .f32⟩ : BufTy).Contents (Elt F)) (cat_b : (⟨S128, .f32⟩ : BufTy).Contents (Elt F)) : (⟨S4096x128, .f32⟩ : BufTy).Contents (Elt F) :=
  addf (Host.dotGeneral dot_S4096x256_S256x128_S4096x128_1_0_0_1_n_n none
      (concatenate S4096x256 1 [⟨S4096x128, addf (Host.dotGeneral dot_S4096x4096_S4096x128_S4096x128_1_0_0_1_n_n none adj sup) sup⟩,
        ⟨S4096x128, subf (Host.dotGeneral dot_S4096x4096_S4096x128_S4096x128_1_0_0_1_n_n none adj (Host.dotGeneral dot_S4096x4096_S4096x128_S4096x128_1_0_0_1_n_n none adj sup)) sup⟩] concatenates_S4096x128_S4096x128_S4096x256_d1)
      (transpose S256x128 [1, 0] cat_w transposes_S128x256_S256x128_1_0))
    (broadcastInDim S4096x128 ![0, 1] bcast_S1x128_S4096x128_0_1 (broadcastInDim S1x128 ![1] bcast_S128_S1x128_1 cat_b))

/-- The reference's result as one term of its six arguments. -/
def result (feature : (⟨S4096x128, .f32⟩ : BufTy).Contents (Elt F)) (adj : (⟨S4096x4096, .f32⟩ : BufTy).Contents (Elt F)) (weight : (⟨S128x128, .f32⟩ : BufTy).Contents (Elt F)) (bias : (⟨S128, .f32⟩ : BufTy).Contents (Elt F)) (cat_w : (⟨S128x256, .f32⟩ : BufTy).Contents (Elt F)) (cat_b : (⟨S128, .f32⟩ : BufTy).Contents (Elt F)) : (⟨S4096x128, .f32⟩ : BufTy).Contents (Elt F) :=
  addf (select (cmpf .oge (linear adj (support feature weight) cat_w cat_b) (broadcastInDim S4096x128 ![] bcast_S_S4096x128 (constant S_ .f32 0x00000000#32)))
      (linear adj (support feature weight) cat_w cat_b)
      (mulf (broadcastInDim S4096x128 ![] bcast_S_S4096x128 (id (constant S_ .f32 0x3E4CCCCD#32))) (linear adj (support feature weight) cat_w cat_b)))
    (broadcastInDim S4096x128 ![0, 1] bcast_S1x128_S4096x128_0_1 (broadcastInDim S1x128 ![1] bcast_S128_S1x128_1 bias))

attribute [local irreducible] concatenate transpose in
set_option maxRecDepth 8192 in
set_option maxHeartbeats 1000000 in
/-- The operations' fold read at the result buffer is `result` of the argument buffers: each operation's result read
    where the next one takes it, the matrix products, the joining and the transposition kept folded meanwhile. -/
theorem out_eq (V : Valuation τ sig (Elt F)) :
    after ops V (Proc.devRef .tc main_v16) = result (V (Proc.devRef .tc main_arg0)) (V (Proc.devRef .tc main_arg1)) (V (Proc.devRef .tc main_arg2)) (V (Proc.devRef .tc main_arg3)) (V (Proc.devRef .tc main_arg4)) (V (Proc.devRef .tc main_arg5)) := by
  unfold result linear support
  after_results_simp
  rfl

/-- Every weakly fair execution of the reference terminates with its result buffer at `result` of the
    arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v16).trans (out_eq (launchContents m c)),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.LibDot2.lean ====
import Idealize.ShloMosaic.PureOps.Ideal.Laws
import Idealize.ShloMosaic.Lib.ValueIdx

/-!
Rank-2 matrix products at the ideal values, read at one entry.

For an M×K matrix `l` and a K×N matrix `r` (the plain dimension numbers: the left operand contracted on its
columns, the right on its rows) the host's dot product and the matrix unit's product into a zero accumulator
both have, at entry (i, j), the sum over q of l(i, q) · r(q, j). For a right operand given as N×K and contracted
on its columns (the product with a transpose) the entry is the sum over q of l(i, q) · r(j, q). All generic in
the three extents and in the operands' formats; no rounding and no order of summation is left at the ideal
values, so these are equalities of extended reals.
-/

noncomputable section

namespace Idealize.ShloMosaic.LibDot2

open Idealize.ShloMosaic Idealize.ShloMosaic.ValueIdx

variable {φ₁ φ₂ : FTy}

/-- The contraction index of the plain product is its one coordinate. -/
abbrev plainContr (M K N : Nat) : (DotDims.plain M K N).contr.Idx ≃ Fin K :=
  contrEquiv1 (DotDims.plain M K N) K rfl rfl

/-- The contraction index of the product with a transposed right operand is its one coordinate. -/
abbrev trContr (M K N : Nat) : (DotDims.transposedRhs M K N).contr.Idx ≃ Fin K :=
  contrEquiv1 (DotDims.transposedRhs M K N) K rfl rfl

/-- The left operand's index of the plain product at entry (i, j) and contraction coordinate q is (i, q). -/
theorem plain_lhsIdx (M K N : Nat) (i : Fin M) (j : Fin N) (q : Fin K) :
    (DotDims.plain M K N).lhsIdx (ix2 i j) ((plainContr M K N).symm q) = ix2 i q := by
  funext a
  refine Fin.ext ?_
  match a with
  | ⟨0, _⟩ => rfl
  | ⟨1, _⟩ => exact ((DotDims.plain M K N).lhsIdx_val_of_single rfl _ _).trans (contrEquiv1_symm_val _ K rfl rfl q)

/-- The right operand's index of the plain product at entry (i, j) and contraction coordinate q is (q, j). -/
theorem plain_rhsIdx (M K N : Nat) (i : Fin M) (j : Fin N) (q : Fin K) :
    (DotDims.plain M K N).rhsIdx (ix2 i j) ((plainContr M K N).symm q) = ix2 q j := by
  funext a
  refine Fin.ext ?_
  match a with
  | ⟨0, _⟩ => exact ((DotDims.plain M K N).rhsIdx_val_of_single rfl _ _).trans (contrEquiv1_symm_val _ K rfl rfl q)
  | ⟨1, _⟩ => rfl

/-- The left operand's index of the product with a transposed right operand is (i, q). -/
theorem tr_lhsIdx (M K N : Nat) (i : Fin M) (j : Fin N) (q : Fin K) :
    (DotDims.transposedRhs M K N).lhsIdx (ix2 i j) ((trContr M K N).symm q) = ix2 i q := by
  funext a
  refine Fin.ext ?_
  match a with
  | ⟨0, _⟩ => rfl
  | ⟨1, _⟩ => exact ((DotDims.transposedRhs M K N).lhsIdx_val_of_single rfl _ _).trans (contrEquiv1_symm_val _ K rfl rfl q)

/-- The right operand's index of the product with a transposed right operand is (j, q). -/
theorem tr_rhsIdx (M K N : Nat) (i : Fin M) (j : Fin N) (q : Fin K) :
    (DotDims.transposedRhs M K N).rhsIdx (ix2 i j) ((trContr M K N).symm q) = ix2 j q := by
  funext a
  refine Fin.ext ?_
  match a with
  | ⟨0, _⟩ => rfl
  | ⟨1, _⟩ => exact ((DotDims.transposedRhs M K N).rhsIdx_val_of_single rfl _ _).trans (contrEquiv1_symm_val _ K rfl rfl q)

/-- The host's plain product at entry (i, j): the sum over q of l(i, q) · r(q, j). -/
theorem dotGeneral_plain_apply (M K N : Nat) (prec : Option ContractPrecision) (sched : HostSchedule)
    (l : FVec Ideal ⟨2, ![M, K]⟩ φ₁) (r : FVec Ideal ⟨2, ![K, N]⟩ φ₂) (i : Fin M) (j : Fin N) :
    FloatOps.dotGeneral (DotDims.plain M K N) prec sched l r (ix2 i j) = ∑ q : Fin K, l (ix2 i q) * r (ix2 q j) := by
  rw [Ideal.dotGeneral_apply, ← Equiv.sum_comp (plainContr M K N).symm]
  exact Finset.sum_congr rfl fun q _ => by rw [plain_lhsIdx, plain_rhsIdx]

/-- The matrix unit's plain product into a zero accumulator at entry (i, j): the same sum. -/
theorem matmul_plain_zero_apply (M K N : Nat) (prec : Option ContractPrecision)
    (l : FVec Ideal ⟨2, ![M, K]⟩ φ₁) (r : FVec Ideal ⟨2, ![K, N]⟩ φ₂) (i : Fin M) (j : Fin N) :
    FloatOps.matmul (DotDims.plain M K N) prec l r (constant (⟨2, ![M, N]⟩ : Shape) .f32 0x00000000#32) (ix2 i j)
      = ∑ q : Fin K, l (ix2 i q) * r (ix2 q j) := by
  rw [Ideal.matmul_constant_zero_apply, ← Equiv.sum_comp (plainContr M K N).symm]
  exact Finset.sum_congr rfl fun q _ => by rw [plain_lhsIdx, plain_rhsIdx]

/-- The matrix unit's product with a transposed right operand into a zero accumulator at entry (i, j):
    the sum over q of l(i, q) · r(j, q). -/
theorem matmul_tr_zero_apply (M K N : Nat) (prec : Option ContractPrecision)
    (l : FVec Ideal ⟨2, ![M, K]⟩ φ₁) (r : FVec Ideal ⟨2, ![N, K]⟩ φ₂) (i : Fin M) (j : Fin N) :
    FloatOps.matmul (DotDims.transposedRhs M K N) prec l r (constant (⟨2, ![M, N]⟩ : Shape) .f32 0x00000000#32) (ix2 i j)
      = ∑ q : Fin K, l (ix2 i q) * r (ix2 j q) := by
  rw [Ideal.matmul_constant_zero_apply, ← Equiv.sum_comp (trContr M K N).symm]
  exact Finset.sum_congr rfl fun q _ => by rw [tr_lhsIdx, tr_rhsIdx]

end Idealize.ShloMosaic.LibDot2

end
-- ==== Proof.Spec.lean ====
import Idealize.ShloMosaic.PureOps.Ideal
import Idealize.ShloMosaic.PureOps.Ideal.Laws
import Idealize.ShloMosaic.Lib.ValueIdx

/-!
The result of the graph convolution, entry by entry, over the extended reals.

From `feature` (4096×128), `adj` (4096×4096), `weight` (128×128), `bias` (128), `cat_w` (128×256), `cat_b` (128):

  sup(r, c)  = max(Σ_q feature(r, q) · weight(q, c), 0)
  hop S (r, c) = Σ_q adj(r, q) · S(q, c)                      one multiplication by adj
  low = hop sup + sup,   mid = hop (hop sup) − sup
  lin(r, e)  = Σ_{q<128} low(r, q) · cat_w(e, q) + Σ_{q<128} mid(r, q) · cat_w(e, 128 + q) + cat_b(e)
  out(r, e)  = (lin(r, e) if lin(r, e) ≥ 0, else 0.2 · lin(r, e)) + bias(e)

The linear layer is written over the two halves of cat_w's columns separately, which is how a product with the
joined matrix [low, mid] splits: a sum over 256 columns is the sum over the first 128 plus the sum over the last 128.
-/

noncomputable section

namespace Cert.GraphConv

open Idealize.ShloMosaic Idealize.ShloMosaic.ValueIdx

/-- An a×b array of extended reals. -/
abbrev Mat (a b : Nat) : Type := (⟨2, ![a, b]⟩ : Shape).Idx → EReal
/-- A length-a array of extended reals. -/
abbrev Row (a : Nat) : Type := (⟨1, ![a]⟩ : Shape).Idx → EReal

/-- The rectified product of feature and weight. -/
def sup (feature : Mat 4096 128) (weight : Mat 128 128) (r : Fin 4096) (c : Fin 128) : EReal :=
  max (∑ q : Fin 128, feature (ix2 r q) * weight (ix2 q c)) 0

/-- One multiplication by adj. -/
def hop (adj : Mat 4096 4096) (S : Fin 4096 → Fin 128 → EReal) (r : Fin 4096) (c : Fin 128) : EReal :=
  ∑ q : Fin 4096, adj (ix2 r q) * S q c

/-- The low-pass half: one hop plus the signal. -/
def low (adj : Mat 4096 4096) (S : Fin 4096 → Fin 128 → EReal) (r : Fin 4096) (c : Fin 128) : EReal :=
  hop adj S r c + S r c

/-- The mid-pass half: two hops less the signal. -/
def mid (adj : Mat 4096 4096) (S : Fin 4096 → Fin 128 → EReal) (r : Fin 4096) (c : Fin 128) : EReal :=
  hop adj (hop adj S) r c - S r c

/-- Column q of the first half of cat_w's 256 columns. -/
abbrev colL (q : Fin 128) : Fin 256 := ⟨q.val, by omega⟩
/-- Column q of the second half. -/
abbrev colR (q : Fin 128) : Fin 256 := ⟨128 + q.val, by omega⟩

/-- The linear layer over the two halves, with its bias. -/
def lin (adj : Mat 4096 4096) (S : Fin 4096 → Fin 128 → EReal) (cat_w : Mat 128 256) (cat_b : Row 128)
    (r : Fin 4096) (e : Fin 128) : EReal :=
  ((∑ q : Fin 128, low adj S r q * cat_w (ix2 e (colL q))) + ∑ q : Fin 128, mid adj S r q * cat_w (ix2 e (colR q)))
    + cat_b (ix1 e)

/-- The leaky rectifier with the slope the programs spell as the f32 word 0x3E4CCCCD. -/
def leaky (x : EReal) : EReal :=
  Scalar.select (Ideal.cmp .oge x 0) x (Ideal.ofBits .f32 0x3E4CCCCD#32 * x)

/-- The result at entry (r, e). -/
def out (feature : Mat 4096 128) (adj : Mat 4096 4096) (weight : Mat 128 128) (bias : Row 128) (cat_w : Mat 128 256)
    (cat_b : Row 128) (r : Fin 4096) (e : Fin 128) : EReal :=
  leaky (lin adj (sup feature weight) cat_w cat_b r e) + bias (ix1 e)

/-- A sum over 256 columns is the sum over the first 128 plus the sum over the last 128. -/
theorem sum_halves (f : Fin 256 → EReal) :
    ∑ q : Fin 256, f q = (∑ q : Fin 128, f (colL q)) + ∑ q : Fin 128, f (colR q) :=
  Fin.sum_univ_add (a := 128) (b := 128) f

end Cert.GraphConv

end
-- ==== Proof.RefValue.lean ====
import proofs.«166091_g16140487098644_cont_week2b_486_32_alg».proof.Proof.RefRun
import proofs.«166091_g16140487098644_cont_week2b_486_32_alg».proof.Proof.LibDot2
import proofs.«166091_g16140487098644_cont_week2b_486_32_alg».proof.Proof.Spec
import Idealize.ShloMosaic.Lib.Pipeline.Value
import Idealize.ShloMosaic.Lib.ValueLayout
import Idealize.ShloMosaic.Lib.KernelVsHost
import Idealize.ShloMosaic.Lib.IdealHost

/-!
The reference's result, at the ideal values, is the specification entry by entry.

Each host operation is read at an entry: the three matrix products as plain sums, the rectifier as a maximum with
zero, the joined matrix on its first 128 columns as the low-pass half and on its last 128 as the mid-pass half,
the transposed cat_w at (q, e) as cat_w at (e, q), the two row vectors broadcast down the rows, the leaky rectifier
as the selection between x and 0.2 · x on the comparison x ≥ 0. The one law used is that a sum over the 256 joined
columns is the sum over each half; it needs no finiteness.
-/

noncomputable section

namespace Cert.ReferenceIdeal.RefValue

open Cert.ReferenceIdeal Cert.ReferenceIdeal.Gen Idealize.ShloMosaic Idealize.ShloMosaic.ValueIdx Idealize.ShloMosaic.LibDot2
open Cert.GraphConv

/-- The zero the rectifiers compare with, broadcast to the whole array, reads 0 everywhere. -/
theorem zero_bcast_apply (j : S4096x128.Idx) :
    broadcastInDim S4096x128 ![] bcast_S_S4096x128 (constant (F := Ideal) S_ .f32 0x00000000#32) j = 0 :=
  (broadcastInDim_scalar_apply bcast_S_S4096x128 _ j).trans Ideal.ofBits_zero_f32

/-- The rectified product at an entry. -/
theorem support_apply (feature : FVec Ideal S4096x128 .f32) (weight : FVec Ideal S128x128 .f32) (r : Fin 4096) (c : Fin 128) :
    support (F := Ideal) feature weight (ix2 r c) = sup feature weight r c := by
  unfold support sup
  show max (FloatOps.dotGeneral (DotDims.plain 4096 128 128) none .single feature weight (ix2 r c))
      (broadcastInDim S4096x128 ![] bcast_S_S4096x128 (constant (F := Ideal) S_ .f32 0x00000000#32) (ix2 r c)) = _
  rw [dotGeneral_plain_apply, zero_bcast_apply]

/-- One multiplication by adj at an entry. -/
theorem hop_apply (adj : FVec Ideal S4096x4096 .f32) (S : FVec Ideal S4096x128 .f32) (r : Fin 4096) (c : Fin 128) :
    Host.dotGeneral (F := Ideal) dot_S4096x4096_S4096x128_S4096x128_1_0_0_1_n_n none adj S (ix2 r c) = hop adj (fun a b => S (ix2 a b)) r c :=
  dotGeneral_plain_apply 4096 4096 128 none .single adj S r c

/-- A row vector of length 128 laid as one row and broadcast down the rows reads its entry of the column. -/
theorem row_bcast_apply (b : FVec Ideal S128 .f32) (r : Fin 4096) (e : Fin 128) :
    broadcastInDim S4096x128 ![0, 1] bcast_S1x128_S4096x128_0_1 (broadcastInDim S1x128 ![1] bcast_S128_S1x128_1 b) (ix2 r e) = b (ix1 e) := by
  refine (broadcastInDim_oneRow_apply bcast_S1x128_S4096x128_0_1 _ r e).trans ?_
  refine broadcastInDim_apply ![1] bcast_S128_S1x128_1 b (ix2 (0 : Fin 1) e) (ix1 e) ?_
  intro a
  match a with
  | ⟨0, _⟩ => rfl

/-- The joined matrix on a column of its first half is the first piece there. -/
theorem cat_left (x y : FVec Ideal S4096x128 .f32) (r : Fin 4096) (q : Fin 128) :
    concatenate S4096x256 1 [⟨S4096x128, x⟩, ⟨S4096x128, y⟩] concatenates_S4096x128_S4096x128_S4096x256_d1 (ix2 r (colL q)) = x (ix2 r q) := by
  refine concatenate_pair_apply_left 1 x y concatenates_S4096x128_S4096x128_S4096x256_d1 (ix2 r (colL q)) rfl (ix2 r q) ?_
  intro b
  match b with
  | ⟨0, _⟩ => rfl
  | ⟨1, _⟩ => rfl

/-- The joined matrix on a column of its second half is the second piece, 128 columns to the left. -/
theorem cat_right (x y : FVec Ideal S4096x128 .f32) (r : Fin 4096) (q : Fin 128) :
    concatenate S4096x256 1 [⟨S4096x128, x⟩, ⟨S4096x128, y⟩] concatenates_S4096x128_S4096x128_S4096x256_d1 (ix2 r (colR q)) = y (ix2 r q) := by
  refine concatenate_pair_apply_right 1 x y concatenates_S4096x128_S4096x128_S4096x256_d1 (ix2 r (colR q)) rfl rfl (ix2 r q) ?_ ?_
  · intro b hb
    match b with
    | ⟨0, _⟩ => rfl
    | ⟨1, _⟩ => exact absurd rfl hb
  · show q.val + 128 = 128 + q.val
    omega

/-- The value before the leaky rectifier at an entry. -/
theorem linear_apply (adj : FVec Ideal S4096x4096 .f32) (S : FVec Ideal S4096x128 .f32) (cat_w : FVec Ideal S128x256 .f32)
    (cat_b : FVec Ideal S128 .f32) (r : Fin 4096) (e : Fin 128) :
    linear (F := Ideal) adj S cat_w cat_b (ix2 r e) = lin adj (fun a b => S (ix2 a b)) cat_w cat_b r e := by
  unfold linear lin
  show FloatOps.dotGeneral (DotDims.plain 4096 256 128) none .single _ _ (ix2 r e) + _ = _
  rw [dotGeneral_plain_apply, row_bcast_apply, sum_halves]
  refine congrArg (· + cat_b (ix1 e)) ?_
  refine congrArg₂ (· + ·) (Finset.sum_congr rfl fun q _ => ?_) (Finset.sum_congr rfl fun q _ => ?_)
  · rw [cat_left, transpose_ix2_apply]
    refine congrArg (· * cat_w (ix2 e (colL q))) ?_
    show Host.dotGeneral (F := Ideal) dot_S4096x4096_S4096x128_S4096x128_1_0_0_1_n_n none adj S (ix2 r q) + S (ix2 r q) = _
    rw [hop_apply]; rfl
  · rw [cat_right, transpose_ix2_apply]
    refine congrArg (· * cat_w (ix2 e (colR q))) ?_
    show Host.dotGeneral (F := Ideal) dot_S4096x4096_S4096x128_S4096x128_1_0_0_1_n_n none adj (Host.dotGeneral dot_S4096x4096_S4096x128_S4096x128_1_0_0_1_n_n none adj S) (ix2 r q) - S (ix2 r q) = _
    rw [hop_apply]
    refine congrArg (· - S (ix2 r q)) ?_
    unfold hop
    exact Finset.sum_congr rfl fun k _ => congrArg (adj (ix2 r k) * ·) (hop_apply adj S k q)

/-- The reference's result at an entry is the specification there. -/
theorem result_apply (feature : FVec Ideal S4096x128 .f32) (adj : FVec Ideal S4096x4096 .f32) (weight : FVec Ideal S128x128 .f32)
    (bias : FVec Ideal S128 .f32) (cat_w : FVec Ideal S128x256 .f32) (cat_b : FVec Ideal S128 .f32) (r : Fin 4096) (e : Fin 128) :
    result (F := Ideal) feature adj weight bias cat_w cat_b (ix2 r e) = out feature adj weight bias cat_w cat_b r e := by
  unfold result out leaky
  show Scalar.select (Ideal.cmp .oge (linear (F := Ideal) adj (support feature weight) cat_w cat_b (ix2 r e))
        (broadcastInDim S4096x128 ![] bcast_S_S4096x128 (constant (F := Ideal) S_ .f32 0x00000000#32) (ix2 r e)))
      (linear (F := Ideal) adj (support feature weight) cat_w cat_b (ix2 r e))
      (broadcastInDim S4096x128 ![] bcast_S_S4096x128 (id (constant (F := Ideal) S_ .f32 0x3E4CCCCD#32)) (ix2 r e)
        * linear (F := Ideal) adj (support feature weight) cat_w cat_b (ix2 r e))
      + broadcastInDim S4096x128 ![0, 1] bcast_S1x128_S4096x128_0_1 (broadcastInDim S1x128 ![1] bcast_S128_S1x128_1 bias) (ix2 r e) = _
  rw [row_bcast_apply, zero_bcast_apply, linear_apply, broadcastInDim_scalar_apply]
  have hS : (fun a b => support (F := Ideal) feature weight (ix2 a b)) = sup feature weight :=
    funext fun a => funext fun b => support_apply feature weight a b
  rw [hS]
  rfl

/-- The specification as a 4096×128 array. -/
def specArr (feature : FVec Ideal S4096x128 .f32) (adj : FVec Ideal S4096x4096 .f32) (weight : FVec Ideal S128x128 .f32)
    (bias : FVec Ideal S128 .f32) (cat_w : FVec Ideal S128x256 .f32) (cat_b : FVec Ideal S128 .f32) : FVec Ideal S4096x128 .f32 :=
  fun i => out feature adj weight bias cat_w cat_b ⟨(i 0).val, idx2_lt0 i⟩ ⟨(i 1).val, idx2_lt1 i⟩

/-- The reference's result array is the specification array. -/
theorem result_eq (feature : FVec Ideal S4096x128 .f32) (adj : FVec Ideal S4096x4096 .f32) (weight : FVec Ideal S128x128 .f32)
    (bias : FVec Ideal S128 .f32) (cat_w : FVec Ideal S128x256 .f32) (cat_b : FVec Ideal S128 .f32) :
    result (F := Ideal) feature adj weight bias cat_w cat_b = specArr feature adj weight bias cat_w cat_b := by
  funext i
  have hi : i = ix2 (⟨(i 0).val, idx2_lt0 i⟩ : Fin 4096) (⟨(i 1).val, idx2_lt1 i⟩ : Fin 128) :=
    funext fun a => Fin.ext (by match a with | ⟨0, _⟩ => rfl | ⟨1, _⟩ => rfl)
  calc result (F := Ideal) feature adj weight bias cat_w cat_b i
      = result (F := Ideal) feature adj weight bias cat_w cat_b (ix2 (⟨(i 0).val, idx2_lt0 i⟩ : Fin 4096) (⟨(i 1).val, idx2_lt1 i⟩ : Fin 128)) := congrArg _ hi
    _ = _ := result_apply feature adj weight bias cat_w cat_b _ _

end Cert.ReferenceIdeal.RefValue

end
-- ==== Proof.Body.KRun0.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 0, where two branches fire: the support max(feature · weight, 0) is stored whole into its scratch,
and the streaming step of row block 0 stores block 0 of adj and of t1 and sets block 0 of t2.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at grid point 0: on whole staging memrefs, the inputs at their blocks and everything else at anything, it runs to the end
    leaving the inputs and the output's buffer as they were and each scratch written, over whatever it held, with the values the run finds:
    the support whole, row block 0 of t1, of t2 and of the copy of adj. -/
noncomputable def run0 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) :
    Σ' (s8 : Vec F S4096x128 .bf16) (b9 : Vec F S512x128 .bf16) (u10 : Vec F S512x128 .f32), { a11 : Vec F S512x4096 .bf16 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7
                ∗ (∃ f, arg8.view.loc (c : Thread nD τ) ↦[arg8.view.set]{fullShare} arg8.view.writes (Elt F) f [⟨Rect.unit (s := S4096x128) ![0, 0] S4096x128.size inb_S4096x128_S4096x128_0_0, s8⟩])
                ∗ (∃ f, arg9.view.loc (c : Thread nD τ) ↦[arg9.view.set]{fullShare} arg9.view.writes (Elt F) f [⟨Rect.unit (s := S4096x128) ![0, 0] S512x128.size inb_S4096x128_S512x128_0_0, b9⟩])
                ∗ (∃ f, arg10.view.loc (c : Thread nD τ) ↦[arg10.view.set]{fullShare} arg10.view.writes (Elt F) f [⟨Rect.unit (s := S4096x128) ![0, 0] S512x128.size inb_S4096x128_S512x128_0_0, u10⟩])
                ∗ (∃ f, arg11.view.loc (c : Thread nD τ) ↦[arg11.view.set]{fullShare} arg11.view.writes (Elt F) f [⟨Rect.unit (s := S4096x4096) ![0, 0] S512x4096.size inb_S4096x4096_S512x4096_0_0, a11⟩])) -∗ K ⟨⟩))
          ⊢ wp frame (wpE (defs₀ (F := F)) Variants.none c none) E (cc0__fused_kernel (grid0.coords t0_0) arg1 harg1 arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun1.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 1: the streaming step of row block 1.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 1 (the streaming step of row block 1): on whole staging memrefs, the six inputs at their blocks and the
    output's buffer at anything, the support scratch at its whole value, the scratch copies of adj and of t1 at the 1 row blocks
    stored so far and the t2 scratch at the pieces stored so far, each over whatever the scratch held before, the body runs to the
    end leaving the inputs and the output's buffer as they were, row block 1 of adj and of t1 stored, row block 1 of t2 set to
    its partial sum and each earlier row block of t2 rewritten with its new partial sum; the stored values are found by the run. -/
noncomputable def run1 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (a0 : Vec F S512x4096 .bf16) (d0 : Vec F S512x128 .f32) :
    Σ' (bn : Vec F S512x128 .bf16) (an : Vec F S512x4096 .bf16) (dn : Vec F S512x128 .f32), { pn0 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![512, 0] S512x128.size inb_S4096x128_S512x128_512_0, bn⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, pn0⟩, ⟨Rect.unit (s := S4096x128) ![512, 0] S512x128.size inb_S4096x128_S512x128_512_0, dn⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![512, 0] S512x4096.size inb_S4096x4096_S512x4096_512_0, an⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_1) arg1 harg1 arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun2.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 2: the streaming step of row block 2.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 2 (the streaming step of row block 2): on whole staging memrefs, the six inputs at their blocks and the
    output's buffer at anything, the support scratch at its whole value, the scratch copies of adj and of t1 at the 2 row blocks
    stored so far and the t2 scratch at the pieces stored so far, each over whatever the scratch held before, the body runs to the
    end leaving the inputs and the output's buffer as they were, row block 2 of adj and of t1 stored, row block 2 of t2 set to
    its partial sum and each earlier row block of t2 rewritten with its new partial sum; the stored values are found by the run. -/
noncomputable def run2 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (a0 : Vec F S512x4096 .bf16) (a1 : Vec F S512x4096 .bf16) (d0 : Vec F S512x128 .f32) (d1 : Vec F S512x128 .f32) (p1_0 : Vec F S512x128 .f32) :
    Σ' (bn : Vec F S512x128 .bf16) (an : Vec F S512x4096 .bf16) (dn : Vec F S512x128 .f32) (pn0 : Vec F S512x128 .f32), { pn1 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1024, 0] S512x128.size inb_S4096x128_S512x128_1024_0, bn⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![1024, 0] S512x128.size inb_S4096x128_S512x128_1024_0, dn⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1024, 0] S512x4096.size inb_S4096x4096_S512x4096_1024_0, an⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_2) arg1 harg1 arg2 harg2 arg3 harg3 arg4 harg4 arg5 harg5 arg6 harg6 arg7 harg7 arg8 harg8 arg9 harg9 arg10 harg10 arg11 harg11) K } := by
  refine ⟨?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun3.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 3: the streaming step of row block 3.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 3 (the streaming step of row block 3): on whole staging memrefs, the six inputs at their blocks and the
    output's buffer at anything, the support scratch at its whole value, the scratch copies of adj and of t1 at the 3 row blocks
    stored so far and the t2 scratch at the pieces stored so far, each over whatever the scratch held before, the body runs to the
    end leaving the inputs and the output's buffer as they were, row block 3 of adj and of t1 stored, row block 3 of t2 set to
    its partial sum and each earlier row block of t2 rewritten with its new partial sum; the stored values are found by the run. -/
noncomputable def run3 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (a0 : Vec F S512x4096 .bf16) (a1 : Vec F S512x4096 .bf16) (a2 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) :
    Σ' (bn : Vec F S512x128 .bf16) (an : Vec F S512x4096 .bf16) (dn : Vec F S512x128 .f32) (pn0 : Vec F S512x128 .f32) (pn1 : Vec F S512x128 .f32), { pn2 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1536, 0] S512x128.size inb_S4096x128_S512x128_1536_0, bn⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![1536, 0] S512x128.size inb_S4096x128_S512x128_1536_0, dn⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1536, 0] S512x4096.size inb_S4096x4096_S512x4096_1536_0, an⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_3) arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun4.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 4: the streaming step of row block 4.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 4 (the streaming step of row block 4): on whole staging memrefs, the six inputs at their blocks and the
    output's buffer at anything, the support scratch at its whole value, the scratch copies of adj and of t1 at the 4 row blocks
    stored so far and the t2 scratch at the pieces stored so far, each over whatever the scratch held before, the body runs to the
    end leaving the inputs and the output's buffer as they were, row block 4 of adj and of t1 stored, row block 4 of t2 set to
    its partial sum and each earlier row block of t2 rewritten with its new partial sum; the stored values are found by the run. -/
noncomputable def run4 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (a0 : Vec F S512x4096 .bf16) (a1 : Vec F S512x4096 .bf16) (a2 : Vec F S512x4096 .bf16) (a3 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32), { pn3 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2048, 0] S512x128.size inb_S4096x128_S512x128_2048_0, bn⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![2048, 0] S512x128.size inb_S4096x128_S512x128_2048_0, dn⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2048, 0] S512x4096.size inb_S4096x4096_S512x4096_2048_0, an⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_4) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun5.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 5: the streaming step of row block 5.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 5 (the streaming step of row block 5): on whole staging memrefs, the six inputs at their blocks and the
    output's buffer at anything, the support scratch at its whole value, the scratch copies of adj and of t1 at the 5 row blocks
    stored so far and the t2 scratch at the pieces stored so far, each over whatever the scratch held before, the body runs to the
    end leaving the inputs and the output's buffer as they were, row block 5 of adj and of t1 stored, row block 5 of t2 set to
    its partial sum and each earlier row block of t2 rewritten with its new partial sum; the stored values are found by the run. -/
noncomputable def run5 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (a0 : Vec F S512x4096 .bf16) (a1 : Vec F S512x4096 .bf16) (a2 : Vec F S512x4096 .bf16) (a3 : Vec F S512x4096 .bf16) (a4 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32), { pn4 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2560, 0] S512x128.size inb_S4096x128_S512x128_2560_0, bn⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![2560, 0] S512x128.size inb_S4096x128_S512x128_2560_0, dn⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2560, 0] S512x4096.size inb_S4096x4096_S512x4096_2560_0, an⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_5) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun6.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 6: the streaming step of row block 6.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 6 (the streaming step of row block 6): on whole staging memrefs, the six inputs at their blocks and the
    output's buffer at anything, the support scratch at its whole value, the scratch copies of adj and of t1 at the 6 row blocks
    stored so far and the t2 scratch at the pieces stored so far, each over whatever the scratch held before, the body runs to the
    end leaving the inputs and the output's buffer as they were, row block 6 of adj and of t1 stored, row block 6 of t2 set to
    its partial sum and each earlier row block of t2 rewritten with its new partial sum; the stored values are found by the run. -/
noncomputable def run6 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32) (pn4 : Vec F S512x128 .f32), { pn5 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3072, 0] S512x128.size inb_S4096x128_S512x128_3072_0, bn⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2560, 0] S512x128.size inb_S4096x128_S512x128_2560_0, pn5⟩, ⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![3072, 0] S512x128.size inb_S4096x128_S512x128_3072_0, dn⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3072, 0] S512x4096.size inb_S4096x4096_S512x4096_3072_0, an⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_6) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun7.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 7: the streaming step of row block 7.
-/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 7 (the streaming step of row block 7): on whole staging memrefs, the six inputs at their blocks and the
    output's buffer at anything, the support scratch at its whole value, the scratch copies of adj and of t1 at the 7 row blocks
    stored so far and the t2 scratch at the pieces stored so far, each over whatever the scratch held before, the body runs to the
    end leaving the inputs and the output's buffer as they were, row block 7 of adj and of t1 stored, row block 7 of t2 set to
    its partial sum and each earlier row block of t2 rewritten with its new partial sum; the stored values are found by the run. -/
noncomputable def run7 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32) (pn4 : Vec F S512x128 .f32) (pn5 : Vec F S512x128 .f32), { pn6 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, bn⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, pn6⟩, ⟨Rect.unit (s := S4096x128) ![2560, 0] S512x128.size inb_S4096x128_S512x128_2560_0, pn5⟩, ⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![3584, 0] S512x128.size inb_S4096x128_S512x128_3584_0, dn⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, an⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_7) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.Kernel.Body

end
-- ==== Proof.Body.KRun8.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 8: row block 0 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 8: on whole staging memrefs, the inputs at their blocks, the output's buffer at anything and the four
    scratch buffers at the pieces the eight streaming steps stored (over whatever they held before), it runs to the end leaving the
    inputs and the scratch as they were and the output's buffer written whole with the value the run finds. -/
noncomputable def run8 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_8) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun9.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 9: row block 1 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 9: on whole staging memrefs, the inputs at their blocks, the output's buffer at anything and the four
    scratch buffers at the pieces the eight streaming steps stored (over whatever they held before), it runs to the end leaving the
    inputs and the scratch as they were and the output's buffer written whole with the value the run finds. -/
noncomputable def run9 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_9) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun10.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 10: row block 2 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 10: on whole staging memrefs, the inputs at their blocks, the output's buffer at anything and the four
    scratch buffers at the pieces the eight streaming steps stored (over whatever they held before), it runs to the end leaving the
    inputs and the scratch as they were and the output's buffer written whole with the value the run finds. -/
noncomputable def run10 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_10) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun11.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 11: row block 3 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 11: on whole staging memrefs, the inputs at their blocks, the output's buffer at anything and the four
    scratch buffers at the pieces the eight streaming steps stored (over whatever they held before), it runs to the end leaving the
    inputs and the scratch as they were and the output's buffer written whole with the value the run finds. -/
noncomputable def run11 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_11) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun12.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 12: row block 4 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 12: on whole staging memrefs, the inputs at their blocks, the output's buffer at anything and the four
    scratch buffers at the pieces the eight streaming steps stored (over whatever they held before), it runs to the end leaving the
    inputs and the scratch as they were and the output's buffer written whole with the value the run finds. -/
noncomputable def run12 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_12) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun13.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 13: row block 5 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 13: on whole staging memrefs, the inputs at their blocks, the output's buffer at anything and the four
    scratch buffers at the pieces the eight streaming steps stored (over whatever they held before), it runs to the end leaving the
    inputs and the scratch as they were and the output's buffer written whole with the value the run finds. -/
noncomputable def run13 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_13) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun14.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 14: row block 6 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 14: on whole staging memrefs, the inputs at their blocks, the output's buffer at anything and the four
    scratch buffers at the pieces the eight streaming steps stored (over whatever they held before), it runs to the end leaving the
    inputs and the scratch as they were and the output's buffer written whole with the value the run finds. -/
noncomputable def run14 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_14) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KRun15.lean ====
import proofs.«166091_g16140487098644_cont_week2b_486_32_alg».proof.Proof.Gen.Kernel.Frame
import proofs.«166091_g16140487098644_cont_week2b_486_32_alg».proof.Proof.Gen.Kernel.Skeleton
import Idealize.ShloMosaic.Lib.Pipeline.FrameBody
import Idealize.ShloMosaic.Lib.Tactic

/-!
The kernel body at grid point 15: row block 7 of the result is formed from the scratch and stored into the output's buffer.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 15: on whole staging memrefs, the inputs at their blocks, the output's buffer at anything and the four
    scratch buffers at the pieces the eight streaming steps stored (over whatever they held before), it runs to the end leaving the
    inputs and the scratch as they were and the output's buffer written whole with the value the run finds. -/
noncomputable def run15 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_15) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.Kernel.Body

end
-- ==== Proof.Body.KData.lean ====
import proofs.«166091_g16140487098644_cont_week2b_486_32_alg».proof.Proof.Body.KRun0
import proofs.«166091_g16140487098644_cont_week2b_486_32_alg».proof.Proof.Body.KRun1
import proofs.«166091_g16140487098644_cont_week2b_486_32_alg».proof.Proof.Body.KRun2
import proofs.«166091_g16140487098644_cont_week2b_486_32_alg».proof.Proof.Body.KRun3
import proofs.«166091_g16140487098644_cont_week2b_486_32_alg».proof.Proof.Body.KRun4
import proofs.«166091_g16140487098644_cont_week2b_486_32_alg».proof.Proof.Body.KRun5
import proofs.«166091_g16140487098644_cont_week2b_486_32_alg».proof.Proof.Body.KRun6
import proofs.«166091_g16140487098644_cont_week2b_486_32_alg».proof.Proof.Body.KRun7
import proofs.«166091_g16140487098644_cont_week2b_486_32_alg».proof.Proof.Body.KRun8
import proofs.«166091_g16140487098644_cont_week2b_486_32_alg».proof.Proof.Body.KRun9
import proofs.«166091_g16140487098644_cont_week2b_486_32_alg».proof.Proof.Body.KRun10
import proofs.«166091_g16140487098644_cont_week2b_486_32_alg».proof.Proof.Body.KRun11
import proofs.«166091_g16140487098644_cont_week2b_486_32_alg».proof.Proof.Body.KRun12
import proofs.«166091_g16140487098644_cont_week2b_486_32_alg».proof.Proof.Body.KRun13
import proofs.«166091_g16140487098644_cont_week2b_486_32_alg».proof.Proof.Body.KRun14
import proofs.«166091_g16140487098644_cont_week2b_486_32_alg».proof.Proof.Body.KRun15
import Idealize.ShloMosaic.Lib.Pipeline.FrameBody
import Idealize.ShloMosaic.Lib.Ring
import Idealize.ShloMosaic.Lib.Tactic

/-!
The proof data of the kernel's pipeline: what the four scratch buffers hold between grid points.

After point 0 the support scratch holds max(feature · weight, 0) whole; after streaming point j the scratch copies of adj and
of t1 = adj · sup hold their row blocks 0..j, and the t2 scratch holds, newest first, every piece the points so far stored into
it (row block j set at point j, each earlier row block rewritten at every later point), all over whatever the scratch held
when the region was entered. Every value is the one the body's run at that point finds, a function of the input blocks and
of the values found before; the epilogue points 8..15 leave the scratch as it is and store row block t - 8 of the result.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms1 (t : Fin cfg0.N) : Memref sig .tc .vmem S4096x128 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S128x128 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S512x4096 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S128x256 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1x128 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S1x128 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S512x128 .f32 := win0_6.stage (cfg0.slots t 6)
abbrev hs7 (t : Fin cfg0.N) : (ms7 t).IsWhole := hstage0_6 ((cfg0.slots t 6).cast nbuf0_6)
/-- The four scratch operands: whole scoped buffers. -/
abbrev sc8 : Memref sig .tc .vmem S4096x128 .bf16 := Memref.whole cc0_scratch0
abbrev sc9 : Memref sig .tc .vmem S4096x128 .bf16 := Memref.whole cc0_scratch1
abbrev sc10 : Memref sig .tc .vmem S4096x128 .f32 := Memref.whole cc0_scratch2
abbrev sc11 : Memref sig .tc .vmem S4096x4096 .bf16 := Memref.whole cc0_scratch3

/-! ## The values the runs find, point by point -/

/-- The run at point 0 on the staging memrefs and input blocks of that point. -/
def R0 (c : Dev nD) := run0 c (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) sc8 (Memref.isWhole_whole _) sc9 (Memref.isWhole_whole _) sc10 (Memref.isWhole_whole _) sc11 (Memref.isWhole_whole _) (iblk m c 0 t0_0) (iblk m c 1 t0_0) (iblk m c 2 t0_0) (iblk m c 3 t0_0) (iblk m c 4 t0_0) (iblk m c 5 t0_0)
/-- The support, as the run at point 0 stores it. -/
abbrev sv (c : Dev nD) : Vec F S4096x128 .bf16 := (R0 m c).1
/-- Row block 0 of t1. -/
abbrev bv0 (c : Dev nD) : Vec F S512x128 .bf16 := (R0 m c).2.1
/-- Row block 0 of t2 after point 0. -/
abbrev dv0 (c : Dev nD) : Vec F S512x128 .f32 := (R0 m c).2.2.1
/-- Row block 0 of the copy of adj. -/
abbrev av0 (c : Dev nD) : Vec F S512x4096 .bf16 := (R0 m c).2.2.2.1
/-- The run at point 1 on that point's memrefs and blocks, the scratch at what the points before left. -/
def R1 (c : Dev nD) := run1 c (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) sc8 (Memref.isWhole_whole _) sc9 (Memref.isWhole_whole _) sc10 (Memref.isWhole_whole _) sc11 (Memref.isWhole_whole _) (iblk m c 0 t0_1) (iblk m c 1 t0_1) (iblk m c 2 t0_1) (iblk m c 3 t0_1) (iblk m c 4 t0_1) (iblk m c 5 t0_1) (sv m c) (bv0 m c) (av0 m c) (dv0 m c)
/-- Row block 1 of t1. -/
abbrev bv1 (c : Dev nD) : Vec F S512x128 .bf16 := (R1 m c).1
/-- Row block 1 of the copy of adj. -/
abbrev av1 (c : Dev nD) : Vec F S512x4096 .bf16 := (R1 m c).2.1
/-- Row block 1 of t2 as point 1 sets it. -/
abbrev dv1 (c : Dev nD) : Vec F S512x128 .f32 := (R1 m c).2.2.1
/-- Row block 0 of t2 as point 1 rewrites it. -/
abbrev pv1_0 (c : Dev nD) : Vec F S512x128 .f32 := (R1 m c).2.2.2.1
/-- The run at point 2 on that point's memrefs and blocks, the scratch at what the points before left. -/
def R2 (c : Dev nD) := run2 c (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) sc8 (Memref.isWhole_whole _) sc9 (Memref.isWhole_whole _) sc10 (Memref.isWhole_whole _) sc11 (Memref.isWhole_whole _) (iblk m c 0 t0_2) (iblk m c 1 t0_2) (iblk m c 2 t0_2) (iblk m c 3 t0_2) (iblk m c 4 t0_2) (iblk m c 5 t0_2) (sv m c) (bv0 m c) (bv1 m c) (av0 m c) (av1 m c) (dv0 m c) (dv1 m c) (pv1_0 m c)
/-- Row block 2 of t1. -/
abbrev bv2 (c : Dev nD) : Vec F S512x128 .bf16 := (R2 m c).1
/-- Row block 2 of the copy of adj. -/
abbrev av2 (c : Dev nD) : Vec F S512x4096 .bf16 := (R2 m c).2.1
/-- Row block 2 of t2 as point 2 sets it. -/
abbrev dv2 (c : Dev nD) : Vec F S512x128 .f32 := (R2 m c).2.2.1
/-- Row block 0 of t2 as point 2 rewrites it. -/
abbrev pv2_0 (c : Dev nD) : Vec F S512x128 .f32 := (R2 m c).2.2.2.1
/-- Row block 1 of t2 as point 2 rewrites it. -/
abbrev pv2_1 (c : Dev nD) : Vec F S512x128 .f32 := (R2 m c).2.2.2.2.1
/-- The run at point 3 on that point's memrefs and blocks, the scratch at what the points before left. -/
def R3 (c : Dev nD) := run3 c (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) sc8 (Memref.isWhole_whole _) sc9 (Memref.isWhole_whole _) sc10 (Memref.isWhole_whole _) sc11 (Memref.isWhole_whole _) (iblk m c 0 t0_3) (iblk m c 1 t0_3) (iblk m c 2 t0_3) (iblk m c 3 t0_3) (iblk m c 4 t0_3) (iblk m c 5 t0_3) (sv m c) (bv0 m c) (bv1 m c) (bv2 m c) (av0 m c) (av1 m c) (av2 m c) (dv0 m c) (dv1 m c) (pv1_0 m c) (dv2 m c) (pv2_0 m c) (pv2_1 m c)
/-- Row block 3 of t1. -/
abbrev bv3 (c : Dev nD) : Vec F S512x128 .bf16 := (R3 m c).1
/-- Row block 3 of the copy of adj. -/
abbrev av3 (c : Dev nD) : Vec F S512x4096 .bf16 := (R3 m c).2.1
/-- Row block 3 of t2 as point 3 sets it. -/
abbrev dv3 (c : Dev nD) : Vec F S512x128 .f32 := (R3 m c).2.2.1
/-- Row block 0 of t2 as point 3 rewrites it. -/
abbrev pv3_0 (c : Dev nD) : Vec F S512x128 .f32 := (R3 m c).2.2.2.1
/-- Row block 1 of t2 as point 3 rewrites it. -/
abbrev pv3_1 (c : Dev nD) : Vec F S512x128 .f32 := (R3 m c).2.2.2.2.1
/-- Row block 2 of t2 as point 3 rewrites it. -/
abbrev pv3_2 (c : Dev nD) : Vec F S512x128 .f32 := (R3 m c).2.2.2.2.2.1
/-- The run at point 4 on that point's memrefs and blocks, the scratch at what the points before left. -/
def R4 (c : Dev nD) := run4 c (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) sc8 (Memref.isWhole_whole _) sc9 (Memref.isWhole_whole _) sc10 (Memref.isWhole_whole _) sc11 (Memref.isWhole_whole _) (iblk m c 0 t0_4) (iblk m c 1 t0_4) (iblk m c 2 t0_4) (iblk m c 3 t0_4) (iblk m c 4 t0_4) (iblk m c 5 t0_4) (sv m c) (bv0 m c) (bv1 m c) (bv2 m c) (bv3 m c) (av0 m c) (av1 m c) (av2 m c) (av3 m c) (dv0 m c) (dv1 m c) (pv1_0 m c) (dv2 m c) (pv2_0 m c) (pv2_1 m c) (dv3 m c) (pv3_0 m c) (pv3_1 m c) (pv3_2 m c)
/-- Row block 4 of t1. -/
abbrev bv4 (c : Dev nD) : Vec F S512x128 .bf16 := (R4 m c).1
/-- Row block 4 of the copy of adj. -/
abbrev av4 (c : Dev nD) : Vec F S512x4096 .bf16 := (R4 m c).2.1
/-- Row block 4 of t2 as point 4 sets it. -/
abbrev dv4 (c : Dev nD) : Vec F S512x128 .f32 := (R4 m c).2.2.1
/-- Row block 0 of t2 as point 4 rewrites it. -/
abbrev pv4_0 (c : Dev nD) : Vec F S512x128 .f32 := (R4 m c).2.2.2.1
/-- Row block 1 of t2 as point 4 rewrites it. -/
abbrev pv4_1 (c : Dev nD) : Vec F S512x128 .f32 := (R4 m c).2.2.2.2.1
/-- Row block 2 of t2 as point 4 rewrites it. -/
abbrev pv4_2 (c : Dev nD) : Vec F S512x128 .f32 := (R4 m c).2.2.2.2.2.1
/-- Row block 3 of t2 as point 4 rewrites it. -/
abbrev pv4_3 (c : Dev nD) : Vec F S512x128 .f32 := (R4 m c).2.2.2.2.2.2.1
/-- The run at point 5 on that point's memrefs and blocks, the scratch at what the points before left. -/
def R5 (c : Dev nD) := run5 c (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) sc8 (Memref.isWhole_whole _) sc9 (Memref.isWhole_whole _) sc10 (Memref.isWhole_whole _) sc11 (Memref.isWhole_whole _) (iblk m c 0 t0_5) (iblk m c 1 t0_5) (iblk m c 2 t0_5) (iblk m c 3 t0_5) (iblk m c 4 t0_5) (iblk m c 5 t0_5) (sv m c) (bv0 m c) (bv1 m c) (bv2 m c) (bv3 m c) (bv4 m c) (av0 m c) (av1 m c) (av2 m c) (av3 m c) (av4 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c)
/-- Row block 5 of t1. -/
abbrev bv5 (c : Dev nD) : Vec F S512x128 .bf16 := (R5 m c).1
/-- Row block 5 of the copy of adj. -/
abbrev av5 (c : Dev nD) : Vec F S512x4096 .bf16 := (R5 m c).2.1
/-- Row block 5 of t2 as point 5 sets it. -/
abbrev dv5 (c : Dev nD) : Vec F S512x128 .f32 := (R5 m c).2.2.1
/-- Row block 0 of t2 as point 5 rewrites it. -/
abbrev pv5_0 (c : Dev nD) : Vec F S512x128 .f32 := (R5 m c).2.2.2.1
/-- Row block 1 of t2 as point 5 rewrites it. -/
abbrev pv5_1 (c : Dev nD) : Vec F S512x128 .f32 := (R5 m c).2.2.2.2.1
/-- Row block 2 of t2 as point 5 rewrites it. -/
abbrev pv5_2 (c : Dev nD) : Vec F S512x128 .f32 := (R5 m c).2.2.2.2.2.1
/-- Row block 3 of t2 as point 5 rewrites it. -/
abbrev pv5_3 (c : Dev nD) : Vec F S512x128 .f32 := (R5 m c).2.2.2.2.2.2.1
/-- Row block 4 of t2 as point 5 rewrites it. -/
abbrev pv5_4 (c : Dev nD) : Vec F S512x128 .f32 := (R5 m c).2.2.2.2.2.2.2.1
/-- The run at point 6 on that point's memrefs and blocks, the scratch at what the points before left. -/
def R6 (c : Dev nD) := run6 c (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) sc8 (Memref.isWhole_whole _) sc9 (Memref.isWhole_whole _) sc10 (Memref.isWhole_whole _) sc11 (Memref.isWhole_whole _) (iblk m c 0 t0_6) (iblk m c 1 t0_6) (iblk m c 2 t0_6) (iblk m c 3 t0_6) (iblk m c 4 t0_6) (iblk m c 5 t0_6) (sv m c) (bv0 m c) (bv1 m c) (bv2 m c) (bv3 m c) (bv4 m c) (bv5 m c) (av0 m c) (av1 m c) (av2 m c) (av3 m c) (av4 m c) (av5 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c)
/-- Row block 6 of t1. -/
abbrev bv6 (c : Dev nD) : Vec F S512x128 .bf16 := (R6 m c).1
/-- Row block 6 of the copy of adj. -/
abbrev av6 (c : Dev nD) : Vec F S512x4096 .bf16 := (R6 m c).2.1
/-- Row block 6 of t2 as point 6 sets it. -/
abbrev dv6 (c : Dev nD) : Vec F S512x128 .f32 := (R6 m c).2.2.1
/-- Row block 0 of t2 as point 6 rewrites it. -/
abbrev pv6_0 (c : Dev nD) : Vec F S512x128 .f32 := (R6 m c).2.2.2.1
/-- Row block 1 of t2 as point 6 rewrites it. -/
abbrev pv6_1 (c : Dev nD) : Vec F S512x128 .f32 := (R6 m c).2.2.2.2.1
/-- Row block 2 of t2 as point 6 rewrites it. -/
abbrev pv6_2 (c : Dev nD) : Vec F S512x128 .f32 := (R6 m c).2.2.2.2.2.1
/-- Row block 3 of t2 as point 6 rewrites it. -/
abbrev pv6_3 (c : Dev nD) : Vec F S512x128 .f32 := (R6 m c).2.2.2.2.2.2.1
/-- Row block 4 of t2 as point 6 rewrites it. -/
abbrev pv6_4 (c : Dev nD) : Vec F S512x128 .f32 := (R6 m c).2.2.2.2.2.2.2.1
/-- Row block 5 of t2 as point 6 rewrites it. -/
abbrev pv6_5 (c : Dev nD) : Vec F S512x128 .f32 := (R6 m c).2.2.2.2.2.2.2.2.1
/-- The run at point 7 on that point's memrefs and blocks, the scratch at what the points before left. -/
def R7 (c : Dev nD) := run7 c (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) sc8 (Memref.isWhole_whole _) sc9 (Memref.isWhole_whole _) sc10 (Memref.isWhole_whole _) sc11 (Memref.isWhole_whole _) (iblk m c 0 t0_7) (iblk m c 1 t0_7) (iblk m c 2 t0_7) (iblk m c 3 t0_7) (iblk m c 4 t0_7) (iblk m c 5 t0_7) (sv m c) (bv0 m c) (bv1 m c) (bv2 m c) (bv3 m c) (bv4 m c) (bv5 m c) (bv6 m c) (av0 m c) (av1 m c) (av2 m c) (av3 m c) (av4 m c) (av5 m c) (av6 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c)
/-- Row block 7 of t1. -/
abbrev bv7 (c : Dev nD) : Vec F S512x128 .bf16 := (R7 m c).1
/-- Row block 7 of the copy of adj. -/
abbrev av7 (c : Dev nD) : Vec F S512x4096 .bf16 := (R7 m c).2.1
/-- Row block 7 of t2 as point 7 sets it. -/
abbrev dv7 (c : Dev nD) : Vec F S512x128 .f32 := (R7 m c).2.2.1
/-- Row block 0 of t2 as point 7 rewrites it. -/
abbrev pv7_0 (c : Dev nD) : Vec F S512x128 .f32 := (R7 m c).2.2.2.1
/-- Row block 1 of t2 as point 7 rewrites it. -/
abbrev pv7_1 (c : Dev nD) : Vec F S512x128 .f32 := (R7 m c).2.2.2.2.1
/-- Row block 2 of t2 as point 7 rewrites it. -/
abbrev pv7_2 (c : Dev nD) : Vec F S512x128 .f32 := (R7 m c).2.2.2.2.2.1
/-- Row block 3 of t2 as point 7 rewrites it. -/
abbrev pv7_3 (c : Dev nD) : Vec F S512x128 .f32 := (R7 m c).2.2.2.2.2.2.1
/-- Row block 4 of t2 as point 7 rewrites it. -/
abbrev pv7_4 (c : Dev nD) : Vec F S512x128 .f32 := (R7 m c).2.2.2.2.2.2.2.1
/-- Row block 5 of t2 as point 7 rewrites it. -/
abbrev pv7_5 (c : Dev nD) : Vec F S512x128 .f32 := (R7 m c).2.2.2.2.2.2.2.2.1
/-- Row block 6 of t2 as point 7 rewrites it. -/
abbrev pv7_6 (c : Dev nD) : Vec F S512x128 .f32 := (R7 m c).2.2.2.2.2.2.2.2.2.1
/-- The run at point 8, the scratch at what the eight streaming points left. -/
def R8 (c : Dev nD) := run8 c (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) sc8 (Memref.isWhole_whole _) sc9 (Memref.isWhole_whole _) sc10 (Memref.isWhole_whole _) sc11 (Memref.isWhole_whole _) (iblk m c 0 t0_8) (iblk m c 1 t0_8) (iblk m c 2 t0_8) (iblk m c 3 t0_8) (iblk m c 4 t0_8) (iblk m c 5 t0_8) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 9, the scratch at what the eight streaming points left. -/
def R9 (c : Dev nD) := run9 c (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) sc8 (Memref.isWhole_whole _) sc9 (Memref.isWhole_whole _) sc10 (Memref.isWhole_whole _) sc11 (Memref.isWhole_whole _) (iblk m c 0 t0_9) (iblk m c 1 t0_9) (iblk m c 2 t0_9) (iblk m c 3 t0_9) (iblk m c 4 t0_9) (iblk m c 5 t0_9) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 10, the scratch at what the eight streaming points left. -/
def R10 (c : Dev nD) := run10 c (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) sc8 (Memref.isWhole_whole _) sc9 (Memref.isWhole_whole _) sc10 (Memref.isWhole_whole _) sc11 (Memref.isWhole_whole _) (iblk m c 0 t0_10) (iblk m c 1 t0_10) (iblk m c 2 t0_10) (iblk m c 3 t0_10) (iblk m c 4 t0_10) (iblk m c 5 t0_10) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 11, the scratch at what the eight streaming points left. -/
def R11 (c : Dev nD) := run11 c (ms1 t0_11) (hs1 t0_11) (ms2 t0_11) (hs2 t0_11) (ms3 t0_11) (hs3 t0_11) (ms4 t0_11) (hs4 t0_11) (ms5 t0_11) (hs5 t0_11) (ms6 t0_11) (hs6 t0_11) (ms7 t0_11) (hs7 t0_11) sc8 (Memref.isWhole_whole _) sc9 (Memref.isWhole_whole _) sc10 (Memref.isWhole_whole _) sc11 (Memref.isWhole_whole _) (iblk m c 0 t0_11) (iblk m c 1 t0_11) (iblk m c 2 t0_11) (iblk m c 3 t0_11) (iblk m c 4 t0_11) (iblk m c 5 t0_11) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 12, the scratch at what the eight streaming points left. -/
def R12 (c : Dev nD) := run12 c (ms1 t0_12) (hs1 t0_12) (ms2 t0_12) (hs2 t0_12) (ms3 t0_12) (hs3 t0_12) (ms4 t0_12) (hs4 t0_12) (ms5 t0_12) (hs5 t0_12) (ms6 t0_12) (hs6 t0_12) (ms7 t0_12) (hs7 t0_12) sc8 (Memref.isWhole_whole _) sc9 (Memref.isWhole_whole _) sc10 (Memref.isWhole_whole _) sc11 (Memref.isWhole_whole _) (iblk m c 0 t0_12) (iblk m c 1 t0_12) (iblk m c 2 t0_12) (iblk m c 3 t0_12) (iblk m c 4 t0_12) (iblk m c 5 t0_12) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 13, the scratch at what the eight streaming points left. -/
def R13 (c : Dev nD) := run13 c (ms1 t0_13) (hs1 t0_13) (ms2 t0_13) (hs2 t0_13) (ms3 t0_13) (hs3 t0_13) (ms4 t0_13) (hs4 t0_13) (ms5 t0_13) (hs5 t0_13) (ms6 t0_13) (hs6 t0_13) (ms7 t0_13) (hs7 t0_13) sc8 (Memref.isWhole_whole _) sc9 (Memref.isWhole_whole _) sc10 (Memref.isWhole_whole _) sc11 (Memref.isWhole_whole _) (iblk m c 0 t0_13) (iblk m c 1 t0_13) (iblk m c 2 t0_13) (iblk m c 3 t0_13) (iblk m c 4 t0_13) (iblk m c 5 t0_13) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 14, the scratch at what the eight streaming points left. -/
def R14 (c : Dev nD) := run14 c (ms1 t0_14) (hs1 t0_14) (ms2 t0_14) (hs2 t0_14) (ms3 t0_14) (hs3 t0_14) (ms4 t0_14) (hs4 t0_14) (ms5 t0_14) (hs5 t0_14) (ms6 t0_14) (hs6 t0_14) (ms7 t0_14) (hs7 t0_14) sc8 (Memref.isWhole_whole _) sc9 (Memref.isWhole_whole _) sc10 (Memref.isWhole_whole _) sc11 (Memref.isWhole_whole _) (iblk m c 0 t0_14) (iblk m c 1 t0_14) (iblk m c 2 t0_14) (iblk m c 3 t0_14) (iblk m c 4 t0_14) (iblk m c 5 t0_14) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 15, the scratch at what the eight streaming points left. -/
def R15 (c : Dev nD) := run15 c (ms1 t0_15) (hs1 t0_15) (ms2 t0_15) (hs2 t0_15) (ms3 t0_15) (hs3 t0_15) (ms4 t0_15) (hs4 t0_15) (ms5 t0_15) (hs5 t0_15) (ms6 t0_15) (hs6 t0_15) (ms7 t0_15) (hs7 t0_15) sc8 (Memref.isWhole_whole _) sc9 (Memref.isWhole_whole _) sc10 (Memref.isWhole_whole _) sc11 (Memref.isWhole_whole _) (iblk m c 0 t0_15) (iblk m c 1 t0_15) (iblk m c 2 t0_15) (iblk m c 3 t0_15) (iblk m c 4 t0_15) (iblk m c 5 t0_15) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)

/-! ## The invariant and the proof data -/

/-- What the scratch holds once the eight streaming points are done. -/
def PhiEnd (c : Dev nD) : sProp 𝕄 :=
  iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3584, 0] S512x4096.size inb_S4096x4096_S512x4096_3584_0, (av7 m c)⟩, ⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))

/-- What the scratch holds before point n: anything before point 0; then the support whole, the row blocks of adj's copy and of
    t1 stored so far, and the pieces of t2 stored so far; from point 8 on what the eight streaming points left. -/
def PhiN (c : Dev nD) : ℕ → sProp 𝕄
  | 0 => Pipeline.ΦA spec0 c
  | 1 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![0, 0] S512x4096.size inb_S4096x4096_S512x4096_0_0, (av0 m c)⟩]) ∗ (∃ r, prngReg c r))
  | 2 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 3 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 4 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 5 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 6 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 7 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | _ + 8 => PhiEnd m c

/-- One staging buffer of the output window, through which its contents are stated (the choice does not matter: a covering
    list of pieces reads the same through any view). -/
abbrev VO7 : View sig .tc .vmem S512x128 .f32 := (Memref.whole cc0_stg6_0 : Memref sig .tc .vmem S512x128 .f32).view

/-- A block of the result stored whole, read back. -/
def outOf (o : Vec F S512x128 .f32) : Vec F S512x128 .f32 :=
  VO7.read (Elt F) (VO7.writes (Elt F) VO7.junk [⟨Rect.unit (s := S512x128) ![0, 0] S512x128.size inb_S512x128_S512x128_0_0, o⟩])

/-- The one whole-buffer piece covers the buffer. -/
theorem cover7 (o : Vec F S512x128 .f32) (y : S512x128.Idx) :
    ∃ pc ∈ ([⟨Rect.unit (s := S512x128) ![0, 0] S512x128.size inb_S512x128_S512x128_0_0, o⟩] : List (View.Piece (Elt F) S512x128 .f32)), y ∈ pc.1.set :=
  View.cover_of_tiledL _ S512x128.size (by sl_kernel_rfl) y

/-- What the output's buffer holds after point n (named at the points that store it: 8..15). -/
def outN (c : Dev nD) : ℕ → Vec F S512x128 .f32
  | 8 => outOf (R8 m c).1
  | 9 => outOf (R9 m c).1
  | 10 => outOf (R10 m c).1
  | 11 => outOf (R11 m c).1
  | 12 => outOf (R12 m c).1
  | 13 => outOf (R13 m c).1
  | 14 => outOf (R14 m c).1
  | 15 => outOf (R15 m c).1
  | _ => outOf (R8 m c).1

theorem PhiN_1 (c : Dev nD) : PhiN m c 1 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![0, 0] S512x4096.size inb_S4096x4096_S512x4096_0_0, (av0 m c)⟩]) ∗ (∃ r, prngReg c r)) := rfl
theorem PhiN_2 (c : Dev nD) : PhiN m c 2 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_3 (c : Dev nD) : PhiN m c 3 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_4 (c : Dev nD) : PhiN m c 4 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_5 (c : Dev nD) : PhiN m c 5 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_6 (c : Dev nD) : PhiN m c 6 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_7 (c : Dev nD) : PhiN m c 7 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl

theorem PhiN_ge (c : Dev nD) (n : ℕ) (h : 8 ≤ n) : PhiN m c n = PhiEnd m c := by
  obtain ⟨k, rfl⟩ := Nat.exists_eq_add_of_le' h
  rfl

/-- The proof data: the arrays as the region finds them; after the body each input's buffer at its block and the output's at
    `outN`; the invariant `PhiN`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outN m c t.val
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outN m c t.val := by dsimp only [dats]

/-- Input window 0's current buffer holds its block at every point. -/
theorem before0_0 (c : Dev nD) (t : Fin cfg0.N) (d) : (dats m 0 c).before 0 t d = iblk m c 0 t :=
  before0_0_of m (dats m 0 c) (A_eq m c 0) (after0_0 m c) t d
/-- Input window 1's current buffer holds its block at every point. -/
theorem before0_1 (c : Dev nD) (t : Fin cfg0.N) (d) : (dats m 0 c).before 1 t d = iblk m c 1 t :=
  before0_1_of m (dats m 0 c) (A_eq m c 1) (after0_1 m c) t d
/-- Input window 2's current buffer holds its block at every point. -/
theorem before0_2 (c : Dev nD) (t : Fin cfg0.N) (d) : (dats m 0 c).before 2 t d = iblk m c 2 t :=
  before0_2_of m (dats m 0 c) (A_eq m c 2) (after0_2 m c) t d
/-- Input window 3's current buffer holds its block at every point. -/
theorem before0_3 (c : Dev nD) (t : Fin cfg0.N) (d) : (dats m 0 c).before 3 t d = iblk m c 3 t :=
  before0_3_of m (dats m 0 c) (A_eq m c 3) (after0_3 m c) t d
/-- Input window 4's current buffer holds its block at every point. -/
theorem before0_4 (c : Dev nD) (t : Fin cfg0.N) (d) : (dats m 0 c).before 4 t d = iblk m c 4 t :=
  before0_4_of m (dats m 0 c) (A_eq m c 4) (after0_4 m c) t d
/-- Input window 5's current buffer holds its block at every point. -/
theorem before0_5 (c : Dev nD) (t : Fin cfg0.N) (d) : (dats m 0 c).before 5 t d = iblk m c 5 t :=
  before0_5_of m (dats m 0 c) (A_eq m c 5) (after0_5 m c) t d

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- At the streaming points the output window is idle and not written back. -/
theorem idle6 : ∀ t : Fin cfg0.N, t.val < 8 → cfg0.idle 6 (grid0.coords t) = true := by decide +kernel
theorem noflush6 : ∀ t : Fin cfg0.N, t.val < 8 → (cfg0.win 6).flush t = false := by decide +kernel
/-- At the epilogue points it is live. -/
theorem live6 : ∀ t : Fin cfg0.N, 8 ≤ t.val → cfg0.idle 6 (grid0.coords t) = false := by decide +kernel

/-- The class invariant with the four scratch operands as memrefs owned at some contents. -/
theorem PhiA_eq (c : Dev nD) :
    (Pipeline.ΦA spec0 c : sProp 𝕄)
      = iprop(iprop((∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc8, sc9, sc10, sc11, owns_whole]; try rfl

/-! ## The body obligation's two sides at a point -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A live input window leaves its block in place. -/
theorem leaves0_0 (c : Dev nD) (t : Fin cfg0.N) : (dats m 0 c).leavesExact 0 t = owns (c : Thread nD τ) (ms1 t) fullShare (iblk m c 0 t) := by
  unfold Dat.leavesExact; rw [live0_0 t, after0_0]
/-- A live input window leaves its block in place. -/
theorem leaves0_1 (c : Dev nD) (t : Fin cfg0.N) : (dats m 0 c).leavesExact 1 t = owns (c : Thread nD τ) (ms2 t) fullShare (iblk m c 1 t) := by
  unfold Dat.leavesExact; rw [live0_1 t, after0_1]
/-- A live input window leaves its block in place. -/
theorem leaves0_2 (c : Dev nD) (t : Fin cfg0.N) : (dats m 0 c).leavesExact 2 t = owns (c : Thread nD τ) (ms3 t) fullShare (iblk m c 2 t) := by
  unfold Dat.leavesExact; rw [live0_2 t, after0_2]
/-- A live input window leaves its block in place. -/
theorem leaves0_3 (c : Dev nD) (t : Fin cfg0.N) : (dats m 0 c).leavesExact 3 t = owns (c : Thread nD τ) (ms4 t) fullShare (iblk m c 3 t) := by
  unfold Dat.leavesExact; rw [live0_3 t, after0_3]
/-- A live input window leaves its block in place. -/
theorem leaves0_4 (c : Dev nD) (t : Fin cfg0.N) : (dats m 0 c).leavesExact 4 t = owns (c : Thread nD τ) (ms5 t) fullShare (iblk m c 4 t) := by
  unfold Dat.leavesExact; rw [live0_4 t, after0_4]
/-- A live input window leaves its block in place. -/
theorem leaves0_5 (c : Dev nD) (t : Fin cfg0.N) : (dats m 0 c).leavesExact 5 t = owns (c : Thread nD τ) (ms6 t) fullShare (iblk m c 5 t) := by
  unfold Dat.leavesExact; rw [live0_5 t, after0_5]

end Cert.Kernel.Body

end
-- ==== Proof.Body.KSoundS.lean ====
import proofs.«166091_g16140487098644_cont_week2b_486_32_alg».proof.Proof.Body.KData

/-!
The body obligation at grid points 0..7, one lemma per point: the run of that point applied between the invariant before it
and the invariant after it.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at point 0: the invariant hands it the scratch at what the points before left, the run applies, and the
    scratch comes back at what the invariant states for the next point; the output window is idle and keeps its contents. -/
theorem sound_0 (c : Dev nD) :
    bodyPre m c t0_0 ⊢ wp frame (wpE (defs₀ (F := F)) Variants.none c none) Set.univ (bodyAt0 t0_0) (fun _ => bodyPost m c t0_0) := by
  unfold bodyPre bodyPost bodyAt0
  simp only [before0_0, before0_1, before0_2, before0_3, before0_4, before0_5]
  rw [show (dats m 0 c).owesAt () t0_0.succ = (dats m 0 c).owesAt () t0_0.castSucc from rfl]
  rw [leaves0_0, leaves0_1, leaves0_2, leaves0_3, leaves0_4, leaves0_5]
  rw [Dat.leavesExact_idle (dats m 0 c) 6 t0_0 (idle6 t0_0 (by show (0 : ℕ) < 8; omega)) (noflush6 t0_0 (by show (0 : ℕ) < 8; omega))]
  rw [show (dats m 0 c).Φ t0_0.castSucc = PhiN m c 0 from rfl, show (dats m 0 c).Φ t0_0.succ = PhiN m c 1 from rfl]
  rw [show PhiN m c 0 = Pipeline.ΦA spec0 c from rfl, PhiA_eq, PhiN_1]
  iintro ⟨⟨⟨H8, H9, H10, H11⟩, Hg⟩, Ho, ⟨%d0, H0⟩, ⟨%d1, H1⟩, ⟨%d2, H2⟩, ⟨%d3, H3⟩, ⟨%d4, H4⟩, ⟨%d5, H5⟩, ⟨%d6, H6⟩⟩
  iapply ((R0 m c).2.2.2.2 ((dats m 0 c).before 6 t0_0 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 1: the invariant hands it the scratch at what the points before left, the run applies, and the
    scratch comes back at what the invariant states for the next point; the output window is idle and keeps its contents. -/
theorem sound_1 (c : Dev nD) :
    bodyPre m c t0_1 ⊢ wp frame (wpE (defs₀ (F := F)) Variants.none c none) Set.univ (bodyAt0 t0_1) (fun _ => bodyPost m c t0_1) := by
  unfold bodyPre bodyPost bodyAt0
  simp only [before0_0, before0_1, before0_2, before0_3, before0_4, before0_5]
  rw [show (dats m 0 c).owesAt () t0_1.succ = (dats m 0 c).owesAt () t0_1.castSucc from rfl]
  rw [leaves0_0, leaves0_1, leaves0_2, leaves0_3, leaves0_4, leaves0_5]
  rw [Dat.leavesExact_idle (dats m 0 c) 6 t0_1 (idle6 t0_1 (by show (1 : ℕ) < 8; omega)) (noflush6 t0_1 (by show (1 : ℕ) < 8; omega))]
  rw [show (dats m 0 c).Φ t0_1.castSucc = PhiN m c 1 from rfl, show (dats m 0 c).Φ t0_1.succ = PhiN m c 2 from rfl]
  rw [PhiN_1, PhiN_2]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R1 m c).2.2.2.2 ((dats m 0 c).before 6 t0_1 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 2: the invariant hands it the scratch at what the points before left, the run applies, and the
    scratch comes back at what the invariant states for the next point; the output window is idle and keeps its contents. -/
theorem sound_2 (c : Dev nD) :
    bodyPre m c t0_2 ⊢ wp frame (wpE (defs₀ (F := F)) Variants.none c none) Set.univ (bodyAt0 t0_2) (fun _ => bodyPost m c t0_2) := by
  unfold bodyPre bodyPost bodyAt0
  simp only [before0_0, before0_1, before0_2, before0_3, before0_4, before0_5]
  rw [show (dats m 0 c).owesAt () t0_2.succ = (dats m 0 c).owesAt () t0_2.castSucc from rfl]
  rw [leaves0_0, leaves0_1, leaves0_2, leaves0_3, leaves0_4, leaves0_5]
  rw [Dat.leavesExact_idle (dats m 0 c) 6 t0_2 (idle6 t0_2 (by show (2 : ℕ) < 8; omega)) (noflush6 t0_2 (by show (2 : ℕ) < 8; omega))]
  rw [show (dats m 0 c).Φ t0_2.castSucc = PhiN m c 2 from rfl, show (dats m 0 c).Φ t0_2.succ = PhiN m c 3 from rfl]
  rw [PhiN_2, PhiN_3]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R2 m c).2.2.2.2.2 ((dats m 0 c).before 6 t0_2 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 3: the invariant hands it the scratch at what the points before left, the run applies, and the
    scratch comes back at what the invariant states for the next point; the output window is idle and keeps its contents. -/
theorem sound_3 (c : Dev nD) :
    bodyPre m c t0_3 ⊢ wp frame (wpE (defs₀ (F := F)) Variants.none c none) Set.univ (bodyAt0 t0_3) (fun _ => bodyPost m c t0_3) := by
  unfold bodyPre bodyPost bodyAt0
  simp only [before0_0, before0_1, before0_2, before0_3, before0_4, before0_5]
  rw [show (dats m 0 c).owesAt () t0_3.succ = (dats m 0 c).owesAt () t0_3.castSucc from rfl]
  rw [leaves0_0, leaves0_1, leaves0_2, leaves0_3, leaves0_4, leaves0_5]
  rw [Dat.leavesExact_idle (dats m 0 c) 6 t0_3 (idle6 t0_3 (by show (3 : ℕ) < 8; omega)) (noflush6 t0_3 (by show (3 : ℕ) < 8; omega))]
  rw [show (dats m 0 c).Φ t0_3.castSucc = PhiN m c 3 from rfl, show (dats m 0 c).Φ t0_3.succ = PhiN m c 4 from rfl]
  rw [PhiN_3, PhiN_4]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R3 m c).2.2.2.2.2.2 ((dats m 0 c).before 6 t0_3 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 4: the invariant hands it the scratch at what the points before left, the run applies, and the
    scratch comes back at what the invariant states for the next point; the output window is idle and keeps its contents. -/
theorem sound_4 (c : Dev nD) :
    bodyPre m c t0_4 ⊢ wp frame (wpE (defs₀ (F := F)) Variants.none c none) Set.univ (bodyAt0 t0_4) (fun _ => bodyPost m c t0_4) := by
  unfold bodyPre bodyPost bodyAt0
  simp only [before0_0, before0_1, before0_2, before0_3, before0_4, before0_5]
  rw [show (dats m 0 c).owesAt () t0_4.succ = (dats m 0 c).owesAt () t0_4.castSucc from rfl]
  rw [leaves0_0, leaves0_1, leaves0_2, leaves0_3, leaves0_4, leaves0_5]
  rw [Dat.leavesExact_idle (dats m 0 c) 6 t0_4 (idle6 t0_4 (by show (4 : ℕ) < 8; omega)) (noflush6 t0_4 (by show (4 : ℕ) < 8; omega))]
  rw [show (dats m 0 c).Φ t0_4.castSucc = PhiN m c 4 from rfl, show (dats m 0 c).Φ t0_4.succ = PhiN m c 5 from rfl]
  rw [PhiN_4, PhiN_5]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R4 m c).2.2.2.2.2.2.2 ((dats m 0 c).before 6 t0_4 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 5: the invariant hands it the scratch at what the points before left, the run applies, and the
    scratch comes back at what the invariant states for the next point; the output window is idle and keeps its contents. -/
theorem sound_5 (c : Dev nD) :
    bodyPre m c t0_5 ⊢ wp frame (wpE (defs₀ (F := F)) Variants.none c none) Set.univ (bodyAt0 t0_5) (fun _ => bodyPost m c t0_5) := by
  unfold bodyPre bodyPost bodyAt0
  simp only [before0_0, before0_1, before0_2, before0_3, before0_4, before0_5]
  rw [show (dats m 0 c).owesAt () t0_5.succ = (dats m 0 c).owesAt () t0_5.castSucc from rfl]
  rw [leaves0_0, leaves0_1, leaves0_2, leaves0_3, leaves0_4, leaves0_5]
  rw [Dat.leavesExact_idle (dats m 0 c) 6 t0_5 (idle6 t0_5 (by show (5 : ℕ) < 8; omega)) (noflush6 t0_5 (by show (5 : ℕ) < 8; omega))]
  rw [show (dats m 0 c).Φ t0_5.castSucc = PhiN m c 5 from rfl, show (dats m 0 c).Φ t0_5.succ = PhiN m c 6 from rfl]
  rw [PhiN_5, PhiN_6]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R5 m c).2.2.2.2.2.2.2.2 ((dats m 0 c).before 6 t0_5 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 6: the invariant hands it the scratch at what the points before left, the run applies, and the
    scratch comes back at what the invariant states for the next point; the output window is idle and keeps its contents. -/
theorem sound_6 (c : Dev nD) :
    bodyPre m c t0_6 ⊢ wp frame (wpE (defs₀ (F := F)) Variants.none c none) Set.univ (bodyAt0 t0_6) (fun _ => bodyPost m c t0_6) := by
  unfold bodyPre bodyPost bodyAt0
  simp only [before0_0, before0_1, before0_2, before0_3, before0_4, before0_5]
  rw [show (dats m 0 c).owesAt () t0_6.succ = (dats m 0 c).owesAt () t0_6.castSucc from rfl]
  rw [leaves0_0, leaves0_1, leaves0_2, leaves0_3, leaves0_4, leaves0_5]
  rw [Dat.leavesExact_idle (dats m 0 c) 6 t0_6 (idle6 t0_6 (by show (6 : ℕ) < 8; omega)) (noflush6 t0_6 (by show (6 : ℕ) < 8; omega))]
  rw [show (dats m 0 c).Φ t0_6.castSucc = PhiN m c 6 from rfl, show (dats m 0 c).Φ t0_6.succ = PhiN m c 7 from rfl]
  rw [PhiN_6, PhiN_7]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R6 m c).2.2.2.2.2.2.2.2.2 ((dats m 0 c).before 6 t0_6 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 7: the invariant hands it the scratch at what the points before left, the run applies, and the
    scratch comes back at what the invariant states for the next point; the output window is idle and keeps its contents. -/
theorem sound_7 (c : Dev nD) :
    bodyPre m c t0_7 ⊢ wp frame (wpE (defs₀ (F := F)) Variants.none c none) Set.univ (bodyAt0 t0_7) (fun _ => bodyPost m c t0_7) := by
  unfold bodyPre bodyPost bodyAt0
  simp only [before0_0, before0_1, before0_2, before0_3, before0_4, before0_5]
  rw [show (dats m 0 c).owesAt () t0_7.succ = (dats m 0 c).owesAt () t0_7.castSucc from rfl]
  rw [leaves0_0, leaves0_1, leaves0_2, leaves0_3, leaves0_4, leaves0_5]
  rw [Dat.leavesExact_idle (dats m 0 c) 6 t0_7 (idle6 t0_7 (by show (7 : ℕ) < 8; omega)) (noflush6 t0_7 (by show (7 : ℕ) < 8; omega))]
  rw [show (dats m 0 c).Φ t0_7.castSucc = PhiN m c 7 from rfl, show (dats m 0 c).Φ t0_7.succ = PhiN m c 8 from rfl]
  rw [PhiN_ge m c 8 (by omega), PhiN_7]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R7 m c).2.2.2.2.2.2.2.2.2.2 ((dats m 0 c).before 6 t0_7 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.Kernel.Body

end
-- ==== Proof.Body.KSoundE.lean ====
import proofs.«166091_g16140487098644_cont_week2b_486_32_alg».proof.Proof.Body.KData

/-!
The body obligation at grid points 8..15, one lemma per point: the run of that point applied between the invariant before it
and the invariant after it.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at point 8: the scratch goes in and comes back as the streaming points left it, and the output's buffer
    is stored whole with row block 0 of the result. -/
theorem sound_8 (c : Dev nD) :
    bodyPre m c t0_8 ⊢ wp frame (wpE (defs₀ (F := F)) Variants.none c none) Set.univ (bodyAt0 t0_8) (fun _ => bodyPost m c t0_8) := by
  unfold bodyPre bodyPost bodyAt0
  simp only [before0_0, before0_1, before0_2, before0_3, before0_4, before0_5]
  rw [show (dats m 0 c).owesAt () t0_8.succ = (dats m 0 c).owesAt () t0_8.castSucc from rfl]
  rw [leaves0_0, leaves0_1, leaves0_2, leaves0_3, leaves0_4, leaves0_5]
  rw [show (dats m 0 c).leavesExact 6 t0_8 = owns (c : Thread nD τ) (ms7 t0_8) fullShare (outOf (R8 m c).1) from by
    unfold Dat.leavesExact; rw [live6 t0_8 (by show 8 ≤ (8 : ℕ); omega), after0_6]; rfl]
  rw [show (dats m 0 c).Φ t0_8.castSucc = PhiN m c 8 from rfl, show (dats m 0 c).Φ t0_8.succ = PhiN m c 9 from rfl]
  rw [PhiN_ge m c 8 (by omega), PhiN_ge m c 9 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R8 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 9: the scratch goes in and comes back as the streaming points left it, and the output's buffer
    is stored whole with row block 1 of the result. -/
theorem sound_9 (c : Dev nD) :
    bodyPre m c t0_9 ⊢ wp frame (wpE (defs₀ (F := F)) Variants.none c none) Set.univ (bodyAt0 t0_9) (fun _ => bodyPost m c t0_9) := by
  unfold bodyPre bodyPost bodyAt0
  simp only [before0_0, before0_1, before0_2, before0_3, before0_4, before0_5]
  rw [show (dats m 0 c).owesAt () t0_9.succ = (dats m 0 c).owesAt () t0_9.castSucc from rfl]
  rw [leaves0_0, leaves0_1, leaves0_2, leaves0_3, leaves0_4, leaves0_5]
  rw [show (dats m 0 c).leavesExact 6 t0_9 = owns (c : Thread nD τ) (ms7 t0_9) fullShare (outOf (R9 m c).1) from by
    unfold Dat.leavesExact; rw [live6 t0_9 (by show 8 ≤ (9 : ℕ); omega), after0_6]; rfl]
  rw [show (dats m 0 c).Φ t0_9.castSucc = PhiN m c 9 from rfl, show (dats m 0 c).Φ t0_9.succ = PhiN m c 10 from rfl]
  rw [PhiN_ge m c 9 (by omega), PhiN_ge m c 10 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R9 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 10: the scratch goes in and comes back as the streaming points left it, and the output's buffer
    is stored whole with row block 2 of the result. -/
theorem sound_10 (c : Dev nD) :
    bodyPre m c t0_10 ⊢ wp frame (wpE (defs₀ (F := F)) Variants.none c none) Set.univ (bodyAt0 t0_10) (fun _ => bodyPost m c t0_10) := by
  unfold bodyPre bodyPost bodyAt0
  simp only [before0_0, before0_1, before0_2, before0_3, before0_4, before0_5]
  rw [show (dats m 0 c).owesAt () t0_10.succ = (dats m 0 c).owesAt () t0_10.castSucc from rfl]
  rw [leaves0_0, leaves0_1, leaves0_2, leaves0_3, leaves0_4, leaves0_5]
  rw [show (dats m 0 c).leavesExact 6 t0_10 = owns (c : Thread nD τ) (ms7 t0_10) fullShare (outOf (R10 m c).1) from by
    unfold Dat.leavesExact; rw [live6 t0_10 (by show 8 ≤ (10 : ℕ); omega), after0_6]; rfl]
  rw [show (dats m 0 c).Φ t0_10.castSucc = PhiN m c 10 from rfl, show (dats m 0 c).Φ t0_10.succ = PhiN m c 11 from rfl]
  rw [PhiN_ge m c 10 (by omega), PhiN_ge m c 11 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R10 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 11: the scratch goes in and comes back as the streaming points left it, and the output's buffer
    is stored whole with row block 3 of the result. -/
theorem sound_11 (c : Dev nD) :
    bodyPre m c t0_11 ⊢ wp frame (wpE (defs₀ (F := F)) Variants.none c none) Set.univ (bodyAt0 t0_11) (fun _ => bodyPost m c t0_11) := by
  unfold bodyPre bodyPost bodyAt0
  simp only [before0_0, before0_1, before0_2, before0_3, before0_4, before0_5]
  rw [show (dats m 0 c).owesAt () t0_11.succ = (dats m 0 c).owesAt () t0_11.castSucc from rfl]
  rw [leaves0_0, leaves0_1, leaves0_2, leaves0_3, leaves0_4, leaves0_5]
  rw [show (dats m 0 c).leavesExact 6 t0_11 = owns (c : Thread nD τ) (ms7 t0_11) fullShare (outOf (R11 m c).1) from by
    unfold Dat.leavesExact; rw [live6 t0_11 (by show 8 ≤ (11 : ℕ); omega), after0_6]; rfl]
  rw [show (dats m 0 c).Φ t0_11.castSucc = PhiN m c 11 from rfl, show (dats m 0 c).Φ t0_11.succ = PhiN m c 12 from rfl]
  rw [PhiN_ge m c 11 (by omega), PhiN_ge m c 12 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R11 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 12: the scratch goes in and comes back as the streaming points left it, and the output's buffer
    is stored whole with row block 4 of the result. -/
theorem sound_12 (c : Dev nD) :
    bodyPre m c t0_12 ⊢ wp frame (wpE (defs₀ (F := F)) Variants.none c none) Set.univ (bodyAt0 t0_12) (fun _ => bodyPost m c t0_12) := by
  unfold bodyPre bodyPost bodyAt0
  simp only [before0_0, before0_1, before0_2, before0_3, before0_4, before0_5]
  rw [show (dats m 0 c).owesAt () t0_12.succ = (dats m 0 c).owesAt () t0_12.castSucc from rfl]
  rw [leaves0_0, leaves0_1, leaves0_2, leaves0_3, leaves0_4, leaves0_5]
  rw [show (dats m 0 c).leavesExact 6 t0_12 = owns (c : Thread nD τ) (ms7 t0_12) fullShare (outOf (R12 m c).1) from by
    unfold Dat.leavesExact; rw [live6 t0_12 (by show 8 ≤ (12 : ℕ); omega), after0_6]; rfl]
  rw [show (dats m 0 c).Φ t0_12.castSucc = PhiN m c 12 from rfl, show (dats m 0 c).Φ t0_12.succ = PhiN m c 13 from rfl]
  rw [PhiN_ge m c 12 (by omega), PhiN_ge m c 13 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R12 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 13: the scratch goes in and comes back as the streaming points left it, and the output's buffer
    is stored whole with row block 5 of the result. -/
theorem sound_13 (c : Dev nD) :
    bodyPre m c t0_13 ⊢ wp frame (wpE (defs₀ (F := F)) Variants.none c none) Set.univ (bodyAt0 t0_13) (fun _ => bodyPost m c t0_13) := by
  unfold bodyPre bodyPost bodyAt0
  simp only [before0_0, before0_1, before0_2, before0_3, before0_4, before0_5]
  rw [show (dats m 0 c).owesAt () t0_13.succ = (dats m 0 c).owesAt () t0_13.castSucc from rfl]
  rw [leaves0_0, leaves0_1, leaves0_2, leaves0_3, leaves0_4, leaves0_5]
  rw [show (dats m 0 c).leavesExact 6 t0_13 = owns (c : Thread nD τ) (ms7 t0_13) fullShare (outOf (R13 m c).1) from by
    unfold Dat.leavesExact; rw [live6 t0_13 (by show 8 ≤ (13 : ℕ); omega), after0_6]; rfl]
  rw [show (dats m 0 c).Φ t0_13.castSucc = PhiN m c 13 from rfl, show (dats m 0 c).Φ t0_13.succ = PhiN m c 14 from rfl]
  rw [PhiN_ge m c 13 (by omega), PhiN_ge m c 14 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R13 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 14: the scratch goes in and comes back as the streaming points left it, and the output's buffer
    is stored whole with row block 6 of the result. -/
theorem sound_14 (c : Dev nD) :
    bodyPre m c t0_14 ⊢ wp frame (wpE (defs₀ (F := F)) Variants.none c none) Set.univ (bodyAt0 t0_14) (fun _ => bodyPost m c t0_14) := by
  unfold bodyPre bodyPost bodyAt0
  simp only [before0_0, before0_1, before0_2, before0_3, before0_4, before0_5]
  rw [show (dats m 0 c).owesAt () t0_14.succ = (dats m 0 c).owesAt () t0_14.castSucc from rfl]
  rw [leaves0_0, leaves0_1, leaves0_2, leaves0_3, leaves0_4, leaves0_5]
  rw [show (dats m 0 c).leavesExact 6 t0_14 = owns (c : Thread nD τ) (ms7 t0_14) fullShare (outOf (R14 m c).1) from by
    unfold Dat.leavesExact; rw [live6 t0_14 (by show 8 ≤ (14 : ℕ); omega), after0_6]; rfl]
  rw [show (dats m 0 c).Φ t0_14.castSucc = PhiN m c 14 from rfl, show (dats m 0 c).Φ t0_14.succ = PhiN m c 15 from rfl]
  rw [PhiN_ge m c 14 (by omega), PhiN_ge m c 15 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R14 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 15: the scratch goes in and comes back as the streaming points left it, and the output's buffer
    is stored whole with row block 7 of the result. -/
theorem sound_15 (c : Dev nD) :
    bodyPre m c t0_15 ⊢ wp frame (wpE (defs₀ (F := F)) Variants.none c none) Set.univ (bodyAt0 t0_15) (fun _ => bodyPost m c t0_15) := by
  unfold bodyPre bodyPost bodyAt0
  simp only [before0_0, before0_1, before0_2, before0_3, before0_4, before0_5]
  rw [show (dats m 0 c).owesAt () t0_15.succ = (dats m 0 c).owesAt () t0_15.castSucc from rfl]
  rw [leaves0_0, leaves0_1, leaves0_2, leaves0_3, leaves0_4, leaves0_5]
  rw [show (dats m 0 c).leavesExact 6 t0_15 = owns (c : Thread nD τ) (ms7 t0_15) fullShare (outOf (R15 m c).1) from by
    unfold Dat.leavesExact; rw [live6 t0_15 (by show 8 ≤ (15 : ℕ); omega), after0_6]; rfl]
  rw [show (dats m 0 c).Φ t0_15.castSucc = PhiN m c 15 from rfl, show (dats m 0 c).Φ t0_15.succ = PhiN m c 16 from rfl]
  rw [PhiN_ge m c 15 (by omega), PhiN_ge m c 16 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R15 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

end Cert.Kernel.Body

end
-- ==== Proof.Body.KFrame.lean ====
import proofs.«166091_g16140487098644_cont_week2b_486_32_alg».proof.Proof.Body.KSoundS
import proofs.«166091_g16140487098644_cont_week2b_486_32_alg».proof.Proof.Body.KSoundE
import Idealize.ShloMosaic.Lib.Pipeline.Frame

/-!
The kernel's frame run: the body obligation at every grid point, the invariant handed in and given back, and the launch.

The region is entered with the scratch at anything (the class invariant), which is the tracked invariant before point 0;
after the last point the tracked invariant's named contents are forgotten and the class invariant is given back. Between,
each point's lemma is the obligation there. The library's tracked frame run then says every weakly fair execution of the
program terminates with each array of the pipeline at what the proof data computes, and the frame claim's post is read off that.
-/
set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: one of the sixteen. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl | rfl | rfl | rfl | rfl | rfl | rfl | rfl | rfl
  · exact sound_0 m c
  · exact sound_1 m c
  · exact sound_2 m c
  · exact sound_3 m c
  · exact sound_4 m c
  · exact sound_5 m c
  · exact sound_6 m c
  · exact sound_7 m c
  · exact sound_8 m c
  · exact sound_9 m c
  · exact sound_10 m c
  · exact sound_11 m c
  · exact sound_12 m c
  · exact sound_13 m c
  · exact sound_14 m c
  · exact sound_15 m c

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- A scratch buffer at named pieces over some contents is the buffer at some contents. -/
theorem forget {s : Shape} {e : EltTy} (c : Dev nD) (M : Memref sig .tc .vmem s e) (L : List (View.Piece (Elt F) s e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  unfold owns
  iexists (M.view.read (Elt F) (M.view.writes (Elt F) f L)), (M.view.writes (Elt F) f L)
  isplitr; · ipureintro; rfl
  iexact H

/-- After the last point the invariant gives the class invariant back: the scratch's named contents are forgotten. -/
theorem hout (c : Dev nD) : (dats m 0 c).Φ (Fin.last cfg0.N) ⊢ Pipeline.ΦA spec0 c := by
  have hN : (Fin.last cfg0.N).val = 16 := by rw [Fin.val_last]; exact N_0
  rw [show (dats m 0 c).Φ (Fin.last cfg0.N) = PhiN m c (Fin.last cfg0.N).val from rfl, PhiN_ge m c _ (by rw [hN]; omega), PhiA_eq]
  unfold PhiEnd
  iintro ⟨H8, H9, H10, H11, Hg⟩
  isplitl [H8 H9 H10 H11]
  · isplitl [H8]; · iapply (forget c sc8 _); iexact H8
    isplitl [H9]; · iapply (forget c sc9 _); iexact H9
    isplitl [H10]; · iapply (forget c sc10 _); iexact H10
    iapply (forget c sc11 _); iexact H11
  iexact Hg

set_option backward.isDefEq.respectTransparency.types false in
/-- Every weakly fair execution of the program terminates, and every final state has every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.Body.KIRun0.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 0, where two branches fire: the support max(feature · weight, 0) is stored whole into its scratch,
and the streaming step of row block 0 stores block 0 of adj and of t1 and sets block 0 of t2.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The body at grid point 0: on whole staging memrefs, the inputs at their blocks and everything else at anything, it runs to the end
    leaving the inputs and the output's buffer as they were and each scratch written, over whatever it held, with the values the run finds:
    the support whole, row block 0 of t1, of t2 and of the copy of adj. -/
noncomputable def run0 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) :
    Σ' (s8 : Vec F S4096x128 .bf16) (b9 : Vec F S512x128 .bf16) (u10 : Vec F S512x128 .f32), { a11 : Vec F S512x4096 .bf16 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7
                ∗ (∃ f, arg8.view.loc (c : Thread nD τ) ↦[arg8.view.set]{fullShare} arg8.view.writes (Elt F) f [⟨Rect.unit (s := S4096x128) ![0, 0] S4096x128.size inb_S4096x128_S4096x128_0_0, s8⟩])
                ∗ (∃ f, arg9.view.loc (c : Thread nD τ) ↦[arg9.view.set]{fullShare} arg9.view.writes (Elt F) f [⟨Rect.unit (s := S4096x128) ![0, 0] S512x128.size inb_S4096x128_S512x128_0_0, b9⟩])
                ∗ (∃ f, arg10.view.loc (c : Thread nD τ) ↦[arg10.view.set]{fullShare} arg10.view.writes (Elt F) f [⟨Rect.unit (s := S4096x128) ![0, 0] S512x128.size inb_S4096x128_S512x128_0_0, u10⟩])
                ∗ (∃ f, arg11.view.loc (c : Thread nD τ) ↦[arg11.view.set]{fullShare} arg11.view.writes (Elt F) f [⟨Rect.unit (s := S4096x4096) ![0, 0] S512x4096.size inb_S4096x4096_S512x4096_0_0, a11⟩])) -∗ K ⟨⟩))
          ⊢ wp frame (wpE (defs₀ (F := F)) Variants.none c none) E (cc0__fused_kernel (grid0.coords t0_0) arg1 harg1 arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun1.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 1: the streaming step of row block 1.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 1 (the streaming step of row block 1): on whole staging memrefs, the six inputs at their blocks and the
    output's buffer at anything, the support scratch at its whole value, the scratch copies of adj and of t1 at the 1 row blocks
    stored so far and the t2 scratch at the pieces stored so far, each over whatever the scratch held before, the body runs to the
    end leaving the inputs and the output's buffer as they were, row block 1 of adj and of t1 stored, row block 1 of t2 set to
    its partial sum and each earlier row block of t2 rewritten with its new partial sum; the stored values are found by the run. -/
noncomputable def run1 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (a0 : Vec F S512x4096 .bf16) (d0 : Vec F S512x128 .f32) :
    Σ' (bn : Vec F S512x128 .bf16) (an : Vec F S512x4096 .bf16) (dn : Vec F S512x128 .f32), { pn0 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![512, 0] S512x128.size inb_S4096x128_S512x128_512_0, bn⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, pn0⟩, ⟨Rect.unit (s := S4096x128) ![512, 0] S512x128.size inb_S4096x128_S512x128_512_0, dn⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![512, 0] S512x4096.size inb_S4096x4096_S512x4096_512_0, an⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_1) arg1 harg1 arg2 harg2 arg3 harg3 arg4 harg4 arg5 harg5 arg6 harg6 arg7 harg7 arg8 harg8 arg9 harg9 arg10 harg10 arg11 harg11) K } := by
  refine ⟨?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun2.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 2: the streaming step of row block 2.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 2 (the streaming step of row block 2): on whole staging memrefs, the six inputs at their blocks and the
    output's buffer at anything, the support scratch at its whole value, the scratch copies of adj and of t1 at the 2 row blocks
    stored so far and the t2 scratch at the pieces stored so far, each over whatever the scratch held before, the body runs to the
    end leaving the inputs and the output's buffer as they were, row block 2 of adj and of t1 stored, row block 2 of t2 set to
    its partial sum and each earlier row block of t2 rewritten with its new partial sum; the stored values are found by the run. -/
noncomputable def run2 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (a0 : Vec F S512x4096 .bf16) (a1 : Vec F S512x4096 .bf16) (d0 : Vec F S512x128 .f32) (d1 : Vec F S512x128 .f32) (p1_0 : Vec F S512x128 .f32) :
    Σ' (bn : Vec F S512x128 .bf16) (an : Vec F S512x4096 .bf16) (dn : Vec F S512x128 .f32) (pn0 : Vec F S512x128 .f32), { pn1 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1024, 0] S512x128.size inb_S4096x128_S512x128_1024_0, bn⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![1024, 0] S512x128.size inb_S4096x128_S512x128_1024_0, dn⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1024, 0] S512x4096.size inb_S4096x4096_S512x4096_1024_0, an⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_2) arg1 harg1 arg2 harg2 arg3 harg3 arg4 harg4 arg5 harg5 arg6 harg6 arg7 harg7 arg8 harg8 arg9 harg9 arg10 harg10 arg11 harg11) K } := by
  refine ⟨?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun3.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 3: the streaming step of row block 3.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 3 (the streaming step of row block 3): on whole staging memrefs, the six inputs at their blocks and the
    output's buffer at anything, the support scratch at its whole value, the scratch copies of adj and of t1 at the 3 row blocks
    stored so far and the t2 scratch at the pieces stored so far, each over whatever the scratch held before, the body runs to the
    end leaving the inputs and the output's buffer as they were, row block 3 of adj and of t1 stored, row block 3 of t2 set to
    its partial sum and each earlier row block of t2 rewritten with its new partial sum; the stored values are found by the run. -/
noncomputable def run3 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (a0 : Vec F S512x4096 .bf16) (a1 : Vec F S512x4096 .bf16) (a2 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) :
    Σ' (bn : Vec F S512x128 .bf16) (an : Vec F S512x4096 .bf16) (dn : Vec F S512x128 .f32) (pn0 : Vec F S512x128 .f32) (pn1 : Vec F S512x128 .f32), { pn2 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1536, 0] S512x128.size inb_S4096x128_S512x128_1536_0, bn⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![1536, 0] S512x128.size inb_S4096x128_S512x128_1536_0, dn⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1536, 0] S512x4096.size inb_S4096x4096_S512x4096_1536_0, an⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_3) arg1 harg1 arg2 harg2 arg3 harg3 arg4 harg4 arg5 harg5 arg6 harg6 arg7 harg7 arg8 harg8 arg9 harg9 arg10 harg10 arg11 harg11) K } := by
  refine ⟨?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun4.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 4: the streaming step of row block 4.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 4 (the streaming step of row block 4): on whole staging memrefs, the six inputs at their blocks and the
    output's buffer at anything, the support scratch at its whole value, the scratch copies of adj and of t1 at the 4 row blocks
    stored so far and the t2 scratch at the pieces stored so far, each over whatever the scratch held before, the body runs to the
    end leaving the inputs and the output's buffer as they were, row block 4 of adj and of t1 stored, row block 4 of t2 set to
    its partial sum and each earlier row block of t2 rewritten with its new partial sum; the stored values are found by the run. -/
noncomputable def run4 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (a0 : Vec F S512x4096 .bf16) (a1 : Vec F S512x4096 .bf16) (a2 : Vec F S512x4096 .bf16) (a3 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32), { pn3 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2048, 0] S512x128.size inb_S4096x128_S512x128_2048_0, bn⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![2048, 0] S512x128.size inb_S4096x128_S512x128_2048_0, dn⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2048, 0] S512x4096.size inb_S4096x4096_S512x4096_2048_0, an⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_4) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun5.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 5: the streaming step of row block 5.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 5 (the streaming step of row block 5): on whole staging memrefs, the six inputs at their blocks and the
    output's buffer at anything, the support scratch at its whole value, the scratch copies of adj and of t1 at the 5 row blocks
    stored so far and the t2 scratch at the pieces stored so far, each over whatever the scratch held before, the body runs to the
    end leaving the inputs and the output's buffer as they were, row block 5 of adj and of t1 stored, row block 5 of t2 set to
    its partial sum and each earlier row block of t2 rewritten with its new partial sum; the stored values are found by the run. -/
noncomputable def run5 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (a0 : Vec F S512x4096 .bf16) (a1 : Vec F S512x4096 .bf16) (a2 : Vec F S512x4096 .bf16) (a3 : Vec F S512x4096 .bf16) (a4 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32), { pn4 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2560, 0] S512x128.size inb_S4096x128_S512x128_2560_0, bn⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![2560, 0] S512x128.size inb_S4096x128_S512x128_2560_0, dn⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2560, 0] S512x4096.size inb_S4096x4096_S512x4096_2560_0, an⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_5) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun6.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 6: the streaming step of row block 6.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 6 (the streaming step of row block 6): on whole staging memrefs, the six inputs at their blocks and the
    output's buffer at anything, the support scratch at its whole value, the scratch copies of adj and of t1 at the 6 row blocks
    stored so far and the t2 scratch at the pieces stored so far, each over whatever the scratch held before, the body runs to the
    end leaving the inputs and the output's buffer as they were, row block 6 of adj and of t1 stored, row block 6 of t2 set to
    its partial sum and each earlier row block of t2 rewritten with its new partial sum; the stored values are found by the run. -/
noncomputable def run6 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32) (pn4 : Vec F S512x128 .f32), { pn5 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3072, 0] S512x128.size inb_S4096x128_S512x128_3072_0, bn⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2560, 0] S512x128.size inb_S4096x128_S512x128_2560_0, pn5⟩, ⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![3072, 0] S512x128.size inb_S4096x128_S512x128_3072_0, dn⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3072, 0] S512x4096.size inb_S4096x4096_S512x4096_3072_0, an⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_6) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun7.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 7: the streaming step of row block 7.
-/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at grid point 7 (the streaming step of row block 7): on whole staging memrefs, the six inputs at their blocks and the
    output's buffer at anything, the support scratch at its whole value, the scratch copies of adj and of t1 at the 7 row blocks
    stored so far and the t2 scratch at the pieces stored so far, each over whatever the scratch held before, the body runs to the
    end leaving the inputs and the output's buffer as they were, row block 7 of adj and of t1 stored, row block 7 of t2 set to
    its partial sum and each earlier row block of t2 rewritten with its new partial sum; the stored values are found by the run. -/
noncomputable def run7 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) :
    Σ' (bn : Vec F S512x128 .bf16) (an : Vec F S512x4096 .bf16) (dn : Vec F S512x128 .f32) (pn0 : Vec F S512x128 .f32) (pn1 : Vec F S512x128 .f32) (pn2 : Vec F S512x128 .f32) (pn3 : Vec F S512x128 .f32) (pn4 : Vec F S512x128 .f32) (pn5 : Vec F S512x128 .f32), { pn6 : Vec F S512x128 .f32 //
      ∀ (y7 : Vec F S512x128 .f32) (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ owns (c : Thread nD τ) arg7 fullShare y7 ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, bn⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, pn6⟩, ⟨Rect.unit (s := S4096x128) ![2560, 0] S512x128.size inb_S4096x128_S512x128_2560_0, pn5⟩, ⟨Rect.unit (s := S4096x128) ![2048, 0] S512x128.size inb_S4096x128_S512x128_2048_0, pn4⟩, ⟨Rect.unit (s := S4096x128) ![1536, 0] S512x128.size inb_S4096x128_S512x128_1536_0, pn3⟩, ⟨Rect.unit (s := S4096x128) ![1024, 0] S512x128.size inb_S4096x128_S512x128_1024_0, pn2⟩, ⟨Rect.unit (s := S4096x128) ![512, 0] S512x128.size inb_S4096x128_S512x128_512_0, pn1⟩, ⟨Rect.unit (s := S4096x128) ![0, 0] S512x128.size inb_S4096x128_S512x128_0_0, pn0⟩, ⟨Rect.unit (s := S4096x128) ![3584, 0] S512x128.size inb_S4096x128_S512x128_3584_0, dn⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, an⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_7) arg1 harg1 arg2 harg2 arg3 harg3 arg4 harg4 arg5 harg5 arg6 harg6 arg7 harg7 arg8 harg8 arg9 harg9 arg10 harg10 arg11 harg11) K } := by
  refine ⟨?_, ?_, ?_, ?_, ?_, ?_, ?_, ?_, ?_, ?_, fun y7 E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists f7; isplitr; · ipureintro; exact hf7
      iexact H7
    isplitl [H8]; · iexists _; iexact H8
    isplitl [H9]; · iexists _; iexact H9
    isplitl [H10]; · iexists _; iexact H10
    iexists _; iexact H11

end Cert.KernelIdeal.Body

end
-- ==== Proof.Body.KIRun8.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 8: row block 0 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 8: on whole staging memrefs, the inputs at their blocks, the output's buffer at anything and the four
    scratch buffers at the pieces the eight streaming steps stored (over whatever they held before), it runs to the end leaving the
    inputs and the scratch as they were and the output's buffer written whole with the value the run finds. -/
noncomputable def run8 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_8) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun9.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 9: row block 1 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 9: on whole staging memrefs, the inputs at their blocks, the output's buffer at anything and the four
    scratch buffers at the pieces the eight streaming steps stored (over whatever they held before), it runs to the end leaving the
    inputs and the scratch as they were and the output's buffer written whole with the value the run finds. -/
noncomputable def run9 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_9) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun10.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 10: row block 2 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 10: on whole staging memrefs, the inputs at their blocks, the output's buffer at anything and the four
    scratch buffers at the pieces the eight streaming steps stored (over whatever they held before), it runs to the end leaving the
    inputs and the scratch as they were and the output's buffer written whole with the value the run finds. -/
noncomputable def run10 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_10) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun11.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 11: row block 3 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 11: on whole staging memrefs, the inputs at their blocks, the output's buffer at anything and the four
    scratch buffers at the pieces the eight streaming steps stored (over whatever they held before), it runs to the end leaving the
    inputs and the scratch as they were and the output's buffer written whole with the value the run finds. -/
noncomputable def run11 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_11) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun12.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 12: row block 4 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 12: on whole staging memrefs, the inputs at their blocks, the output's buffer at anything and the four
    scratch buffers at the pieces the eight streaming steps stored (over whatever they held before), it runs to the end leaving the
    inputs and the scratch as they were and the output's buffer written whole with the value the run finds. -/
noncomputable def run12 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_12) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun13.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 13: row block 5 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 13: on whole staging memrefs, the inputs at their blocks, the output's buffer at anything and the four
    scratch buffers at the pieces the eight streaming steps stored (over whatever they held before), it runs to the end leaving the
    inputs and the scratch as they were and the output's buffer written whole with the value the run finds. -/
noncomputable def run13 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_13) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun14.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 14: row block 6 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 14: on whole staging memrefs, the inputs at their blocks, the output's buffer at anything and the four
    scratch buffers at the pieces the eight streaming steps stored (over whatever they held before), it runs to the end leaving the
    inputs and the scratch as they were and the output's buffer written whole with the value the run finds. -/
noncomputable def run14 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_14) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIRun15.lean ====
import proofs.«166091_g16140487098644_cont_week2b_486_32_alg».proof.Proof.Gen.KernelIdeal.Frame
import proofs.«166091_g16140487098644_cont_week2b_486_32_alg».proof.Proof.Gen.KernelIdeal.Skeleton
import Idealize.ShloMosaic.Lib.Pipeline.FrameBody
import Idealize.ShloMosaic.Lib.Tactic

/-!
The kernel body at grid point 15: row block 7 of the result is formed from the scratch and stored into the output's buffer.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- The body at grid point 15: on whole staging memrefs, the inputs at their blocks, the output's buffer at anything and the four
    scratch buffers at the pieces the eight streaming steps stored (over whatever they held before), it runs to the end leaving the
    inputs and the scratch as they were and the output's buffer written whole with the value the run finds. -/
noncomputable def run15 (c : Dev nD) (arg1 : Memref sig .tc .vmem S4096x128 .f32) (harg1 : arg1.IsWhole) (arg2 : Memref sig .tc .vmem S128x128 .f32) (harg2 : arg2.IsWhole) (arg3 : Memref sig .tc .vmem S512x4096 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S512x128 .f32) (harg7 : arg7.IsWhole) (arg8 : Memref sig .tc .vmem S4096x128 .bf16) (harg8 : arg8.IsWhole) (arg9 : Memref sig .tc .vmem S4096x128 .bf16) (harg9 : arg9.IsWhole) (arg10 : Memref sig .tc .vmem S4096x128 .f32) (harg10 : arg10.IsWhole) (arg11 : Memref sig .tc .vmem S4096x4096 .bf16) (harg11 : arg11.IsWhole)
    (x1 : Vec F S4096x128 .f32) (x2 : Vec F S128x128 .f32) (x3 : Vec F S512x4096 .f32) (x4 : Vec F S128x256 .f32) (x5 : Vec F S1x128 .f32) (x6 : Vec F S1x128 .f32) (s : Vec F S4096x128 .bf16) (b0 : Vec F S512x128 .bf16) (b1 : Vec F S512x128 .bf16) (b2 : Vec F S512x128 .bf16) (b3 : Vec F S512x128 .bf16) (b4 : Vec F S512x128 .bf16) (b5 : Vec F S512x128 .bf16) (b6 : Vec F S512x128 .bf16) (b7 : Vec F S512x128 .bf16) (a0 : Vec F S512x4096 .bf16) (a1 : Vec F S512x4096 .bf16) (a2 : Vec F S512x4096 .bf16) (a3 : Vec F S512x4096 .bf16) (a4 : Vec F S512x4096 .bf16) (a5 : Vec F S512x4096 .bf16) (a6 : Vec F S512x4096 .bf16) (a7 : Vec F S512x4096 .bf16) (d0 : Vec F S512x128 .f32) (d1 : Vec F S512x128 .f32) (p1_0 : Vec F S512x128 .f32) (d2 : Vec F S512x128 .f32) (p2_0 : Vec F S512x128 .f32) (p2_1 : Vec F S512x128 .f32) (d3 : Vec F S512x128 .f32) (p3_0 : Vec F S512x128 .f32) (p3_1 : Vec F S512x128 .f32) (p3_2 : Vec F S512x128 .f32) (d4 : Vec F S512x128 .f32) (p4_0 : Vec F S512x128 .f32) (p4_1 : Vec F S512x128 .f32) (p4_2 : Vec F S512x128 .f32) (p4_3 : Vec F S512x128 .f32) (d5 : Vec F S512x128 .f32) (p5_0 : Vec F S512x128 .f32) (p5_1 : Vec F S512x128 .f32) (p5_2 : Vec F S512x128 .f32) (p5_3 : Vec F S512x128 .f32) (p5_4 : Vec F S512x128 .f32) (d6 : Vec F S512x128 .f32) (p6_0 : Vec F S512x128 .f32) (p6_1 : Vec F S512x128 .f32) (p6_2 : Vec F S512x128 .f32) (p6_3 : Vec F S512x128 .f32) (p6_4 : Vec F S512x128 .f32) (p6_5 : Vec F S512x128 .f32) (d7 : Vec F S512x128 .f32) (p7_0 : Vec F S512x128 .f32) (p7_1 : Vec F S512x128 .f32) (p7_2 : Vec F S512x128 .f32) (p7_3 : Vec F S512x128 .f32) (p7_4 : Vec F S512x128 .f32) (p7_5 : Vec F S512x128 .f32) (p7_6 : Vec F S512x128 .f32) :
    { o : Vec F S512x128 .f32 //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ (∃ d, owns (c : Thread nD τ) arg7 fullShare d) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
                ∗ (∃ f, arg7.view.loc (c : Thread nD τ) ↦[arg7.view.set]{fullShare} arg7.view.writes (Elt F) f [⟨Rect.unit (s := S512x128) ![0, 0] S512x128.size inb_S512x128_S512x128_0_0, o⟩]) ∗ (∃ f, arg8.view.loc (c : Thread nD τ) ↦[arg8.view.set]{fullShare} arg8.view.writes (Elt F) f [⟨Rect.unit (s := S4096x128) ![0, 0] S4096x128.size inb_S4096x128_S4096x128_0_0, s⟩]) ∗ (∃ f, arg9.view.loc (c : Thread nD τ) ↦[arg9.view.set]{fullShare} arg9.view.writes (Elt F) f [⟨Rect.unit (s := S4096x128) ![3584, 0] S512x128.size inb_S4096x128_S512x128_3584_0, b7⟩, ⟨Rect.unit (s := S4096x128) ![3072, 0] S512x128.size inb_S4096x128_S512x128_3072_0, b6⟩, ⟨Rect.unit (s := S4096x128) ![2560, 0] S512x128.size inb_S4096x128_S512x128_2560_0, b5⟩, ⟨Rect.unit (s := S4096x128) ![2048, 0] S512x128.size inb_S4096x128_S512x128_2048_0, b4⟩, ⟨Rect.unit (s := S4096x128) ![1536, 0] S512x128.size inb_S4096x128_S512x128_1536_0, b3⟩, ⟨Rect.unit (s := S4096x128) ![1024, 0] S512x128.size inb_S4096x128_S512x128_1024_0, b2⟩, ⟨Rect.unit (s := S4096x128) ![512, 0] S512x128.size inb_S4096x128_S512x128_512_0, b1⟩, ⟨Rect.unit (s := S4096x128) ![0, 0] S512x128.size inb_S4096x128_S512x128_0_0, b0⟩]) ∗ (∃ f, arg10.view.loc (c : Thread nD τ) ↦[arg10.view.set]{fullShare} arg10.view.writes (Elt F) f [⟨Rect.unit (s := S4096x128) ![3072, 0] S512x128.size inb_S4096x128_S512x128_3072_0, p7_6⟩, ⟨Rect.unit (s := S4096x128) ![2560, 0] S512x128.size inb_S4096x128_S512x128_2560_0, p7_5⟩, ⟨Rect.unit (s := S4096x128) ![2048, 0] S512x128.size inb_S4096x128_S512x128_2048_0, p7_4⟩, ⟨Rect.unit (s := S4096x128) ![1536, 0] S512x128.size inb_S4096x128_S512x128_1536_0, p7_3⟩, ⟨Rect.unit (s := S4096x128) ![1024, 0] S512x128.size inb_S4096x128_S512x128_1024_0, p7_2⟩, ⟨Rect.unit (s := S4096x128) ![512, 0] S512x128.size inb_S4096x128_S512x128_512_0, p7_1⟩, ⟨Rect.unit (s := S4096x128) ![0, 0] S512x128.size inb_S4096x128_S512x128_0_0, p7_0⟩, ⟨Rect.unit (s := S4096x128) ![3584, 0] S512x128.size inb_S4096x128_S512x128_3584_0, d7⟩, ⟨Rect.unit (s := S4096x128) ![2560, 0] S512x128.size inb_S4096x128_S512x128_2560_0, p6_5⟩, ⟨Rect.unit (s := S4096x128) ![2048, 0] S512x128.size inb_S4096x128_S512x128_2048_0, p6_4⟩, ⟨Rect.unit (s := S4096x128) ![1536, 0] S512x128.size inb_S4096x128_S512x128_1536_0, p6_3⟩, ⟨Rect.unit (s := S4096x128) ![1024, 0] S512x128.size inb_S4096x128_S512x128_1024_0, p6_2⟩, ⟨Rect.unit (s := S4096x128) ![512, 0] S512x128.size inb_S4096x128_S512x128_512_0, p6_1⟩, ⟨Rect.unit (s := S4096x128) ![0, 0] S512x128.size inb_S4096x128_S512x128_0_0, p6_0⟩, ⟨Rect.unit (s := S4096x128) ![3072, 0] S512x128.size inb_S4096x128_S512x128_3072_0, d6⟩, ⟨Rect.unit (s := S4096x128) ![2048, 0] S512x128.size inb_S4096x128_S512x128_2048_0, p5_4⟩, ⟨Rect.unit (s := S4096x128) ![1536, 0] S512x128.size inb_S4096x128_S512x128_1536_0, p5_3⟩, ⟨Rect.unit (s := S4096x128) ![1024, 0] S512x128.size inb_S4096x128_S512x128_1024_0, p5_2⟩, ⟨Rect.unit (s := S4096x128) ![512, 0] S512x128.size inb_S4096x128_S512x128_512_0, p5_1⟩, ⟨Rect.unit (s := S4096x128) ![0, 0] S512x128.size inb_S4096x128_S512x128_0_0, p5_0⟩, ⟨Rect.unit (s := S4096x128) ![2560, 0] S512x128.size inb_S4096x128_S512x128_2560_0, d5⟩, ⟨Rect.unit (s := S4096x128) ![1536, 0] S512x128.size inb_S4096x128_S512x128_1536_0, p4_3⟩, ⟨Rect.unit (s := S4096x128) ![1024, 0] S512x128.size inb_S4096x128_S512x128_1024_0, p4_2⟩, ⟨Rect.unit (s := S4096x128) ![512, 0] S512x128.size inb_S4096x128_S512x128_512_0, p4_1⟩, ⟨Rect.unit (s := S4096x128) ![0, 0] S512x128.size inb_S4096x128_S512x128_0_0, p4_0⟩, ⟨Rect.unit (s := S4096x128) ![2048, 0] S512x128.size inb_S4096x128_S512x128_2048_0, d4⟩, ⟨Rect.unit (s := S4096x128) ![1024, 0] S512x128.size inb_S4096x128_S512x128_1024_0, p3_2⟩, ⟨Rect.unit (s := S4096x128) ![512, 0] S512x128.size inb_S4096x128_S512x128_512_0, p3_1⟩, ⟨Rect.unit (s := S4096x128) ![0, 0] S512x128.size inb_S4096x128_S512x128_0_0, p3_0⟩, ⟨Rect.unit (s := S4096x128) ![1536, 0] S512x128.size inb_S4096x128_S512x128_1536_0, d3⟩, ⟨Rect.unit (s := S4096x128) ![512, 0] S512x128.size inb_S4096x128_S512x128_512_0, p2_1⟩, ⟨Rect.unit (s := S4096x128) ![0, 0] S512x128.size inb_S4096x128_S512x128_0_0, p2_0⟩, ⟨Rect.unit (s := S4096x128) ![1024, 0] S512x128.size inb_S4096x128_S512x128_1024_0, d2⟩, ⟨Rect.unit (s := S4096x128) ![0, 0] S512x128.size inb_S4096x128_S512x128_0_0, p1_0⟩, ⟨Rect.unit (s := S4096x128) ![512, 0] S512x128.size inb_S4096x128_S512x128_512_0, d1⟩, ⟨Rect.unit (s := S4096x128) ![0, 0] S512x128.size inb_S4096x128_S512x128_0_0, d0⟩]) ∗ (∃ f, arg11.view.loc (c : Thread nD τ) ↦[arg11.view.set]{fullShare} arg11.view.writes (Elt F) f [⟨Rect.unit (s := S4096x4096) ![3584, 0] S512x4096.size inb_S4096x4096_S512x4096_3584_0, a7⟩, ⟨Rect.unit (s := S4096x4096) ![3072, 0] S512x4096.size inb_S4096x4096_S512x4096_3072_0, a6⟩, ⟨Rect.unit (s := S4096x4096) ![2560, 0] S512x4096.size inb_S4096x4096_S512x4096_2560_0, a5⟩, ⟨Rect.unit (s := S4096x4096) ![2048, 0] S512x4096.size inb_S4096x4096_S512x4096_2048_0, a4⟩, ⟨Rect.unit (s := S4096x4096) ![1536, 0] S512x4096.size inb_S4096x4096_S512x4096_1536_0, a3⟩, ⟨Rect.unit (s := S4096x4096) ![1024, 0] S512x4096.size inb_S4096x4096_S512x4096_1024_0, a2⟩, ⟨Rect.unit (s := S4096x4096) ![512, 0] S512x4096.size inb_S4096x4096_S512x4096_512_0, a1⟩, ⟨Rect.unit (s := S4096x4096) ![0, 0] S512x4096.size inb_S4096x4096_S512x4096_0_0, a0⟩])) -∗ K ⟨⟩))
          ⊢ wp frame (wpE (defs₀ (F := F)) Variants.none c none) E (cc0__fused_kernel (grid0.coords t0_15) arg1 harg1 arg2 harg2 arg3 harg3 arg4 harg4 arg5 harg5 arg6 harg6 arg7 harg7 arg8 harg8 arg9 harg9 arg10 harg10 arg11 harg11) K } := by
  refine ⟨?_, fun E K => ?run⟩
  case run =>
    simp only [cc0__fused_kernel_eq_skeleton]; unfold cc0__fused_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, H8⟩, ⟨%f9, H9⟩, ⟨%f10, H10⟩, ⟨%f11, H11⟩, Hk⟩
    obtain rfl := harg1.eq_unread hf1; obtain rfl := harg2.eq_unread hf2; obtain rfl := harg3.eq_unread hf3
    obtain rfl := harg4.eq_unread hf4; obtain rfl := harg5.eq_unread hf5; obtain rfl := harg6.eq_unread hf6
    sl_exec
    sl_step
    sl_unfold_run_names
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]; · iexists _; iexact H7
    isplitl [H8]; · iexists _; iexact H8
    isplitl [H9]; · iexists _; iexact H9
    isplitl [H10]; · iexists _; iexact H10
    iexists _; iexact H11

end Cert.KernelIdeal.Body

end
-- ==== Proof.Body.KIData.lean ====
import proofs.«166091_g16140487098644_cont_week2b_486_32_alg».proof.Proof.Body.KIRun0
import proofs.«166091_g16140487098644_cont_week2b_486_32_alg».proof.Proof.Body.KIRun1
import proofs.«166091_g16140487098644_cont_week2b_486_32_alg».proof.Proof.Body.KIRun2
import proofs.«166091_g16140487098644_cont_week2b_486_32_alg».proof.Proof.Body.KIRun3
import proofs.«166091_g16140487098644_cont_week2b_486_32_alg».proof.Proof.Body.KIRun4
import proofs.«166091_g16140487098644_cont_week2b_486_32_alg».proof.Proof.Body.KIRun5
import proofs.«166091_g16140487098644_cont_week2b_486_32_alg».proof.Proof.Body.KIRun6
import proofs.«166091_g16140487098644_cont_week2b_486_32_alg».proof.Proof.Body.KIRun7
import proofs.«166091_g16140487098644_cont_week2b_486_32_alg».proof.Proof.Body.KIRun8
import proofs.«166091_g16140487098644_cont_week2b_486_32_alg».proof.Proof.Body.KIRun9
import proofs.«166091_g16140487098644_cont_week2b_486_32_alg».proof.Proof.Body.KIRun10
import proofs.«166091_g16140487098644_cont_week2b_486_32_alg».proof.Proof.Body.KIRun11
import proofs.«166091_g16140487098644_cont_week2b_486_32_alg».proof.Proof.Body.KIRun12
import proofs.«166091_g16140487098644_cont_week2b_486_32_alg».proof.Proof.Body.KIRun13
import proofs.«166091_g16140487098644_cont_week2b_486_32_alg».proof.Proof.Body.KIRun14
import proofs.«166091_g16140487098644_cont_week2b_486_32_alg».proof.Proof.Body.KIRun15
import Idealize.ShloMosaic.Lib.Pipeline.FrameBody
import Idealize.ShloMosaic.Lib.Ring
import Idealize.ShloMosaic.Lib.Tactic

/-!
The proof data of the kernel's pipeline: what the four scratch buffers hold between grid points.

After point 0 the support scratch holds max(feature · weight, 0) whole; after streaming point j the scratch copies of adj and
of t1 = adj · sup hold their row blocks 0..j, and the t2 scratch holds, newest first, every piece the points so far stored into
it (row block j set at point j, each earlier row block rewritten at every later point), all over whatever the scratch held
when the region was entered. Every value is the one the body's run at that point finds, a function of the input blocks and
of the values found before; the epilogue points 8..15 leave the scratch as it is and store row block t - 8 of the result.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms1 (t : Fin cfg0.N) : Memref sig .tc .vmem S4096x128 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S128x128 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S512x4096 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S128x256 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S1x128 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S1x128 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S512x128 .f32 := win0_6.stage (cfg0.slots t 6)
abbrev hs7 (t : Fin cfg0.N) : (ms7 t).IsWhole := hstage0_6 ((cfg0.slots t 6).cast nbuf0_6)
/-- The four scratch operands: whole scoped buffers. -/
abbrev sc8 : Memref sig .tc .vmem S4096x128 .bf16 := Memref.whole cc0_scratch0
abbrev sc9 : Memref sig .tc .vmem S4096x128 .bf16 := Memref.whole cc0_scratch1
abbrev sc10 : Memref sig .tc .vmem S4096x128 .f32 := Memref.whole cc0_scratch2
abbrev sc11 : Memref sig .tc .vmem S4096x4096 .bf16 := Memref.whole cc0_scratch3

/-! ## The values the runs find, point by point -/

/-- The run at point 0 on the staging memrefs and input blocks of that point. -/
def R0 (c : Dev nD) := run0 c (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) sc8 (Memref.isWhole_whole _) sc9 (Memref.isWhole_whole _) sc10 (Memref.isWhole_whole _) sc11 (Memref.isWhole_whole _) (iblk m c 0 t0_0) (iblk m c 1 t0_0) (iblk m c 2 t0_0) (iblk m c 3 t0_0) (iblk m c 4 t0_0) (iblk m c 5 t0_0)
/-- The support, as the run at point 0 stores it. -/
abbrev sv (c : Dev nD) : Vec F S4096x128 .bf16 := (R0 m c).1
/-- Row block 0 of t1. -/
abbrev bv0 (c : Dev nD) : Vec F S512x128 .bf16 := (R0 m c).2.1
/-- Row block 0 of t2 after point 0. -/
abbrev dv0 (c : Dev nD) : Vec F S512x128 .f32 := (R0 m c).2.2.1
/-- Row block 0 of the copy of adj. -/
abbrev av0 (c : Dev nD) : Vec F S512x4096 .bf16 := (R0 m c).2.2.2.1
/-- The run at point 1 on that point's memrefs and blocks, the scratch at what the points before left. -/
def R1 (c : Dev nD) := run1 c (ms1 t0_1) (hs1 t0_1) (ms2 t0_1) (hs2 t0_1) (ms3 t0_1) (hs3 t0_1) (ms4 t0_1) (hs4 t0_1) (ms5 t0_1) (hs5 t0_1) (ms6 t0_1) (hs6 t0_1) (ms7 t0_1) (hs7 t0_1) sc8 (Memref.isWhole_whole _) sc9 (Memref.isWhole_whole _) sc10 (Memref.isWhole_whole _) sc11 (Memref.isWhole_whole _) (iblk m c 0 t0_1) (iblk m c 1 t0_1) (iblk m c 2 t0_1) (iblk m c 3 t0_1) (iblk m c 4 t0_1) (iblk m c 5 t0_1) (sv m c) (bv0 m c) (av0 m c) (dv0 m c)
/-- Row block 1 of t1. -/
abbrev bv1 (c : Dev nD) : Vec F S512x128 .bf16 := (R1 m c).1
/-- Row block 1 of the copy of adj. -/
abbrev av1 (c : Dev nD) : Vec F S512x4096 .bf16 := (R1 m c).2.1
/-- Row block 1 of t2 as point 1 sets it. -/
abbrev dv1 (c : Dev nD) : Vec F S512x128 .f32 := (R1 m c).2.2.1
/-- Row block 0 of t2 as point 1 rewrites it. -/
abbrev pv1_0 (c : Dev nD) : Vec F S512x128 .f32 := (R1 m c).2.2.2.1
/-- The run at point 2 on that point's memrefs and blocks, the scratch at what the points before left. -/
def R2 (c : Dev nD) := run2 c (ms1 t0_2) (hs1 t0_2) (ms2 t0_2) (hs2 t0_2) (ms3 t0_2) (hs3 t0_2) (ms4 t0_2) (hs4 t0_2) (ms5 t0_2) (hs5 t0_2) (ms6 t0_2) (hs6 t0_2) (ms7 t0_2) (hs7 t0_2) sc8 (Memref.isWhole_whole _) sc9 (Memref.isWhole_whole _) sc10 (Memref.isWhole_whole _) sc11 (Memref.isWhole_whole _) (iblk m c 0 t0_2) (iblk m c 1 t0_2) (iblk m c 2 t0_2) (iblk m c 3 t0_2) (iblk m c 4 t0_2) (iblk m c 5 t0_2) (sv m c) (bv0 m c) (bv1 m c) (av0 m c) (av1 m c) (dv0 m c) (dv1 m c) (pv1_0 m c)
/-- Row block 2 of t1. -/
abbrev bv2 (c : Dev nD) : Vec F S512x128 .bf16 := (R2 m c).1
/-- Row block 2 of the copy of adj. -/
abbrev av2 (c : Dev nD) : Vec F S512x4096 .bf16 := (R2 m c).2.1
/-- Row block 2 of t2 as point 2 sets it. -/
abbrev dv2 (c : Dev nD) : Vec F S512x128 .f32 := (R2 m c).2.2.1
/-- Row block 0 of t2 as point 2 rewrites it. -/
abbrev pv2_0 (c : Dev nD) : Vec F S512x128 .f32 := (R2 m c).2.2.2.1
/-- Row block 1 of t2 as point 2 rewrites it. -/
abbrev pv2_1 (c : Dev nD) : Vec F S512x128 .f32 := (R2 m c).2.2.2.2.1
/-- The run at point 3 on that point's memrefs and blocks, the scratch at what the points before left. -/
def R3 (c : Dev nD) := run3 c (ms1 t0_3) (hs1 t0_3) (ms2 t0_3) (hs2 t0_3) (ms3 t0_3) (hs3 t0_3) (ms4 t0_3) (hs4 t0_3) (ms5 t0_3) (hs5 t0_3) (ms6 t0_3) (hs6 t0_3) (ms7 t0_3) (hs7 t0_3) sc8 (Memref.isWhole_whole _) sc9 (Memref.isWhole_whole _) sc10 (Memref.isWhole_whole _) sc11 (Memref.isWhole_whole _) (iblk m c 0 t0_3) (iblk m c 1 t0_3) (iblk m c 2 t0_3) (iblk m c 3 t0_3) (iblk m c 4 t0_3) (iblk m c 5 t0_3) (sv m c) (bv0 m c) (bv1 m c) (bv2 m c) (av0 m c) (av1 m c) (av2 m c) (dv0 m c) (dv1 m c) (pv1_0 m c) (dv2 m c) (pv2_0 m c) (pv2_1 m c)
/-- Row block 3 of t1. -/
abbrev bv3 (c : Dev nD) : Vec F S512x128 .bf16 := (R3 m c).1
/-- Row block 3 of the copy of adj. -/
abbrev av3 (c : Dev nD) : Vec F S512x4096 .bf16 := (R3 m c).2.1
/-- Row block 3 of t2 as point 3 sets it. -/
abbrev dv3 (c : Dev nD) : Vec F S512x128 .f32 := (R3 m c).2.2.1
/-- Row block 0 of t2 as point 3 rewrites it. -/
abbrev pv3_0 (c : Dev nD) : Vec F S512x128 .f32 := (R3 m c).2.2.2.1
/-- Row block 1 of t2 as point 3 rewrites it. -/
abbrev pv3_1 (c : Dev nD) : Vec F S512x128 .f32 := (R3 m c).2.2.2.2.1
/-- Row block 2 of t2 as point 3 rewrites it. -/
abbrev pv3_2 (c : Dev nD) : Vec F S512x128 .f32 := (R3 m c).2.2.2.2.2.1
/-- The run at point 4 on that point's memrefs and blocks, the scratch at what the points before left. -/
def R4 (c : Dev nD) := run4 c (ms1 t0_4) (hs1 t0_4) (ms2 t0_4) (hs2 t0_4) (ms3 t0_4) (hs3 t0_4) (ms4 t0_4) (hs4 t0_4) (ms5 t0_4) (hs5 t0_4) (ms6 t0_4) (hs6 t0_4) (ms7 t0_4) (hs7 t0_4) sc8 (Memref.isWhole_whole _) sc9 (Memref.isWhole_whole _) sc10 (Memref.isWhole_whole _) sc11 (Memref.isWhole_whole _) (iblk m c 0 t0_4) (iblk m c 1 t0_4) (iblk m c 2 t0_4) (iblk m c 3 t0_4) (iblk m c 4 t0_4) (iblk m c 5 t0_4) (sv m c) (bv0 m c) (bv1 m c) (bv2 m c) (bv3 m c) (av0 m c) (av1 m c) (av2 m c) (av3 m c) (dv0 m c) (dv1 m c) (pv1_0 m c) (dv2 m c) (pv2_0 m c) (pv2_1 m c) (dv3 m c) (pv3_0 m c) (pv3_1 m c) (pv3_2 m c)
/-- Row block 4 of t1. -/
abbrev bv4 (c : Dev nD) : Vec F S512x128 .bf16 := (R4 m c).1
/-- Row block 4 of the copy of adj. -/
abbrev av4 (c : Dev nD) : Vec F S512x4096 .bf16 := (R4 m c).2.1
/-- Row block 4 of t2 as point 4 sets it. -/
abbrev dv4 (c : Dev nD) : Vec F S512x128 .f32 := (R4 m c).2.2.1
/-- Row block 0 of t2 as point 4 rewrites it. -/
abbrev pv4_0 (c : Dev nD) : Vec F S512x128 .f32 := (R4 m c).2.2.2.1
/-- Row block 1 of t2 as point 4 rewrites it. -/
abbrev pv4_1 (c : Dev nD) : Vec F S512x128 .f32 := (R4 m c).2.2.2.2.1
/-- Row block 2 of t2 as point 4 rewrites it. -/
abbrev pv4_2 (c : Dev nD) : Vec F S512x128 .f32 := (R4 m c).2.2.2.2.2.1
/-- Row block 3 of t2 as point 4 rewrites it. -/
abbrev pv4_3 (c : Dev nD) : Vec F S512x128 .f32 := (R4 m c).2.2.2.2.2.2.1
/-- The run at point 5 on that point's memrefs and blocks, the scratch at what the points before left. -/
def R5 (c : Dev nD) := run5 c (ms1 t0_5) (hs1 t0_5) (ms2 t0_5) (hs2 t0_5) (ms3 t0_5) (hs3 t0_5) (ms4 t0_5) (hs4 t0_5) (ms5 t0_5) (hs5 t0_5) (ms6 t0_5) (hs6 t0_5) (ms7 t0_5) (hs7 t0_5) sc8 (Memref.isWhole_whole _) sc9 (Memref.isWhole_whole _) sc10 (Memref.isWhole_whole _) sc11 (Memref.isWhole_whole _) (iblk m c 0 t0_5) (iblk m c 1 t0_5) (iblk m c 2 t0_5) (iblk m c 3 t0_5) (iblk m c 4 t0_5) (iblk m c 5 t0_5) (sv m c) (bv0 m c) (bv1 m c) (bv2 m c) (bv3 m c) (bv4 m c) (av0 m c) (av1 m c) (av2 m c) (av3 m c) (av4 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c)
/-- Row block 5 of t1. -/
abbrev bv5 (c : Dev nD) : Vec F S512x128 .bf16 := (R5 m c).1
/-- Row block 5 of the copy of adj. -/
abbrev av5 (c : Dev nD) : Vec F S512x4096 .bf16 := (R5 m c).2.1
/-- Row block 5 of t2 as point 5 sets it. -/
abbrev dv5 (c : Dev nD) : Vec F S512x128 .f32 := (R5 m c).2.2.1
/-- Row block 0 of t2 as point 5 rewrites it. -/
abbrev pv5_0 (c : Dev nD) : Vec F S512x128 .f32 := (R5 m c).2.2.2.1
/-- Row block 1 of t2 as point 5 rewrites it. -/
abbrev pv5_1 (c : Dev nD) : Vec F S512x128 .f32 := (R5 m c).2.2.2.2.1
/-- Row block 2 of t2 as point 5 rewrites it. -/
abbrev pv5_2 (c : Dev nD) : Vec F S512x128 .f32 := (R5 m c).2.2.2.2.2.1
/-- Row block 3 of t2 as point 5 rewrites it. -/
abbrev pv5_3 (c : Dev nD) : Vec F S512x128 .f32 := (R5 m c).2.2.2.2.2.2.1
/-- Row block 4 of t2 as point 5 rewrites it. -/
abbrev pv5_4 (c : Dev nD) : Vec F S512x128 .f32 := (R5 m c).2.2.2.2.2.2.2.1
/-- The run at point 6 on that point's memrefs and blocks, the scratch at what the points before left. -/
def R6 (c : Dev nD) := run6 c (ms1 t0_6) (hs1 t0_6) (ms2 t0_6) (hs2 t0_6) (ms3 t0_6) (hs3 t0_6) (ms4 t0_6) (hs4 t0_6) (ms5 t0_6) (hs5 t0_6) (ms6 t0_6) (hs6 t0_6) (ms7 t0_6) (hs7 t0_6) sc8 (Memref.isWhole_whole _) sc9 (Memref.isWhole_whole _) sc10 (Memref.isWhole_whole _) sc11 (Memref.isWhole_whole _) (iblk m c 0 t0_6) (iblk m c 1 t0_6) (iblk m c 2 t0_6) (iblk m c 3 t0_6) (iblk m c 4 t0_6) (iblk m c 5 t0_6) (sv m c) (bv0 m c) (bv1 m c) (bv2 m c) (bv3 m c) (bv4 m c) (bv5 m c) (av0 m c) (av1 m c) (av2 m c) (av3 m c) (av4 m c) (av5 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c)
/-- Row block 6 of t1. -/
abbrev bv6 (c : Dev nD) : Vec F S512x128 .bf16 := (R6 m c).1
/-- Row block 6 of the copy of adj. -/
abbrev av6 (c : Dev nD) : Vec F S512x4096 .bf16 := (R6 m c).2.1
/-- Row block 6 of t2 as point 6 sets it. -/
abbrev dv6 (c : Dev nD) : Vec F S512x128 .f32 := (R6 m c).2.2.1
/-- Row block 0 of t2 as point 6 rewrites it. -/
abbrev pv6_0 (c : Dev nD) : Vec F S512x128 .f32 := (R6 m c).2.2.2.1
/-- Row block 1 of t2 as point 6 rewrites it. -/
abbrev pv6_1 (c : Dev nD) : Vec F S512x128 .f32 := (R6 m c).2.2.2.2.1
/-- Row block 2 of t2 as point 6 rewrites it. -/
abbrev pv6_2 (c : Dev nD) : Vec F S512x128 .f32 := (R6 m c).2.2.2.2.2.1
/-- Row block 3 of t2 as point 6 rewrites it. -/
abbrev pv6_3 (c : Dev nD) : Vec F S512x128 .f32 := (R6 m c).2.2.2.2.2.2.1
/-- Row block 4 of t2 as point 6 rewrites it. -/
abbrev pv6_4 (c : Dev nD) : Vec F S512x128 .f32 := (R6 m c).2.2.2.2.2.2.2.1
/-- Row block 5 of t2 as point 6 rewrites it. -/
abbrev pv6_5 (c : Dev nD) : Vec F S512x128 .f32 := (R6 m c).2.2.2.2.2.2.2.2.1
/-- The run at point 7 on that point's memrefs and blocks, the scratch at what the points before left. -/
def R7 (c : Dev nD) := run7 c (ms1 t0_7) (hs1 t0_7) (ms2 t0_7) (hs2 t0_7) (ms3 t0_7) (hs3 t0_7) (ms4 t0_7) (hs4 t0_7) (ms5 t0_7) (hs5 t0_7) (ms6 t0_7) (hs6 t0_7) (ms7 t0_7) (hs7 t0_7) sc8 (Memref.isWhole_whole _) sc9 (Memref.isWhole_whole _) sc10 (Memref.isWhole_whole _) sc11 (Memref.isWhole_whole _) (iblk m c 0 t0_7) (iblk m c 1 t0_7) (iblk m c 2 t0_7) (iblk m c 3 t0_7) (iblk m c 4 t0_7) (iblk m c 5 t0_7) (sv m c) (bv0 m c) (bv1 m c) (bv2 m c) (bv3 m c) (bv4 m c) (bv5 m c) (bv6 m c) (av0 m c) (av1 m c) (av2 m c) (av3 m c) (av4 m c) (av5 m c) (av6 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c)
/-- Row block 7 of t1. -/
abbrev bv7 (c : Dev nD) : Vec F S512x128 .bf16 := (R7 m c).1
/-- Row block 7 of the copy of adj. -/
abbrev av7 (c : Dev nD) : Vec F S512x4096 .bf16 := (R7 m c).2.1
/-- Row block 7 of t2 as point 7 sets it. -/
abbrev dv7 (c : Dev nD) : Vec F S512x128 .f32 := (R7 m c).2.2.1
/-- Row block 0 of t2 as point 7 rewrites it. -/
abbrev pv7_0 (c : Dev nD) : Vec F S512x128 .f32 := (R7 m c).2.2.2.1
/-- Row block 1 of t2 as point 7 rewrites it. -/
abbrev pv7_1 (c : Dev nD) : Vec F S512x128 .f32 := (R7 m c).2.2.2.2.1
/-- Row block 2 of t2 as point 7 rewrites it. -/
abbrev pv7_2 (c : Dev nD) : Vec F S512x128 .f32 := (R7 m c).2.2.2.2.2.1
/-- Row block 3 of t2 as point 7 rewrites it. -/
abbrev pv7_3 (c : Dev nD) : Vec F S512x128 .f32 := (R7 m c).2.2.2.2.2.2.1
/-- Row block 4 of t2 as point 7 rewrites it. -/
abbrev pv7_4 (c : Dev nD) : Vec F S512x128 .f32 := (R7 m c).2.2.2.2.2.2.2.1
/-- Row block 5 of t2 as point 7 rewrites it. -/
abbrev pv7_5 (c : Dev nD) : Vec F S512x128 .f32 := (R7 m c).2.2.2.2.2.2.2.2.1
/-- Row block 6 of t2 as point 7 rewrites it. -/
abbrev pv7_6 (c : Dev nD) : Vec F S512x128 .f32 := (R7 m c).2.2.2.2.2.2.2.2.2.1
/-- The run at point 8, the scratch at what the eight streaming points left. -/
def R8 (c : Dev nD) := run8 c (ms1 t0_8) (hs1 t0_8) (ms2 t0_8) (hs2 t0_8) (ms3 t0_8) (hs3 t0_8) (ms4 t0_8) (hs4 t0_8) (ms5 t0_8) (hs5 t0_8) (ms6 t0_8) (hs6 t0_8) (ms7 t0_8) (hs7 t0_8) sc8 (Memref.isWhole_whole _) sc9 (Memref.isWhole_whole _) sc10 (Memref.isWhole_whole _) sc11 (Memref.isWhole_whole _) (iblk m c 0 t0_8) (iblk m c 1 t0_8) (iblk m c 2 t0_8) (iblk m c 3 t0_8) (iblk m c 4 t0_8) (iblk m c 5 t0_8) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 9, the scratch at what the eight streaming points left. -/
def R9 (c : Dev nD) := run9 c (ms1 t0_9) (hs1 t0_9) (ms2 t0_9) (hs2 t0_9) (ms3 t0_9) (hs3 t0_9) (ms4 t0_9) (hs4 t0_9) (ms5 t0_9) (hs5 t0_9) (ms6 t0_9) (hs6 t0_9) (ms7 t0_9) (hs7 t0_9) sc8 (Memref.isWhole_whole _) sc9 (Memref.isWhole_whole _) sc10 (Memref.isWhole_whole _) sc11 (Memref.isWhole_whole _) (iblk m c 0 t0_9) (iblk m c 1 t0_9) (iblk m c 2 t0_9) (iblk m c 3 t0_9) (iblk m c 4 t0_9) (iblk m c 5 t0_9) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 10, the scratch at what the eight streaming points left. -/
def R10 (c : Dev nD) := run10 c (ms1 t0_10) (hs1 t0_10) (ms2 t0_10) (hs2 t0_10) (ms3 t0_10) (hs3 t0_10) (ms4 t0_10) (hs4 t0_10) (ms5 t0_10) (hs5 t0_10) (ms6 t0_10) (hs6 t0_10) (ms7 t0_10) (hs7 t0_10) sc8 (Memref.isWhole_whole _) sc9 (Memref.isWhole_whole _) sc10 (Memref.isWhole_whole _) sc11 (Memref.isWhole_whole _) (iblk m c 0 t0_10) (iblk m c 1 t0_10) (iblk m c 2 t0_10) (iblk m c 3 t0_10) (iblk m c 4 t0_10) (iblk m c 5 t0_10) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 11, the scratch at what the eight streaming points left. -/
def R11 (c : Dev nD) := run11 c (ms1 t0_11) (hs1 t0_11) (ms2 t0_11) (hs2 t0_11) (ms3 t0_11) (hs3 t0_11) (ms4 t0_11) (hs4 t0_11) (ms5 t0_11) (hs5 t0_11) (ms6 t0_11) (hs6 t0_11) (ms7 t0_11) (hs7 t0_11) sc8 (Memref.isWhole_whole _) sc9 (Memref.isWhole_whole _) sc10 (Memref.isWhole_whole _) sc11 (Memref.isWhole_whole _) (iblk m c 0 t0_11) (iblk m c 1 t0_11) (iblk m c 2 t0_11) (iblk m c 3 t0_11) (iblk m c 4 t0_11) (iblk m c 5 t0_11) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 12, the scratch at what the eight streaming points left. -/
def R12 (c : Dev nD) := run12 c (ms1 t0_12) (hs1 t0_12) (ms2 t0_12) (hs2 t0_12) (ms3 t0_12) (hs3 t0_12) (ms4 t0_12) (hs4 t0_12) (ms5 t0_12) (hs5 t0_12) (ms6 t0_12) (hs6 t0_12) (ms7 t0_12) (hs7 t0_12) sc8 (Memref.isWhole_whole _) sc9 (Memref.isWhole_whole _) sc10 (Memref.isWhole_whole _) sc11 (Memref.isWhole_whole _) (iblk m c 0 t0_12) (iblk m c 1 t0_12) (iblk m c 2 t0_12) (iblk m c 3 t0_12) (iblk m c 4 t0_12) (iblk m c 5 t0_12) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 13, the scratch at what the eight streaming points left. -/
def R13 (c : Dev nD) := run13 c (ms1 t0_13) (hs1 t0_13) (ms2 t0_13) (hs2 t0_13) (ms3 t0_13) (hs3 t0_13) (ms4 t0_13) (hs4 t0_13) (ms5 t0_13) (hs5 t0_13) (ms6 t0_13) (hs6 t0_13) (ms7 t0_13) (hs7 t0_13) sc8 (Memref.isWhole_whole _) sc9 (Memref.isWhole_whole _) sc10 (Memref.isWhole_whole _) sc11 (Memref.isWhole_whole _) (iblk m c 0 t0_13) (iblk m c 1 t0_13) (iblk m c 2 t0_13) (iblk m c 3 t0_13) (iblk m c 4 t0_13) (iblk m c 5 t0_13) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 14, the scratch at what the eight streaming points left. -/
def R14 (c : Dev nD) := run14 c (ms1 t0_14) (hs1 t0_14) (ms2 t0_14) (hs2 t0_14) (ms3 t0_14) (hs3 t0_14) (ms4 t0_14) (hs4 t0_14) (ms5 t0_14) (hs5 t0_14) (ms6 t0_14) (hs6 t0_14) (ms7 t0_14) (hs7 t0_14) sc8 (Memref.isWhole_whole _) sc9 (Memref.isWhole_whole _) sc10 (Memref.isWhole_whole _) sc11 (Memref.isWhole_whole _) (iblk m c 0 t0_14) (iblk m c 1 t0_14) (iblk m c 2 t0_14) (iblk m c 3 t0_14) (iblk m c 4 t0_14) (iblk m c 5 t0_14) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)
/-- The run at point 15, the scratch at what the eight streaming points left. -/
def R15 (c : Dev nD) := run15 c (ms1 t0_15) (hs1 t0_15) (ms2 t0_15) (hs2 t0_15) (ms3 t0_15) (hs3 t0_15) (ms4 t0_15) (hs4 t0_15) (ms5 t0_15) (hs5 t0_15) (ms6 t0_15) (hs6 t0_15) (ms7 t0_15) (hs7 t0_15) sc8 (Memref.isWhole_whole _) sc9 (Memref.isWhole_whole _) sc10 (Memref.isWhole_whole _) sc11 (Memref.isWhole_whole _) (iblk m c 0 t0_15) (iblk m c 1 t0_15) (iblk m c 2 t0_15) (iblk m c 3 t0_15) (iblk m c 4 t0_15) (iblk m c 5 t0_15) (sv m c) (bv0 m c) (bv1 m c) (bv2 m c) (bv3 m c) (bv4 m c) (bv5 m c) (bv6 m c) (bv7 m c) (av0 m c) (av1 m c) (av2 m c) (av3 m c) (av4 m c) (av5 m c) (av6 m c) (av7 m c) (dv0 m c) (dv1 m c) (pv1_0 m c) (dv2 m c) (pv2_0 m c) (pv2_1 m c) (dv3 m c) (pv3_0 m c) (pv3_1 m c) (pv3_2 m c) (dv4 m c) (pv4_0 m c) (pv4_1 m c) (pv4_2 m c) (pv4_3 m c) (dv5 m c) (pv5_0 m c) (pv5_1 m c) (pv5_2 m c) (pv5_3 m c) (pv5_4 m c) (dv6 m c) (pv6_0 m c) (pv6_1 m c) (pv6_2 m c) (pv6_3 m c) (pv6_4 m c) (pv6_5 m c) (dv7 m c) (pv7_0 m c) (pv7_1 m c) (pv7_2 m c) (pv7_3 m c) (pv7_4 m c) (pv7_5 m c) (pv7_6 m c)

/-! ## The invariant and the proof data -/

/-- What the scratch holds once the eight streaming points are done. -/
def PhiEnd (c : Dev nD) : sProp 𝕄 :=
  iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3584, 0] S512x4096.size inb_S4096x4096_S512x4096_3584_0, (av7 m c)⟩, ⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))

/-- What the scratch holds before point n: anything before point 0; then the support whole, the row blocks of adj's copy and of
    t1 stored so far, and the pieces of t2 stored so far; from point 8 on what the eight streaming points left. -/
def PhiN (c : Dev nD) : ℕ → sProp 𝕄
  | 0 => Pipeline.ΦA spec0 c
  | 1 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![0, 0] S512x4096.size inb_S4096x4096_S512x4096_0_0, (av0 m c)⟩]) ∗ (∃ r, prngReg c r))
  | 2 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 3 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 4 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 5 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 6 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | 7 => iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r))
  | _ + 8 => PhiEnd m c

/-- One staging buffer of the output window, through which its contents are stated (the choice does not matter: a covering
    list of pieces reads the same through any view). -/
abbrev VO7 : View sig .tc .vmem S512x128 .f32 := (Memref.whole cc0_stg6_0 : Memref sig .tc .vmem S512x128 .f32).view

/-- A block of the result stored whole, read back. -/
def outOf (o : Vec F S512x128 .f32) : Vec F S512x128 .f32 :=
  VO7.read (Elt F) (VO7.writes (Elt F) VO7.junk [⟨Rect.unit (s := S512x128) ![0, 0] S512x128.size inb_S512x128_S512x128_0_0, o⟩])

/-- The one whole-buffer piece covers the buffer. -/
theorem cover7 (o : Vec F S512x128 .f32) (y : S512x128.Idx) :
    ∃ pc ∈ ([⟨Rect.unit (s := S512x128) ![0, 0] S512x128.size inb_S512x128_S512x128_0_0, o⟩] : List (View.Piece (Elt F) S512x128 .f32)), y ∈ pc.1.set :=
  View.cover_of_tiledL _ S512x128.size (by sl_kernel_rfl) y

/-- What the output's buffer holds after point n (named at the points that store it: 8..15). -/
def outN (c : Dev nD) : ℕ → Vec F S512x128 .f32
  | 8 => outOf (R8 m c).1
  | 9 => outOf (R9 m c).1
  | 10 => outOf (R10 m c).1
  | 11 => outOf (R11 m c).1
  | 12 => outOf (R12 m c).1
  | 13 => outOf (R13 m c).1
  | 14 => outOf (R14 m c).1
  | 15 => outOf (R15 m c).1
  | _ => outOf (R8 m c).1

theorem PhiN_1 (c : Dev nD) : PhiN m c 1 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![0, 0] S512x4096.size inb_S4096x4096_S512x4096_0_0, (av0 m c)⟩]) ∗ (∃ r, prngReg c r)) := rfl
theorem PhiN_2 (c : Dev nD) : PhiN m c 2 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_3 (c : Dev nD) : PhiN m c 3 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_4 (c : Dev nD) : PhiN m c 4 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_5 (c : Dev nD) : PhiN m c 5 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_6 (c : Dev nD) : PhiN m c 6 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl
theorem PhiN_7 (c : Dev nD) : PhiN m c 7 = iprop((∃ f, sc8.view.loc (c : Thread nD τ) ↦[sc8.view.set]{fullShare} sc8.view.writes (Elt F) f [⟨Rect.unit (s := S4096x128) ![0, 0] S4096x128.size inb_S4096x128_S4096x128_0_0, (sv m c)⟩]) ∗ (∃ f, sc9.view.loc (c : Thread nD τ) ↦[sc9.view.set]{fullShare} sc9.view.writes (Elt F) f [⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩]) ∗ (∃ f, sc10.view.loc (c : Thread nD τ) ↦[sc10.view.set]{fullShare} sc10.view.writes (Elt F) f [⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩]) ∗ (∃ f, sc11.view.loc (c : Thread nD τ) ↦[sc11.view.set]{fullShare} sc11.view.writes (Elt F) f [⟨Rect.unit (s := S4096x4096) ![3072, 0] S512x4096.size inb_S4096x4096_S512x4096_3072_0, (av6 m c)⟩, ⟨Rect.unit (s := S4096x4096) ![2560, 0] S512x4096.size inb_S4096x4096_S512x4096_2560_0, (av5 m c)⟩, ⟨Rect.unit (s := S4096x4096) ![2048, 0] S512x4096.size inb_S4096x4096_S512x4096_2048_0, (av4 m c)⟩, ⟨Rect.unit (s := S4096x4096) ![1536, 0] S512x4096.size inb_S4096x4096_S512x4096_1536_0, (av3 m c)⟩, ⟨Rect.unit (s := S4096x4096) ![1024, 0] S512x4096.size inb_S4096x4096_S512x4096_1024_0, (av2 m c)⟩, ⟨Rect.unit (s := S4096x4096) ![512, 0] S512x4096.size inb_S4096x4096_S512x4096_512_0, (av1 m c)⟩, ⟨Rect.unit (s := S4096x4096) ![0, 0] S512x4096.size inb_S4096x4096_S512x4096_0_0, (av0 m c)⟩]) ∗ (∃ r, prngReg c r)) := rfl

theorem PhiN_ge (c : Dev nD) (n : ℕ) (h : 8 ≤ n) : PhiN m c n = PhiEnd m c := by
  obtain ⟨k, rfl⟩ := Nat.exists_eq_add_of_le' h
  rfl

/-- The proof data: the arrays as the region finds them; after the body each input's buffer at its block and the output's at
    `outN`; the invariant `PhiN`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outN m c t.val
  Φ t := PhiN m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outN m c t.val := by dsimp only [dats]

/-- Input window 0's current buffer holds its block at every point. -/
theorem before0_0 (c : Dev nD) (t : Fin cfg0.N) (d) : (dats m 0 c).before 0 t d = iblk m c 0 t :=
  before0_0_of m (dats m 0 c) (A_eq m c 0) (after0_0 m c) t d
/-- Input window 1's current buffer holds its block at every point. -/
theorem before0_1 (c : Dev nD) (t : Fin cfg0.N) (d) : (dats m 0 c).before 1 t d = iblk m c 1 t :=
  before0_1_of m (dats m 0 c) (A_eq m c 1) (after0_1 m c) t d
/-- Input window 2's current buffer holds its block at every point. -/
theorem before0_2 (c : Dev nD) (t : Fin cfg0.N) (d) : (dats m 0 c).before 2 t d = iblk m c 2 t :=
  before0_2_of m (dats m 0 c) (A_eq m c 2) (after0_2 m c) t d
/-- Input window 3's current buffer holds its block at every point. -/
theorem before0_3 (c : Dev nD) (t : Fin cfg0.N) (d) : (dats m 0 c).before 3 t d = iblk m c 3 t :=
  before0_3_of m (dats m 0 c) (A_eq m c 3) (after0_3 m c) t d
/-- Input window 4's current buffer holds its block at every point. -/
theorem before0_4 (c : Dev nD) (t : Fin cfg0.N) (d) : (dats m 0 c).before 4 t d = iblk m c 4 t :=
  before0_4_of m (dats m 0 c) (A_eq m c 4) (after0_4 m c) t d
/-- Input window 5's current buffer holds its block at every point. -/
theorem before0_5 (c : Dev nD) (t : Fin cfg0.N) (d) : (dats m 0 c).before 5 t d = iblk m c 5 t :=
  before0_5_of m (dats m 0 c) (A_eq m c 5) (after0_5 m c) t d

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem live0_4 : ∀ t : Fin cfg0.N, cfg0.idle 4 (grid0.coords t) = false := by decide +kernel
theorem live0_5 : ∀ t : Fin cfg0.N, cfg0.idle 5 (grid0.coords t) = false := by decide +kernel
/-- At the streaming points the output window is idle and not written back. -/
theorem idle6 : ∀ t : Fin cfg0.N, t.val < 8 → cfg0.idle 6 (grid0.coords t) = true := by decide +kernel
theorem noflush6 : ∀ t : Fin cfg0.N, t.val < 8 → (cfg0.win 6).flush t = false := by decide +kernel
/-- At the epilogue points it is live. -/
theorem live6 : ∀ t : Fin cfg0.N, 8 ≤ t.val → cfg0.idle 6 (grid0.coords t) = false := by decide +kernel

/-- The class invariant with the four scratch operands as memrefs owned at some contents. -/
theorem PhiA_eq (c : Dev nD) :
    (Pipeline.ΦA spec0 c : sProp 𝕄)
      = iprop(iprop((∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc8, sc9, sc10, sc11, owns_whole]; try rfl

/-! ## The body obligation's two sides at a point -/

/-- What the body is called with at point t. -/
def bodyPre (c : Dev nD) (t : Fin cfg0.N) : sProp 𝕄 :=
  iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- A live input window leaves its block in place. -/
theorem leaves0_0 (c : Dev nD) (t : Fin cfg0.N) : (dats m 0 c).leavesExact 0 t = owns (c : Thread nD τ) (ms1 t) fullShare (iblk m c 0 t) := by
  unfold Dat.leavesExact; rw [live0_0 t, after0_0]
/-- A live input window leaves its block in place. -/
theorem leaves0_1 (c : Dev nD) (t : Fin cfg0.N) : (dats m 0 c).leavesExact 1 t = owns (c : Thread nD τ) (ms2 t) fullShare (iblk m c 1 t) := by
  unfold Dat.leavesExact; rw [live0_1 t, after0_1]
/-- A live input window leaves its block in place. -/
theorem leaves0_2 (c : Dev nD) (t : Fin cfg0.N) : (dats m 0 c).leavesExact 2 t = owns (c : Thread nD τ) (ms3 t) fullShare (iblk m c 2 t) := by
  unfold Dat.leavesExact; rw [live0_2 t, after0_2]
/-- A live input window leaves its block in place. -/
theorem leaves0_3 (c : Dev nD) (t : Fin cfg0.N) : (dats m 0 c).leavesExact 3 t = owns (c : Thread nD τ) (ms4 t) fullShare (iblk m c 3 t) := by
  unfold Dat.leavesExact; rw [live0_3 t, after0_3]
/-- A live input window leaves its block in place. -/
theorem leaves0_4 (c : Dev nD) (t : Fin cfg0.N) : (dats m 0 c).leavesExact 4 t = owns (c : Thread nD τ) (ms5 t) fullShare (iblk m c 4 t) := by
  unfold Dat.leavesExact; rw [live0_4 t, after0_4]
/-- A live input window leaves its block in place. -/
theorem leaves0_5 (c : Dev nD) (t : Fin cfg0.N) : (dats m 0 c).leavesExact 5 t = owns (c : Thread nD τ) (ms6 t) fullShare (iblk m c 5 t) := by
  unfold Dat.leavesExact; rw [live0_5 t, after0_5]

end Cert.KernelIdeal.Body

end
-- ==== Proof.Body.KISoundS.lean ====
import proofs.«166091_g16140487098644_cont_week2b_486_32_alg».proof.Proof.Body.KIData

/-!
The body obligation at grid points 0..7, one lemma per point: the run of that point applied between the invariant before it
and the invariant after it.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at point 0: the invariant hands it the scratch at what the points before left, the run applies, and the
    scratch comes back at what the invariant states for the next point; the output window is idle and keeps its contents. -/
theorem sound_0 (c : Dev nD) :
    bodyPre m c t0_0 ⊢ wp frame (wpE (defs₀ (F := F)) Variants.none c none) Set.univ (bodyAt0 t0_0) (fun _ => bodyPost m c t0_0) := by
  unfold bodyPre bodyPost bodyAt0
  simp only [before0_0, before0_1, before0_2, before0_3, before0_4, before0_5]
  rw [show (dats m 0 c).owesAt () t0_0.succ = (dats m 0 c).owesAt () t0_0.castSucc from rfl]
  rw [leaves0_0, leaves0_1, leaves0_2, leaves0_3, leaves0_4, leaves0_5]
  rw [Dat.leavesExact_idle (dats m 0 c) 6 t0_0 (idle6 t0_0 (by show (0 : ℕ) < 8; omega)) (noflush6 t0_0 (by show (0 : ℕ) < 8; omega))]
  rw [show (dats m 0 c).Φ t0_0.castSucc = PhiN m c 0 from rfl, show (dats m 0 c).Φ t0_0.succ = PhiN m c 1 from rfl]
  rw [show PhiN m c 0 = Pipeline.ΦA spec0 c from rfl, PhiA_eq, PhiN_1]
  iintro ⟨⟨⟨H8, H9, H10, H11⟩, Hg⟩, Ho, ⟨%d0, H0⟩, ⟨%d1, H1⟩, ⟨%d2, H2⟩, ⟨%d3, H3⟩, ⟨%d4, H4⟩, ⟨%d5, H5⟩, ⟨%d6, H6⟩⟩
  iapply ((R0 m c).2.2.2.2 ((dats m 0 c).before 6 t0_0 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 1: the invariant hands it the scratch at what the points before left, the run applies, and the
    scratch comes back at what the invariant states for the next point; the output window is idle and keeps its contents. -/
theorem sound_1 (c : Dev nD) :
    bodyPre m c t0_1 ⊢ wp frame (wpE (defs₀ (F := F)) Variants.none c none) Set.univ (bodyAt0 t0_1) (fun _ => bodyPost m c t0_1) := by
  unfold bodyPre bodyPost bodyAt0
  simp only [before0_0, before0_1, before0_2, before0_3, before0_4, before0_5]
  rw [show (dats m 0 c).owesAt () t0_1.succ = (dats m 0 c).owesAt () t0_1.castSucc from rfl]
  rw [leaves0_0, leaves0_1, leaves0_2, leaves0_3, leaves0_4, leaves0_5]
  rw [Dat.leavesExact_idle (dats m 0 c) 6 t0_1 (idle6 t0_1 (by show (1 : ℕ) < 8; omega)) (noflush6 t0_1 (by show (1 : ℕ) < 8; omega))]
  rw [show (dats m 0 c).Φ t0_1.castSucc = PhiN m c 1 from rfl, show (dats m 0 c).Φ t0_1.succ = PhiN m c 2 from rfl]
  rw [PhiN_1, PhiN_2]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R1 m c).2.2.2.2 ((dats m 0 c).before 6 t0_1 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 2: the invariant hands it the scratch at what the points before left, the run applies, and the
    scratch comes back at what the invariant states for the next point; the output window is idle and keeps its contents. -/
theorem sound_2 (c : Dev nD) :
    bodyPre m c t0_2 ⊢ wp frame (wpE (defs₀ (F := F)) Variants.none c none) Set.univ (bodyAt0 t0_2) (fun _ => bodyPost m c t0_2) := by
  unfold bodyPre bodyPost bodyAt0
  simp only [before0_0, before0_1, before0_2, before0_3, before0_4, before0_5]
  rw [show (dats m 0 c).owesAt () t0_2.succ = (dats m 0 c).owesAt () t0_2.castSucc from rfl]
  rw [leaves0_0, leaves0_1, leaves0_2, leaves0_3, leaves0_4, leaves0_5]
  rw [Dat.leavesExact_idle (dats m 0 c) 6 t0_2 (idle6 t0_2 (by show (2 : ℕ) < 8; omega)) (noflush6 t0_2 (by show (2 : ℕ) < 8; omega))]
  rw [show (dats m 0 c).Φ t0_2.castSucc = PhiN m c 2 from rfl, show (dats m 0 c).Φ t0_2.succ = PhiN m c 3 from rfl]
  rw [PhiN_2, PhiN_3]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R2 m c).2.2.2.2.2 ((dats m 0 c).before 6 t0_2 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 3: the invariant hands it the scratch at what the points before left, the run applies, and the
    scratch comes back at what the invariant states for the next point; the output window is idle and keeps its contents. -/
theorem sound_3 (c : Dev nD) :
    bodyPre m c t0_3 ⊢ wp frame (wpE (defs₀ (F := F)) Variants.none c none) Set.univ (bodyAt0 t0_3) (fun _ => bodyPost m c t0_3) := by
  unfold bodyPre bodyPost bodyAt0
  simp only [before0_0, before0_1, before0_2, before0_3, before0_4, before0_5]
  rw [show (dats m 0 c).owesAt () t0_3.succ = (dats m 0 c).owesAt () t0_3.castSucc from rfl]
  rw [leaves0_0, leaves0_1, leaves0_2, leaves0_3, leaves0_4, leaves0_5]
  rw [Dat.leavesExact_idle (dats m 0 c) 6 t0_3 (idle6 t0_3 (by show (3 : ℕ) < 8; omega)) (noflush6 t0_3 (by show (3 : ℕ) < 8; omega))]
  rw [show (dats m 0 c).Φ t0_3.castSucc = PhiN m c 3 from rfl, show (dats m 0 c).Φ t0_3.succ = PhiN m c 4 from rfl]
  rw [PhiN_3, PhiN_4]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R3 m c).2.2.2.2.2.2 ((dats m 0 c).before 6 t0_3 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 4: the invariant hands it the scratch at what the points before left, the run applies, and the
    scratch comes back at what the invariant states for the next point; the output window is idle and keeps its contents. -/
theorem sound_4 (c : Dev nD) :
    bodyPre m c t0_4 ⊢ wp frame (wpE (defs₀ (F := F)) Variants.none c none) Set.univ (bodyAt0 t0_4) (fun _ => bodyPost m c t0_4) := by
  unfold bodyPre bodyPost bodyAt0
  simp only [before0_0, before0_1, before0_2, before0_3, before0_4, before0_5]
  rw [show (dats m 0 c).owesAt () t0_4.succ = (dats m 0 c).owesAt () t0_4.castSucc from rfl]
  rw [leaves0_0, leaves0_1, leaves0_2, leaves0_3, leaves0_4, leaves0_5]
  rw [Dat.leavesExact_idle (dats m 0 c) 6 t0_4 (idle6 t0_4 (by show (4 : ℕ) < 8; omega)) (noflush6 t0_4 (by show (4 : ℕ) < 8; omega))]
  rw [show (dats m 0 c).Φ t0_4.castSucc = PhiN m c 4 from rfl, show (dats m 0 c).Φ t0_4.succ = PhiN m c 5 from rfl]
  rw [PhiN_4, PhiN_5]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R4 m c).2.2.2.2.2.2.2 ((dats m 0 c).before 6 t0_4 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 5: the invariant hands it the scratch at what the points before left, the run applies, and the
    scratch comes back at what the invariant states for the next point; the output window is idle and keeps its contents. -/
theorem sound_5 (c : Dev nD) :
    bodyPre m c t0_5 ⊢ wp frame (wpE (defs₀ (F := F)) Variants.none c none) Set.univ (bodyAt0 t0_5) (fun _ => bodyPost m c t0_5) := by
  unfold bodyPre bodyPost bodyAt0
  simp only [before0_0, before0_1, before0_2, before0_3, before0_4, before0_5]
  rw [show (dats m 0 c).owesAt () t0_5.succ = (dats m 0 c).owesAt () t0_5.castSucc from rfl]
  rw [leaves0_0, leaves0_1, leaves0_2, leaves0_3, leaves0_4, leaves0_5]
  rw [Dat.leavesExact_idle (dats m 0 c) 6 t0_5 (idle6 t0_5 (by show (5 : ℕ) < 8; omega)) (noflush6 t0_5 (by show (5 : ℕ) < 8; omega))]
  rw [show (dats m 0 c).Φ t0_5.castSucc = PhiN m c 5 from rfl, show (dats m 0 c).Φ t0_5.succ = PhiN m c 6 from rfl]
  rw [PhiN_5, PhiN_6]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R5 m c).2.2.2.2.2.2.2.2 ((dats m 0 c).before 6 t0_5 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 6: the invariant hands it the scratch at what the points before left, the run applies, and the
    scratch comes back at what the invariant states for the next point; the output window is idle and keeps its contents. -/
theorem sound_6 (c : Dev nD) :
    bodyPre m c t0_6 ⊢ wp frame (wpE (defs₀ (F := F)) Variants.none c none) Set.univ (bodyAt0 t0_6) (fun _ => bodyPost m c t0_6) := by
  unfold bodyPre bodyPost bodyAt0
  simp only [before0_0, before0_1, before0_2, before0_3, before0_4, before0_5]
  rw [show (dats m 0 c).owesAt () t0_6.succ = (dats m 0 c).owesAt () t0_6.castSucc from rfl]
  rw [leaves0_0, leaves0_1, leaves0_2, leaves0_3, leaves0_4, leaves0_5]
  rw [Dat.leavesExact_idle (dats m 0 c) 6 t0_6 (idle6 t0_6 (by show (6 : ℕ) < 8; omega)) (noflush6 t0_6 (by show (6 : ℕ) < 8; omega))]
  rw [show (dats m 0 c).Φ t0_6.castSucc = PhiN m c 6 from rfl, show (dats m 0 c).Φ t0_6.succ = PhiN m c 7 from rfl]
  rw [PhiN_6, PhiN_7]
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R6 m c).2.2.2.2.2.2.2.2.2 ((dats m 0 c).before 6 t0_6 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

set_option maxHeartbeats 2000000 in
/-- The body at point 7: the invariant hands it the scratch at what the points before left, the run applies, and the
    scratch comes back at what the invariant states for the next point; the output window is idle and keeps its contents. -/
theorem sound_7 (c : Dev nD) :
    bodyPre m c t0_7 ⊢ wp frame (wpE (defs₀ (F := F)) Variants.none c none) Set.univ (bodyAt0 t0_7) (fun _ => bodyPost m c t0_7) := by
  unfold bodyPre bodyPost bodyAt0
  simp only [before0_0, before0_1, before0_2, before0_3, before0_4, before0_5]
  rw [show (dats m 0 c).owesAt () t0_7.succ = (dats m 0 c).owesAt () t0_7.castSucc from rfl]
  rw [leaves0_0, leaves0_1, leaves0_2, leaves0_3, leaves0_4, leaves0_5]
  rw [Dat.leavesExact_idle (dats m 0 c) 6 t0_7 (idle6 t0_7 (by show (7 : ℕ) < 8; omega)) (noflush6 t0_7 (by show (7 : ℕ) < 8; omega))]
  rw [show (dats m 0 c).Φ t0_7.castSucc = PhiN m c 7 from rfl, show (dats m 0 c).Φ t0_7.succ = PhiN m c 8 from rfl]
  rw [PhiN_ge m c 8 (by omega), PhiN_7]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R7 m c).2.2.2.2.2.2.2.2.2.2 ((dats m 0 c).before 6 t0_7 d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H8]; · iexact H8
  isplitl [H9]; · iexact H9
  isplitl [H10]; · iexact H10
  isplitl [H11]; · iexact H11
  iintro ⟨H0, H1, H2, H3, H4, H5, H6, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists d6; iexact H6

end Cert.KernelIdeal.Body

end
-- ==== Proof.Body.KISoundE.lean ====
import proofs.«166091_g16140487098644_cont_week2b_486_32_alg».proof.Proof.Body.KIData

/-!
The body obligation at grid points 8..15, one lemma per point: the run of that point applied between the invariant before it
and the invariant after it.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at point 8: the scratch goes in and comes back as the streaming points left it, and the output's buffer
    is stored whole with row block 0 of the result. -/
theorem sound_8 (c : Dev nD) :
    bodyPre m c t0_8 ⊢ wp frame (wpE (defs₀ (F := F)) Variants.none c none) Set.univ (bodyAt0 t0_8) (fun _ => bodyPost m c t0_8) := by
  unfold bodyPre bodyPost bodyAt0
  simp only [before0_0, before0_1, before0_2, before0_3, before0_4, before0_5]
  rw [show (dats m 0 c).owesAt () t0_8.succ = (dats m 0 c).owesAt () t0_8.castSucc from rfl]
  rw [leaves0_0, leaves0_1, leaves0_2, leaves0_3, leaves0_4, leaves0_5]
  rw [show (dats m 0 c).leavesExact 6 t0_8 = owns (c : Thread nD τ) (ms7 t0_8) fullShare (outOf (R8 m c).1) from by
    unfold Dat.leavesExact; rw [live6 t0_8 (by show 8 ≤ (8 : ℕ); omega), after0_6]; rfl]
  rw [show (dats m 0 c).Φ t0_8.castSucc = PhiN m c 8 from rfl, show (dats m 0 c).Φ t0_8.succ = PhiN m c 9 from rfl]
  rw [PhiN_ge m c 8 (by omega), PhiN_ge m c 9 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R8 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 9: the scratch goes in and comes back as the streaming points left it, and the output's buffer
    is stored whole with row block 1 of the result. -/
theorem sound_9 (c : Dev nD) :
    bodyPre m c t0_9 ⊢ wp frame (wpE (defs₀ (F := F)) Variants.none c none) Set.univ (bodyAt0 t0_9) (fun _ => bodyPost m c t0_9) := by
  unfold bodyPre bodyPost bodyAt0
  simp only [before0_0, before0_1, before0_2, before0_3, before0_4, before0_5]
  rw [show (dats m 0 c).owesAt () t0_9.succ = (dats m 0 c).owesAt () t0_9.castSucc from rfl]
  rw [leaves0_0, leaves0_1, leaves0_2, leaves0_3, leaves0_4, leaves0_5]
  rw [show (dats m 0 c).leavesExact 6 t0_9 = owns (c : Thread nD τ) (ms7 t0_9) fullShare (outOf (R9 m c).1) from by
    unfold Dat.leavesExact; rw [live6 t0_9 (by show 8 ≤ (9 : ℕ); omega), after0_6]; rfl]
  rw [show (dats m 0 c).Φ t0_9.castSucc = PhiN m c 9 from rfl, show (dats m 0 c).Φ t0_9.succ = PhiN m c 10 from rfl]
  rw [PhiN_ge m c 9 (by omega), PhiN_ge m c 10 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R9 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 10: the scratch goes in and comes back as the streaming points left it, and the output's buffer
    is stored whole with row block 2 of the result. -/
theorem sound_10 (c : Dev nD) :
    bodyPre m c t0_10 ⊢ wp frame (wpE (defs₀ (F := F)) Variants.none c none) Set.univ (bodyAt0 t0_10) (fun _ => bodyPost m c t0_10) := by
  unfold bodyPre bodyPost bodyAt0
  simp only [before0_0, before0_1, before0_2, before0_3, before0_4, before0_5]
  rw [show (dats m 0 c).owesAt () t0_10.succ = (dats m 0 c).owesAt () t0_10.castSucc from rfl]
  rw [leaves0_0, leaves0_1, leaves0_2, leaves0_3, leaves0_4, leaves0_5]
  rw [show (dats m 0 c).leavesExact 6 t0_10 = owns (c : Thread nD τ) (ms7 t0_10) fullShare (outOf (R10 m c).1) from by
    unfold Dat.leavesExact; rw [live6 t0_10 (by show 8 ≤ (10 : ℕ); omega), after0_6]; rfl]
  rw [show (dats m 0 c).Φ t0_10.castSucc = PhiN m c 10 from rfl, show (dats m 0 c).Φ t0_10.succ = PhiN m c 11 from rfl]
  rw [PhiN_ge m c 10 (by omega), PhiN_ge m c 11 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R10 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 11: the scratch goes in and comes back as the streaming points left it, and the output's buffer
    is stored whole with row block 3 of the result. -/
theorem sound_11 (c : Dev nD) :
    bodyPre m c t0_11 ⊢ wp frame (wpE (defs₀ (F := F)) Variants.none c none) Set.univ (bodyAt0 t0_11) (fun _ => bodyPost m c t0_11) := by
  unfold bodyPre bodyPost bodyAt0
  simp only [before0_0, before0_1, before0_2, before0_3, before0_4, before0_5]
  rw [show (dats m 0 c).owesAt () t0_11.succ = (dats m 0 c).owesAt () t0_11.castSucc from rfl]
  rw [leaves0_0, leaves0_1, leaves0_2, leaves0_3, leaves0_4, leaves0_5]
  rw [show (dats m 0 c).leavesExact 6 t0_11 = owns (c : Thread nD τ) (ms7 t0_11) fullShare (outOf (R11 m c).1) from by
    unfold Dat.leavesExact; rw [live6 t0_11 (by show 8 ≤ (11 : ℕ); omega), after0_6]; rfl]
  rw [show (dats m 0 c).Φ t0_11.castSucc = PhiN m c 11 from rfl, show (dats m 0 c).Φ t0_11.succ = PhiN m c 12 from rfl]
  rw [PhiN_ge m c 11 (by omega), PhiN_ge m c 12 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R11 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 12: the scratch goes in and comes back as the streaming points left it, and the output's buffer
    is stored whole with row block 4 of the result. -/
theorem sound_12 (c : Dev nD) :
    bodyPre m c t0_12 ⊢ wp frame (wpE (defs₀ (F := F)) Variants.none c none) Set.univ (bodyAt0 t0_12) (fun _ => bodyPost m c t0_12) := by
  unfold bodyPre bodyPost bodyAt0
  simp only [before0_0, before0_1, before0_2, before0_3, before0_4, before0_5]
  rw [show (dats m 0 c).owesAt () t0_12.succ = (dats m 0 c).owesAt () t0_12.castSucc from rfl]
  rw [leaves0_0, leaves0_1, leaves0_2, leaves0_3, leaves0_4, leaves0_5]
  rw [show (dats m 0 c).leavesExact 6 t0_12 = owns (c : Thread nD τ) (ms7 t0_12) fullShare (outOf (R12 m c).1) from by
    unfold Dat.leavesExact; rw [live6 t0_12 (by show 8 ≤ (12 : ℕ); omega), after0_6]; rfl]
  rw [show (dats m 0 c).Φ t0_12.castSucc = PhiN m c 12 from rfl, show (dats m 0 c).Φ t0_12.succ = PhiN m c 13 from rfl]
  rw [PhiN_ge m c 12 (by omega), PhiN_ge m c 13 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R12 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 13: the scratch goes in and comes back as the streaming points left it, and the output's buffer
    is stored whole with row block 5 of the result. -/
theorem sound_13 (c : Dev nD) :
    bodyPre m c t0_13 ⊢ wp frame (wpE (defs₀ (F := F)) Variants.none c none) Set.univ (bodyAt0 t0_13) (fun _ => bodyPost m c t0_13) := by
  unfold bodyPre bodyPost bodyAt0
  simp only [before0_0, before0_1, before0_2, before0_3, before0_4, before0_5]
  rw [show (dats m 0 c).owesAt () t0_13.succ = (dats m 0 c).owesAt () t0_13.castSucc from rfl]
  rw [leaves0_0, leaves0_1, leaves0_2, leaves0_3, leaves0_4, leaves0_5]
  rw [show (dats m 0 c).leavesExact 6 t0_13 = owns (c : Thread nD τ) (ms7 t0_13) fullShare (outOf (R13 m c).1) from by
    unfold Dat.leavesExact; rw [live6 t0_13 (by show 8 ≤ (13 : ℕ); omega), after0_6]; rfl]
  rw [show (dats m 0 c).Φ t0_13.castSucc = PhiN m c 13 from rfl, show (dats m 0 c).Φ t0_13.succ = PhiN m c 14 from rfl]
  rw [PhiN_ge m c 13 (by omega), PhiN_ge m c 14 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R13 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 14: the scratch goes in and comes back as the streaming points left it, and the output's buffer
    is stored whole with row block 6 of the result. -/
theorem sound_14 (c : Dev nD) :
    bodyPre m c t0_14 ⊢ wp frame (wpE (defs₀ (F := F)) Variants.none c none) Set.univ (bodyAt0 t0_14) (fun _ => bodyPost m c t0_14) := by
  unfold bodyPre bodyPost bodyAt0
  simp only [before0_0, before0_1, before0_2, before0_3, before0_4, before0_5]
  rw [show (dats m 0 c).owesAt () t0_14.succ = (dats m 0 c).owesAt () t0_14.castSucc from rfl]
  rw [leaves0_0, leaves0_1, leaves0_2, leaves0_3, leaves0_4, leaves0_5]
  rw [show (dats m 0 c).leavesExact 6 t0_14 = owns (c : Thread nD τ) (ms7 t0_14) fullShare (outOf (R14 m c).1) from by
    unfold Dat.leavesExact; rw [live6 t0_14 (by show 8 ≤ (14 : ℕ); omega), after0_6]; rfl]
  rw [show (dats m 0 c).Φ t0_14.castSucc = PhiN m c 14 from rfl, show (dats m 0 c).Φ t0_14.succ = PhiN m c 15 from rfl]
  rw [PhiN_ge m c 14 (by omega), PhiN_ge m c 15 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R14 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

set_option maxHeartbeats 2000000 in
/-- The body at point 15: the scratch goes in and comes back as the streaming points left it, and the output's buffer
    is stored whole with row block 7 of the result. -/
theorem sound_15 (c : Dev nD) :
    bodyPre m c t0_15 ⊢ wp frame (wpE (defs₀ (F := F)) Variants.none c none) Set.univ (bodyAt0 t0_15) (fun _ => bodyPost m c t0_15) := by
  unfold bodyPre bodyPost bodyAt0
  simp only [before0_0, before0_1, before0_2, before0_3, before0_4, before0_5]
  rw [show (dats m 0 c).owesAt () t0_15.succ = (dats m 0 c).owesAt () t0_15.castSucc from rfl]
  rw [leaves0_0, leaves0_1, leaves0_2, leaves0_3, leaves0_4, leaves0_5]
  rw [show (dats m 0 c).leavesExact 6 t0_15 = owns (c : Thread nD τ) (ms7 t0_15) fullShare (outOf (R15 m c).1) from by
    unfold Dat.leavesExact; rw [live6 t0_15 (by show 8 ≤ (15 : ℕ); omega), after0_6]; rfl]
  rw [show (dats m 0 c).Φ t0_15.castSucc = PhiN m c 15 from rfl, show (dats m 0 c).Φ t0_15.succ = PhiN m c 16 from rfl]
  rw [PhiN_ge m c 15 (by omega), PhiN_ge m c 16 (by omega)]; unfold PhiEnd
  iintro ⟨⟨H8, H9, H10, H11, Hg⟩, Ho, ⟨%d0, H0⟩, ⟨%d1, H1⟩, ⟨%d2, H2⟩, ⟨%d3, H3⟩, ⟨%d4, H4⟩, ⟨%d5, H5⟩, ⟨%d6, H6⟩⟩
  iapply ((R15 m c).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H8]; · iexact H8
  isplitl [H9]; · iexact H9
  isplitl [H10]; · iexact H10
  isplitl [H11]; · iexact H11
  iintro ⟨H0, H1, H2, H3, H4, H5, ⟨%e7, H7⟩, H8, H9, H10, H11⟩
  isplitl [H8 H9 H10 H11 Hg]
  · isplitl [H8]; · iexact H8
    isplitl [H9]; · iexact H9
    isplitl [H10]; · iexact H10
    isplitl [H11]; · iexact H11
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns outOf; iexists _; isplitr
  swap; · iexact H7
  ipureintro; exact View.read_writes_of_cover _ _ _ _ _ (cover7 _)

end Cert.KernelIdeal.Body

end
-- ==== Proof.Body.KIFrame.lean ====
import proofs.«166091_g16140487098644_cont_week2b_486_32_alg».proof.Proof.Body.KISoundS
import proofs.«166091_g16140487098644_cont_week2b_486_32_alg».proof.Proof.Body.KISoundE
import Idealize.ShloMosaic.Lib.Pipeline.Frame

/-!
The kernel's frame run: the body obligation at every grid point, the invariant handed in and given back, and the launch.

The region is entered with the scratch at anything (the class invariant), which is the tracked invariant before point 0;
after the last point the tracked invariant's named contents are forgotten and the class invariant is given back. Between,
each point's lemma is the obligation there. The library's tracked frame run then says every weakly fair execution of the
program terminates with each array of the pipeline at what the proof data computes, and the frame claim's post is read off that.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point: one of the sixteen. -/
theorem sound_body (c : Dev nD) (t : Fin cfg0.N) :
    bodyPre m c t ⊢ wp frame (wpE (defs₀ (F := F)) Variants.none c none) Set.univ (bodyAt0 t) (fun _ => bodyPost m c t) := by
  rcases fin_N0 t with rfl | rfl | rfl | rfl | rfl | rfl | rfl | rfl | rfl | rfl | rfl | rfl | rfl | rfl | rfl | rfl
  · exact sound_0 m c
  · exact sound_1 m c
  · exact sound_2 m c
  · exact sound_3 m c
  · exact sound_4 m c
  · exact sound_5 m c
  · exact sound_6 m c
  · exact sound_7 m c
  · exact sound_8 m c
  · exact sound_9 m c
  · exact sound_10 m c
  · exact sound_11 m c
  · exact sound_12 m c
  · exact sound_13 m c
  · exact sound_14 m c
  · exact sound_15 m c

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = Pipeline.ΦA spec0 c from rfl]
  try exact Idealize.SL.BI.Entails.refl _

/-- A scratch buffer at named pieces over some contents is the buffer at some contents. -/
theorem forget {s : Shape} {e : EltTy} (c : Dev nD) (M : Memref sig .tc .vmem s e) (L : List (View.Piece (Elt F) s e)) :
    (iprop(∃ f, M.view.loc (c : Thread nD τ) ↦[M.view.set]{fullShare} M.view.writes (Elt F) f L) : sProp 𝕄)
      ⊢ iprop(∃ d, owns (c : Thread nD τ) M fullShare d) := by
  iintro ⟨%f, H⟩
  unfold owns
  iexists (M.view.read (Elt F) (M.view.writes (Elt F) f L)), (M.view.writes (Elt F) f L)
  isplitr; · ipureintro; rfl
  iexact H

/-- After the last point the invariant gives the class invariant back: the scratch's named contents are forgotten. -/
theorem hout (c : Dev nD) : (dats m 0 c).Φ (Fin.last cfg0.N) ⊢ Pipeline.ΦA spec0 c := by
  have hN : (Fin.last cfg0.N).val = 16 := by rw [Fin.val_last]; exact N_0
  rw [show (dats m 0 c).Φ (Fin.last cfg0.N) = PhiN m c (Fin.last cfg0.N).val from rfl, PhiN_ge m c _ (by rw [hN]; omega), PhiA_eq]
  unfold PhiEnd
  iintro ⟨H8, H9, H10, H11, Hg⟩
  isplitl [H8 H9 H10 H11]
  · isplitl [H8]; · iapply (forget c sc8 _); iexact H8
    isplitl [H9]; · iapply (forget c sc9 _); iexact H9
    isplitl [H10]; · iapply (forget c sc10 _); iexact H10
    iapply (forget c sc11 _); iexact H11
  iexact Hg

set_option backward.isDefEq.respectTransparency.types false in
/-- Every weakly fair execution of the program terminates, and every final state has every array of the pipeline at what
    the library computes from the proof data. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.Body.KIValue.lean ====
import proofs.«166091_g16140487098644_cont_week2b_486_32_alg».proof.Proof.Body.KIFrame

/-!
The kernel's value run, from one equation about the result array.

The frame run leaves the result array at what the proof data computes: the array as the region found it, overwritten at the
write-backs of the points 8..15 by the blocks those points stored. Given that this is some array G (the one equation the value
proof owes), every weakly fair execution ends with the result array at G and the six arguments unchanged.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run with the result array named, from the equation `hG` for it. -/
theorem run_value (G : (c : Dev nD) → Buf (Elt F) ((c.tc : Thread nD τ).loc main_v0))
    (hG : ∀ c, (dats m 0 c).arrAt 6 cfg0.N = G c) :
    θ_run defs (onTc (τ := τ) (main (F := F))) ⟨m, fun _ => 0, ρ⟩ (fun r => ∀ c : Dev nD,
      r.2.mem ((c.tc : Thread nD τ).loc main_v0) = G c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (hG c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.Body

end
-- ==== Proof.Body.KIBlocks.lean ====
import proofs.«166091_g16140487098644_cont_week2b_486_32_alg».proof.Proof.Body.KIFrame
import Idealize.ShloMosaic.Lib.Pipeline.Value

/-!
From the eight stored blocks to the result array.

The output window walks the 512-row blocks of the 4096×128 result: at grid point t its block index is t − 8 (0 before point 8)
and the block is written back exactly at the points 8..15. Every row r of the array is therefore in the block written back at
point 8 + r / 512, so the array ends holding one function G as soon as each of those eight points writes back block t − 8 of G.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- An index of the result array is in point t's block iff each coordinate is in the block's range on its axis. -/
theorem mem_blk6 (t : Fin cfg0.N) (i : S4096x128.Idx) :
    i ∈ ((cfg0.win 6).blk t).view.set ↔ ∀ a : Fin 2, win0_6.index t a * S512x128.size a ≤ (i a).val ∧ (i a).val < win0_6.index t a * S512x128.size a + S512x128.size a := by
  show i ∈ ((View.whole main_v0).slice (win0_6.rect t)).set ↔ _
  rw [View.set_slice_whole, Rect.mem_set_unit]
  exact Iff.rfl

/-- The output window's block index at each point: rows block t − 8, the one column block. -/
theorem idx6 : ∀ t : Fin cfg0.N, win0_6.index t (0 : Fin 2) = t.val - 8 ∧ win0_6.index t (1 : Fin 2) = 0 :=
  (by decide +kernel : ∀ t : Fin grid0.N, win0_6.index t (0 : Fin 2) = t.val - 8 ∧ win0_6.index t (1 : Fin 2) = 0)

/-- The output window is written back exactly at the points 8..15. -/
theorem flush6 : ∀ t : Fin cfg0.N, (cfg0.win 6).flush t = true ↔ 8 ≤ t.val :=
  (by decide +kernel : ∀ t : Fin grid0.N, win0_6.flush t = true ↔ 8 ≤ t.val)

/-- Every index of the result array is in the block some point writes back: row r in the block of point 8 + r / 512. -/
theorem cover6 (i : S4096x128.Idx) : ∃ t : Fin cfg0.N, (cfg0.win 6).flush t = true ∧ i ∈ ((cfg0.win 6).blk t).view.set := by
  have h0 : (i 0).val < 4096 := (i 0).isLt
  have h1 : (i 1).val < 128 := (i 1).isLt
  have hN : cfg0.N = 16 := N_0
  have hlt : 8 + (i 0).val / 512 < cfg0.N := by rw [hN]; omega
  refine ⟨⟨8 + (i 0).val / 512, hlt⟩, (flush6 _).mpr (Nat.le_add_right 8 _), ?_⟩
  rw [mem_blk6]
  obtain ⟨e0, e1⟩ := idx6 ⟨8 + (i 0).val / 512, hlt⟩
  have e0' : win0_6.index ⟨8 + (i 0).val / 512, hlt⟩ (0 : Fin 2) = (i 0).val / 512 := by rw [e0]; show 8 + (i 0).val / 512 - 8 = _; omega
  intro a
  match a with
  | ⟨0, _⟩ =>
    show win0_6.index ⟨8 + (i 0).val / 512, hlt⟩ (0 : Fin 2) * 512 ≤ (i 0).val ∧ (i 0).val < win0_6.index ⟨8 + (i 0).val / 512, hlt⟩ (0 : Fin 2) * 512 + 512
    rw [e0']; omega
  | ⟨1, _⟩ =>
    show win0_6.index ⟨8 + (i 0).val / 512, hlt⟩ (1 : Fin 2) * 128 ≤ (i 1).val ∧ (i 1).val < win0_6.index ⟨8 + (i 0).val / 512, hlt⟩ (1 : Fin 2) * 128 + 128
    rw [e1]; omega

/-- The result array is G as soon as each of the points 8..15 writes back its block of G. -/
theorem arr_of_blocks (c : Dev nD) (G : S4096x128.Idx → Elt F .f32)
    (hblk : ∀ t : Fin cfg0.N, 8 ≤ t.val → (dats m 0 c).flushed 6 t = ((cfg0.win 6).blk t).view.read (Elt F) G) :
    (dats m 0 c).arrAt 6 cfg0.N = G :=
  (dats m 0 c).arrAt_eq_of_cover 6 G (fun t hf => hblk t ((flush6 t).mp hf)) cover6

end Cert.KernelIdeal.Body

end
-- ==== Proof.Body.KIVal0.lean ====
import proofs.«166091_g16140487098644_cont_week2b_486_32_alg».proof.Proof.Body.KIData
import proofs.«166091_g16140487098644_cont_week2b_486_32_alg».proof.Proof.LibDot2
import proofs.«166091_g16140487098644_cont_week2b_486_32_alg».proof.Proof.Spec
import Idealize.ShloMosaic.Lib.Pipeline.Value
import Idealize.ShloMosaic.Lib.ValueIdx

/-!
The first link of the kernel's value: the support scratch.

A whole-buffer load of a staged input is the block the buffer holds. The run at point 0 stores max(feature · weight, 0) into the
support scratch: as a term, the body's payload of the two input blocks; at the ideal values and at entry (r, c), the maximum of
the sum over q of feature(r, q) · weight(q, c) and 0.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.LibDot2

/-- A load through the whole-buffer rectangle of a whole memref owned at the block x reads x. -/
theorem load_whole {S : Shape} {e : EltTy} (M : Memref sig .tc .vmem S e) (h : M.IsWhole) {off : Fin S.rank → Nat}
    (hz : off = fun _ => 0) (inb : ∀ a, off a + S.size a ≤ S.size a) (x : S.Idx → Elt F e) :
    View.readAt (Elt F) M.view (Rect.unit off S.size inb).toLoadRect (h.unread x) = x := by
  rw [View.readAt_eq_ld, h.read_unread, View.ld_unit_zero hz]

theorem hz2 : (![0, 0] : Fin 2 → Nat) = fun _ => 0 := funext fun a => by fin_cases a <;> rfl

variable (m : (ℓ : Loc nD τ sig) → Buf (Elt F) ℓ)

/-- The support as the run at point 0 stores it: the payload of the feature block and the weight block. -/
theorem sv_eq (c : Dev nD) : sv m c = k0_pay61 (iblk m c 0 t0_0) (iblk m c 1 t0_0) := by
  unfold sv R0 run0
  dsimp only
  rw [load_whole _ _ hz2, load_whole _ _ hz2]

/-- At the ideal values the support payload at entry (r, c) is max(Σ_q x(r, q) · w(q, c), 0). -/
theorem pay61_apply (x : Vec Ideal S4096x128 .f32) (w : Vec Ideal S128x128 .f32) (r : Fin 4096) (c : Fin 128) :
    k0_pay61 (F := Ideal) x w (ix2 r c) = max (∑ q : Fin 128, x (ix2 r q) * w (ix2 q c)) 0 := by
  unfold k0_pay61
  rw [shapeCast_self]
  show max (FloatOps.matmul (DotDims.plain 4096 128 128) none x w (constant (⟨2, ![4096, 128]⟩ : Shape) .f32 0x00000000#32) (ix2 r c))
      (Ideal.ofBits .f32 0x00000000#32) = _
  rw [matmul_plain_zero_apply, Ideal.ofBits_zero_f32]

/-- The feature window and the weight window are whole arrays: their one block sits at block index (0, 0) at every point. -/
theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- The feature window's block at an entry is the feature array as the region finds it, there. -/
theorem iblk0_apply (c : Dev nD) (t : Fin cfg0.N) (r : Fin 4096) (q : Fin 128) :
    iblk m c 0 t (ix2 r q) = V m c main_arg0 (ix2 r q) := by
  unfold iblk
  show V m c main_arg0 (((cfg0.win 0).blk t).view.emb (ix2 r q)) = _
  refine congrArg _ (funext fun a => Fin.ext ?_)
  obtain ⟨e0, e1⟩ := idx0 t
  match a with
  | ⟨0, _⟩ => show win0_0.index t (0 : Fin 2) * 4096 + 1 * r.val = r.val; rw [e0]; omega
  | ⟨1, _⟩ => show win0_0.index t (1 : Fin 2) * 128 + 1 * q.val = q.val; rw [e1]; omega

/-- The weight window's block at an entry is the weight array as the region finds it, there. -/
theorem iblk1_apply (c : Dev nD) (t : Fin cfg0.N) (q : Fin 128) (k : Fin 128) :
    iblk m c 1 t (ix2 q k) = V m c main_arg2 (ix2 q k) := by
  unfold iblk
  show V m c main_arg2 (((cfg0.win 1).blk t).view.emb (ix2 q k)) = _
  refine congrArg _ (funext fun a => Fin.ext ?_)
  obtain ⟨e0, e1⟩ := idx1 t
  match a with
  | ⟨0, _⟩ => show win0_1.index t (0 : Fin 2) * 128 + 1 * q.val = q.val; rw [e0]; omega
  | ⟨1, _⟩ => show win0_1.index t (1 : Fin 2) * 128 + 1 * k.val = k.val; rw [e1]; omega

end Cert.KernelIdeal.Body

namespace Cert.KernelIdeal.Body

open Cert.KernelIdeal Cert.KernelIdeal.Gen Idealize.ShloMosaic Idealize.ShloMosaic.TcCoe Idealize.SL.Sem
open Idealize.ShloMosaic.ValueIdx Cert.GraphConv

/-- At the ideal values the support scratch holds, at entry (r, k), the specification's support of the feature and weight arrays. -/
theorem sv_apply (m : (ℓ : Loc nD τ sig) → Buf (Elt Ideal) ℓ) (c : Dev nD) (r : Fin 4096) (k : Fin 128) :
    sv m c (ix2 r k) = sup (m ((c : Thread nD τ).loc main_arg0)) (m ((c : Thread nD τ).loc main_arg2)) r k := by
  rw [sv_eq, pay61_apply]
  unfold sup
  refine congrArg (max · 0) (Finset.sum_congr rfl fun q _ => ?_)
  rw [iblk0_apply, iblk1_apply, V_main_arg0, V_main_arg2]

end Cert.KernelIdeal.Body

end
-- ==== Proof.Body.KIVal1.lean ====
import proofs.«166091_g16140487098644_cont_week2b_486_32_alg».proof.Proof.Body.KIVal0
import Idealize.ShloMosaic.Lib.ValueLayout
import Idealize.ShloMosaic.Lib.StableHlo.Run

/-!
The input windows read back as the argument arrays.

The adj window walks the eight 512-row blocks (block min(t, 7) at point t): its block at point j ≤ 7, at (r, q), is adj at
(512 j + r, q). The cat_w window is the whole array. The bias and cat_b windows are the one-row arrays the host lays the two
length-128 arguments out as before the region: at (0, e) they are bias(e) and cat_b(e).
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt F) ℓ)

/-- The adj window's block index at each point: row block min(t, 7), the one column block. -/
theorem idx2 : ∀ t : Fin cfg0.N, win0_2.index t (0 : Fin 2) = min t.val 7 ∧ win0_2.index t (1 : Fin 2) = 0 :=
  (by decide +kernel : ∀ t : Fin grid0.N, win0_2.index t (0 : Fin 2) = min t.val 7 ∧ win0_2.index t (1 : Fin 2) = 0)
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- The adj window's block at a streaming point t ≤ 7, at (r, q), is adj at (512 t + r, q). -/
theorem iblk2_apply (c : Dev nD) (t : Fin cfg0.N) (ht : t.val ≤ 7) (r : Fin 512) (q : Fin 4096) :
    iblk m c 2 t (ix2 r q) = V m c main_arg1 (ix2 (⟨512 * t.val + r.val, by omega⟩ : Fin 4096) q) := by
  unfold iblk
  show V m c main_arg1 (((cfg0.win 2).blk t).view.emb (ix2 r q)) = _
  refine congrArg _ (funext fun a => Fin.ext ?_)
  obtain ⟨e0, e1⟩ := idx2 t
  match a with
  | ⟨0, _⟩ => show win0_2.index t (0 : Fin 2) * 512 + 1 * r.val = 512 * t.val + r.val; rw [e0]; omega
  | ⟨1, _⟩ => show win0_2.index t (1 : Fin 2) * 4096 + 1 * q.val = q.val; rw [e1]; omega

/-- The cat_w window's block is the whole array. -/
theorem iblk3_apply (c : Dev nD) (t : Fin cfg0.N) (e : Fin 128) (q : Fin 256) :
    iblk m c 3 t (ix2 e q) = V m c main_arg4 (ix2 e q) := by
  unfold iblk
  show V m c main_arg4 (((cfg0.win 3).blk t).view.emb (ix2 e q)) = _
  refine congrArg _ (funext fun a => Fin.ext ?_)
  obtain ⟨e0, e1⟩ := idx3 t
  match a with
  | ⟨0, _⟩ => show win0_3.index t (0 : Fin 2) * 128 + 1 * e.val = e.val; rw [e0]; omega
  | ⟨1, _⟩ => show win0_3.index t (1 : Fin 2) * 256 + 1 * q.val = q.val; rw [e1]; omega

/-- The one-row array the host lays bias out as, as the region finds it. -/
theorem V_bias_row (c : Dev nD) :
    (V m c main_call0_v0 : S1x128.Idx → Elt F .f32) = shapeCast S1x128 (m ((c : Thread nD τ).loc main_arg3)) shapeCasts_S128_S1x128 := by
  dsimp only [V, hostOps0]; after_results; rfl

/-- The one-row array the host lays cat_b out as, as the region finds it. -/
theorem V_catb_row (c : Dev nD) :
    (V m c main_call0_v1 : S1x128.Idx → Elt F .f32) = shapeCast S1x128 (m ((c : Thread nD τ).loc main_arg5)) shapeCasts_S128_S1x128 := by
  dsimp only [V, hostOps0]; after_results; rfl

/-- The bias window's block at (0, e) is bias(e). -/
theorem iblk4_apply (c : Dev nD) (t : Fin cfg0.N) (e : Fin 128) :
    iblk m c 4 t (ix2 (0 : Fin 1) e) = m ((c : Thread nD τ).loc main_arg3) (ix1 e) := by
  unfold iblk
  show V m c main_call0_v0 (((cfg0.win 4).blk t).view.emb (ix2 (0 : Fin 1) e)) = _
  obtain ⟨e0, e1⟩ := idx4 t
  have he : ((cfg0.win 4).blk t).view.emb (ix2 (0 : Fin 1) e) = ix2 (0 : Fin 1) e := by
    funext a; apply Fin.ext
    match a with
    | ⟨0, _⟩ => show win0_4.index t (0 : Fin 2) * 1 + 1 * 0 = 0; rw [e0]
    | ⟨1, _⟩ => show win0_4.index t (1 : Fin 2) * 128 + 1 * e.val = e.val; rw [e1]; omega
  rw [he, V_bias_row]
  exact shapeCast_a_1a_apply _ shapeCasts_S128_S1x128 (0 : Fin 1) e

/-- The cat_b window's block at (0, e) is cat_b(e). -/
theorem iblk5_apply (c : Dev nD) (t : Fin cfg0.N) (e : Fin 128) :
    iblk m c 5 t (ix2 (0 : Fin 1) e) = m ((c : Thread nD τ).loc main_arg5) (ix1 e) := by
  unfold iblk
  show V m c main_call0_v1 (((cfg0.win 5).blk t).view.emb (ix2 (0 : Fin 1) e)) = _
  obtain ⟨e0, e1⟩ := idx5 t
  have he : ((cfg0.win 5).blk t).view.emb (ix2 (0 : Fin 1) e) = ix2 (0 : Fin 1) e := by
    funext a; apply Fin.ext
    match a with
    | ⟨0, _⟩ => show win0_5.index t (0 : Fin 2) * 1 + 1 * 0 = 0; rw [e0]
    | ⟨1, _⟩ => show win0_5.index t (1 : Fin 2) * 128 + 1 * e.val = e.val; rw [e1]; omega
  rw [he, V_catb_row]
  exact shapeCast_a_1a_apply _ shapeCasts_S128_S1x128 (0 : Fin 1) e

end Cert.KernelIdeal.Body

end
-- ==== Proof.Body.KIVal2.lean ====
import proofs.«166091_g16140487098644_cont_week2b_486_32_alg».proof.Proof.Body.KIVal1

/-!
The scratch copies of adj and of t1, row block by row block.

At the ideal values the changes of float format are the identity, so row block j of the copy of adj is row block j of adj, and
row block j of t1, the matrix unit's product of that block with the whole support, is at (r, k) the sum over q of
adj(512 j + r, q) · sup(q, k): row 512 j + r of adj · sup.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.LibDot2 Cert.GraphConv

variable (m : (ℓ : Loc nD τ sig) → Buf (Elt Ideal) ℓ)

set_option maxHeartbeats 1000000 in
/-- Row block 0 of adj's copy is row block 0 of adj. -/
theorem av0_apply (c : Dev nD) (r : Fin 512) (q : Fin 4096) :
    av0 m c (ix2 r q) = m ((c : Thread nD τ).loc main_arg1) (ix2 (⟨512 * 0 + r.val, by omega⟩ : Fin 4096) q) := by
  unfold av0 R0 run0
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_0 (ix2 r q) = _
  rw [iblk2_apply m c t0_0 (by decide) r q, V_main_arg1]
  rfl

set_option maxHeartbeats 1000000 in
/-- Row block 0 of t1 is row block 0 of adj · sup. -/
theorem bv0_apply (c : Dev nD) (r : Fin 512) (k : Fin 128) :
    bv0 m c (ix2 r k) = hop (m ((c : Thread nD τ).loc main_arg1))
      (sup (m ((c : Thread nD τ).loc main_arg0)) (m ((c : Thread nD τ).loc main_arg2))) (⟨512 * 0 + r.val, by omega⟩ : Fin 4096) k := by
  unfold bv0 R0 run0
  dsimp only
  simp only [load_whole (S := S512x4096) _ _ hz2, load_whole (S := S4096x128) _ _ hz2, load_whole (S := S128x128) _ _ hz2]
  rw [← sv_eq m c]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_0 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_0 (by decide) r q, V_main_arg1, sv_apply]
  rfl

set_option maxHeartbeats 1000000 in
/-- Row block 1 of adj's copy is row block 1 of adj. -/
theorem av1_apply (c : Dev nD) (r : Fin 512) (q : Fin 4096) :
    av1 m c (ix2 r q) = m ((c : Thread nD τ).loc main_arg1) (ix2 (⟨512 * 1 + r.val, by omega⟩ : Fin 4096) q) := by
  unfold av1 R1 run1
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_1 (ix2 r q) = _
  rw [iblk2_apply m c t0_1 (by decide) r q, V_main_arg1]
  rfl

set_option maxHeartbeats 1000000 in
/-- Row block 1 of t1 is row block 1 of adj · sup. -/
theorem bv1_apply (c : Dev nD) (r : Fin 512) (k : Fin 128) :
    bv1 m c (ix2 r k) = hop (m ((c : Thread nD τ).loc main_arg1))
      (sup (m ((c : Thread nD τ).loc main_arg0)) (m ((c : Thread nD τ).loc main_arg2))) (⟨512 * 1 + r.val, by omega⟩ : Fin 4096) k := by
  unfold bv1 R1 run1
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_1 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_1 (by decide) r q, V_main_arg1, sv_apply]
  rfl

set_option maxHeartbeats 1000000 in
/-- Row block 2 of adj's copy is row block 2 of adj. -/
theorem av2_apply (c : Dev nD) (r : Fin 512) (q : Fin 4096) :
    av2 m c (ix2 r q) = m ((c : Thread nD τ).loc main_arg1) (ix2 (⟨512 * 2 + r.val, by omega⟩ : Fin 4096) q) := by
  unfold av2 R2 run2
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_2 (ix2 r q) = _
  rw [iblk2_apply m c t0_2 (by decide) r q, V_main_arg1]
  rfl

set_option maxHeartbeats 1000000 in
/-- Row block 2 of t1 is row block 2 of adj · sup. -/
theorem bv2_apply (c : Dev nD) (r : Fin 512) (k : Fin 128) :
    bv2 m c (ix2 r k) = hop (m ((c : Thread nD τ).loc main_arg1))
      (sup (m ((c : Thread nD τ).loc main_arg0)) (m ((c : Thread nD τ).loc main_arg2))) (⟨512 * 2 + r.val, by omega⟩ : Fin 4096) k := by
  unfold bv2 R2 run2
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_2 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_2 (by decide) r q, V_main_arg1, sv_apply]
  rfl

set_option maxHeartbeats 1000000 in
/-- Row block 3 of adj's copy is row block 3 of adj. -/
theorem av3_apply (c : Dev nD) (r : Fin 512) (q : Fin 4096) :
    av3 m c (ix2 r q) = m ((c : Thread nD τ).loc main_arg1) (ix2 (⟨512 * 3 + r.val, by omega⟩ : Fin 4096) q) := by
  unfold av3 R3 run3
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_3 (ix2 r q) = _
  rw [iblk2_apply m c t0_3 (by decide) r q, V_main_arg1]
  rfl

set_option maxHeartbeats 1000000 in
/-- Row block 3 of t1 is row block 3 of adj · sup. -/
theorem bv3_apply (c : Dev nD) (r : Fin 512) (k : Fin 128) :
    bv3 m c (ix2 r k) = hop (m ((c : Thread nD τ).loc main_arg1))
      (sup (m ((c : Thread nD τ).loc main_arg0)) (m ((c : Thread nD τ).loc main_arg2))) (⟨512 * 3 + r.val, by omega⟩ : Fin 4096) k := by
  unfold bv3 R3 run3
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_3 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_3 (by decide) r q, V_main_arg1, sv_apply]
  rfl

set_option maxHeartbeats 1000000 in
/-- Row block 4 of adj's copy is row block 4 of adj. -/
theorem av4_apply (c : Dev nD) (r : Fin 512) (q : Fin 4096) :
    av4 m c (ix2 r q) = m ((c : Thread nD τ).loc main_arg1) (ix2 (⟨512 * 4 + r.val, by omega⟩ : Fin 4096) q) := by
  unfold av4 R4 run4
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_4 (ix2 r q) = _
  rw [iblk2_apply m c t0_4 (by decide) r q, V_main_arg1]
  rfl

set_option maxHeartbeats 1000000 in
/-- Row block 4 of t1 is row block 4 of adj · sup. -/
theorem bv4_apply (c : Dev nD) (r : Fin 512) (k : Fin 128) :
    bv4 m c (ix2 r k) = hop (m ((c : Thread nD τ).loc main_arg1))
      (sup (m ((c : Thread nD τ).loc main_arg0)) (m ((c : Thread nD τ).loc main_arg2))) (⟨512 * 4 + r.val, by omega⟩ : Fin 4096) k := by
  unfold bv4 R4 run4
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_4 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_4 (by decide) r q, V_main_arg1, sv_apply]
  rfl

set_option maxHeartbeats 1000000 in
/-- Row block 5 of adj's copy is row block 5 of adj. -/
theorem av5_apply (c : Dev nD) (r : Fin 512) (q : Fin 4096) :
    av5 m c (ix2 r q) = m ((c : Thread nD τ).loc main_arg1) (ix2 (⟨512 * 5 + r.val, by omega⟩ : Fin 4096) q) := by
  unfold av5 R5 run5
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_5 (ix2 r q) = _
  rw [iblk2_apply m c t0_5 (by decide) r q, V_main_arg1]
  rfl

set_option maxHeartbeats 1000000 in
/-- Row block 5 of t1 is row block 5 of adj · sup. -/
theorem bv5_apply (c : Dev nD) (r : Fin 512) (k : Fin 128) :
    bv5 m c (ix2 r k) = hop (m ((c : Thread nD τ).loc main_arg1))
      (sup (m ((c : Thread nD τ).loc main_arg0)) (m ((c : Thread nD τ).loc main_arg2))) (⟨512 * 5 + r.val, by omega⟩ : Fin 4096) k := by
  unfold bv5 R5 run5
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_5 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_5 (by decide) r q, V_main_arg1, sv_apply]
  rfl

set_option maxHeartbeats 1000000 in
/-- Row block 6 of adj's copy is row block 6 of adj. -/
theorem av6_apply (c : Dev nD) (r : Fin 512) (q : Fin 4096) :
    av6 m c (ix2 r q) = m ((c : Thread nD τ).loc main_arg1) (ix2 (⟨512 * 6 + r.val, by omega⟩ : Fin 4096) q) := by
  unfold av6 R6 run6
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_6 (ix2 r q) = _
  rw [iblk2_apply m c t0_6 (by decide) r q, V_main_arg1]
  rfl

set_option maxHeartbeats 1000000 in
/-- Row block 6 of t1 is row block 6 of adj · sup. -/
theorem bv6_apply (c : Dev nD) (r : Fin 512) (k : Fin 128) :
    bv6 m c (ix2 r k) = hop (m ((c : Thread nD τ).loc main_arg1))
      (sup (m ((c : Thread nD τ).loc main_arg0)) (m ((c : Thread nD τ).loc main_arg2))) (⟨512 * 6 + r.val, by omega⟩ : Fin 4096) k := by
  unfold bv6 R6 run6
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_6 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_6 (by decide) r q, V_main_arg1, sv_apply]
  rfl

set_option maxHeartbeats 1000000 in
/-- Row block 7 of adj's copy is row block 7 of adj. -/
theorem av7_apply (c : Dev nD) (r : Fin 512) (q : Fin 4096) :
    av7 m c (ix2 r q) = m ((c : Thread nD τ).loc main_arg1) (ix2 (⟨512 * 7 + r.val, by omega⟩ : Fin 4096) q) := by
  unfold av7 R7 run7
  dsimp only
  simp only [load_whole (S := S512x4096) _ _ hz2, load_whole (S := S4096x128) _ _ hz2, load_whole (S := S128x128) _ _ hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show iblk m c 2 t0_7 (ix2 r q) = _
  rw [iblk2_apply m c t0_7 (by decide) r q, V_main_arg1]
  rfl

set_option maxHeartbeats 1000000 in
/-- Row block 7 of t1 is row block 7 of adj · sup. -/
theorem bv7_apply (c : Dev nD) (r : Fin 512) (k : Fin 128) :
    bv7 m c (ix2 r k) = hop (m ((c : Thread nD τ).loc main_arg1))
      (sup (m ((c : Thread nD τ).loc main_arg0)) (m ((c : Thread nD τ).loc main_arg2))) (⟨512 * 7 + r.val, by omega⟩ : Fin 4096) k := by
  unfold bv7 R7 run7
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (φ₁ := .bf16) (φ₂ := .bf16) (DotDims.plain 512 4096 128) none
      (iblk m c 2 t0_7 : FVec Ideal (⟨2, ![512, 4096]⟩ : Shape) .bf16) (sv m c)
      (constant (⟨2, ![512, 128]⟩ : Shape) .f32 0x00000000#32) (ix2 r k) = _
  rw [matmul_plain_zero_apply]
  unfold hop
  refine Finset.sum_congr rfl fun q _ => ?_
  rw [iblk2_apply m c t0_7 (by decide) r q, V_main_arg1, sv_apply]
  rfl

end Cert.KernelIdeal.Body

end
-- ==== Proof.LibRowPieces.lean ====
import Idealize.ShloMosaic.Lib.Pipeline.FrameBody
import Idealize.ShloMosaic.Lib.ValueIdx

/-!
Reading a rank-2 buffer written by row blocks, at one entry.

A frame lists what was stored into a buffer as pieces, newest first, and states a load as `readCov` of the pieces at the load's
box; that is the pieces' canonical contents at the box's indices. For an M×N buffer stored in blocks of whole rows (h rows from
row o, all N columns): an entry whose row lies in the newest block reads that block's value at the row less o, and an entry
whose row lies outside passes to the older pieces. A load box at (o, p) sends its local entry (x, y) to (o + x, p + y).
All generic in the extents and in the element type.
-/

noncomputable section

namespace Idealize.ShloMosaic.LibRowPieces

open Idealize.ShloMosaic Idealize.ShloMosaic.ValueIdx Idealize.ShloMosaic.View

variable {Val : EltTy → Type} [∀ e, Nonempty (Val e)] {e : EltTy} {M N : Nat}

/-- A load through a box at (o, p) reads, at its local entry (x, y), the pieces' contents at (o + x, p + y). -/
theorem readCov_box_apply {sig : RefSig} {κ : Kind} {sp : Space} (v : View sig κ sp (⟨2, ![M, N]⟩ : Shape) e)
    (L : List (Piece Val (⟨2, ![M, N]⟩ : Shape) e)) {h w o p : Nat}
    (inb : ∀ a, (![o, p] : Fin 2 → Nat) a + (⟨2, ![h, w]⟩ : Shape).size a ≤ (⟨2, ![M, N]⟩ : Shape).size a)
    (x : Fin h) (y : Fin w) (q : Fin M) (k : Fin N) (hq : o + x.val = q.val) (hk : p + y.val = k.val) :
    v.readCov L (Rect.unit (s := (⟨2, ![M, N]⟩ : Shape)) ![o, p] (⟨2, ![h, w]⟩ : Shape).size inb).toLoadRect (ix2 x y)
      = canon L (ix2 q k) := by
  rw [readCov_eq_canon']
  refine congrArg (canon L) (funext fun a => Fin.ext ?_)
  match a with
  | ⟨0, _⟩ => show o + 1 * x.val = q.val; omega
  | ⟨1, _⟩ => show p + 1 * y.val = k.val; omega

/-- An entry whose row lies in the newest row block reads that block's value at the row less the block's first row. -/
theorem canon_rows_hit {h o : Nat}
    (inb : ∀ a, (![o, 0] : Fin 2 → Nat) a + (⟨2, ![h, N]⟩ : Shape).size a ≤ (⟨2, ![M, N]⟩ : Shape).size a)
    (u : (⟨2, ![h, N]⟩ : Shape).Idx → Val e) (L : List (Piece Val (⟨2, ![M, N]⟩ : Shape) e))
    (q : Fin M) (k : Fin N) (x : Fin h) (hx : o + x.val = q.val) :
    canon ((⟨Rect.unit (s := (⟨2, ![M, N]⟩ : Shape)) ![o, 0] (⟨2, ![h, N]⟩ : Shape).size inb, u⟩ : Piece Val (⟨2, ![M, N]⟩ : Shape) e) :: L) (ix2 q k)
      = u (ix2 x k) := by
  have he : (Rect.unit (s := (⟨2, ![M, N]⟩ : Shape)) ![o, 0] (⟨2, ![h, N]⟩ : Shape).size inb).emb (ix2 x k) = ix2 q k := by
    funext a; apply Fin.ext
    match a with
    | ⟨0, _⟩ => show o + 1 * x.val = q.val; omega
    | ⟨1, _⟩ => show 0 + 1 * k.val = k.val; omega
  rw [← he]
  exact canon_cons_emb (Rect.unit (s := (⟨2, ![M, N]⟩ : Shape)) ![o, 0] (⟨2, ![h, N]⟩ : Shape).size inb) u L (ix2 x k)

/-- An entry whose row lies outside the newest row block reads the older pieces. -/
theorem canon_rows_miss {h o : Nat}
    (inb : ∀ a, (![o, 0] : Fin 2 → Nat) a + (⟨2, ![h, N]⟩ : Shape).size a ≤ (⟨2, ![M, N]⟩ : Shape).size a)
    (u : (⟨2, ![h, N]⟩ : Shape).Idx → Val e) (L : List (Piece Val (⟨2, ![M, N]⟩ : Shape) e))
    (q : Fin M) (k : Fin N) (hq : q.val < o ∨ o + h ≤ q.val) :
    canon ((⟨Rect.unit (s := (⟨2, ![M, N]⟩ : Shape)) ![o, 0] (⟨2, ![h, N]⟩ : Shape).size inb, u⟩ : Piece Val (⟨2, ![M, N]⟩ : Shape) e) :: L) (ix2 q k)
      = canon L (ix2 q k) := by
  refine canon_cons_of_not_mem _ L ?_
  intro hm
  rw [Rect.mem_set_unit] at hm
  have h0 : o ≤ q.val ∧ q.val < o + h := hm 0
  omega

end Idealize.ShloMosaic.LibRowPieces

end
-- ==== Proof.PartSums.lean ====
import proofs.«166091_g16140487098644_cont_week2b_486_32_alg».proof.Proof.Spec

/-!
Partial sums over the columns of adj, for the second multiplication by adj.

The kernel builds row r of t2 = adj · t1 from the columns seen so far: after streaming step j it holds the sum over the first
512 (j + 1) columns. With adj and t1 read at natural-number coordinates (0 outside the arrays) that is `part n r c`, the sum
over q < n of adj(r, q) · t1(q, c); the sum over all 4096 columns is the second hop, and the sum over n + k columns is the sum
over n plus the sum over the next k. Only associativity and commutativity of addition are used, so no finiteness.
-/

noncomputable section

namespace Cert.GraphConv

open Idealize.ShloMosaic Idealize.ShloMosaic.ValueIdx

/-- adj at natural-number coordinates, 0 outside the array. -/
def adjN (adj : Mat 4096 4096) (r q : ℕ) : EReal :=
  if h : r < 4096 ∧ q < 4096 then adj (ix2 ⟨r, h.1⟩ ⟨q, h.2⟩) else 0

/-- t1 = adj · S at a natural-number row, 0 outside. -/
def t1N (adj : Mat 4096 4096) (S : Fin 4096 → Fin 128 → EReal) (q : ℕ) (c : Fin 128) : EReal :=
  if h : q < 4096 then hop adj S ⟨q, h⟩ c else 0

/-- Row r of adj · t1 over the first n columns. -/
def part (adj : Mat 4096 4096) (S : Fin 4096 → Fin 128 → EReal) (n r : ℕ) (c : Fin 128) : EReal :=
  ∑ q ∈ Finset.range n, adjN adj r q * t1N adj S q c

theorem adjN_of_lt (adj : Mat 4096 4096) (r q : Fin 4096) : adjN adj r.val q.val = adj (ix2 r q) := by
  unfold adjN; rw [dif_pos ⟨r.isLt, q.isLt⟩]

theorem t1N_of_lt (adj : Mat 4096 4096) (S : Fin 4096 → Fin 128 → EReal) (q : Fin 4096) (c : Fin 128) :
    t1N adj S q.val c = hop adj S q c := by
  unfold t1N; rw [dif_pos q.isLt]

/-- Over all 4096 columns the partial sum is the second hop. -/
theorem part_full (adj : Mat 4096 4096) (S : Fin 4096 → Fin 128 → EReal) (r : Fin 4096) (c : Fin 128) :
    part adj S 4096 r.val c = hop adj (hop adj S) r c := by
  unfold part
  rw [← Fin.sum_univ_eq_sum_range (fun q => adjN adj r.val q * t1N adj S q c) 4096]
  show _ = ∑ q : Fin 4096, adj (ix2 r q) * hop adj S q c
  exact Finset.sum_congr rfl fun q _ => by rw [adjN_of_lt, t1N_of_lt]

/-- A sum over an initial segment of the columns, indexed by a finite type, is the partial sum. -/
theorem part_fin (adj : Mat 4096 4096) (S : Fin 4096 → Fin 128 → EReal) (n r : ℕ) (c : Fin 128) :
    ∑ q : Fin n, adjN adj r q.val * t1N adj S q.val c = part adj S n r c :=
  Fin.sum_univ_eq_sum_range (fun q => adjN adj r q * t1N adj S q c) n

/-- Extending the columns by k adds the sum over those k. -/
theorem part_add (adj : Mat 4096 4096) (S : Fin 4096 → Fin 128 → EReal) (n k r : ℕ) (c : Fin 128) :
    part adj S (n + k) r c = part adj S n r c + ∑ q : Fin k, adjN adj r (n + q.val) * t1N adj S (n + q.val) c := by
  unfold part
  rw [Finset.sum_range_add, ← Fin.sum_univ_eq_sum_range (fun q => adjN adj r (n + q) * t1N adj S (n + q) c) k]

end Cert.GraphConv

end
-- ==== Proof.Body.KIVal3.lean ====
import proofs.«166091_g16140487098644_cont_week2b_486_32_alg».proof.Proof.Body.KIVal2
import proofs.«166091_g16140487098644_cont_week2b_486_32_alg».proof.Proof.LibRowPieces
import proofs.«166091_g16140487098644_cont_week2b_486_32_alg».proof.Proof.PartSums

/-!
The diagonal values of t2.

At streaming point j the kernel sets row block j of t2 to the product of the first 512 (j + 1) columns of that block of adj
with the first 512 (j + 1) rows of t1, read back from the j + 1 row blocks of t1 stored so far. A row q of that load lies in
exactly one stored block, q / 512, and reads row q of adj · sup there; so the value at (r, k) is the partial sum over
q < 512 (j + 1) of adj(512 j + r, q) · t1(q, k).
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.LibDot2 Idealize.ShloMosaic.LibRowPieces Cert.GraphConv

variable (m : (ℓ : Loc nD τ sig) → Buf (Elt Ideal) ℓ)

/-- This point's block of t1, as the product of the adj block with the support, at an entry. -/
theorem t1term0 (c : Dev nD) (r : Fin 512) (k : Fin 128) :
    FloatOps.matmul (F := Ideal) (φ₁ := .bf16) (φ₂ := .bf16) (DotDims.plain 512 4096 128) none
      (iblk m c 2 t0_0 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 0 + r.val, by omega⟩ : Fin 4096) k := by
  rw [matmul_plain_zero_apply]
  unfold hop
  refine Finset.sum_congr rfl fun q _ => ?_
  rw [iblk2_apply m c t0_0 (by decide) r q, V_main_arg1, sv_apply]
  rfl

set_option maxHeartbeats 1000000 in
/-- The first 512 rows of t1 read back from the 1 stored row blocks (the newest given by its closed form): row q of adj · sup. -/
theorem t1load0 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 0 + r.val, by omega⟩ : Fin 4096) k)
    (q : Fin 512) (k : Fin 128) :
    v.readCov [⟨Rect.unit (s := S4096x128) ![0, 0] S512x128.size inb_S4096x128_S512x128_0_0, b⟩]
        (Rect.unit (s := S4096x128) ![0, 0] S512x128.size inb_S4096x128_S512x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  have h : q.val < 512 := hq
  · rw [canon_rows_hit (M := 4096) (N := 128) (h := 512) (o := 0) _ _ _ _ _ (⟨q.val - 0, by omega⟩ : Fin 512) (by show 0 + (q.val - 0) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))

set_option maxHeartbeats 2000000 in
/-- Row block 0 of t2 as point 0 sets it: row 512·0 + r of adj · t1 over the first 512 columns. -/
theorem dv0_apply (c : Dev nD) (r : Fin 512) (k : Fin 128) :
    dv0 m c (ix2 r k) = part (m ((c : Thread nD τ).loc main_arg1)) (sup (m ((c : Thread nD τ).loc main_arg0)) (m ((c : Thread nD τ).loc main_arg2))) 512 (512 * 0 + r.val) k := by
  unfold dv0 R0 run0
  dsimp only
  simp only [load_whole (S := S512x4096) _ _ hz2, load_whole (S := S4096x128) _ _ hz2, load_whole (S := S128x128) _ _ hz2]
  rw [← sv_eq m c]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 512 128) none
      (extractStridedSlice (⟨2, ![512, 512]⟩ : Shape) ![0, 0] (iblk m c 2 t0_0 : FVec Ideal (⟨2, ![512, 4096]⟩ : Shape) .bf16) slices_S512x4096_o0_0_S512x512) (View.readCov (Val := Elt Ideal) (e := EltTy.bf16) _ _ (Rect.unit (s := S4096x128) ![0, 0] S512x128.size inb_S4096x128_S512x128_0_0).toLoadRect : FVec Ideal (⟨2, ![512, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load0 m c _ _ (fun r' k' => t1term0 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_0 (by decide) r (⟨q.val, by omega⟩ : Fin 4096), V_main_arg1]
    exact (adjN_of_lt _ (⟨512 * 0 + r.val, by omega⟩ : Fin 4096) (⟨q.val, by omega⟩ : Fin 4096)).symm

/-- This point's block of t1, as the product of the adj block with the support, at an entry. -/
theorem t1term1 (c : Dev nD) (r : Fin 512) (k : Fin 128) :
    FloatOps.matmul (F := Ideal) (φ₁ := .bf16) (φ₂ := .bf16) (DotDims.plain 512 4096 128) none
      (iblk m c 2 t0_1 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 1 + r.val, by omega⟩ : Fin 4096) k := by
  rw [matmul_plain_zero_apply]
  unfold hop
  refine Finset.sum_congr rfl fun q _ => ?_
  rw [iblk2_apply m c t0_1 (by decide) r q, V_main_arg1, sv_apply]
  rfl

set_option maxHeartbeats 1000000 in
/-- The first 1024 rows of t1 read back from the 2 stored row blocks (the newest given by its closed form): row q of adj · sup. -/
theorem t1load1 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 1 + r.val, by omega⟩ : Fin 4096) k)
    (q : Fin 1024) (k : Fin 128) :
    v.readCov [⟨Rect.unit (s := S4096x128) ![512, 0] S512x128.size inb_S4096x128_S512x128_512_0, b⟩, ⟨Rect.unit (s := S4096x128) ![0, 0] S512x128.size inb_S4096x128_S512x128_0_0, bv0 m c⟩]
        (Rect.unit (s := S4096x128) ![0, 0] S1024x128.size inb_S4096x128_S1024x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024)) with h | h
  · rw [canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_hit (M := 4096) (N := 128) (h := 512) (o := 512) _ _ _ _ _ (⟨q.val - 512, by omega⟩ : Fin 512) (by show 512 + (q.val - 512) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))

set_option maxHeartbeats 2000000 in
/-- Row block 1 of t2 as point 1 sets it: row 512·1 + r of adj · t1 over the first 1024 columns. -/
theorem dv1_apply (c : Dev nD) (r : Fin 512) (k : Fin 128) :
    dv1 m c (ix2 r k) = part (m ((c : Thread nD τ).loc main_arg1)) (sup (m ((c : Thread nD τ).loc main_arg0)) (m ((c : Thread nD τ).loc main_arg2))) 1024 (512 * 1 + r.val) k := by
  unfold dv1 R1 run1
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 1024 128) none
      (extractStridedSlice (⟨2, ![512, 1024]⟩ : Shape) ![0, 0] (iblk m c 2 t0_1 : FVec Ideal (⟨2, ![512, 4096]⟩ : Shape) .bf16) slices_S512x4096_o0_0_S512x1024) (View.readCov (Val := Elt Ideal) (e := EltTy.bf16) _ _ (Rect.unit (s := S4096x128) ![0, 0] S1024x128.size inb_S4096x128_S1024x128_0_0).toLoadRect : FVec Ideal (⟨2, ![1024, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load1 m c _ _ (fun r' k' => t1term1 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_1 (by decide) r (⟨q.val, by omega⟩ : Fin 4096), V_main_arg1]
    exact (adjN_of_lt _ (⟨512 * 1 + r.val, by omega⟩ : Fin 4096) (⟨q.val, by omega⟩ : Fin 4096)).symm

/-- This point's block of t1, as the product of the adj block with the support, at an entry. -/
theorem t1term2 (c : Dev nD) (r : Fin 512) (k : Fin 128) :
    FloatOps.matmul (F := Ideal) (φ₁ := .bf16) (φ₂ := .bf16) (DotDims.plain 512 4096 128) none
      (iblk m c 2 t0_2 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 2 + r.val, by omega⟩ : Fin 4096) k := by
  rw [matmul_plain_zero_apply]
  unfold hop
  refine Finset.sum_congr rfl fun q _ => ?_
  rw [iblk2_apply m c t0_2 (by decide) r q, V_main_arg1, sv_apply]
  rfl

set_option maxHeartbeats 1000000 in
/-- The first 1536 rows of t1 read back from the 3 stored row blocks (the newest given by its closed form): row q of adj · sup. -/
theorem t1load2 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 2 + r.val, by omega⟩ : Fin 4096) k)
    (q : Fin 1536) (k : Fin 128) :
    v.readCov [⟨Rect.unit (s := S4096x128) ![1024, 0] S512x128.size inb_S4096x128_S512x128_1024_0, b⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S1536x128.size inb_S4096x128_S1536x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536)) with h | h | h
  · rw [canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_hit (M := 4096) (N := 128) (h := 512) (o := 1024) _ _ _ _ _ (⟨q.val - 1024, by omega⟩ : Fin 512) (by show 1024 + (q.val - 1024) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))

set_option maxHeartbeats 2000000 in
/-- Row block 2 of t2 as point 2 sets it: row 512·2 + r of adj · t1 over the first 1536 columns. -/
theorem dv2_apply (c : Dev nD) (r : Fin 512) (k : Fin 128) :
    dv2 m c (ix2 r k) = part (m ((c : Thread nD τ).loc main_arg1)) (sup (m ((c : Thread nD τ).loc main_arg0)) (m ((c : Thread nD τ).loc main_arg2))) 1536 (512 * 2 + r.val) k := by
  unfold dv2 R2 run2
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 1536 128) none
      (extractStridedSlice (⟨2, ![512, 1536]⟩ : Shape) ![0, 0] (iblk m c 2 t0_2 : FVec Ideal (⟨2, ![512, 4096]⟩ : Shape) .bf16) slices_S512x4096_o0_0_S512x1536) (View.readCov (Val := Elt Ideal) (e := EltTy.bf16) _ _ (Rect.unit (s := S4096x128) ![0, 0] S1536x128.size inb_S4096x128_S1536x128_0_0).toLoadRect : FVec Ideal (⟨2, ![1536, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load2 m c _ _ (fun r' k' => t1term2 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_2 (by decide) r (⟨q.val, by omega⟩ : Fin 4096), V_main_arg1]
    exact (adjN_of_lt _ (⟨512 * 2 + r.val, by omega⟩ : Fin 4096) (⟨q.val, by omega⟩ : Fin 4096)).symm

/-- This point's block of t1, as the product of the adj block with the support, at an entry. -/
theorem t1term3 (c : Dev nD) (r : Fin 512) (k : Fin 128) :
    FloatOps.matmul (F := Ideal) (φ₁ := .bf16) (φ₂ := .bf16) (DotDims.plain 512 4096 128) none
      (iblk m c 2 t0_3 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 3 + r.val, by omega⟩ : Fin 4096) k := by
  rw [matmul_plain_zero_apply]
  unfold hop
  refine Finset.sum_congr rfl fun q _ => ?_
  rw [iblk2_apply m c t0_3 (by decide) r q, V_main_arg1, sv_apply]
  rfl

set_option maxHeartbeats 1000000 in
/-- The first 2048 rows of t1 read back from the 4 stored row blocks (the newest given by its closed form): row q of adj · sup. -/
theorem t1load3 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 3 + r.val, by omega⟩ : Fin 4096) k)
    (q : Fin 2048) (k : Fin 128) :
    v.readCov [⟨Rect.unit (s := S4096x128) ![1536, 0] S512x128.size inb_S4096x128_S512x128_1536_0, b⟩, ⟨Rect.unit (s := S4096x128) ![1024, 0] S512x128.size inb_S4096x128_S512x128_1024_0, bv2 m c⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S2048x128.size inb_S4096x128_S2048x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536) ∨ (1536 ≤ q.val ∧ q.val < 2048)) with h | h | h | h
  · rw [canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_miss (M := 4096) (N := 128) (h := 512) (o := 1536) _ _ _ _ _ (by show q.val < 1536 ∨ 1536 + 512 ≤ q.val; omega),
      canon_rows_hit (M := 4096) (N := 128) (h := 512) (o := 1024) _ _ _ _ _ (⟨q.val - 1024, by omega⟩ : Fin 512) (by show 1024 + (q.val - 1024) = q.val; omega),
      bv2_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))
  · rw [canon_rows_hit (M := 4096) (N := 128) (h := 512) (o := 1536) _ _ _ _ _ (⟨q.val - 1536, by omega⟩ : Fin 512) (by show 1536 + (q.val - 1536) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 3 + (q.val - 1536) = q.val; omega))

set_option maxHeartbeats 2000000 in
/-- Row block 3 of t2 as point 3 sets it: row 512·3 + r of adj · t1 over the first 2048 columns. -/
theorem dv3_apply (c : Dev nD) (r : Fin 512) (k : Fin 128) :
    dv3 m c (ix2 r k) = part (m ((c : Thread nD τ).loc main_arg1)) (sup (m ((c : Thread nD τ).loc main_arg0)) (m ((c : Thread nD τ).loc main_arg2))) 2048 (512 * 3 + r.val) k := by
  unfold dv3 R3 run3
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 2048 128) none
      (extractStridedSlice (⟨2, ![512, 2048]⟩ : Shape) ![0, 0] (iblk m c 2 t0_3 : FVec Ideal (⟨2, ![512, 4096]⟩ : Shape) .bf16) slices_S512x4096_o0_0_S512x2048) (View.readCov (Val := Elt Ideal) (e := EltTy.bf16) _ _ (Rect.unit (s := S4096x128) ![0, 0] S2048x128.size inb_S4096x128_S2048x128_0_0).toLoadRect : FVec Ideal (⟨2, ![2048, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load3 m c _ _ (fun r' k' => t1term3 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_3 (by decide) r (⟨q.val, by omega⟩ : Fin 4096), V_main_arg1]
    exact (adjN_of_lt _ (⟨512 * 3 + r.val, by omega⟩ : Fin 4096) (⟨q.val, by omega⟩ : Fin 4096)).symm

/-- This point's block of t1, as the product of the adj block with the support, at an entry. -/
theorem t1term4 (c : Dev nD) (r : Fin 512) (k : Fin 128) :
    FloatOps.matmul (F := Ideal) (φ₁ := .bf16) (φ₂ := .bf16) (DotDims.plain 512 4096 128) none
      (iblk m c 2 t0_4 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 4 + r.val, by omega⟩ : Fin 4096) k := by
  rw [matmul_plain_zero_apply]
  unfold hop
  refine Finset.sum_congr rfl fun q _ => ?_
  rw [iblk2_apply m c t0_4 (by decide) r q, V_main_arg1, sv_apply]
  rfl

set_option maxHeartbeats 1000000 in
/-- The first 2560 rows of t1 read back from the 5 stored row blocks (the newest given by its closed form): row q of adj · sup. -/
theorem t1load4 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 4 + r.val, by omega⟩ : Fin 4096) k)
    (q : Fin 2560) (k : Fin 128) :
    v.readCov [⟨Rect.unit (s := S4096x128) ![2048, 0] S512x128.size inb_S4096x128_S512x128_2048_0, b⟩, ⟨Rect.unit (s := S4096x128) ![1536, 0] S512x128.size inb_S4096x128_S512x128_1536_0, bv3 m c⟩, ⟨Rect.unit (s := S4096x128) ![1024, 0] S512x128.size inb_S4096x128_S512x128_1024_0, bv2 m c⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S2560x128.size inb_S4096x128_S2560x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536) ∨ (1536 ≤ q.val ∧ q.val < 2048) ∨ (2048 ≤ q.val ∧ q.val < 2560)) with h | h | h | h | h
  · rw [canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_hit (M := 4096) (N := 128) (h := 512) (o := 1024) _ _ _ _ _ (⟨q.val - 1024, by omega⟩ : Fin 512) (by show 1024 + (q.val - 1024) = q.val; omega),
      bv2_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))
  · rw [canon_rows_miss (M := 4096) (N := 128) (h := 512) (o := 2048) _ _ _ _ _ (by show q.val < 2048 ∨ 2048 + 512 ≤ q.val; omega),
      canon_rows_hit (M := 4096) (N := 128) (h := 512) (o := 1536) _ _ _ _ _ (⟨q.val - 1536, by omega⟩ : Fin 512) (by show 1536 + (q.val - 1536) = q.val; omega),
      bv3_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 3 + (q.val - 1536) = q.val; omega))
  · rw [canon_rows_hit (M := 4096) (N := 128) (h := 512) (o := 2048) _ _ _ _ _ (⟨q.val - 2048, by omega⟩ : Fin 512) (by show 2048 + (q.val - 2048) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 4 + (q.val - 2048) = q.val; omega))

set_option maxHeartbeats 2000000 in
/-- Row block 4 of t2 as point 4 sets it: row 512·4 + r of adj · t1 over the first 2560 columns. -/
theorem dv4_apply (c : Dev nD) (r : Fin 512) (k : Fin 128) :
    dv4 m c (ix2 r k) = part (m ((c : Thread nD τ).loc main_arg1)) (sup (m ((c : Thread nD τ).loc main_arg0)) (m ((c : Thread nD τ).loc main_arg2))) 2560 (512 * 4 + r.val) k := by
  unfold dv4 R4 run4
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 2560 128) none
      (extractStridedSlice (⟨2, ![512, 2560]⟩ : Shape) ![0, 0] (iblk m c 2 t0_4 : FVec Ideal (⟨2, ![512, 4096]⟩ : Shape) .bf16) slices_S512x4096_o0_0_S512x2560) (View.readCov (Val := Elt Ideal) (e := EltTy.bf16) _ _ (Rect.unit (s := S4096x128) ![0, 0] S2560x128.size inb_S4096x128_S2560x128_0_0).toLoadRect : FVec Ideal (⟨2, ![2560, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load4 m c _ _ (fun r' k' => t1term4 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_4 (by decide) r (⟨q.val, by omega⟩ : Fin 4096), V_main_arg1]
    exact (adjN_of_lt _ (⟨512 * 4 + r.val, by omega⟩ : Fin 4096) (⟨q.val, by omega⟩ : Fin 4096)).symm

/-- This point's block of t1, as the product of the adj block with the support, at an entry. -/
theorem t1term5 (c : Dev nD) (r : Fin 512) (k : Fin 128) :
    FloatOps.matmul (F := Ideal) (φ₁ := .bf16) (φ₂ := .bf16) (DotDims.plain 512 4096 128) none
      (iblk m c 2 t0_5 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 5 + r.val, by omega⟩ : Fin 4096) k := by
  rw [matmul_plain_zero_apply]
  unfold hop
  refine Finset.sum_congr rfl fun q _ => ?_
  rw [iblk2_apply m c t0_5 (by decide) r q, V_main_arg1, sv_apply]
  rfl

set_option maxHeartbeats 1000000 in
/-- The first 3072 rows of t1 read back from the 6 stored row blocks (the newest given by its closed form): row q of adj · sup. -/
theorem t1load5 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 5 + r.val, by omega⟩ : Fin 4096) k)
    (q : Fin 3072) (k : Fin 128) :
    v.readCov [⟨Rect.unit (s := S4096x128) ![2560, 0] S512x128.size inb_S4096x128_S512x128_2560_0, b⟩, ⟨Rect.unit (s := S4096x128) ![2048, 0] S512x128.size inb_S4096x128_S512x128_2048_0, bv4 m c⟩, ⟨Rect.unit (s := S4096x128) ![1536, 0] S512x128.size inb_S4096x128_S512x128_1536_0, bv3 m c⟩, ⟨Rect.unit (s := S4096x128) ![1024, 0] S512x128.size inb_S4096x128_S512x128_1024_0, bv2 m c⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S3072x128.size inb_S4096x128_S3072x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536) ∨ (1536 ≤ q.val ∧ q.val < 2048) ∨ (2048 ≤ q.val ∧ q.val < 2560) ∨ (2560 ≤ q.val ∧ q.val < 3072)) with h | h | h | h | h | h
  · rw [canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_hit (M := 4096) (N := 128) (h := 512) (o := 1024) _ _ _ _ _ (⟨q.val - 1024, by omega⟩ : Fin 512) (by show 1024 + (q.val - 1024) = q.val; omega),
      bv2_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))
  · rw [canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_hit (M := 4096) (N := 128) (h := 512) (o := 1536) _ _ _ _ _ (⟨q.val - 1536, by omega⟩ : Fin 512) (by show 1536 + (q.val - 1536) = q.val; omega),
      bv3_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 3 + (q.val - 1536) = q.val; omega))
  · rw [canon_rows_miss (M := 4096) (N := 128) (h := 512) (o := 2560) _ _ _ _ _ (by show q.val < 2560 ∨ 2560 + 512 ≤ q.val; omega),
      canon_rows_hit (M := 4096) (N := 128) (h := 512) (o := 2048) _ _ _ _ _ (⟨q.val - 2048, by omega⟩ : Fin 512) (by show 2048 + (q.val - 2048) = q.val; omega),
      bv4_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 4 + (q.val - 2048) = q.val; omega))
  · rw [canon_rows_hit (M := 4096) (N := 128) (h := 512) (o := 2560) _ _ _ _ _ (⟨q.val - 2560, by omega⟩ : Fin 512) (by show 2560 + (q.val - 2560) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 5 + (q.val - 2560) = q.val; omega))

set_option maxHeartbeats 2000000 in
/-- Row block 5 of t2 as point 5 sets it: row 512·5 + r of adj · t1 over the first 3072 columns. -/
theorem dv5_apply (c : Dev nD) (r : Fin 512) (k : Fin 128) :
    dv5 m c (ix2 r k) = part (m ((c : Thread nD τ).loc main_arg1)) (sup (m ((c : Thread nD τ).loc main_arg0)) (m ((c : Thread nD τ).loc main_arg2))) 3072 (512 * 5 + r.val) k := by
  unfold dv5 R5 run5
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 3072 128) none
      (extractStridedSlice (⟨2, ![512, 3072]⟩ : Shape) ![0, 0] (iblk m c 2 t0_5 : FVec Ideal (⟨2, ![512, 4096]⟩ : Shape) .bf16) slices_S512x4096_o0_0_S512x3072) (View.readCov (Val := Elt Ideal) (e := EltTy.bf16) _ _ (Rect.unit (s := S4096x128) ![0, 0] S3072x128.size inb_S4096x128_S3072x128_0_0).toLoadRect : FVec Ideal (⟨2, ![3072, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load5 m c _ _ (fun r' k' => t1term5 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_5 (by decide) r (⟨q.val, by omega⟩ : Fin 4096), V_main_arg1]
    exact (adjN_of_lt _ (⟨512 * 5 + r.val, by omega⟩ : Fin 4096) (⟨q.val, by omega⟩ : Fin 4096)).symm

/-- This point's block of t1, as the product of the adj block with the support, at an entry. -/
theorem t1term6 (c : Dev nD) (r : Fin 512) (k : Fin 128) :
    FloatOps.matmul (F := Ideal) (φ₁ := .bf16) (φ₂ := .bf16) (DotDims.plain 512 4096 128) none
      (iblk m c 2 t0_6 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 6 + r.val, by omega⟩ : Fin 4096) k := by
  rw [matmul_plain_zero_apply]
  unfold hop
  refine Finset.sum_congr rfl fun q _ => ?_
  rw [iblk2_apply m c t0_6 (by decide) r q, V_main_arg1, sv_apply]
  rfl

set_option maxHeartbeats 1000000 in
/-- The first 3584 rows of t1 read back from the 7 stored row blocks (the newest given by its closed form): row q of adj · sup. -/
theorem t1load6 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 6 + r.val, by omega⟩ : Fin 4096) k)
    (q : Fin 3584) (k : Fin 128) :
    v.readCov [⟨Rect.unit (s := S4096x128) ![3072, 0] S512x128.size inb_S4096x128_S512x128_3072_0, b⟩, ⟨Rect.unit (s := S4096x128) ![2560, 0] S512x128.size inb_S4096x128_S512x128_2560_0, bv5 m c⟩, ⟨Rect.unit (s := S4096x128) ![2048, 0] S512x128.size inb_S4096x128_S512x128_2048_0, bv4 m c⟩, ⟨Rect.unit (s := S4096x128) ![1536, 0] S512x128.size inb_S4096x128_S512x128_1536_0, bv3 m c⟩, ⟨Rect.unit (s := S4096x128) ![1024, 0] S512x128.size inb_S4096x128_S512x128_1024_0, bv2 m c⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S3584x128.size inb_S4096x128_S3584x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536) ∨ (1536 ≤ q.val ∧ q.val < 2048) ∨ (2048 ≤ q.val ∧ q.val < 2560) ∨ (2560 ≤ q.val ∧ q.val < 3072) ∨ (3072 ≤ q.val ∧ q.val < 3584)) with h | h | h | h | h | h | h
  · rw [canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_hit (M := 4096) (N := 128) (h := 512) (o := 1024) _ _ _ _ _ (⟨q.val - 1024, by omega⟩ : Fin 512) (by show 1024 + (q.val - 1024) = q.val; omega),
      bv2_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))
  · rw [canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_hit (M := 4096) (N := 128) (h := 512) (o := 1536) _ _ _ _ _ (⟨q.val - 1536, by omega⟩ : Fin 512) (by show 1536 + (q.val - 1536) = q.val; omega),
      bv3_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 3 + (q.val - 1536) = q.val; omega))
  · rw [canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_hit (M := 4096) (N := 128) (h := 512) (o := 2048) _ _ _ _ _ (⟨q.val - 2048, by omega⟩ : Fin 512) (by show 2048 + (q.val - 2048) = q.val; omega),
      bv4_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 4 + (q.val - 2048) = q.val; omega))
  · rw [canon_rows_miss (M := 4096) (N := 128) (h := 512) (o := 3072) _ _ _ _ _ (by show q.val < 3072 ∨ 3072 + 512 ≤ q.val; omega),
      canon_rows_hit (M := 4096) (N := 128) (h := 512) (o := 2560) _ _ _ _ _ (⟨q.val - 2560, by omega⟩ : Fin 512) (by show 2560 + (q.val - 2560) = q.val; omega),
      bv5_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 5 + (q.val - 2560) = q.val; omega))
  · rw [canon_rows_hit (M := 4096) (N := 128) (h := 512) (o := 3072) _ _ _ _ _ (⟨q.val - 3072, by omega⟩ : Fin 512) (by show 3072 + (q.val - 3072) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 6 + (q.val - 3072) = q.val; omega))

set_option maxHeartbeats 2000000 in
/-- Row block 6 of t2 as point 6 sets it: row 512·6 + r of adj · t1 over the first 3584 columns. -/
theorem dv6_apply (c : Dev nD) (r : Fin 512) (k : Fin 128) :
    dv6 m c (ix2 r k) = part (m ((c : Thread nD τ).loc main_arg1)) (sup (m ((c : Thread nD τ).loc main_arg0)) (m ((c : Thread nD τ).loc main_arg2))) 3584 (512 * 6 + r.val) k := by
  unfold dv6 R6 run6
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 3584 128) none
      (extractStridedSlice (⟨2, ![512, 3584]⟩ : Shape) ![0, 0] (iblk m c 2 t0_6 : FVec Ideal (⟨2, ![512, 4096]⟩ : Shape) .bf16) slices_S512x4096_o0_0_S512x3584) (View.readCov (Val := Elt Ideal) (e := EltTy.bf16) _ _ (Rect.unit (s := S4096x128) ![0, 0] S3584x128.size inb_S4096x128_S3584x128_0_0).toLoadRect : FVec Ideal (⟨2, ![3584, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load6 m c _ _ (fun r' k' => t1term6 m c r' k') q k)
  · have hq := q.isLt
    refine (extractStridedSlice_apply ![0, 0] _ _ (ix2 r q) (ix2 r (⟨q.val, by omega⟩ : Fin 4096)) (fun a => by
      match a with
      | ⟨0, _⟩ => exact (Nat.zero_add _).symm
      | ⟨1, _⟩ => exact (Nat.zero_add _).symm)).trans ?_
    rw [iblk2_apply m c t0_6 (by decide) r (⟨q.val, by omega⟩ : Fin 4096), V_main_arg1]
    exact (adjN_of_lt _ (⟨512 * 6 + r.val, by omega⟩ : Fin 4096) (⟨q.val, by omega⟩ : Fin 4096)).symm

/-- This point's block of t1, as the product of the adj block with the support, at an entry. -/
theorem t1term7 (c : Dev nD) (r : Fin 512) (k : Fin 128) :
    FloatOps.matmul (F := Ideal) (φ₁ := .bf16) (φ₂ := .bf16) (DotDims.plain 512 4096 128) none
      (iblk m c 2 t0_7 : FVec Ideal (⟨2, ![512, 4096]⟩ : Shape) .bf16) (sv m c)
      (constant (⟨2, ![512, 128]⟩ : Shape) .f32 0x00000000#32) (ix2 r k)
      = hop (m ((c : Thread nD τ).loc main_arg1)) (sup (m ((c : Thread nD τ).loc main_arg0)) (m ((c : Thread nD τ).loc main_arg2))) (⟨512 * 7 + r.val, by omega⟩ : Fin 4096) k := by
  rw [matmul_plain_zero_apply]
  unfold hop
  refine Finset.sum_congr rfl fun q _ => ?_
  rw [iblk2_apply m c t0_7 (by decide) r q, V_main_arg1, sv_apply]
  rfl

set_option maxHeartbeats 1000000 in
/-- The first 4096 rows of t1 read back from the 8 stored row blocks (the newest given by its closed form): row q of adj · sup. -/
theorem t1load7 (c : Dev nD) (v : View sig .tc .vmem S4096x128 .bf16) (b : Vec Ideal S512x128 .bf16)
    (hb : ∀ (r : Fin 512) (k : Fin 128), b (ix2 r k) = hop (m ((c : Thread nD τ).loc main_arg1)) (sup (m ((c : Thread nD τ).loc main_arg0)) (m ((c : Thread nD τ).loc main_arg2))) (⟨512 * 7 + r.val, by omega⟩ : Fin 4096) k)
    (q : Fin 4096) (k : Fin 128) :
    v.readCov [⟨Rect.unit (s := S4096x128) ![3584, 0] S512x128.size inb_S4096x128_S512x128_3584_0, b⟩, ⟨Rect.unit (s := S4096x128) ![3072, 0] S512x128.size inb_S4096x128_S512x128_3072_0, bv6 m c⟩, ⟨Rect.unit (s := S4096x128) ![2560, 0] S512x128.size inb_S4096x128_S512x128_2560_0, bv5 m c⟩, ⟨Rect.unit (s := S4096x128) ![2048, 0] S512x128.size inb_S4096x128_S512x128_2048_0, bv4 m c⟩, ⟨Rect.unit (s := S4096x128) ![1536, 0] S512x128.size inb_S4096x128_S512x128_1536_0, bv3 m c⟩, ⟨Rect.unit (s := S4096x128) ![1024, 0] S512x128.size inb_S4096x128_S512x128_1024_0, bv2 m c⟩, ⟨Rect.unit (s := S4096x128) ![512, 0] S512x128.size inb_S4096x128_S512x128_512_0, bv1 m c⟩, ⟨Rect.unit (s := S4096x128) ![0, 0] S512x128.size inb_S4096x128_S512x128_0_0, bv0 m c⟩]
        (Rect.unit (s := S4096x128) ![0, 0] S4096x128.size inb_S4096x128_S4096x128_0_0).toLoadRect (ix2 q k)
      = t1N (m ((c : Thread nD τ).loc main_arg1)) (sup (m ((c : Thread nD τ).loc main_arg0)) (m ((c : Thread nD τ).loc main_arg2))) q.val k := by
  have hq := q.isLt
  rw [readCov_box_apply (M := 4096) (N := 128) v _ _ q k (⟨q.val, by omega⟩ : Fin 4096) k (Nat.zero_add _) (Nat.zero_add _)]
  rcases (by omega : q.val < 512 ∨ (512 ≤ q.val ∧ q.val < 1024) ∨ (1024 ≤ q.val ∧ q.val < 1536) ∨ (1536 ≤ q.val ∧ q.val < 2048) ∨ (2048 ≤ q.val ∧ q.val < 2560) ∨ (2560 ≤ q.val ∧ q.val < 3072) ∨ (3072 ≤ q.val ∧ q.val < 3584) ∨ (3584 ≤ q.val ∧ q.val < 4096)) with h | h | h | h | h | h | h | h
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_miss (M := 4096) (N := 128) (h := 512) (o := 512) _ _ _ _ _ (by show q.val < 512 ∨ 512 + 512 ≤ q.val; omega),
      canon_rows_hit (M := 4096) (N := 128) (h := 512) (o := 0) _ _ _ _ _ (⟨q.val - 0, by omega⟩ : Fin 512) (by show 0 + (q.val - 0) = q.val; omega),
      bv0_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 0 + (q.val - 0) = q.val; omega))
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_miss (M := 4096) (N := 128) (h := 512) (o := 1024) _ _ _ _ _ (by show q.val < 1024 ∨ 1024 + 512 ≤ q.val; omega),
      canon_rows_hit (M := 4096) (N := 128) (h := 512) (o := 512) _ _ _ _ _ (⟨q.val - 512, by omega⟩ : Fin 512) (by show 512 + (q.val - 512) = q.val; omega),
      bv1_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 1 + (q.val - 512) = q.val; omega))
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_miss (M := 4096) (N := 128) (h := 512) (o := 1536) _ _ _ _ _ (by show q.val < 1536 ∨ 1536 + 512 ≤ q.val; omega),
      canon_rows_hit (M := 4096) (N := 128) (h := 512) (o := 1024) _ _ _ _ _ (⟨q.val - 1024, by omega⟩ : Fin 512) (by show 1024 + (q.val - 1024) = q.val; omega),
      bv2_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 2 + (q.val - 1024) = q.val; omega))
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_miss (M := 4096) (N := 128) (h := 512) (o := 2048) _ _ _ _ _ (by show q.val < 2048 ∨ 2048 + 512 ≤ q.val; omega),
      canon_rows_hit (M := 4096) (N := 128) (h := 512) (o := 1536) _ _ _ _ _ (⟨q.val - 1536, by omega⟩ : Fin 512) (by show 1536 + (q.val - 1536) = q.val; omega),
      bv3_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 3 + (q.val - 1536) = q.val; omega))
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_miss (M := 4096) (N := 128) (h := 512) (o := 2560) _ _ _ _ _ (by show q.val < 2560 ∨ 2560 + 512 ≤ q.val; omega),
      canon_rows_hit (M := 4096) (N := 128) (h := 512) (o := 2048) _ _ _ _ _ (⟨q.val - 2048, by omega⟩ : Fin 512) (by show 2048 + (q.val - 2048) = q.val; omega),
      bv4_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 4 + (q.val - 2048) = q.val; omega))
  · rw [canon_rows_miss (M := 4096) (N := 128) (h := 512) (o := 3584) _ _ _ _ _ (by show q.val < 3584 ∨ 3584 + 512 ≤ q.val; omega),
      canon_rows_miss (M := 4096) (N := 128) (h := 512) (o := 3072) _ _ _ _ _ (by show q.val < 3072 ∨ 3072 + 512 ≤ q.val; omega),
      canon_rows_hit (M := 4096) (N := 128) (h := 512) (o := 2560) _ _ _ _ _ (⟨q.val - 2560, by omega⟩ : Fin 512) (by show 2560 + (q.val - 2560) = q.val; omega),
      bv5_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 5 + (q.val - 2560) = q.val; omega))
  · rw [canon_rows_miss (M := 4096) (N := 128) (h := 512) (o := 3584) _ _ _ _ _ (by show q.val < 3584 ∨ 3584 + 512 ≤ q.val; omega),
      canon_rows_hit (M := 4096) (N := 128) (h := 512) (o := 3072) _ _ _ _ _ (⟨q.val - 3072, by omega⟩ : Fin 512) (by show 3072 + (q.val - 3072) = q.val; omega),
      bv6_apply]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 6 + (q.val - 3072) = q.val; omega))
  · rw [canon_rows_hit (M := 4096) (N := 128) (h := 512) (o := 3584) _ _ _ _ _ (⟨q.val - 3584, by omega⟩ : Fin 512) (by show 3584 + (q.val - 3584) = q.val; omega),
      hb]
    unfold t1N; rw [dif_pos (by omega)]
    exact congrArg (fun z => hop (m ((c : Thread nD τ).loc main_arg1)) (sup (m ((c : Thread nD τ).loc main_arg0)) (m ((c : Thread nD τ).loc main_arg2))) z k) (Fin.ext (by show 512 * 7 + (q.val - 3584) = q.val; omega))

set_option maxHeartbeats 2000000 in
/-- Row block 7 of t2 as point 7 sets it: row 512·7 + r of adj · t1 over the first 4096 columns. -/
theorem dv7_apply (c : Dev nD) (r : Fin 512) (k : Fin 128) :
    dv7 m c (ix2 r k) = part (m ((c : Thread nD τ).loc main_arg1)) (sup (m ((c : Thread nD τ).loc main_arg0)) (m ((c : Thread nD τ).loc main_arg2))) 4096 (512 * 7 + r.val) k := by
  unfold dv7 R7 run7
  dsimp only
  simp only [load_whole (S := S512x4096) _ _ hz2, load_whole (S := S4096x128) _ _ hz2, load_whole (S := S128x128) _ _ hz2]
  simp only [View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show FloatOps.matmul (F := Ideal) (φ₁ := .bf16) (φ₂ := .bf16) (DotDims.plain 512 4096 128) none
      (iblk m c 2 t0_7 : FVec Ideal (⟨2, ![512, 4096]⟩ : Shape) .bf16) (View.readCov (Val := Elt Ideal) (e := EltTy.bf16) _ _ (Rect.unit (s := S4096x128) ![0, 0] S4096x128.size inb_S4096x128_S4096x128_0_0).toLoadRect : FVec Ideal (⟨2, ![4096, 128]⟩ : Shape) .bf16)
      (constant (⟨2, ![512, 128]⟩ : Shape) .f32 0x00000000#32) (ix2 r k) = _
  rw [matmul_plain_zero_apply, ← part_fin]
  refine Finset.sum_congr rfl fun q _ => ?_
  refine congrArg₂ (· * ·) ?_ (t1load7 m c _ _ (fun r' k' => t1term7 m c r' k') q k)
  · rw [iblk2_apply m c t0_7 (by decide) r q, V_main_arg1]
    exact (adjN_of_lt _ (⟨512 * 7 + r.val, by omega⟩ : Fin 4096) q).symm

end Cert.KernelIdeal.Body

end
-- ==== Proof.Body.KIVal4.lean ====
import proofs.«166091_g16140487098644_cont_week2b_486_32_alg».proof.Proof.Body.KIVal3

/-!
The rewritten values of t2.

At streaming point j the kernel adds to each earlier row block i of t2 the product of the 512×512 block of adj's copy at
(row block i, column block j) with this point's block of t1. The value it reads back for row block i is the newest piece
stored for those rows, the partial sum over the first 512 j columns; the product is the sum over the next 512; together the
partial sum over the first 512 (j + 1) columns.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.LibDot2 Idealize.ShloMosaic.LibRowPieces Cert.GraphConv

variable (m : (ℓ : Loc nD τ sig) → Buf (Elt Ideal) ℓ)

set_option maxHeartbeats 2000000 in
/-- Row block 0 of t2 as point 1 rewrites it: the partial sum extended by the columns of block 1. -/
theorem pv1_0_apply (c : Dev nD) (r : Fin 512) (k : Fin 128) :
    pv1_0 m c (ix2 r k) = part (m ((c : Thread nD τ).loc main_arg1)) (sup (m ((c : Thread nD τ).loc main_arg0)) (m ((c : Thread nD τ).loc main_arg2))) 1024 (512 * 0 + r.val) k := by
  unfold pv1_0 R1 run1
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 512] S512x512.size inb_S4096x4096_S512x512_0_512).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 512 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      dv0_apply]
  · rw [readCov_box_apply (M := 4096) (N := 4096) _ _ _ r q (⟨0 + r.val, by omega⟩ : Fin 4096) (⟨512 + q.val, by omega⟩ : Fin 4096) rfl rfl,
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨512 + q.val, by omega⟩ : Fin 4096)).symm
  · refine (t1term1 m c q k).trans ?_
    exact (t1N_of_lt _ _ (⟨512 * 1 + q.val, by omega⟩ : Fin 4096) k).symm

set_option maxHeartbeats 2000000 in
/-- Row block 0 of t2 as point 2 rewrites it: the partial sum extended by the columns of block 2. -/
theorem pv2_0_apply (c : Dev nD) (r : Fin 512) (k : Fin 128) :
    pv2_0 m c (ix2 r k) = part (m ((c : Thread nD τ).loc main_arg1)) (sup (m ((c : Thread nD τ).loc main_arg0)) (m ((c : Thread nD τ).loc main_arg2))) 1536 (512 * 0 + r.val) k := by
  unfold pv2_0 R2 run2
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 1024] S512x512.size inb_S4096x4096_S512x512_0_1024).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 1024 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 1024) _ _ _ _ _ (by show 0 + r.val < 1024 ∨ 1024 + 512 ≤ 0 + r.val; omega),
      canon_rows_hit (M := 4096) (N := 128) (h := 512) (o := 0) _ _ _ _ _ r (by rfl),
      pv1_0_apply]
  · rw [readCov_box_apply (M := 4096) (N := 4096) _ _ _ r q (⟨0 + r.val, by omega⟩ : Fin 4096) (⟨1024 + q.val, by omega⟩ : Fin 4096) rfl rfl,
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨1024 + q.val, by omega⟩ : Fin 4096)).symm
  · refine (t1term2 m c q k).trans ?_
    exact (t1N_of_lt _ _ (⟨512 * 2 + q.val, by omega⟩ : Fin 4096) k).symm

set_option maxHeartbeats 2000000 in
/-- Row block 1 of t2 as point 2 rewrites it: the partial sum extended by the columns of block 2. -/
theorem pv2_1_apply (c : Dev nD) (r : Fin 512) (k : Fin 128) :
    pv2_1 m c (ix2 r k) = part (m ((c : Thread nD τ).loc main_arg1)) (sup (m ((c : Thread nD τ).loc main_arg0)) (m ((c : Thread nD τ).loc main_arg2))) 1536 (512 * 1 + r.val) k := by
  unfold pv2_1 R2 run2
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 1024] S512x512.size inb_S4096x4096_S512x512_512_1024).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 1024 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 1024) _ _ _ _ _ (by show 512 + r.val < 1024 ∨ 1024 + 512 ≤ 512 + r.val; omega),
      canon_rows_miss (M := 4096) (N := 128) (h := 512) (o := 0) _ _ _ _ _ (by show 512 + r.val < 0 ∨ 0 + 512 ≤ 512 + r.val; omega),
      canon_rows_hit (M := 4096) (N := 128) (h := 512) (o := 512) _ _ _ _ _ r (by rfl),
      dv1_apply]
  · rw [readCov_box_apply (M := 4096) (N := 4096) _ _ _ r q (⟨512 + r.val, by omega⟩ : Fin 4096) (⟨1024 + q.val, by omega⟩ : Fin 4096) rfl rfl,
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨1024 + q.val, by omega⟩ : Fin 4096)).symm
  · refine (t1term2 m c q k).trans ?_
    exact (t1N_of_lt _ _ (⟨512 * 2 + q.val, by omega⟩ : Fin 4096) k).symm

set_option maxHeartbeats 2000000 in
/-- Row block 0 of t2 as point 3 rewrites it: the partial sum extended by the columns of block 3. -/
theorem pv3_0_apply (c : Dev nD) (r : Fin 512) (k : Fin 128) :
    pv3_0 m c (ix2 r k) = part (m ((c : Thread nD τ).loc main_arg1)) (sup (m ((c : Thread nD τ).loc main_arg0)) (m ((c : Thread nD τ).loc main_arg2))) 2048 (512 * 0 + r.val) k := by
  unfold pv3_0 R3 run3
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 1536] S512x512.size inb_S4096x4096_S512x512_0_1536).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 1536 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 1536) _ _ _ _ _ (by show 0 + r.val < 1536 ∨ 1536 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv2_0_apply]
  · rw [readCov_box_apply (M := 4096) (N := 4096) _ _ _ r q (⟨0 + r.val, by omega⟩ : Fin 4096) (⟨1536 + q.val, by omega⟩ : Fin 4096) rfl rfl,
      canon_rows_miss (M := 4096) (N := 4096) (h := 512) (o := 1536) _ _ _ _ _ (by show 0 + r.val < 1536 ∨ 1536 + 512 ≤ 0 + r.val; omega),
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨1536 + q.val, by omega⟩ : Fin 4096)).symm
  · refine (t1term3 m c q k).trans ?_
    exact (t1N_of_lt _ _ (⟨512 * 3 + q.val, by omega⟩ : Fin 4096) k).symm

set_option maxHeartbeats 2000000 in
/-- Row block 1 of t2 as point 3 rewrites it: the partial sum extended by the columns of block 3. -/
theorem pv3_1_apply (c : Dev nD) (r : Fin 512) (k : Fin 128) :
    pv3_1 m c (ix2 r k) = part (m ((c : Thread nD τ).loc main_arg1)) (sup (m ((c : Thread nD τ).loc main_arg0)) (m ((c : Thread nD τ).loc main_arg2))) 2048 (512 * 1 + r.val) k := by
  unfold pv3_1 R3 run3
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 1536] S512x512.size inb_S4096x4096_S512x512_512_1536).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 1536 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 1536) _ _ _ _ _ (by show 512 + r.val < 1536 ∨ 1536 + 512 ≤ 512 + r.val; omega),
      canon_rows_hit (M := 4096) (N := 128) (h := 512) (o := 512) _ _ _ _ _ r (by rfl),
      pv2_1_apply]
  · rw [readCov_box_apply (M := 4096) (N := 4096) _ _ _ r q (⟨512 + r.val, by omega⟩ : Fin 4096) (⟨1536 + q.val, by omega⟩ : Fin 4096) rfl rfl,
      canon_rows_miss (M := 4096) (N := 4096) (h := 512) (o := 1536) _ _ _ _ _ (by show 512 + r.val < 1536 ∨ 1536 + 512 ≤ 512 + r.val; omega),
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨1536 + q.val, by omega⟩ : Fin 4096)).symm
  · refine (t1term3 m c q k).trans ?_
    exact (t1N_of_lt _ _ (⟨512 * 3 + q.val, by omega⟩ : Fin 4096) k).symm

set_option maxHeartbeats 2000000 in
/-- Row block 2 of t2 as point 3 rewrites it: the partial sum extended by the columns of block 3. -/
theorem pv3_2_apply (c : Dev nD) (r : Fin 512) (k : Fin 128) :
    pv3_2 m c (ix2 r k) = part (m ((c : Thread nD τ).loc main_arg1)) (sup (m ((c : Thread nD τ).loc main_arg0)) (m ((c : Thread nD τ).loc main_arg2))) 2048 (512 * 2 + r.val) k := by
  unfold pv3_2 R3 run3
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1024, 0] S512x128.size inb_S4096x128_S512x128_1024_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1024, 1536] S512x512.size inb_S4096x4096_S512x512_1024_1536).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 1536 512 (512 * 2 + r.val) k).symm
  refine congrArg₂ (· + ·) ?_ (Finset.sum_congr rfl fun q _ => congrArg₂ (· * ·) ?_ ?_)
  · rw [readCov_box_apply (M := 4096) (N := 128) _ _ _ r k (⟨1024 + r.val, by omega⟩ : Fin 4096) k rfl (Nat.zero_add _),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_miss (M := 4096) (N := 128) (h := 512) (o := 1536) _ _ _ _ _ (by show 1024 + r.val < 1536 ∨ 1536 + 512 ≤ 1024 + r.val; omega),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_hit (M := 4096) (N := 128) (h := 512) (o := 1024) _ _ _ _ _ r (by rfl),
      dv2_apply]
  · rw [readCov_box_apply (M := 4096) (N := 4096) _ _ _ r q (⟨1024 + r.val, by omega⟩ : Fin 4096) (⟨1536 + q.val, by omega⟩ : Fin 4096) rfl rfl,
      canon_rows_miss (M := 4096) (N := 4096) (h := 512) (o := 1536) _ _ _ _ _ (by show 1024 + r.val < 1536 ∨ 1536 + 512 ≤ 1024 + r.val; omega),
      canon_rows_hit (M := 4096) (N := 4096) (h := 512) (o := 1024) _ _ _ _ _ r (by rfl),
      av2_apply]
    exact (adjN_of_lt _ (⟨512 * 2 + r.val, by omega⟩ : Fin 4096) (⟨1536 + q.val, by omega⟩ : Fin 4096)).symm
  · refine (t1term3 m c q k).trans ?_
    exact (t1N_of_lt _ _ (⟨512 * 3 + q.val, by omega⟩ : Fin 4096) k).symm

set_option maxHeartbeats 2000000 in
/-- Row block 0 of t2 as point 4 rewrites it: the partial sum extended by the columns of block 4. -/
theorem pv4_0_apply (c : Dev nD) (r : Fin 512) (k : Fin 128) :
    pv4_0 m c (ix2 r k) = part (m ((c : Thread nD τ).loc main_arg1)) (sup (m ((c : Thread nD τ).loc main_arg0)) (m ((c : Thread nD τ).loc main_arg2))) 2560 (512 * 0 + r.val) k := by
  unfold pv4_0 R4 run4
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 2048] S512x512.size inb_S4096x4096_S512x512_0_2048).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2048 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 2048) _ _ _ _ _ (by show 0 + r.val < 2048 ∨ 2048 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv3_0_apply]
  · rw [readCov_box_apply (M := 4096) (N := 4096) _ _ _ r q (⟨0 + r.val, by omega⟩ : Fin 4096) (⟨2048 + q.val, by omega⟩ : Fin 4096) rfl rfl,
      canon_rows_miss (M := 4096) (N := 4096) (h := 512) (o := 2048) _ _ _ _ _ (by show 0 + r.val < 2048 ∨ 2048 + 512 ≤ 0 + r.val; omega),
      canon_rows_miss (M := 4096) (N := 4096) (h := 512) (o := 1536) _ _ _ _ _ (by show 0 + r.val < 1536 ∨ 1536 + 512 ≤ 0 + r.val; omega),
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨2048 + q.val, by omega⟩ : Fin 4096)).symm
  · refine (t1term4 m c q k).trans ?_
    exact (t1N_of_lt _ _ (⟨512 * 4 + q.val, by omega⟩ : Fin 4096) k).symm

set_option maxHeartbeats 2000000 in
/-- Row block 1 of t2 as point 4 rewrites it: the partial sum extended by the columns of block 4. -/
theorem pv4_1_apply (c : Dev nD) (r : Fin 512) (k : Fin 128) :
    pv4_1 m c (ix2 r k) = part (m ((c : Thread nD τ).loc main_arg1)) (sup (m ((c : Thread nD τ).loc main_arg0)) (m ((c : Thread nD τ).loc main_arg2))) 2560 (512 * 1 + r.val) k := by
  unfold pv4_1 R4 run4
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 2048] S512x512.size inb_S4096x4096_S512x512_512_2048).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2048 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 2048) _ _ _ _ _ (by show 512 + r.val < 2048 ∨ 2048 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      pv3_1_apply]
  · rw [readCov_box_apply (M := 4096) (N := 4096) _ _ _ r q (⟨512 + r.val, by omega⟩ : Fin 4096) (⟨2048 + q.val, by omega⟩ : Fin 4096) rfl rfl,
      canon_rows_miss (M := 4096) (N := 4096) (h := 512) (o := 2048) _ _ _ _ _ (by show 512 + r.val < 2048 ∨ 2048 + 512 ≤ 512 + r.val; omega),
      canon_rows_miss (M := 4096) (N := 4096) (h := 512) (o := 1536) _ _ _ _ _ (by show 512 + r.val < 1536 ∨ 1536 + 512 ≤ 512 + r.val; omega),
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨2048 + q.val, by omega⟩ : Fin 4096)).symm
  · refine (t1term4 m c q k).trans ?_
    exact (t1N_of_lt _ _ (⟨512 * 4 + q.val, by omega⟩ : Fin 4096) k).symm

set_option maxHeartbeats 2000000 in
/-- Row block 2 of t2 as point 4 rewrites it: the partial sum extended by the columns of block 4. -/
theorem pv4_2_apply (c : Dev nD) (r : Fin 512) (k : Fin 128) :
    pv4_2 m c (ix2 r k) = part (m ((c : Thread nD τ).loc main_arg1)) (sup (m ((c : Thread nD τ).loc main_arg0)) (m ((c : Thread nD τ).loc main_arg2))) 2560 (512 * 2 + r.val) k := by
  unfold pv4_2 R4 run4
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1024, 0] S512x128.size inb_S4096x128_S512x128_1024_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1024, 2048] S512x512.size inb_S4096x4096_S512x512_1024_2048).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2048 512 (512 * 2 + r.val) k).symm
  refine congrArg₂ (· + ·) ?_ (Finset.sum_congr rfl fun q _ => congrArg₂ (· * ·) ?_ ?_)
  · rw [readCov_box_apply (M := 4096) (N := 128) _ _ _ r k (⟨1024 + r.val, by omega⟩ : Fin 4096) k rfl (Nat.zero_add _),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_miss (M := 4096) (N := 128) (h := 512) (o := 2048) _ _ _ _ _ (by show 1024 + r.val < 2048 ∨ 2048 + 512 ≤ 1024 + r.val; omega),
      canon_rows_hit (M := 4096) (N := 128) (h := 512) (o := 1024) _ _ _ _ _ r (by rfl),
      pv3_2_apply]
  · rw [readCov_box_apply (M := 4096) (N := 4096) _ _ _ r q (⟨1024 + r.val, by omega⟩ : Fin 4096) (⟨2048 + q.val, by omega⟩ : Fin 4096) rfl rfl,
      canon_rows_miss (M := 4096) (N := 4096) (h := 512) (o := 2048) _ _ _ _ _ (by show 1024 + r.val < 2048 ∨ 2048 + 512 ≤ 1024 + r.val; omega),
      canon_rows_miss (M := 4096) (N := 4096) (h := 512) (o := 1536) _ _ _ _ _ (by show 1024 + r.val < 1536 ∨ 1536 + 512 ≤ 1024 + r.val; omega),
      canon_rows_hit (M := 4096) (N := 4096) (h := 512) (o := 1024) _ _ _ _ _ r (by rfl),
      av2_apply]
    exact (adjN_of_lt _ (⟨512 * 2 + r.val, by omega⟩ : Fin 4096) (⟨2048 + q.val, by omega⟩ : Fin 4096)).symm
  · refine (t1term4 m c q k).trans ?_
    exact (t1N_of_lt _ _ (⟨512 * 4 + q.val, by omega⟩ : Fin 4096) k).symm

set_option maxHeartbeats 2000000 in
/-- Row block 3 of t2 as point 4 rewrites it: the partial sum extended by the columns of block 4. -/
theorem pv4_3_apply (c : Dev nD) (r : Fin 512) (k : Fin 128) :
    pv4_3 m c (ix2 r k) = part (m ((c : Thread nD τ).loc main_arg1)) (sup (m ((c : Thread nD τ).loc main_arg0)) (m ((c : Thread nD τ).loc main_arg2))) 2560 (512 * 3 + r.val) k := by
  unfold pv4_3 R4 run4
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1536, 0] S512x128.size inb_S4096x128_S512x128_1536_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1536, 2048] S512x512.size inb_S4096x4096_S512x512_1536_2048).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2048 512 (512 * 3 + r.val) k).symm
  refine congrArg₂ (· + ·) ?_ (Finset.sum_congr rfl fun q _ => congrArg₂ (· * ·) ?_ ?_)
  · rw [readCov_box_apply (M := 4096) (N := 128) _ _ _ r k (⟨1536 + r.val, by omega⟩ : Fin 4096) k rfl (Nat.zero_add _),
      canon_rows_miss (M := 4096) (N := 128) (h := 512) (o := 1024) _ _ _ _ _ (by show 1536 + r.val < 1024 ∨ 1024 + 512 ≤ 1536 + r.val; omega),
      canon_rows_miss (M := 4096) (N := 128) (h := 512) (o := 512) _ _ _ _ _ (by show 1536 + r.val < 512 ∨ 512 + 512 ≤ 1536 + r.val; omega),
      canon_rows_miss (M := 4096) (N := 128) (h := 512) (o := 0) _ _ _ _ _ (by show 1536 + r.val < 0 ∨ 0 + 512 ≤ 1536 + r.val; omega),
      canon_rows_miss (M := 4096) (N := 128) (h := 512) (o := 2048) _ _ _ _ _ (by show 1536 + r.val < 2048 ∨ 2048 + 512 ≤ 1536 + r.val; omega),
      canon_rows_miss (M := 4096) (N := 128) (h := 512) (o := 1024) _ _ _ _ _ (by show 1536 + r.val < 1024 ∨ 1024 + 512 ≤ 1536 + r.val; omega),
      canon_rows_miss (M := 4096) (N := 128) (h := 512) (o := 512) _ _ _ _ _ (by show 1536 + r.val < 512 ∨ 512 + 512 ≤ 1536 + r.val; omega),
      canon_rows_miss (M := 4096) (N := 128) (h := 512) (o := 0) _ _ _ _ _ (by show 1536 + r.val < 0 ∨ 0 + 512 ≤ 1536 + r.val; omega),
      canon_rows_hit (M := 4096) (N := 128) (h := 512) (o := 1536) _ _ _ _ _ r (by rfl),
      dv3_apply]
  · rw [readCov_box_apply (M := 4096) (N := 4096) _ _ _ r q (⟨1536 + r.val, by omega⟩ : Fin 4096) (⟨2048 + q.val, by omega⟩ : Fin 4096) rfl rfl,
      canon_rows_miss (M := 4096) (N := 4096) (h := 512) (o := 2048) _ _ _ _ _ (by show 1536 + r.val < 2048 ∨ 2048 + 512 ≤ 1536 + r.val; omega),
      canon_rows_hit (M := 4096) (N := 4096) (h := 512) (o := 1536) _ _ _ _ _ r (by rfl),
      av3_apply]
    exact (adjN_of_lt _ (⟨512 * 3 + r.val, by omega⟩ : Fin 4096) (⟨2048 + q.val, by omega⟩ : Fin 4096)).symm
  · refine (t1term4 m c q k).trans ?_
    exact (t1N_of_lt _ _ (⟨512 * 4 + q.val, by omega⟩ : Fin 4096) k).symm

set_option maxHeartbeats 2000000 in
/-- Row block 0 of t2 as point 5 rewrites it: the partial sum extended by the columns of block 5. -/
theorem pv5_0_apply (c : Dev nD) (r : Fin 512) (k : Fin 128) :
    pv5_0 m c (ix2 r k) = part (m ((c : Thread nD τ).loc main_arg1)) (sup (m ((c : Thread nD τ).loc main_arg0)) (m ((c : Thread nD τ).loc main_arg2))) 3072 (512 * 0 + r.val) k := by
  unfold pv5_0 R5 run5
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 2560] S512x512.size inb_S4096x4096_S512x512_0_2560).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2560 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 2560) _ _ _ _ _ (by show 0 + r.val < 2560 ∨ 2560 + 512 ≤ 0 + r.val; omega),
      canon_rows_miss (M := 4096) (N := 128) (h := 512) (o := 1536) _ _ _ _ _ (by show 0 + r.val < 1536 ∨ 1536 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv4_0_apply]
  · rw [readCov_box_apply (M := 4096) (N := 4096) _ _ _ r q (⟨0 + r.val, by omega⟩ : Fin 4096) (⟨2560 + q.val, by omega⟩ : Fin 4096) rfl rfl,
      canon_rows_miss (M := 4096) (N := 4096) (h := 512) (o := 2560) _ _ _ _ _ (by show 0 + r.val < 2560 ∨ 2560 + 512 ≤ 0 + r.val; omega),
      canon_rows_miss (M := 4096) (N := 4096) (h := 512) (o := 2048) _ _ _ _ _ (by show 0 + r.val < 2048 ∨ 2048 + 512 ≤ 0 + r.val; omega),
      canon_rows_miss (M := 4096) (N := 4096) (h := 512) (o := 1536) _ _ _ _ _ (by show 0 + r.val < 1536 ∨ 1536 + 512 ≤ 0 + r.val; omega),
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨2560 + q.val, by omega⟩ : Fin 4096)).symm
  · refine (t1term5 m c q k).trans ?_
    exact (t1N_of_lt _ _ (⟨512 * 5 + q.val, by omega⟩ : Fin 4096) k).symm

set_option maxHeartbeats 2000000 in
/-- Row block 1 of t2 as point 5 rewrites it: the partial sum extended by the columns of block 5. -/
theorem pv5_1_apply (c : Dev nD) (r : Fin 512) (k : Fin 128) :
    pv5_1 m c (ix2 r k) = part (m ((c : Thread nD τ).loc main_arg1)) (sup (m ((c : Thread nD τ).loc main_arg0)) (m ((c : Thread nD τ).loc main_arg2))) 3072 (512 * 1 + r.val) k := by
  unfold pv5_1 R5 run5
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 2560] S512x512.size inb_S4096x4096_S512x512_512_2560).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2560 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 2560) _ _ _ _ _ (by show 512 + r.val < 2560 ∨ 2560 + 512 ≤ 512 + r.val; omega),
      canon_rows_miss (M := 4096) (N := 128) (h := 512) (o := 1536) _ _ _ _ _ (by show 512 + r.val < 1536 ∨ 1536 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      pv4_1_apply]
  · rw [readCov_box_apply (M := 4096) (N := 4096) _ _ _ r q (⟨512 + r.val, by omega⟩ : Fin 4096) (⟨2560 + q.val, by omega⟩ : Fin 4096) rfl rfl,
      canon_rows_miss (M := 4096) (N := 4096) (h := 512) (o := 2560) _ _ _ _ _ (by show 512 + r.val < 2560 ∨ 2560 + 512 ≤ 512 + r.val; omega),
      canon_rows_miss (M := 4096) (N := 4096) (h := 512) (o := 2048) _ _ _ _ _ (by show 512 + r.val < 2048 ∨ 2048 + 512 ≤ 512 + r.val; omega),
      canon_rows_miss (M := 4096) (N := 4096) (h := 512) (o := 1536) _ _ _ _ _ (by show 512 + r.val < 1536 ∨ 1536 + 512 ≤ 512 + r.val; omega),
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨2560 + q.val, by omega⟩ : Fin 4096)).symm
  · refine (t1term5 m c q k).trans ?_
    exact (t1N_of_lt _ _ (⟨512 * 5 + q.val, by omega⟩ : Fin 4096) k).symm

set_option maxHeartbeats 2000000 in
/-- Row block 2 of t2 as point 5 rewrites it: the partial sum extended by the columns of block 5. -/
theorem pv5_2_apply (c : Dev nD) (r : Fin 512) (k : Fin 128) :
    pv5_2 m c (ix2 r k) = part (m ((c : Thread nD τ).loc main_arg1)) (sup (m ((c : Thread nD τ).loc main_arg0)) (m ((c : Thread nD τ).loc main_arg2))) 3072 (512 * 2 + r.val) k := by
  unfold pv5_2 R5 run5
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1024, 0] S512x128.size inb_S4096x128_S512x128_1024_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1024, 2560] S512x512.size inb_S4096x4096_S512x512_1024_2560).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2560 512 (512 * 2 + r.val) k).symm
  refine congrArg₂ (· + ·) ?_ (Finset.sum_congr rfl fun q _ => congrArg₂ (· * ·) ?_ ?_)
  · rw [readCov_box_apply (M := 4096) (N := 128) _ _ _ r k (⟨1024 + r.val, by omega⟩ : Fin 4096) k rfl (Nat.zero_add _),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_miss (M := 4096) (N := 128) (h := 512) (o := 2560) _ _ _ _ _ (by show 1024 + r.val < 2560 ∨ 2560 + 512 ≤ 1024 + r.val; omega),
      canon_rows_miss (M := 4096) (N := 128) (h := 512) (o := 1536) _ _ _ _ _ (by show 1024 + r.val < 1536 ∨ 1536 + 512 ≤ 1024 + r.val; omega),
      canon_rows_hit (M := 4096) (N := 128) (h := 512) (o := 1024) _ _ _ _ _ r (by rfl),
      pv4_2_apply]
  · rw [readCov_box_apply (M := 4096) (N := 4096) _ _ _ r q (⟨1024 + r.val, by omega⟩ : Fin 4096) (⟨2560 + q.val, by omega⟩ : Fin 4096) rfl rfl,
      canon_rows_miss (M := 4096) (N := 4096) (h := 512) (o := 2560) _ _ _ _ _ (by show 1024 + r.val < 2560 ∨ 2560 + 512 ≤ 1024 + r.val; omega),
      canon_rows_miss (M := 4096) (N := 4096) (h := 512) (o := 2048) _ _ _ _ _ (by show 1024 + r.val < 2048 ∨ 2048 + 512 ≤ 1024 + r.val; omega),
      canon_rows_miss (M := 4096) (N := 4096) (h := 512) (o := 1536) _ _ _ _ _ (by show 1024 + r.val < 1536 ∨ 1536 + 512 ≤ 1024 + r.val; omega),
      canon_rows_hit (M := 4096) (N := 4096) (h := 512) (o := 1024) _ _ _ _ _ r (by rfl),
      av2_apply]
    exact (adjN_of_lt _ (⟨512 * 2 + r.val, by omega⟩ : Fin 4096) (⟨2560 + q.val, by omega⟩ : Fin 4096)).symm
  · refine (t1term5 m c q k).trans ?_
    exact (t1N_of_lt _ _ (⟨512 * 5 + q.val, by omega⟩ : Fin 4096) k).symm

set_option maxHeartbeats 2000000 in
/-- Row block 3 of t2 as point 5 rewrites it: the partial sum extended by the columns of block 5. -/
theorem pv5_3_apply (c : Dev nD) (r : Fin 512) (k : Fin 128) :
    pv5_3 m c (ix2 r k) = part (m ((c : Thread nD τ).loc main_arg1)) (sup (m ((c : Thread nD τ).loc main_arg0)) (m ((c : Thread nD τ).loc main_arg2))) 3072 (512 * 3 + r.val) k := by
  unfold pv5_3 R5 run5
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1536, 0] S512x128.size inb_S4096x128_S512x128_1536_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1536, 2560] S512x512.size inb_S4096x4096_S512x512_1536_2560).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2560 512 (512 * 3 + r.val) k).symm
  refine congrArg₂ (· + ·) ?_ (Finset.sum_congr rfl fun q _ => congrArg₂ (· * ·) ?_ ?_)
  · rw [readCov_box_apply (M := 4096) (N := 128) _ _ _ r k (⟨1536 + r.val, by omega⟩ : Fin 4096) k rfl (Nat.zero_add _),
      canon_rows_miss (M := 4096) (N := 128) (h := 512) (o := 1024) _ _ _ _ _ (by show 1536 + r.val < 1024 ∨ 1024 + 512 ≤ 1536 + r.val; omega),
      canon_rows_miss (M := 4096) (N := 128) (h := 512) (o := 512) _ _ _ _ _ (by show 1536 + r.val < 512 ∨ 512 + 512 ≤ 1536 + r.val; omega),
      canon_rows_miss (M := 4096) (N := 128) (h := 512) (o := 0) _ _ _ _ _ (by show 1536 + r.val < 0 ∨ 0 + 512 ≤ 1536 + r.val; omega),
      canon_rows_miss (M := 4096) (N := 128) (h := 512) (o := 2560) _ _ _ _ _ (by show 1536 + r.val < 2560 ∨ 2560 + 512 ≤ 1536 + r.val; omega),
      canon_rows_hit (M := 4096) (N := 128) (h := 512) (o := 1536) _ _ _ _ _ r (by rfl),
      pv4_3_apply]
  · rw [readCov_box_apply (M := 4096) (N := 4096) _ _ _ r q (⟨1536 + r.val, by omega⟩ : Fin 4096) (⟨2560 + q.val, by omega⟩ : Fin 4096) rfl rfl,
      canon_rows_miss (M := 4096) (N := 4096) (h := 512) (o := 2560) _ _ _ _ _ (by show 1536 + r.val < 2560 ∨ 2560 + 512 ≤ 1536 + r.val; omega),
      canon_rows_miss (M := 4096) (N := 4096) (h := 512) (o := 2048) _ _ _ _ _ (by show 1536 + r.val < 2048 ∨ 2048 + 512 ≤ 1536 + r.val; omega),
      canon_rows_hit (M := 4096) (N := 4096) (h := 512) (o := 1536) _ _ _ _ _ r (by rfl),
      av3_apply]
    exact (adjN_of_lt _ (⟨512 * 3 + r.val, by omega⟩ : Fin 4096) (⟨2560 + q.val, by omega⟩ : Fin 4096)).symm
  · refine (t1term5 m c q k).trans ?_
    exact (t1N_of_lt _ _ (⟨512 * 5 + q.val, by omega⟩ : Fin 4096) k).symm

set_option maxHeartbeats 2000000 in
/-- Row block 4 of t2 as point 5 rewrites it: the partial sum extended by the columns of block 5. -/
theorem pv5_4_apply (c : Dev nD) (r : Fin 512) (k : Fin 128) :
    pv5_4 m c (ix2 r k) = part (m ((c : Thread nD τ).loc main_arg1)) (sup (m ((c : Thread nD τ).loc main_arg0)) (m ((c : Thread nD τ).loc main_arg2))) 3072 (512 * 4 + r.val) k := by
  unfold pv5_4 R5 run5
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![2048, 0] S512x128.size inb_S4096x128_S512x128_2048_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![2048, 2560] S512x512.size inb_S4096x4096_S512x512_2048_2560).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 2560 512 (512 * 4 + r.val) k).symm
  refine congrArg₂ (· + ·) ?_ (Finset.sum_congr rfl fun q _ => congrArg₂ (· * ·) ?_ ?_)
  · rw [readCov_box_apply (M := 4096) (N := 128) _ _ _ r k (⟨2048 + r.val, by omega⟩ : Fin 4096) k rfl (Nat.zero_add _),
      canon_rows_miss (M := 4096) (N := 128) (h := 512) (o := 1536) _ _ _ _ _ (by show 2048 + r.val < 1536 ∨ 1536 + 512 ≤ 2048 + r.val; omega),
      canon_rows_miss (M := 4096) (N := 128) (h := 512) (o := 1024) _ _ _ _ _ (by show 2048 + r.val < 1024 ∨ 1024 + 512 ≤ 2048 + r.val; omega),
      canon_rows_miss (M := 4096) (N := 128) (h := 512) (o := 512) _ _ _ _ _ (by show 2048 + r.val < 512 ∨ 512 + 512 ≤ 2048 + r.val; omega),
      canon_rows_miss (M := 4096) (N := 128) (h := 512) (o := 0) _ _ _ _ _ (by show 2048 + r.val < 0 ∨ 0 + 512 ≤ 2048 + r.val; omega),
      canon_rows_miss (M := 4096) (N := 128) (h := 512) (o := 2560) _ _ _ _ _ (by show 2048 + r.val < 2560 ∨ 2560 + 512 ≤ 2048 + r.val; omega),
      canon_rows_miss (M := 4096) (N := 128) (h := 512) (o := 1536) _ _ _ _ _ (by show 2048 + r.val < 1536 ∨ 1536 + 512 ≤ 2048 + r.val; omega),
      canon_rows_miss (M := 4096) (N := 128) (h := 512) (o := 1024) _ _ _ _ _ (by show 2048 + r.val < 1024 ∨ 1024 + 512 ≤ 2048 + r.val; omega),
      canon_rows_miss (M := 4096) (N := 128) (h := 512) (o := 512) _ _ _ _ _ (by show 2048 + r.val < 512 ∨ 512 + 512 ≤ 2048 + r.val; omega),
      canon_rows_miss (M := 4096) (N := 128) (h := 512) (o := 0) _ _ _ _ _ (by show 2048 + r.val < 0 ∨ 0 + 512 ≤ 2048 + r.val; omega),
      canon_rows_hit (M := 4096) (N := 128) (h := 512) (o := 2048) _ _ _ _ _ r (by rfl),
      dv4_apply]
  · rw [readCov_box_apply (M := 4096) (N := 4096) _ _ _ r q (⟨2048 + r.val, by omega⟩ : Fin 4096) (⟨2560 + q.val, by omega⟩ : Fin 4096) rfl rfl,
      canon_rows_miss (M := 4096) (N := 4096) (h := 512) (o := 2560) _ _ _ _ _ (by show 2048 + r.val < 2560 ∨ 2560 + 512 ≤ 2048 + r.val; omega),
      canon_rows_hit (M := 4096) (N := 4096) (h := 512) (o := 2048) _ _ _ _ _ r (by rfl),
      av4_apply]
    exact (adjN_of_lt _ (⟨512 * 4 + r.val, by omega⟩ : Fin 4096) (⟨2560 + q.val, by omega⟩ : Fin 4096)).symm
  · refine (t1term5 m c q k).trans ?_
    exact (t1N_of_lt _ _ (⟨512 * 5 + q.val, by omega⟩ : Fin 4096) k).symm

set_option maxHeartbeats 2000000 in
/-- Row block 0 of t2 as point 6 rewrites it: the partial sum extended by the columns of block 6. -/
theorem pv6_0_apply (c : Dev nD) (r : Fin 512) (k : Fin 128) :
    pv6_0 m c (ix2 r k) = part (m ((c : Thread nD τ).loc main_arg1)) (sup (m ((c : Thread nD τ).loc main_arg0)) (m ((c : Thread nD τ).loc main_arg2))) 3584 (512 * 0 + r.val) k := by
  unfold pv6_0 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 3072] S512x512.size inb_S4096x4096_S512x512_0_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 3072) _ _ _ _ _ (by show 0 + r.val < 3072 ∨ 3072 + 512 ≤ 0 + r.val; omega),
      canon_rows_miss (M := 4096) (N := 128) (h := 512) (o := 2048) _ _ _ _ _ (by show 0 + r.val < 2048 ∨ 2048 + 512 ≤ 0 + r.val; omega),
      canon_rows_miss (M := 4096) (N := 128) (h := 512) (o := 1536) _ _ _ _ _ (by show 0 + r.val < 1536 ∨ 1536 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv5_0_apply]
  · rw [readCov_box_apply (M := 4096) (N := 4096) _ _ _ r q (⟨0 + r.val, by omega⟩ : Fin 4096) (⟨3072 + q.val, by omega⟩ : Fin 4096) rfl rfl,
      canon_rows_miss (M := 4096) (N := 4096) (h := 512) (o := 3072) _ _ _ _ _ (by show 0 + r.val < 3072 ∨ 3072 + 512 ≤ 0 + r.val; omega),
      canon_rows_miss (M := 4096) (N := 4096) (h := 512) (o := 2560) _ _ _ _ _ (by show 0 + r.val < 2560 ∨ 2560 + 512 ≤ 0 + r.val; omega),
      canon_rows_miss (M := 4096) (N := 4096) (h := 512) (o := 2048) _ _ _ _ _ (by show 0 + r.val < 2048 ∨ 2048 + 512 ≤ 0 + r.val; omega),
      canon_rows_miss (M := 4096) (N := 4096) (h := 512) (o := 1536) _ _ _ _ _ (by show 0 + r.val < 1536 ∨ 1536 + 512 ≤ 0 + r.val; omega),
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 1 of t2 as point 6 rewrites it: the partial sum extended by the columns of block 6. -/
theorem pv6_1_apply (c : Dev nD) (r : Fin 512) (k : Fin 128) :
    pv6_1 m c (ix2 r k) = part (m ((c : Thread nD τ).loc main_arg1)) (sup (m ((c : Thread nD τ).loc main_arg0)) (m ((c : Thread nD τ).loc main_arg2))) 3584 (512 * 1 + r.val) k := by
  unfold pv6_1 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 3072] S512x512.size inb_S4096x4096_S512x512_512_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 3072) _ _ _ _ _ (by show 512 + r.val < 3072 ∨ 3072 + 512 ≤ 512 + r.val; omega),
      canon_rows_miss (M := 4096) (N := 128) (h := 512) (o := 2048) _ _ _ _ _ (by show 512 + r.val < 2048 ∨ 2048 + 512 ≤ 512 + r.val; omega),
      canon_rows_miss (M := 4096) (N := 128) (h := 512) (o := 1536) _ _ _ _ _ (by show 512 + r.val < 1536 ∨ 1536 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      pv5_1_apply]
  · rw [readCov_box_apply (M := 4096) (N := 4096) _ _ _ r q (⟨512 + r.val, by omega⟩ : Fin 4096) (⟨3072 + q.val, by omega⟩ : Fin 4096) rfl rfl,
      canon_rows_miss (M := 4096) (N := 4096) (h := 512) (o := 3072) _ _ _ _ _ (by show 512 + r.val < 3072 ∨ 3072 + 512 ≤ 512 + r.val; omega),
      canon_rows_miss (M := 4096) (N := 4096) (h := 512) (o := 2560) _ _ _ _ _ (by show 512 + r.val < 2560 ∨ 2560 + 512 ≤ 512 + r.val; omega),
      canon_rows_miss (M := 4096) (N := 4096) (h := 512) (o := 2048) _ _ _ _ _ (by show 512 + r.val < 2048 ∨ 2048 + 512 ≤ 512 + r.val; omega),
      canon_rows_miss (M := 4096) (N := 4096) (h := 512) (o := 1536) _ _ _ _ _ (by show 512 + r.val < 1536 ∨ 1536 + 512 ≤ 512 + r.val; omega),
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 2 of t2 as point 6 rewrites it: the partial sum extended by the columns of block 6. -/
theorem pv6_2_apply (c : Dev nD) (r : Fin 512) (k : Fin 128) :
    pv6_2 m c (ix2 r k) = part (m ((c : Thread nD τ).loc main_arg1)) (sup (m ((c : Thread nD τ).loc main_arg0)) (m ((c : Thread nD τ).loc main_arg2))) 3584 (512 * 2 + r.val) k := by
  unfold pv6_2 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1024, 0] S512x128.size inb_S4096x128_S512x128_1024_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1024, 3072] S512x512.size inb_S4096x4096_S512x512_1024_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 2 + r.val) k).symm
  refine congrArg₂ (· + ·) ?_ (Finset.sum_congr rfl fun q _ => congrArg₂ (· * ·) ?_ ?_)
  · rw [readCov_box_apply (M := 4096) (N := 128) _ _ _ r k (⟨1024 + r.val, by omega⟩ : Fin 4096) k rfl (Nat.zero_add _),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_miss (M := 4096) (N := 128) (h := 512) (o := 3072) _ _ _ _ _ (by show 1024 + r.val < 3072 ∨ 3072 + 512 ≤ 1024 + r.val; omega),
      canon_rows_miss (M := 4096) (N := 128) (h := 512) (o := 2048) _ _ _ _ _ (by show 1024 + r.val < 2048 ∨ 2048 + 512 ≤ 1024 + r.val; omega),
      canon_rows_miss (M := 4096) (N := 128) (h := 512) (o := 1536) _ _ _ _ _ (by show 1024 + r.val < 1536 ∨ 1536 + 512 ≤ 1024 + r.val; omega),
      canon_rows_hit (M := 4096) (N := 128) (h := 512) (o := 1024) _ _ _ _ _ r (by rfl),
      pv5_2_apply]
  · rw [readCov_box_apply (M := 4096) (N := 4096) _ _ _ r q (⟨1024 + r.val, by omega⟩ : Fin 4096) (⟨3072 + q.val, by omega⟩ : Fin 4096) rfl rfl,
      canon_rows_miss (M := 4096) (N := 4096) (h := 512) (o := 3072) _ _ _ _ _ (by show 1024 + r.val < 3072 ∨ 3072 + 512 ≤ 1024 + r.val; omega),
      canon_rows_miss (M := 4096) (N := 4096) (h := 512) (o := 2560) _ _ _ _ _ (by show 1024 + r.val < 2560 ∨ 2560 + 512 ≤ 1024 + r.val; omega),
      canon_rows_miss (M := 4096) (N := 4096) (h := 512) (o := 2048) _ _ _ _ _ (by show 1024 + r.val < 2048 ∨ 2048 + 512 ≤ 1024 + r.val; omega),
      canon_rows_miss (M := 4096) (N := 4096) (h := 512) (o := 1536) _ _ _ _ _ (by show 1024 + r.val < 1536 ∨ 1536 + 512 ≤ 1024 + r.val; omega),
      canon_rows_hit (M := 4096) (N := 4096) (h := 512) (o := 1024) _ _ _ _ _ r (by rfl),
      av2_apply]
    exact (adjN_of_lt _ (⟨512 * 2 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 3 of t2 as point 6 rewrites it: the partial sum extended by the columns of block 6. -/
theorem pv6_3_apply (c : Dev nD) (r : Fin 512) (k : Fin 128) :
    pv6_3 m c (ix2 r k) = part (m ((c : Thread nD τ).loc main_arg1)) (sup (m ((c : Thread nD τ).loc main_arg0)) (m ((c : Thread nD τ).loc main_arg2))) 3584 (512 * 3 + r.val) k := by
  unfold pv6_3 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1536, 0] S512x128.size inb_S4096x128_S512x128_1536_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1536, 3072] S512x512.size inb_S4096x4096_S512x512_1536_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 3 + r.val) k).symm
  refine congrArg₂ (· + ·) ?_ (Finset.sum_congr rfl fun q _ => congrArg₂ (· * ·) ?_ ?_)
  · rw [readCov_box_apply (M := 4096) (N := 128) _ _ _ r k (⟨1536 + r.val, by omega⟩ : Fin 4096) k rfl (Nat.zero_add _),
      canon_rows_miss (M := 4096) (N := 128) (h := 512) (o := 1024) _ _ _ _ _ (by show 1536 + r.val < 1024 ∨ 1024 + 512 ≤ 1536 + r.val; omega),
      canon_rows_miss (M := 4096) (N := 128) (h := 512) (o := 512) _ _ _ _ _ (by show 1536 + r.val < 512 ∨ 512 + 512 ≤ 1536 + r.val; omega),
      canon_rows_miss (M := 4096) (N := 128) (h := 512) (o := 0) _ _ _ _ _ (by show 1536 + r.val < 0 ∨ 0 + 512 ≤ 1536 + r.val; omega),
      canon_rows_miss (M := 4096) (N := 128) (h := 512) (o := 3072) _ _ _ _ _ (by show 1536 + r.val < 3072 ∨ 3072 + 512 ≤ 1536 + r.val; omega),
      canon_rows_miss (M := 4096) (N := 128) (h := 512) (o := 2048) _ _ _ _ _ (by show 1536 + r.val < 2048 ∨ 2048 + 512 ≤ 1536 + r.val; omega),
      canon_rows_hit (M := 4096) (N := 128) (h := 512) (o := 1536) _ _ _ _ _ r (by rfl),
      pv5_3_apply]
  · rw [readCov_box_apply (M := 4096) (N := 4096) _ _ _ r q (⟨1536 + r.val, by omega⟩ : Fin 4096) (⟨3072 + q.val, by omega⟩ : Fin 4096) rfl rfl,
      canon_rows_miss (M := 4096) (N := 4096) (h := 512) (o := 3072) _ _ _ _ _ (by show 1536 + r.val < 3072 ∨ 3072 + 512 ≤ 1536 + r.val; omega),
      canon_rows_miss (M := 4096) (N := 4096) (h := 512) (o := 2560) _ _ _ _ _ (by show 1536 + r.val < 2560 ∨ 2560 + 512 ≤ 1536 + r.val; omega),
      canon_rows_miss (M := 4096) (N := 4096) (h := 512) (o := 2048) _ _ _ _ _ (by show 1536 + r.val < 2048 ∨ 2048 + 512 ≤ 1536 + r.val; omega),
      canon_rows_hit (M := 4096) (N := 4096) (h := 512) (o := 1536) _ _ _ _ _ r (by rfl),
      av3_apply]
    exact (adjN_of_lt _ (⟨512 * 3 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 4 of t2 as point 6 rewrites it: the partial sum extended by the columns of block 6. -/
theorem pv6_4_apply (c : Dev nD) (r : Fin 512) (k : Fin 128) :
    pv6_4 m c (ix2 r k) = part (m ((c : Thread nD τ).loc main_arg1)) (sup (m ((c : Thread nD τ).loc main_arg0)) (m ((c : Thread nD τ).loc main_arg2))) 3584 (512 * 4 + r.val) k := by
  unfold pv6_4 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![2048, 0] S512x128.size inb_S4096x128_S512x128_2048_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![2048, 3072] S512x512.size inb_S4096x4096_S512x512_2048_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 4 + r.val) k).symm
  refine congrArg₂ (· + ·) ?_ (Finset.sum_congr rfl fun q _ => congrArg₂ (· * ·) ?_ ?_)
  · rw [readCov_box_apply (M := 4096) (N := 128) _ _ _ r k (⟨2048 + r.val, by omega⟩ : Fin 4096) k rfl (Nat.zero_add _),
      canon_rows_miss (M := 4096) (N := 128) (h := 512) (o := 1536) _ _ _ _ _ (by show 2048 + r.val < 1536 ∨ 1536 + 512 ≤ 2048 + r.val; omega),
      canon_rows_miss (M := 4096) (N := 128) (h := 512) (o := 1024) _ _ _ _ _ (by show 2048 + r.val < 1024 ∨ 1024 + 512 ≤ 2048 + r.val; omega),
      canon_rows_miss (M := 4096) (N := 128) (h := 512) (o := 512) _ _ _ _ _ (by show 2048 + r.val < 512 ∨ 512 + 512 ≤ 2048 + r.val; omega),
      canon_rows_miss (M := 4096) (N := 128) (h := 512) (o := 0) _ _ _ _ _ (by show 2048 + r.val < 0 ∨ 0 + 512 ≤ 2048 + r.val; omega),
      canon_rows_miss (M := 4096) (N := 128) (h := 512) (o := 3072) _ _ _ _ _ (by show 2048 + r.val < 3072 ∨ 3072 + 512 ≤ 2048 + r.val; omega),
      canon_rows_hit (M := 4096) (N := 128) (h := 512) (o := 2048) _ _ _ _ _ r (by rfl),
      pv5_4_apply]
  · rw [readCov_box_apply (M := 4096) (N := 4096) _ _ _ r q (⟨2048 + r.val, by omega⟩ : Fin 4096) (⟨3072 + q.val, by omega⟩ : Fin 4096) rfl rfl,
      canon_rows_miss (M := 4096) (N := 4096) (h := 512) (o := 3072) _ _ _ _ _ (by show 2048 + r.val < 3072 ∨ 3072 + 512 ≤ 2048 + r.val; omega),
      canon_rows_miss (M := 4096) (N := 4096) (h := 512) (o := 2560) _ _ _ _ _ (by show 2048 + r.val < 2560 ∨ 2560 + 512 ≤ 2048 + r.val; omega),
      canon_rows_hit (M := 4096) (N := 4096) (h := 512) (o := 2048) _ _ _ _ _ r (by rfl),
      av4_apply]
    exact (adjN_of_lt _ (⟨512 * 4 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 5 of t2 as point 6 rewrites it: the partial sum extended by the columns of block 6. -/
theorem pv6_5_apply (c : Dev nD) (r : Fin 512) (k : Fin 128) :
    pv6_5 m c (ix2 r k) = part (m ((c : Thread nD τ).loc main_arg1)) (sup (m ((c : Thread nD τ).loc main_arg0)) (m ((c : Thread nD τ).loc main_arg2))) 3584 (512 * 5 + r.val) k := by
  unfold pv6_5 R6 run6
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![2560, 0] S512x128.size inb_S4096x128_S512x128_2560_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![2560, 3072] S512x512.size inb_S4096x4096_S512x512_2560_3072).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3072 512 (512 * 5 + r.val) k).symm
  refine congrArg₂ (· + ·) ?_ (Finset.sum_congr rfl fun q _ => congrArg₂ (· * ·) ?_ ?_)
  · rw [readCov_box_apply (M := 4096) (N := 128) _ _ _ r k (⟨2560 + r.val, by omega⟩ : Fin 4096) k rfl (Nat.zero_add _),
      canon_rows_miss (M := 4096) (N := 128) (h := 512) (o := 2048) _ _ _ _ _ (by show 2560 + r.val < 2048 ∨ 2048 + 512 ≤ 2560 + r.val; omega),
      canon_rows_miss (M := 4096) (N := 128) (h := 512) (o := 1536) _ _ _ _ _ (by show 2560 + r.val < 1536 ∨ 1536 + 512 ≤ 2560 + r.val; omega),
      canon_rows_miss (M := 4096) (N := 128) (h := 512) (o := 1024) _ _ _ _ _ (by show 2560 + r.val < 1024 ∨ 1024 + 512 ≤ 2560 + r.val; omega),
      canon_rows_miss (M := 4096) (N := 128) (h := 512) (o := 512) _ _ _ _ _ (by show 2560 + r.val < 512 ∨ 512 + 512 ≤ 2560 + r.val; omega),
      canon_rows_miss (M := 4096) (N := 128) (h := 512) (o := 0) _ _ _ _ _ (by show 2560 + r.val < 0 ∨ 0 + 512 ≤ 2560 + r.val; omega),
      canon_rows_miss (M := 4096) (N := 128) (h := 512) (o := 3072) _ _ _ _ _ (by show 2560 + r.val < 3072 ∨ 3072 + 512 ≤ 2560 + r.val; omega),
      canon_rows_miss (M := 4096) (N := 128) (h := 512) (o := 2048) _ _ _ _ _ (by show 2560 + r.val < 2048 ∨ 2048 + 512 ≤ 2560 + r.val; omega),
      canon_rows_miss (M := 4096) (N := 128) (h := 512) (o := 1536) _ _ _ _ _ (by show 2560 + r.val < 1536 ∨ 1536 + 512 ≤ 2560 + r.val; omega),
      canon_rows_miss (M := 4096) (N := 128) (h := 512) (o := 1024) _ _ _ _ _ (by show 2560 + r.val < 1024 ∨ 1024 + 512 ≤ 2560 + r.val; omega),
      canon_rows_miss (M := 4096) (N := 128) (h := 512) (o := 512) _ _ _ _ _ (by show 2560 + r.val < 512 ∨ 512 + 512 ≤ 2560 + r.val; omega),
      canon_rows_miss (M := 4096) (N := 128) (h := 512) (o := 0) _ _ _ _ _ (by show 2560 + r.val < 0 ∨ 0 + 512 ≤ 2560 + r.val; omega),
      canon_rows_hit (M := 4096) (N := 128) (h := 512) (o := 2560) _ _ _ _ _ r (by rfl),
      dv5_apply]
  · rw [readCov_box_apply (M := 4096) (N := 4096) _ _ _ r q (⟨2560 + r.val, by omega⟩ : Fin 4096) (⟨3072 + q.val, by omega⟩ : Fin 4096) rfl rfl,
      canon_rows_miss (M := 4096) (N := 4096) (h := 512) (o := 3072) _ _ _ _ _ (by show 2560 + r.val < 3072 ∨ 3072 + 512 ≤ 2560 + r.val; omega),
      canon_rows_hit (M := 4096) (N := 4096) (h := 512) (o := 2560) _ _ _ _ _ r (by rfl),
      av5_apply]
    exact (adjN_of_lt _ (⟨512 * 5 + r.val, by omega⟩ : Fin 4096) (⟨3072 + q.val, by omega⟩ : Fin 4096)).symm
  · refine (t1term6 m c q k).trans ?_
    exact (t1N_of_lt _ _ (⟨512 * 6 + q.val, by omega⟩ : Fin 4096) k).symm

set_option maxHeartbeats 2000000 in
/-- Row block 0 of t2 as point 7 rewrites it: the partial sum extended by the columns of block 7. -/
theorem pv7_0_apply (c : Dev nD) (r : Fin 512) (k : Fin 128) :
    pv7_0 m c (ix2 r k) = part (m ((c : Thread nD τ).loc main_arg1)) (sup (m ((c : Thread nD τ).loc main_arg0)) (m ((c : Thread nD τ).loc main_arg2))) 4096 (512 * 0 + r.val) k := by
  unfold pv7_0 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![0, 0] S512x128.size inb_S4096x128_S512x128_0_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![0, 3584] S512x512.size inb_S4096x4096_S512x512_0_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 0 + r.val) k).symm
  refine congrArg₂ (· + ·) ?_ (Finset.sum_congr rfl fun q _ => congrArg₂ (· * ·) ?_ ?_)
  · rw [readCov_box_apply (M := 4096) (N := 128) _ _ _ r k (⟨0 + r.val, by omega⟩ : Fin 4096) k rfl (Nat.zero_add _),
      canon_rows_miss (M := 4096) (N := 128) (h := 512) (o := 3584) _ _ _ _ _ (by show 0 + r.val < 3584 ∨ 3584 + 512 ≤ 0 + r.val; omega),
      canon_rows_miss (M := 4096) (N := 128) (h := 512) (o := 2560) _ _ _ _ _ (by show 0 + r.val < 2560 ∨ 2560 + 512 ≤ 0 + r.val; omega),
      canon_rows_miss (M := 4096) (N := 128) (h := 512) (o := 2048) _ _ _ _ _ (by show 0 + r.val < 2048 ∨ 2048 + 512 ≤ 0 + r.val; omega),
      canon_rows_miss (M := 4096) (N := 128) (h := 512) (o := 1536) _ _ _ _ _ (by show 0 + r.val < 1536 ∨ 1536 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv6_0_apply]
  · rw [readCov_box_apply (M := 4096) (N := 4096) _ _ _ r q (⟨0 + r.val, by omega⟩ : Fin 4096) (⟨3584 + q.val, by omega⟩ : Fin 4096) rfl rfl,
      canon_rows_miss (M := 4096) (N := 4096) (h := 512) (o := 3584) _ _ _ _ _ (by show 0 + r.val < 3584 ∨ 3584 + 512 ≤ 0 + r.val; omega),
      canon_rows_miss (M := 4096) (N := 4096) (h := 512) (o := 3072) _ _ _ _ _ (by show 0 + r.val < 3072 ∨ 3072 + 512 ≤ 0 + r.val; omega),
      canon_rows_miss (M := 4096) (N := 4096) (h := 512) (o := 2560) _ _ _ _ _ (by show 0 + r.val < 2560 ∨ 2560 + 512 ≤ 0 + r.val; omega),
      canon_rows_miss (M := 4096) (N := 4096) (h := 512) (o := 2048) _ _ _ _ _ (by show 0 + r.val < 2048 ∨ 2048 + 512 ≤ 0 + r.val; omega),
      canon_rows_miss (M := 4096) (N := 4096) (h := 512) (o := 1536) _ _ _ _ _ (by show 0 + r.val < 1536 ∨ 1536 + 512 ≤ 0 + r.val; omega),
      canon_rows_miss (M := 4096) (N := 4096) (h := 512) (o := 1024) _ _ _ _ _ (by show 0 + r.val < 1024 ∨ 1024 + 512 ≤ 0 + r.val; omega),
      canon_rows_miss (M := 4096) (N := 4096) (h := 512) (o := 512) _ _ _ _ _ (by show 0 + r.val < 512 ∨ 512 + 512 ≤ 0 + r.val; omega),
      canon_rows_hit (M := 4096) (N := 4096) (h := 512) (o := 0) _ _ _ _ _ r (by rfl),
      av0_apply]
    exact (adjN_of_lt _ (⟨512 * 0 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 1 of t2 as point 7 rewrites it: the partial sum extended by the columns of block 7. -/
theorem pv7_1_apply (c : Dev nD) (r : Fin 512) (k : Fin 128) :
    pv7_1 m c (ix2 r k) = part (m ((c : Thread nD τ).loc main_arg1)) (sup (m ((c : Thread nD τ).loc main_arg0)) (m ((c : Thread nD τ).loc main_arg2))) 4096 (512 * 1 + r.val) k := by
  unfold pv7_1 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![512, 0] S512x128.size inb_S4096x128_S512x128_512_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![512, 3584] S512x512.size inb_S4096x4096_S512x512_512_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 1 + r.val) k).symm
  refine congrArg₂ (· + ·) ?_ (Finset.sum_congr rfl fun q _ => congrArg₂ (· * ·) ?_ ?_)
  · rw [readCov_box_apply (M := 4096) (N := 128) _ _ _ r k (⟨512 + r.val, by omega⟩ : Fin 4096) k rfl (Nat.zero_add _),
      canon_rows_miss (M := 4096) (N := 128) (h := 512) (o := 0) _ _ _ _ _ (by show 512 + r.val < 0 ∨ 0 + 512 ≤ 512 + r.val; omega),
      canon_rows_miss (M := 4096) (N := 128) (h := 512) (o := 3584) _ _ _ _ _ (by show 512 + r.val < 3584 ∨ 3584 + 512 ≤ 512 + r.val; omega),
      canon_rows_miss (M := 4096) (N := 128) (h := 512) (o := 2560) _ _ _ _ _ (by show 512 + r.val < 2560 ∨ 2560 + 512 ≤ 512 + r.val; omega),
      canon_rows_miss (M := 4096) (N := 128) (h := 512) (o := 2048) _ _ _ _ _ (by show 512 + r.val < 2048 ∨ 2048 + 512 ≤ 512 + r.val; omega),
      canon_rows_miss (M := 4096) (N := 128) (h := 512) (o := 1536) _ _ _ _ _ (by show 512 + r.val < 1536 ∨ 1536 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      pv6_1_apply]
  · rw [readCov_box_apply (M := 4096) (N := 4096) _ _ _ r q (⟨512 + r.val, by omega⟩ : Fin 4096) (⟨3584 + q.val, by omega⟩ : Fin 4096) rfl rfl,
      canon_rows_miss (M := 4096) (N := 4096) (h := 512) (o := 3584) _ _ _ _ _ (by show 512 + r.val < 3584 ∨ 3584 + 512 ≤ 512 + r.val; omega),
      canon_rows_miss (M := 4096) (N := 4096) (h := 512) (o := 3072) _ _ _ _ _ (by show 512 + r.val < 3072 ∨ 3072 + 512 ≤ 512 + r.val; omega),
      canon_rows_miss (M := 4096) (N := 4096) (h := 512) (o := 2560) _ _ _ _ _ (by show 512 + r.val < 2560 ∨ 2560 + 512 ≤ 512 + r.val; omega),
      canon_rows_miss (M := 4096) (N := 4096) (h := 512) (o := 2048) _ _ _ _ _ (by show 512 + r.val < 2048 ∨ 2048 + 512 ≤ 512 + r.val; omega),
      canon_rows_miss (M := 4096) (N := 4096) (h := 512) (o := 1536) _ _ _ _ _ (by show 512 + r.val < 1536 ∨ 1536 + 512 ≤ 512 + r.val; omega),
      canon_rows_miss (M := 4096) (N := 4096) (h := 512) (o := 1024) _ _ _ _ _ (by show 512 + r.val < 1024 ∨ 1024 + 512 ≤ 512 + r.val; omega),
      canon_rows_hit (M := 4096) (N := 4096) (h := 512) (o := 512) _ _ _ _ _ r (by rfl),
      av1_apply]
    exact (adjN_of_lt _ (⟨512 * 1 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 2 of t2 as point 7 rewrites it: the partial sum extended by the columns of block 7. -/
theorem pv7_2_apply (c : Dev nD) (r : Fin 512) (k : Fin 128) :
    pv7_2 m c (ix2 r k) = part (m ((c : Thread nD τ).loc main_arg1)) (sup (m ((c : Thread nD τ).loc main_arg0)) (m ((c : Thread nD τ).loc main_arg2))) 4096 (512 * 2 + r.val) k := by
  unfold pv7_2 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1024, 0] S512x128.size inb_S4096x128_S512x128_1024_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1024, 3584] S512x512.size inb_S4096x4096_S512x512_1024_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 2 + r.val) k).symm
  refine congrArg₂ (· + ·) ?_ (Finset.sum_congr rfl fun q _ => congrArg₂ (· * ·) ?_ ?_)
  · rw [readCov_box_apply (M := 4096) (N := 128) _ _ _ r k (⟨1024 + r.val, by omega⟩ : Fin 4096) k rfl (Nat.zero_add _),
      canon_rows_miss (M := 4096) (N := 128) (h := 512) (o := 512) _ _ _ _ _ (by show 1024 + r.val < 512 ∨ 512 + 512 ≤ 1024 + r.val; omega),
      canon_rows_miss (M := 4096) (N := 128) (h := 512) (o := 0) _ _ _ _ _ (by show 1024 + r.val < 0 ∨ 0 + 512 ≤ 1024 + r.val; omega),
      canon_rows_miss (M := 4096) (N := 128) (h := 512) (o := 3584) _ _ _ _ _ (by show 1024 + r.val < 3584 ∨ 3584 + 512 ≤ 1024 + r.val; omega),
      canon_rows_miss (M := 4096) (N := 128) (h := 512) (o := 2560) _ _ _ _ _ (by show 1024 + r.val < 2560 ∨ 2560 + 512 ≤ 1024 + r.val; omega),
      canon_rows_miss (M := 4096) (N := 128) (h := 512) (o := 2048) _ _ _ _ _ (by show 1024 + r.val < 2048 ∨ 2048 + 512 ≤ 1024 + r.val; omega),
      canon_rows_miss (M := 4096) (N := 128) (h := 512) (o := 1536) _ _ _ _ _ (by show 1024 + r.val < 1536 ∨ 1536 + 512 ≤ 1024 + r.val; omega),
      canon_rows_hit (M := 4096) (N := 128) (h := 512) (o := 1024) _ _ _ _ _ r (by rfl),
      pv6_2_apply]
  · rw [readCov_box_apply (M := 4096) (N := 4096) _ _ _ r q (⟨1024 + r.val, by omega⟩ : Fin 4096) (⟨3584 + q.val, by omega⟩ : Fin 4096) rfl rfl,
      canon_rows_miss (M := 4096) (N := 4096) (h := 512) (o := 3584) _ _ _ _ _ (by show 1024 + r.val < 3584 ∨ 3584 + 512 ≤ 1024 + r.val; omega),
      canon_rows_miss (M := 4096) (N := 4096) (h := 512) (o := 3072) _ _ _ _ _ (by show 1024 + r.val < 3072 ∨ 3072 + 512 ≤ 1024 + r.val; omega),
      canon_rows_miss (M := 4096) (N := 4096) (h := 512) (o := 2560) _ _ _ _ _ (by show 1024 + r.val < 2560 ∨ 2560 + 512 ≤ 1024 + r.val; omega),
      canon_rows_miss (M := 4096) (N := 4096) (h := 512) (o := 2048) _ _ _ _ _ (by show 1024 + r.val < 2048 ∨ 2048 + 512 ≤ 1024 + r.val; omega),
      canon_rows_miss (M := 4096) (N := 4096) (h := 512) (o := 1536) _ _ _ _ _ (by show 1024 + r.val < 1536 ∨ 1536 + 512 ≤ 1024 + r.val; omega),
      canon_rows_hit (M := 4096) (N := 4096) (h := 512) (o := 1024) _ _ _ _ _ r (by rfl),
      av2_apply]
    exact (adjN_of_lt _ (⟨512 * 2 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 3 of t2 as point 7 rewrites it: the partial sum extended by the columns of block 7. -/
theorem pv7_3_apply (c : Dev nD) (r : Fin 512) (k : Fin 128) :
    pv7_3 m c (ix2 r k) = part (m ((c : Thread nD τ).loc main_arg1)) (sup (m ((c : Thread nD τ).loc main_arg0)) (m ((c : Thread nD τ).loc main_arg2))) 4096 (512 * 3 + r.val) k := by
  unfold pv7_3 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![1536, 0] S512x128.size inb_S4096x128_S512x128_1536_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![1536, 3584] S512x512.size inb_S4096x4096_S512x512_1536_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 3 + r.val) k).symm
  refine congrArg₂ (· + ·) ?_ (Finset.sum_congr rfl fun q _ => congrArg₂ (· * ·) ?_ ?_)
  · rw [readCov_box_apply (M := 4096) (N := 128) _ _ _ r k (⟨1536 + r.val, by omega⟩ : Fin 4096) k rfl (Nat.zero_add _),
      canon_rows_miss (M := 4096) (N := 128) (h := 512) (o := 1024) _ _ _ _ _ (by show 1536 + r.val < 1024 ∨ 1024 + 512 ≤ 1536 + r.val; omega),
      canon_rows_miss (M := 4096) (N := 128) (h := 512) (o := 512) _ _ _ _ _ (by show 1536 + r.val < 512 ∨ 512 + 512 ≤ 1536 + r.val; omega),
      canon_rows_miss (M := 4096) (N := 128) (h := 512) (o := 0) _ _ _ _ _ (by show 1536 + r.val < 0 ∨ 0 + 512 ≤ 1536 + r.val; omega),
      canon_rows_miss (M := 4096) (N := 128) (h := 512) (o := 3584) _ _ _ _ _ (by show 1536 + r.val < 3584 ∨ 3584 + 512 ≤ 1536 + r.val; omega),
      canon_rows_miss (M := 4096) (N := 128) (h := 512) (o := 2560) _ _ _ _ _ (by show 1536 + r.val < 2560 ∨ 2560 + 512 ≤ 1536 + r.val; omega),
      canon_rows_miss (M := 4096) (N := 128) (h := 512) (o := 2048) _ _ _ _ _ (by show 1536 + r.val < 2048 ∨ 2048 + 512 ≤ 1536 + r.val; omega),
      canon_rows_hit (M := 4096) (N := 128) (h := 512) (o := 1536) _ _ _ _ _ r (by rfl),
      pv6_3_apply]
  · rw [readCov_box_apply (M := 4096) (N := 4096) _ _ _ r q (⟨1536 + r.val, by omega⟩ : Fin 4096) (⟨3584 + q.val, by omega⟩ : Fin 4096) rfl rfl,
      canon_rows_miss (M := 4096) (N := 4096) (h := 512) (o := 3584) _ _ _ _ _ (by show 1536 + r.val < 3584 ∨ 3584 + 512 ≤ 1536 + r.val; omega),
      canon_rows_miss (M := 4096) (N := 4096) (h := 512) (o := 3072) _ _ _ _ _ (by show 1536 + r.val < 3072 ∨ 3072 + 512 ≤ 1536 + r.val; omega),
      canon_rows_miss (M := 4096) (N := 4096) (h := 512) (o := 2560) _ _ _ _ _ (by show 1536 + r.val < 2560 ∨ 2560 + 512 ≤ 1536 + r.val; omega),
      canon_rows_miss (M := 4096) (N := 4096) (h := 512) (o := 2048) _ _ _ _ _ (by show 1536 + r.val < 2048 ∨ 2048 + 512 ≤ 1536 + r.val; omega),
      canon_rows_hit (M := 4096) (N := 4096) (h := 512) (o := 1536) _ _ _ _ _ r (by rfl),
      av3_apply]
    exact (adjN_of_lt _ (⟨512 * 3 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 4 of t2 as point 7 rewrites it: the partial sum extended by the columns of block 7. -/
theorem pv7_4_apply (c : Dev nD) (r : Fin 512) (k : Fin 128) :
    pv7_4 m c (ix2 r k) = part (m ((c : Thread nD τ).loc main_arg1)) (sup (m ((c : Thread nD τ).loc main_arg0)) (m ((c : Thread nD τ).loc main_arg2))) 4096 (512 * 4 + r.val) k := by
  unfold pv7_4 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![2048, 0] S512x128.size inb_S4096x128_S512x128_2048_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![2048, 3584] S512x512.size inb_S4096x4096_S512x512_2048_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 4 + r.val) k).symm
  refine congrArg₂ (· + ·) ?_ (Finset.sum_congr rfl fun q _ => congrArg₂ (· * ·) ?_ ?_)
  · rw [readCov_box_apply (M := 4096) (N := 128) _ _ _ r k (⟨2048 + r.val, by omega⟩ : Fin 4096) k rfl (Nat.zero_add _),
      canon_rows_miss (M := 4096) (N := 128) (h := 512) (o := 1536) _ _ _ _ _ (by show 2048 + r.val < 1536 ∨ 1536 + 512 ≤ 2048 + r.val; omega),
      canon_rows_miss (M := 4096) (N := 128) (h := 512) (o := 1024) _ _ _ _ _ (by show 2048 + r.val < 1024 ∨ 1024 + 512 ≤ 2048 + r.val; omega),
      canon_rows_miss (M := 4096) (N := 128) (h := 512) (o := 512) _ _ _ _ _ (by show 2048 + r.val < 512 ∨ 512 + 512 ≤ 2048 + r.val; omega),
      canon_rows_miss (M := 4096) (N := 128) (h := 512) (o := 0) _ _ _ _ _ (by show 2048 + r.val < 0 ∨ 0 + 512 ≤ 2048 + r.val; omega),
      canon_rows_miss (M := 4096) (N := 128) (h := 512) (o := 3584) _ _ _ _ _ (by show 2048 + r.val < 3584 ∨ 3584 + 512 ≤ 2048 + r.val; omega),
      canon_rows_miss (M := 4096) (N := 128) (h := 512) (o := 2560) _ _ _ _ _ (by show 2048 + r.val < 2560 ∨ 2560 + 512 ≤ 2048 + r.val; omega),
      canon_rows_hit (M := 4096) (N := 128) (h := 512) (o := 2048) _ _ _ _ _ r (by rfl),
      pv6_4_apply]
  · rw [readCov_box_apply (M := 4096) (N := 4096) _ _ _ r q (⟨2048 + r.val, by omega⟩ : Fin 4096) (⟨3584 + q.val, by omega⟩ : Fin 4096) rfl rfl,
      canon_rows_miss (M := 4096) (N := 4096) (h := 512) (o := 3584) _ _ _ _ _ (by show 2048 + r.val < 3584 ∨ 3584 + 512 ≤ 2048 + r.val; omega),
      canon_rows_miss (M := 4096) (N := 4096) (h := 512) (o := 3072) _ _ _ _ _ (by show 2048 + r.val < 3072 ∨ 3072 + 512 ≤ 2048 + r.val; omega),
      canon_rows_miss (M := 4096) (N := 4096) (h := 512) (o := 2560) _ _ _ _ _ (by show 2048 + r.val < 2560 ∨ 2560 + 512 ≤ 2048 + r.val; omega),
      canon_rows_hit (M := 4096) (N := 4096) (h := 512) (o := 2048) _ _ _ _ _ r (by rfl),
      av4_apply]
    exact (adjN_of_lt _ (⟨512 * 4 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 5 of t2 as point 7 rewrites it: the partial sum extended by the columns of block 7. -/
theorem pv7_5_apply (c : Dev nD) (r : Fin 512) (k : Fin 128) :
    pv7_5 m c (ix2 r k) = part (m ((c : Thread nD τ).loc main_arg1)) (sup (m ((c : Thread nD τ).loc main_arg0)) (m ((c : Thread nD τ).loc main_arg2))) 4096 (512 * 5 + r.val) k := by
  unfold pv7_5 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![2560, 0] S512x128.size inb_S4096x128_S512x128_2560_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![2560, 3584] S512x512.size inb_S4096x4096_S512x512_2560_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 5 + r.val) k).symm
  refine congrArg₂ (· + ·) ?_ (Finset.sum_congr rfl fun q _ => congrArg₂ (· * ·) ?_ ?_)
  · rw [readCov_box_apply (M := 4096) (N := 128) _ _ _ r k (⟨2560 + r.val, by omega⟩ : Fin 4096) k rfl (Nat.zero_add _),
      canon_rows_miss (M := 4096) (N := 128) (h := 512) (o := 2048) _ _ _ _ _ (by show 2560 + r.val < 2048 ∨ 2048 + 512 ≤ 2560 + r.val; omega),
      canon_rows_miss (M := 4096) (N := 128) (h := 512) (o := 1536) _ _ _ _ _ (by show 2560 + r.val < 1536 ∨ 1536 + 512 ≤ 2560 + r.val; omega),
      canon_rows_miss (M := 4096) (N := 128) (h := 512) (o := 1024) _ _ _ _ _ (by show 2560 + r.val < 1024 ∨ 1024 + 512 ≤ 2560 + r.val; omega),
      canon_rows_miss (M := 4096) (N := 128) (h := 512) (o := 512) _ _ _ _ _ (by show 2560 + r.val < 512 ∨ 512 + 512 ≤ 2560 + r.val; omega),
      canon_rows_miss (M := 4096) (N := 128) (h := 512) (o := 0) _ _ _ _ _ (by show 2560 + r.val < 0 ∨ 0 + 512 ≤ 2560 + r.val; omega),
      canon_rows_miss (M := 4096) (N := 128) (h := 512) (o := 3584) _ _ _ _ _ (by show 2560 + r.val < 3584 ∨ 3584 + 512 ≤ 2560 + r.val; omega),
      canon_rows_hit (M := 4096) (N := 128) (h := 512) (o := 2560) _ _ _ _ _ r (by rfl),
      pv6_5_apply]
  · rw [readCov_box_apply (M := 4096) (N := 4096) _ _ _ r q (⟨2560 + r.val, by omega⟩ : Fin 4096) (⟨3584 + q.val, by omega⟩ : Fin 4096) rfl rfl,
      canon_rows_miss (M := 4096) (N := 4096) (h := 512) (o := 3584) _ _ _ _ _ (by show 2560 + r.val < 3584 ∨ 3584 + 512 ≤ 2560 + r.val; omega),
      canon_rows_miss (M := 4096) (N := 4096) (h := 512) (o := 3072) _ _ _ _ _ (by show 2560 + r.val < 3072 ∨ 3072 + 512 ≤ 2560 + r.val; omega),
      canon_rows_hit (M := 4096) (N := 4096) (h := 512) (o := 2560) _ _ _ _ _ r (by rfl),
      av5_apply]
    exact (adjN_of_lt _ (⟨512 * 5 + r.val, by omega⟩ : Fin 4096) (⟨3584 + q.val, by omega⟩ : Fin 4096)).symm
  · refine (t1term7 m c q k).trans ?_
    exact (t1N_of_lt _ _ (⟨512 * 7 + q.val, by omega⟩ : Fin 4096) k).symm

set_option maxHeartbeats 2000000 in
/-- Row block 6 of t2 as point 7 rewrites it: the partial sum extended by the columns of block 7. -/
theorem pv7_6_apply (c : Dev nD) (r : Fin 512) (k : Fin 128) :
    pv7_6 m c (ix2 r k) = part (m ((c : Thread nD τ).loc main_arg1)) (sup (m ((c : Thread nD τ).loc main_arg0)) (m ((c : Thread nD τ).loc main_arg2))) 4096 (512 * 6 + r.val) k := by
  unfold pv7_6 R7 run7
  dsimp only
  simp only [load_whole (S := S512x4096) _ _ hz2, load_whole (S := S4096x128) _ _ hz2, load_whole (S := S128x128) _ _ hz2, View.readCov_unit_zero (S := S4096x128) _ hz2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, shapeCast_self]
  show (View.readCov (Val := Elt Ideal) (e := EltTy.f32) _ _ (Rect.unit (s := S4096x128) ![3072, 0] S512x128.size inb_S4096x128_S512x128_3072_0).toLoadRect (ix2 r k) : EReal) + FloatOps.matmul (F := Ideal) (φ₁ := .bf16) (φ₂ := .bf16) (DotDims.plain 512 512 128) none
      (View.readCov (Val := Elt Ideal) (e := EltTy.bf16) _ _ (Rect.unit (s := S4096x4096) ![3072, 3584] S512x512.size inb_S4096x4096_S512x512_3072_3584).toLoadRect : FVec Ideal (⟨2, ![512, 512]⟩ : Shape) .bf16) _ (constant (⟨2, ![512, 128]⟩ : Shape) .f32 0x00000000#32) (ix2 r k) = _
  rw [matmul_plain_zero_apply]
  refine Eq.trans ?_ (part_add (m ((c : Thread nD τ).loc main_arg1)) (sup (m ((c : Thread nD τ).loc main_arg0)) (m ((c : Thread nD τ).loc main_arg2))) 3584 512 (512 * 6 + r.val) k).symm
  refine congrArg₂ (· + ·) ?_ (Finset.sum_congr rfl fun q _ => congrArg₂ (· * ·) ?_ ?_)
  · rw [readCov_box_apply (M := 4096) (N := 128) _ _ _ r k (⟨3072 + r.val, by omega⟩ : Fin 4096) k rfl (Nat.zero_add _),
      canon_rows_miss (M := 4096) (N := 128) (h := 512) (o := 2560) _ _ _ _ _ (by show 3072 + r.val < 2560 ∨ 2560 + 512 ≤ 3072 + r.val; omega),
      canon_rows_miss (M := 4096) (N := 128) (h := 512) (o := 2048) _ _ _ _ _ (by show 3072 + r.val < 2048 ∨ 2048 + 512 ≤ 3072 + r.val; omega),
      canon_rows_miss (M := 4096) (N := 128) (h := 512) (o := 1536) _ _ _ _ _ (by show 3072 + r.val < 1536 ∨ 1536 + 512 ≤ 3072 + r.val; omega),
      canon_rows_miss (M := 4096) (N := 128) (h := 512) (o := 1024) _ _ _ _ _ (by show 3072 + r.val < 1024 ∨ 1024 + 512 ≤ 3072 + r.val; omega),
      canon_rows_miss (M := 4096) (N := 128) (h := 512) (o := 512) _ _ _ _ _ (by show 3072 + r.val < 512 ∨ 512 + 512 ≤ 3072 + r.val; omega),
      canon_rows_miss (M := 4096) (N := 128) (h := 512) (o := 0) _ _ _ _ _ (by show 3072 + r.val < 0 ∨ 0 + 512 ≤ 3072 + r.val; omega),
      canon_rows_miss (M := 4096) (N := 128) (h := 512) (o := 3584) _ _ _ _ _ (by show 3072 + r.val < 3584 ∨ 3584 + 512 ≤ 3072 + r.val; omega),
      canon_rows_miss (M := 4096) (N := 128) (h := 512) (o := 2560) _ _ _ _ _ (by show 3072 + r.val < 2560 ∨ 2560 + 512 ≤ 3072 + r.val; omega),
      canon_rows_miss (M := 4096) (N := 128) (h := 512) (o := 2048) _ _ _ _ _ (by show 3072 + r.val < 2048 ∨ 2048 + 512 ≤ 3072 + r.val; omega),
      canon_rows_miss (M := 4096) (N := 128) (h := 512) (o := 1536) _ _ _ _ _ (by show 3072 + r.val < 1536 ∨ 1536 + 512 ≤ 3072 + r.val; omega),
      canon_rows_miss (M := 4096) (N := 128) (h := 512) (o := 1024) _ _ _ _ _ (by show 3072 + r.val < 1024 ∨ 1024 + 512 ≤ 3072 + r.val; omega),
      canon_rows_miss (M := 4096) (N := 128) (h := 512) (o := 512) _ _ _ _ _ (by show 3072 + r.val < 512 ∨ 512 + 512 ≤ 3072 + r.val; omega),
      canon_rows_miss (M := 4096) (N := 128) (h := 512) (o := 0) _ _ _ _ _ (by show 3072 + r.val < 0 ∨ 0 + 512 ≤ 3072 + r.val; omega),
      canon_rows_hit (M := 4096) (N := 128) (h := 512) (o := 3072) _ _ _ _ _ r (by rfl),
      dv6_apply]
  · rw [readCov_box_apply (M := 4096) (N := 4096) _ _ _ r q (⟨3072 + r.val, by omega⟩ : Fin 4096) (⟨3584 + q.val, by omega⟩ : Fin 4096) rfl rfl,
      canon_rows_miss (M := 4096) (N := 4096) (h := 512) (o := 3584) _ _ _ _ _ (by show 3072 + r.val < 3584 ∨ 3584 + 512 ≤ 3072 + r.val; omega),
      canon_rows_hit (M := 4096) (N := 4096) (h := 512) (o := 3072) _ _ _ _ _ r (by rfl),
      av6_apply]
    exact (adjN_of_lt _ (⟨512 * 6 + r.val, by omega⟩ : Fin 4096) (⟨3584 + q.val, by omega⟩ : Fin 4096)).symm
  · refine (t1term7 m c q k).trans ?_
    exact (t1N_of_lt _ _ (⟨512 * 7 + q.val, by omega⟩ : Fin 4096) k).symm

end Cert.KernelIdeal.Body

end
-- ==== Proof.Body.KIVal5.lean ====
import proofs.«166091_g16140487098644_cont_week2b_486_32_alg».proof.Proof.Body.KIVal4

/-!
The blocks of the result.

At point 8 + b the kernel reads row block b of t2 (the newest piece stored for those rows: the full sum over the 4096 columns,
which is row block b of adj · (adj · sup)), of the support and of t1, forms low = t1 + sup and mid = t2 − sup, multiplies each
by its half of cat_w's columns (contracting the 128 columns of the half), adds cat_b along the rows, applies the leaky
rectifier and adds bias along the rows: entry (r, e) of the stored block is the specification at (512 b + r, e).
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.LibDot2 Idealize.ShloMosaic.LibRowPieces Cert.GraphConv

/-- A load through a box of a whole memref owned at the block x reads x at the box's entries. -/
theorem load_box {S : Shape} {e : EltTy} (M : Memref sig .tc .vmem S e) (h : M.IsWhole) (r : Rect S) (x : S.Idx → Elt F e) (j : r.shape.Idx) :
    View.readAt (Elt F) M.view r.toLoadRect (h.unread x) j = x (r.emb j) := by
  rw [View.readAt_eq_ld, h.read_unread]; rfl

/-- A 128×128 box of cat_w at column offset o sends its local entry (e, q) to (e, o + q). -/
theorem catw_emb (o : Nat) (inb : ∀ a, (![0, o] : Fin 2 → Nat) a + S128x128.size a ≤ S128x256.size a) (e' q : Fin 128) (col : Fin 256)
    (hc : o + q.val = col.val) :
    (Rect.unit (s := S128x256) ![0, o] S128x128.size inb).emb (ix2 e' q) = ix2 e' col := by
  funext a; apply Fin.ext
  match a with
  | ⟨0, _⟩ => show 0 + 1 * e'.val = e'.val; omega
  | ⟨1, _⟩ => show o + 1 * q.val = col.val; omega

/-- The leaky rectifier of equal arguments, with the comparison's zero as the programs spell it. -/
theorem leaky_congr {x y z w : EReal} (hxy : x = y) (hz : z = 0) :
    Scalar.select (Ideal.cmp .oge x z) x (w * x) = Scalar.select (Ideal.cmp .oge y 0) y (w * y) := by
  subst hxy; subst hz; rfl

/-- The epilogue's payload on any loaded vectors whose entries are known: the leaky rectifier of the linear layer over the two
    halves, plus the bias. (T2, T1, SS: the loaded row blocks of t2, t1 and the support; W0, W1: the two halves of cat_w; cb, bi: the
    two row vectors.) -/
theorem pay1_apply (v51 : Vec Ideal S512x128 .f32) (v52 v54 : Vec Ideal S512x128 .bf16) (v58 v60 : Vec Ideal S128x128 .f32)
    (v63 v72 : Vec Ideal S1x128 .f32) (T2 T1 SS : Fin 512 → Fin 128 → EReal) (W0 W1 : Fin 128 → Fin 128 → EReal) (cb bi : Fin 128 → EReal)
    (h51 : ∀ r q, v51 (ix2 r q) = T2 r q) (h52 : ∀ r q, v52 (ix2 r q) = SS r q) (h54 : ∀ r q, v54 (ix2 r q) = T1 r q)
    (h58 : ∀ e q, v58 (ix2 e q) = W0 e q) (h60 : ∀ e q, v60 (ix2 e q) = W1 e q)
    (h63 : ∀ e, v63 (ix2 (0 : Fin 1) e) = cb e) (h72 : ∀ e, v72 (ix2 (0 : Fin 1) e) = bi e) (r : Fin 512) (e : Fin 128) :
    k0_pay1 (F := Ideal) v51 v52 v54 v58 v60 v63 v72 (ix2 r e)
      = leaky (((∑ q : Fin 128, (T1 r q + SS r q) * W0 e q) + ∑ q : Fin 128, (T2 r q - SS r q) * W1 e q) + cb e) + bi e := by
  unfold k0_pay1 leaky
  simp only [shapeCast_self]
  show (Scalar.select (Ideal.cmp .oge _ _) _ (_ * _) : EReal) + _ = _
  refine congrArg₂ (· + ·) (leaky_congr ?_ (Ideal.ofBits_zero_f32)) ((broadcastTo_1b_ab_apply _ _ r e).trans (h72 e))
  show ((FloatOps.matmul (F := Ideal) (φ₁ := .f32) (φ₂ := .f32) (DotDims.transposedRhs 512 128 128) none _ _ (constant (⟨2, ![512, 128]⟩ : Shape) .f32 0x00000000#32) (ix2 r e) : EReal)
      + FloatOps.matmul (F := Ideal) (φ₁ := .f32) (φ₂ := .f32) (DotDims.transposedRhs 512 128 128) none _ _ (constant (⟨2, ![512, 128]⟩ : Shape) .f32 0x00000000#32) (ix2 r e)) + _ = _
  rw [matmul_tr_zero_apply, matmul_tr_zero_apply]
  refine congrArg₂ (· + ·) (congrArg₂ (· + ·) (Finset.sum_congr rfl fun q _ => congrArg₂ (· * ·) ?_ (h58 e q)) (Finset.sum_congr rfl fun q _ => congrArg₂ (· * ·) ?_ (h60 e q)))
    ((broadcastTo_1b_ab_apply _ _ r e).trans (h63 e))
  · show (v54 (ix2 r q) : EReal) + v52 (ix2 r q) = _
    rw [h54, h52]
  · show (v51 (ix2 r q) : EReal) - v52 (ix2 r q) = _
    rw [h51, h52]

variable (m : (ℓ : Loc nD τ sig) → Buf (Elt Ideal) ℓ)

set_option maxHeartbeats 2000000 in
/-- Row block 0 of t2 after the eight streaming points: rows of adj · (adj · sup). -/
theorem t2fin0 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![0, 0] S512x128.size inb_S4096x128_S512x128_0_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨0 + r.val, by omega⟩ : Fin 4096) k := by
  rw [readCov_box_apply (M := 4096) (N := 128) v _ _ r k (⟨0 + r.val, by omega⟩ : Fin 4096) k rfl (Nat.zero_add _),
      canon_rows_miss (M := 4096) (N := 128) (h := 512) (o := 3072) _ _ _ _ _ (by show 0 + r.val < 3072 ∨ 3072 + 512 ≤ 0 + r.val; omega),
      canon_rows_miss (M := 4096) (N := 128) (h := 512) (o := 2560) _ _ _ _ _ (by show 0 + r.val < 2560 ∨ 2560 + 512 ≤ 0 + r.val; omega),
      canon_rows_miss (M := 4096) (N := 128) (h := 512) (o := 2048) _ _ _ _ _ (by show 0 + r.val < 2048 ∨ 2048 + 512 ≤ 0 + r.val; omega),
      canon_rows_miss (M := 4096) (N := 128) (h := 512) (o := 1536) _ _ _ _ _ (by show 0 + r.val < 1536 ∨ 1536 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      pv7_0_apply]
  exact part_full _ _ (⟨512 * 0 + r.val, by omega⟩ : Fin 4096) k

set_option maxHeartbeats 1000000 in
/-- Row block 0 of t1 after the eight streaming points. -/
theorem t1blk0 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![0, 0] S512x128.size inb_S4096x128_S512x128_0_0).toLoadRect (ix2 r k)
      = hop (m ((c : Thread nD τ).loc main_arg1)) (sup (m ((c : Thread nD τ).loc main_arg0)) (m ((c : Thread nD τ).loc main_arg2))) (⟨0 + r.val, by omega⟩ : Fin 4096) k := by
  rw [readCov_box_apply (M := 4096) (N := 128) v _ _ r k (⟨0 + r.val, by omega⟩ : Fin 4096) k rfl (Nat.zero_add _),
      canon_rows_miss (M := 4096) (N := 128) (h := 512) (o := 3584) _ _ _ _ _ (by show 0 + r.val < 3584 ∨ 3584 + 512 ≤ 0 + r.val; omega),
      canon_rows_miss (M := 4096) (N := 128) (h := 512) (o := 3072) _ _ _ _ _ (by show 0 + r.val < 3072 ∨ 3072 + 512 ≤ 0 + r.val; omega),
      canon_rows_miss (M := 4096) (N := 128) (h := 512) (o := 2560) _ _ _ _ _ (by show 0 + r.val < 2560 ∨ 2560 + 512 ≤ 0 + r.val; omega),
      canon_rows_miss (M := 4096) (N := 128) (h := 512) (o := 2048) _ _ _ _ _ (by show 0 + r.val < 2048 ∨ 2048 + 512 ≤ 0 + r.val; omega),
      canon_rows_miss (M := 4096) (N := 128) (h := 512) (o := 1536) _ _ _ _ _ (by show 0 + r.val < 1536 ∨ 1536 + 512 ≤ 0 + r.val; omega),
      canon_rows_miss (M := 4096) (N := 128) (h := 512) (o := 1024) _ _ _ _ _ (by show 0 + r.val < 1024 ∨ 1024 + 512 ≤ 0 + r.val; omega),
      canon_rows_miss (M := 4096) (N := 128) (h := 512) (o := 512) _ _ _ _ _ (by show 0 + r.val < 512 ∨ 512 + 512 ≤ 0 + r.val; omega),
      canon_rows_hit (M := 4096) (N := 128) (h := 512) (o := 0) _ _ _ _ _ r (by rfl),
      bv0_apply]
  try exact congrArg (fun z => hop (m ((c : Thread nD τ).loc main_arg1)) (sup (m ((c : Thread nD τ).loc main_arg0)) (m ((c : Thread nD τ).loc main_arg2))) z k) (Fin.ext (by show 512 * 0 + r.val = 0 + r.val; omega))

/-- Row block 0 of the support. -/
theorem supblk0 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![0, 0] S512x128.size inb_S4096x128_S512x128_0_0).toLoadRect (ix2 r k)
      = sup (m ((c : Thread nD τ).loc main_arg0)) (m ((c : Thread nD τ).loc main_arg2)) (⟨0 + r.val, by omega⟩ : Fin 4096) k := by
  rw [readCov_box_apply (M := 4096) (N := 128) v _ _ r k (⟨0 + r.val, by omega⟩ : Fin 4096) k rfl (Nat.zero_add _),
      canon_rows_hit (M := 4096) (N := 128) (h := 4096) (o := 0) _ _ _ _ _ (⟨0 + r.val, by omega⟩ : Fin 4096) (Nat.zero_add _), sv_apply]

set_option maxHeartbeats 2000000 in
/-- The block the run at point 8 stores is row block 0 of the specification. -/
theorem o0_apply (c : Dev nD) (r : Fin 512) (e : Fin 128) :
    (R8 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨0 + r.val, by omega⟩ : Fin 4096) e := by
  unfold R8 run8
  dsimp only
  rw [show k0_pay1 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨0 + r'.val, by omega⟩ : Fin 4096) q)
    (fun r' q => hop (m ((c : Thread nD τ).loc main_arg1)) (sup (m ((c : Thread nD τ).loc main_arg0)) (m ((c : Thread nD τ).loc main_arg2))) (⟨0 + r'.val, by omega⟩ : Fin 4096) q)
    (fun r' q => sup (m ((c : Thread nD τ).loc main_arg0)) (m ((c : Thread nD τ).loc main_arg2)) (⟨0 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin0 m c _ r' q) (fun r' q => supblk0 m c _ r' q) (fun r' q => t1blk0 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_8 e')
    (fun e' => by rw [load_whole (S := S1x128) _ _ hz2]; exact iblk4_apply m c t0_8 e') r e).trans ?_
  rfl

set_option maxHeartbeats 2000000 in
/-- Row block 1 of t2 after the eight streaming points: rows of adj · (adj · sup). -/
theorem t2fin1 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![512, 0] S512x128.size inb_S4096x128_S512x128_512_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨512 + r.val, by omega⟩ : Fin 4096) k := by
  rw [readCov_box_apply (M := 4096) (N := 128) v _ _ r k (⟨512 + r.val, by omega⟩ : Fin 4096) k rfl (Nat.zero_add _),
      canon_rows_miss (M := 4096) (N := 128) (h := 512) (o := 3072) _ _ _ _ _ (by show 512 + r.val < 3072 ∨ 3072 + 512 ≤ 512 + r.val; omega),
      canon_rows_miss (M := 4096) (N := 128) (h := 512) (o := 2560) _ _ _ _ _ (by show 512 + r.val < 2560 ∨ 2560 + 512 ≤ 512 + r.val; omega),
      canon_rows_miss (M := 4096) (N := 128) (h := 512) (o := 2048) _ _ _ _ _ (by show 512 + r.val < 2048 ∨ 2048 + 512 ≤ 512 + r.val; omega),
      canon_rows_miss (M := 4096) (N := 128) (h := 512) (o := 1536) _ _ _ _ _ (by show 512 + r.val < 1536 ∨ 1536 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      pv7_1_apply]
  exact part_full _ _ (⟨512 * 1 + r.val, by omega⟩ : Fin 4096) k

set_option maxHeartbeats 1000000 in
/-- Row block 1 of t1 after the eight streaming points. -/
theorem t1blk1 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![512, 0] S512x128.size inb_S4096x128_S512x128_512_0).toLoadRect (ix2 r k)
      = hop (m ((c : Thread nD τ).loc main_arg1)) (sup (m ((c : Thread nD τ).loc main_arg0)) (m ((c : Thread nD τ).loc main_arg2))) (⟨512 + r.val, by omega⟩ : Fin 4096) k := by
  rw [readCov_box_apply (M := 4096) (N := 128) v _ _ r k (⟨512 + r.val, by omega⟩ : Fin 4096) k rfl (Nat.zero_add _),
      canon_rows_miss (M := 4096) (N := 128) (h := 512) (o := 3584) _ _ _ _ _ (by show 512 + r.val < 3584 ∨ 3584 + 512 ≤ 512 + r.val; omega),
      canon_rows_miss (M := 4096) (N := 128) (h := 512) (o := 3072) _ _ _ _ _ (by show 512 + r.val < 3072 ∨ 3072 + 512 ≤ 512 + r.val; omega),
      canon_rows_miss (M := 4096) (N := 128) (h := 512) (o := 2560) _ _ _ _ _ (by show 512 + r.val < 2560 ∨ 2560 + 512 ≤ 512 + r.val; omega),
      canon_rows_miss (M := 4096) (N := 128) (h := 512) (o := 2048) _ _ _ _ _ (by show 512 + r.val < 2048 ∨ 2048 + 512 ≤ 512 + r.val; omega),
      canon_rows_miss (M := 4096) (N := 128) (h := 512) (o := 1536) _ _ _ _ _ (by show 512 + r.val < 1536 ∨ 1536 + 512 ≤ 512 + r.val; omega),
      canon_rows_miss (M := 4096) (N := 128) (h := 512) (o := 1024) _ _ _ _ _ (by show 512 + r.val < 1024 ∨ 1024 + 512 ≤ 512 + r.val; omega),
      canon_rows_hit (M := 4096) (N := 128) (h := 512) (o := 512) _ _ _ _ _ r (by rfl),
      bv1_apply]
  try exact congrArg (fun z => hop (m ((c : Thread nD τ).loc main_arg1)) (sup (m ((c : Thread nD τ).loc main_arg0)) (m ((c : Thread nD τ).loc main_arg2))) z k) (Fin.ext (by show 512 * 1 + r.val = 512 + r.val; omega))

/-- Row block 1 of the support. -/
theorem supblk1 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![512, 0] S512x128.size inb_S4096x128_S512x128_512_0).toLoadRect (ix2 r k)
      = sup (m ((c : Thread nD τ).loc main_arg0)) (m ((c : Thread nD τ).loc main_arg2)) (⟨512 + r.val, by omega⟩ : Fin 4096) k := by
  rw [readCov_box_apply (M := 4096) (N := 128) v _ _ r k (⟨512 + r.val, by omega⟩ : Fin 4096) k rfl (Nat.zero_add _),
      canon_rows_hit (M := 4096) (N := 128) (h := 4096) (o := 0) _ _ _ _ _ (⟨512 + r.val, by omega⟩ : Fin 4096) (Nat.zero_add _), sv_apply]

set_option maxHeartbeats 2000000 in
/-- The block the run at point 9 stores is row block 1 of the specification. -/
theorem o1_apply (c : Dev nD) (r : Fin 512) (e : Fin 128) :
    (R9 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨512 + r.val, by omega⟩ : Fin 4096) e := by
  unfold R9 run9
  dsimp only
  rw [show k0_pay2 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨512 + r'.val, by omega⟩ : Fin 4096) q)
    (fun r' q => hop (m ((c : Thread nD τ).loc main_arg1)) (sup (m ((c : Thread nD τ).loc main_arg0)) (m ((c : Thread nD τ).loc main_arg2))) (⟨512 + r'.val, by omega⟩ : Fin 4096) q)
    (fun r' q => sup (m ((c : Thread nD τ).loc main_arg0)) (m ((c : Thread nD τ).loc main_arg2)) (⟨512 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin1 m c _ r' q) (fun r' q => supblk1 m c _ r' q) (fun r' q => t1blk1 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_9 e')
    (fun e' => by rw [load_whole (S := S1x128) _ _ hz2]; exact iblk4_apply m c t0_9 e') r e).trans ?_
  rfl

set_option maxHeartbeats 2000000 in
/-- Row block 2 of t2 after the eight streaming points: rows of adj · (adj · sup). -/
theorem t2fin2 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![1024, 0] S512x128.size inb_S4096x128_S512x128_1024_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨1024 + r.val, by omega⟩ : Fin 4096) k := by
  rw [readCov_box_apply (M := 4096) (N := 128) v _ _ r k (⟨1024 + r.val, by omega⟩ : Fin 4096) k rfl (Nat.zero_add _),
      canon_rows_miss (M := 4096) (N := 128) (h := 512) (o := 3072) _ _ _ _ _ (by show 1024 + r.val < 3072 ∨ 3072 + 512 ≤ 1024 + r.val; omega),
      canon_rows_miss (M := 4096) (N := 128) (h := 512) (o := 2560) _ _ _ _ _ (by show 1024 + r.val < 2560 ∨ 2560 + 512 ≤ 1024 + r.val; omega),
      canon_rows_miss (M := 4096) (N := 128) (h := 512) (o := 2048) _ _ _ _ _ (by show 1024 + r.val < 2048 ∨ 2048 + 512 ≤ 1024 + r.val; omega),
      canon_rows_miss (M := 4096) (N := 128) (h := 512) (o := 1536) _ _ _ _ _ (by show 1024 + r.val < 1536 ∨ 1536 + 512 ≤ 1024 + r.val; omega),
      canon_rows_hit (M := 4096) (N := 128) (h := 512) (o := 1024) _ _ _ _ _ r (by rfl),
      pv7_2_apply]
  exact part_full _ _ (⟨512 * 2 + r.val, by omega⟩ : Fin 4096) k

set_option maxHeartbeats 1000000 in
/-- Row block 2 of t1 after the eight streaming points. -/
theorem t1blk2 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![1024, 0] S512x128.size inb_S4096x128_S512x128_1024_0).toLoadRect (ix2 r k)
      = hop (m ((c : Thread nD τ).loc main_arg1)) (sup (m ((c : Thread nD τ).loc main_arg0)) (m ((c : Thread nD τ).loc main_arg2))) (⟨1024 + r.val, by omega⟩ : Fin 4096) k := by
  rw [readCov_box_apply (M := 4096) (N := 128) v _ _ r k (⟨1024 + r.val, by omega⟩ : Fin 4096) k rfl (Nat.zero_add _),
      canon_rows_miss (M := 4096) (N := 128) (h := 512) (o := 3584) _ _ _ _ _ (by show 1024 + r.val < 3584 ∨ 3584 + 512 ≤ 1024 + r.val; omega),
      canon_rows_miss (M := 4096) (N := 128) (h := 512) (o := 3072) _ _ _ _ _ (by show 1024 + r.val < 3072 ∨ 3072 + 512 ≤ 1024 + r.val; omega),
      canon_rows_miss (M := 4096) (N := 128) (h := 512) (o := 2560) _ _ _ _ _ (by show 1024 + r.val < 2560 ∨ 2560 + 512 ≤ 1024 + r.val; omega),
      canon_rows_miss (M := 4096) (N := 128) (h := 512) (o := 2048) _ _ _ _ _ (by show 1024 + r.val < 2048 ∨ 2048 + 512 ≤ 1024 + r.val; omega),
      canon_rows_miss (M := 4096) (N := 128) (h := 512) (o := 1536) _ _ _ _ _ (by show 1024 + r.val < 1536 ∨ 1536 + 512 ≤ 1024 + r.val; omega),
      canon_rows_hit (M := 4096) (N := 128) (h := 512) (o := 1024) _ _ _ _ _ r (by rfl),
      bv2_apply]
  try exact congrArg (fun z => hop (m ((c : Thread nD τ).loc main_arg1)) (sup (m ((c : Thread nD τ).loc main_arg0)) (m ((c : Thread nD τ).loc main_arg2))) z k) (Fin.ext (by show 512 * 2 + r.val = 1024 + r.val; omega))

/-- Row block 2 of the support. -/
theorem supblk2 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![1024, 0] S512x128.size inb_S4096x128_S512x128_1024_0).toLoadRect (ix2 r k)
      = sup (m ((c : Thread nD τ).loc main_arg0)) (m ((c : Thread nD τ).loc main_arg2)) (⟨1024 + r.val, by omega⟩ : Fin 4096) k := by
  rw [readCov_box_apply (M := 4096) (N := 128) v _ _ r k (⟨1024 + r.val, by omega⟩ : Fin 4096) k rfl (Nat.zero_add _),
      canon_rows_hit (M := 4096) (N := 128) (h := 4096) (o := 0) _ _ _ _ _ (⟨1024 + r.val, by omega⟩ : Fin 4096) (Nat.zero_add _), sv_apply]

set_option maxHeartbeats 2000000 in
/-- The block the run at point 10 stores is row block 2 of the specification. -/
theorem o2_apply (c : Dev nD) (r : Fin 512) (e : Fin 128) :
    (R10 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨1024 + r.val, by omega⟩ : Fin 4096) e := by
  unfold R10 run10
  dsimp only
  rw [show k0_pay3 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨1024 + r'.val, by omega⟩ : Fin 4096) q)
    (fun r' q => hop (m ((c : Thread nD τ).loc main_arg1)) (sup (m ((c : Thread nD τ).loc main_arg0)) (m ((c : Thread nD τ).loc main_arg2))) (⟨1024 + r'.val, by omega⟩ : Fin 4096) q)
    (fun r' q => sup (m ((c : Thread nD τ).loc main_arg0)) (m ((c : Thread nD τ).loc main_arg2)) (⟨1024 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin2 m c _ r' q) (fun r' q => supblk2 m c _ r' q) (fun r' q => t1blk2 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_10 e')
    (fun e' => by rw [load_whole (S := S1x128) _ _ hz2]; exact iblk4_apply m c t0_10 e') r e).trans ?_
  rfl

set_option maxHeartbeats 2000000 in
/-- Row block 3 of t2 after the eight streaming points: rows of adj · (adj · sup). -/
theorem t2fin3 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![1536, 0] S512x128.size inb_S4096x128_S512x128_1536_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨1536 + r.val, by omega⟩ : Fin 4096) k := by
  rw [readCov_box_apply (M := 4096) (N := 128) v _ _ r k (⟨1536 + r.val, by omega⟩ : Fin 4096) k rfl (Nat.zero_add _),
      canon_rows_miss (M := 4096) (N := 128) (h := 512) (o := 3072) _ _ _ _ _ (by show 1536 + r.val < 3072 ∨ 3072 + 512 ≤ 1536 + r.val; omega),
      canon_rows_miss (M := 4096) (N := 128) (h := 512) (o := 2560) _ _ _ _ _ (by show 1536 + r.val < 2560 ∨ 2560 + 512 ≤ 1536 + r.val; omega),
      canon_rows_miss (M := 4096) (N := 128) (h := 512) (o := 2048) _ _ _ _ _ (by show 1536 + r.val < 2048 ∨ 2048 + 512 ≤ 1536 + r.val; omega),
      canon_rows_hit (M := 4096) (N := 128) (h := 512) (o := 1536) _ _ _ _ _ r (by rfl),
      pv7_3_apply]
  exact part_full _ _ (⟨512 * 3 + r.val, by omega⟩ : Fin 4096) k

set_option maxHeartbeats 1000000 in
/-- Row block 3 of t1 after the eight streaming points. -/
theorem t1blk3 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![1536, 0] S512x128.size inb_S4096x128_S512x128_1536_0).toLoadRect (ix2 r k)
      = hop (m ((c : Thread nD τ).loc main_arg1)) (sup (m ((c : Thread nD τ).loc main_arg0)) (m ((c : Thread nD τ).loc main_arg2))) (⟨1536 + r.val, by omega⟩ : Fin 4096) k := by
  rw [readCov_box_apply (M := 4096) (N := 128) v _ _ r k (⟨1536 + r.val, by omega⟩ : Fin 4096) k rfl (Nat.zero_add _),
      canon_rows_miss (M := 4096) (N := 128) (h := 512) (o := 3584) _ _ _ _ _ (by show 1536 + r.val < 3584 ∨ 3584 + 512 ≤ 1536 + r.val; omega),
      canon_rows_miss (M := 4096) (N := 128) (h := 512) (o := 3072) _ _ _ _ _ (by show 1536 + r.val < 3072 ∨ 3072 + 512 ≤ 1536 + r.val; omega),
      canon_rows_miss (M := 4096) (N := 128) (h := 512) (o := 2560) _ _ _ _ _ (by show 1536 + r.val < 2560 ∨ 2560 + 512 ≤ 1536 + r.val; omega),
      canon_rows_miss (M := 4096) (N := 128) (h := 512) (o := 2048) _ _ _ _ _ (by show 1536 + r.val < 2048 ∨ 2048 + 512 ≤ 1536 + r.val; omega),
      canon_rows_hit (M := 4096) (N := 128) (h := 512) (o := 1536) _ _ _ _ _ r (by rfl),
      bv3_apply]
  try exact congrArg (fun z => hop (m ((c : Thread nD τ).loc main_arg1)) (sup (m ((c : Thread nD τ).loc main_arg0)) (m ((c : Thread nD τ).loc main_arg2))) z k) (Fin.ext (by show 512 * 3 + r.val = 1536 + r.val; omega))

/-- Row block 3 of the support. -/
theorem supblk3 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![1536, 0] S512x128.size inb_S4096x128_S512x128_1536_0).toLoadRect (ix2 r k)
      = sup (m ((c : Thread nD τ).loc main_arg0)) (m ((c : Thread nD τ).loc main_arg2)) (⟨1536 + r.val, by omega⟩ : Fin 4096) k := by
  rw [readCov_box_apply (M := 4096) (N := 128) v _ _ r k (⟨1536 + r.val, by omega⟩ : Fin 4096) k rfl (Nat.zero_add _),
      canon_rows_hit (M := 4096) (N := 128) (h := 4096) (o := 0) _ _ _ _ _ (⟨1536 + r.val, by omega⟩ : Fin 4096) (Nat.zero_add _), sv_apply]

set_option maxHeartbeats 2000000 in
/-- The block the run at point 11 stores is row block 3 of the specification. -/
theorem o3_apply (c : Dev nD) (r : Fin 512) (e : Fin 128) :
    (R11 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨1536 + r.val, by omega⟩ : Fin 4096) e := by
  unfold R11 run11
  dsimp only
  rw [show k0_pay4 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨1536 + r'.val, by omega⟩ : Fin 4096) q)
    (fun r' q => hop (m ((c : Thread nD τ).loc main_arg1)) (sup (m ((c : Thread nD τ).loc main_arg0)) (m ((c : Thread nD τ).loc main_arg2))) (⟨1536 + r'.val, by omega⟩ : Fin 4096) q)
    (fun r' q => sup (m ((c : Thread nD τ).loc main_arg0)) (m ((c : Thread nD τ).loc main_arg2)) (⟨1536 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin3 m c _ r' q) (fun r' q => supblk3 m c _ r' q) (fun r' q => t1blk3 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_11 e')
    (fun e' => by rw [load_whole (S := S1x128) _ _ hz2]; exact iblk4_apply m c t0_11 e') r e).trans ?_
  rfl

set_option maxHeartbeats 2000000 in
/-- Row block 4 of t2 after the eight streaming points: rows of adj · (adj · sup). -/
theorem t2fin4 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![2048, 0] S512x128.size inb_S4096x128_S512x128_2048_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨2048 + r.val, by omega⟩ : Fin 4096) k := by
  rw [readCov_box_apply (M := 4096) (N := 128) v _ _ r k (⟨2048 + r.val, by omega⟩ : Fin 4096) k rfl (Nat.zero_add _),
      canon_rows_miss (M := 4096) (N := 128) (h := 512) (o := 3072) _ _ _ _ _ (by show 2048 + r.val < 3072 ∨ 3072 + 512 ≤ 2048 + r.val; omega),
      canon_rows_miss (M := 4096) (N := 128) (h := 512) (o := 2560) _ _ _ _ _ (by show 2048 + r.val < 2560 ∨ 2560 + 512 ≤ 2048 + r.val; omega),
      canon_rows_hit (M := 4096) (N := 128) (h := 512) (o := 2048) _ _ _ _ _ r (by rfl),
      pv7_4_apply]
  exact part_full _ _ (⟨512 * 4 + r.val, by omega⟩ : Fin 4096) k

set_option maxHeartbeats 1000000 in
/-- Row block 4 of t1 after the eight streaming points. -/
theorem t1blk4 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![2048, 0] S512x128.size inb_S4096x128_S512x128_2048_0).toLoadRect (ix2 r k)
      = hop (m ((c : Thread nD τ).loc main_arg1)) (sup (m ((c : Thread nD τ).loc main_arg0)) (m ((c : Thread nD τ).loc main_arg2))) (⟨2048 + r.val, by omega⟩ : Fin 4096) k := by
  rw [readCov_box_apply (M := 4096) (N := 128) v _ _ r k (⟨2048 + r.val, by omega⟩ : Fin 4096) k rfl (Nat.zero_add _),
      canon_rows_miss (M := 4096) (N := 128) (h := 512) (o := 3584) _ _ _ _ _ (by show 2048 + r.val < 3584 ∨ 3584 + 512 ≤ 2048 + r.val; omega),
      canon_rows_miss (M := 4096) (N := 128) (h := 512) (o := 3072) _ _ _ _ _ (by show 2048 + r.val < 3072 ∨ 3072 + 512 ≤ 2048 + r.val; omega),
      canon_rows_miss (M := 4096) (N := 128) (h := 512) (o := 2560) _ _ _ _ _ (by show 2048 + r.val < 2560 ∨ 2560 + 512 ≤ 2048 + r.val; omega),
      canon_rows_hit (M := 4096) (N := 128) (h := 512) (o := 2048) _ _ _ _ _ r (by rfl),
      bv4_apply]
  try exact congrArg (fun z => hop (m ((c : Thread nD τ).loc main_arg1)) (sup (m ((c : Thread nD τ).loc main_arg0)) (m ((c : Thread nD τ).loc main_arg2))) z k) (Fin.ext (by show 512 * 4 + r.val = 2048 + r.val; omega))

/-- Row block 4 of the support. -/
theorem supblk4 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![2048, 0] S512x128.size inb_S4096x128_S512x128_2048_0).toLoadRect (ix2 r k)
      = sup (m ((c : Thread nD τ).loc main_arg0)) (m ((c : Thread nD τ).loc main_arg2)) (⟨2048 + r.val, by omega⟩ : Fin 4096) k := by
  rw [readCov_box_apply (M := 4096) (N := 128) v _ _ r k (⟨2048 + r.val, by omega⟩ : Fin 4096) k rfl (Nat.zero_add _),
      canon_rows_hit (M := 4096) (N := 128) (h := 4096) (o := 0) _ _ _ _ _ (⟨2048 + r.val, by omega⟩ : Fin 4096) (Nat.zero_add _), sv_apply]

set_option maxHeartbeats 2000000 in
/-- The block the run at point 12 stores is row block 4 of the specification. -/
theorem o4_apply (c : Dev nD) (r : Fin 512) (e : Fin 128) :
    (R12 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨2048 + r.val, by omega⟩ : Fin 4096) e := by
  unfold R12 run12
  dsimp only
  rw [show k0_pay5 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨2048 + r'.val, by omega⟩ : Fin 4096) q)
    (fun r' q => hop (m ((c : Thread nD τ).loc main_arg1)) (sup (m ((c : Thread nD τ).loc main_arg0)) (m ((c : Thread nD τ).loc main_arg2))) (⟨2048 + r'.val, by omega⟩ : Fin 4096) q)
    (fun r' q => sup (m ((c : Thread nD τ).loc main_arg0)) (m ((c : Thread nD τ).loc main_arg2)) (⟨2048 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin4 m c _ r' q) (fun r' q => supblk4 m c _ r' q) (fun r' q => t1blk4 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_12 e')
    (fun e' => by rw [load_whole (S := S1x128) _ _ hz2]; exact iblk4_apply m c t0_12 e') r e).trans ?_
  rfl

set_option maxHeartbeats 2000000 in
/-- Row block 5 of t2 after the eight streaming points: rows of adj · (adj · sup). -/
theorem t2fin5 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![2560, 0] S512x128.size inb_S4096x128_S512x128_2560_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨2560 + r.val, by omega⟩ : Fin 4096) k := by
  rw [readCov_box_apply (M := 4096) (N := 128) v _ _ r k (⟨2560 + r.val, by omega⟩ : Fin 4096) k rfl (Nat.zero_add _),
      canon_rows_miss (M := 4096) (N := 128) (h := 512) (o := 3072) _ _ _ _ _ (by show 2560 + r.val < 3072 ∨ 3072 + 512 ≤ 2560 + r.val; omega),
      canon_rows_hit (M := 4096) (N := 128) (h := 512) (o := 2560) _ _ _ _ _ r (by rfl),
      pv7_5_apply]
  exact part_full _ _ (⟨512 * 5 + r.val, by omega⟩ : Fin 4096) k

set_option maxHeartbeats 1000000 in
/-- Row block 5 of t1 after the eight streaming points. -/
theorem t1blk5 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![2560, 0] S512x128.size inb_S4096x128_S512x128_2560_0).toLoadRect (ix2 r k)
      = hop (m ((c : Thread nD τ).loc main_arg1)) (sup (m ((c : Thread nD τ).loc main_arg0)) (m ((c : Thread nD τ).loc main_arg2))) (⟨2560 + r.val, by omega⟩ : Fin 4096) k := by
  rw [readCov_box_apply (M := 4096) (N := 128) v _ _ r k (⟨2560 + r.val, by omega⟩ : Fin 4096) k rfl (Nat.zero_add _),
      canon_rows_miss (M := 4096) (N := 128) (h := 512) (o := 3584) _ _ _ _ _ (by show 2560 + r.val < 3584 ∨ 3584 + 512 ≤ 2560 + r.val; omega),
      canon_rows_miss (M := 4096) (N := 128) (h := 512) (o := 3072) _ _ _ _ _ (by show 2560 + r.val < 3072 ∨ 3072 + 512 ≤ 2560 + r.val; omega),
      canon_rows_hit (M := 4096) (N := 128) (h := 512) (o := 2560) _ _ _ _ _ r (by rfl),
      bv5_apply]
  try exact congrArg (fun z => hop (m ((c : Thread nD τ).loc main_arg1)) (sup (m ((c : Thread nD τ).loc main_arg0)) (m ((c : Thread nD τ).loc main_arg2))) z k) (Fin.ext (by show 512 * 5 + r.val = 2560 + r.val; omega))

/-- Row block 5 of the support. -/
theorem supblk5 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![2560, 0] S512x128.size inb_S4096x128_S512x128_2560_0).toLoadRect (ix2 r k)
      = sup (m ((c : Thread nD τ).loc main_arg0)) (m ((c : Thread nD τ).loc main_arg2)) (⟨2560 + r.val, by omega⟩ : Fin 4096) k := by
  rw [readCov_box_apply (M := 4096) (N := 128) v _ _ r k (⟨2560 + r.val, by omega⟩ : Fin 4096) k rfl (Nat.zero_add _),
      canon_rows_hit (M := 4096) (N := 128) (h := 4096) (o := 0) _ _ _ _ _ (⟨2560 + r.val, by omega⟩ : Fin 4096) (Nat.zero_add _), sv_apply]

set_option maxHeartbeats 2000000 in
/-- The block the run at point 13 stores is row block 5 of the specification. -/
theorem o5_apply (c : Dev nD) (r : Fin 512) (e : Fin 128) :
    (R13 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨2560 + r.val, by omega⟩ : Fin 4096) e := by
  unfold R13 run13
  dsimp only
  rw [show k0_pay6 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨2560 + r'.val, by omega⟩ : Fin 4096) q)
    (fun r' q => hop (m ((c : Thread nD τ).loc main_arg1)) (sup (m ((c : Thread nD τ).loc main_arg0)) (m ((c : Thread nD τ).loc main_arg2))) (⟨2560 + r'.val, by omega⟩ : Fin 4096) q)
    (fun r' q => sup (m ((c : Thread nD τ).loc main_arg0)) (m ((c : Thread nD τ).loc main_arg2)) (⟨2560 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin5 m c _ r' q) (fun r' q => supblk5 m c _ r' q) (fun r' q => t1blk5 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_13 e')
    (fun e' => by rw [load_whole (S := S1x128) _ _ hz2]; exact iblk4_apply m c t0_13 e') r e).trans ?_
  rfl

set_option maxHeartbeats 2000000 in
/-- Row block 6 of t2 after the eight streaming points: rows of adj · (adj · sup). -/
theorem t2fin6 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![3072, 0] S512x128.size inb_S4096x128_S512x128_3072_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨3072 + r.val, by omega⟩ : Fin 4096) k := by
  rw [readCov_box_apply (M := 4096) (N := 128) v _ _ r k (⟨3072 + r.val, by omega⟩ : Fin 4096) k rfl (Nat.zero_add _),
      canon_rows_hit (M := 4096) (N := 128) (h := 512) (o := 3072) _ _ _ _ _ r (by rfl),
      pv7_6_apply]
  exact part_full _ _ (⟨512 * 6 + r.val, by omega⟩ : Fin 4096) k

set_option maxHeartbeats 1000000 in
/-- Row block 6 of t1 after the eight streaming points. -/
theorem t1blk6 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![3072, 0] S512x128.size inb_S4096x128_S512x128_3072_0).toLoadRect (ix2 r k)
      = hop (m ((c : Thread nD τ).loc main_arg1)) (sup (m ((c : Thread nD τ).loc main_arg0)) (m ((c : Thread nD τ).loc main_arg2))) (⟨3072 + r.val, by omega⟩ : Fin 4096) k := by
  rw [readCov_box_apply (M := 4096) (N := 128) v _ _ r k (⟨3072 + r.val, by omega⟩ : Fin 4096) k rfl (Nat.zero_add _),
      canon_rows_miss (M := 4096) (N := 128) (h := 512) (o := 3584) _ _ _ _ _ (by show 3072 + r.val < 3584 ∨ 3584 + 512 ≤ 3072 + r.val; omega),
      canon_rows_hit (M := 4096) (N := 128) (h := 512) (o := 3072) _ _ _ _ _ r (by rfl),
      bv6_apply]
  try exact congrArg (fun z => hop (m ((c : Thread nD τ).loc main_arg1)) (sup (m ((c : Thread nD τ).loc main_arg0)) (m ((c : Thread nD τ).loc main_arg2))) z k) (Fin.ext (by show 512 * 6 + r.val = 3072 + r.val; omega))

/-- Row block 6 of the support. -/
theorem supblk6 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![3072, 0] S512x128.size inb_S4096x128_S512x128_3072_0).toLoadRect (ix2 r k)
      = sup (m ((c : Thread nD τ).loc main_arg0)) (m ((c : Thread nD τ).loc main_arg2)) (⟨3072 + r.val, by omega⟩ : Fin 4096) k := by
  rw [readCov_box_apply (M := 4096) (N := 128) v _ _ r k (⟨3072 + r.val, by omega⟩ : Fin 4096) k rfl (Nat.zero_add _),
      canon_rows_hit (M := 4096) (N := 128) (h := 4096) (o := 0) _ _ _ _ _ (⟨3072 + r.val, by omega⟩ : Fin 4096) (Nat.zero_add _), sv_apply]

set_option maxHeartbeats 2000000 in
/-- The block the run at point 14 stores is row block 6 of the specification. -/
theorem o6_apply (c : Dev nD) (r : Fin 512) (e : Fin 128) :
    (R14 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨3072 + r.val, by omega⟩ : Fin 4096) e := by
  unfold R14 run14
  dsimp only
  rw [show k0_pay7 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨3072 + r'.val, by omega⟩ : Fin 4096) q)
    (fun r' q => hop (m ((c : Thread nD τ).loc main_arg1)) (sup (m ((c : Thread nD τ).loc main_arg0)) (m ((c : Thread nD τ).loc main_arg2))) (⟨3072 + r'.val, by omega⟩ : Fin 4096) q)
    (fun r' q => sup (m ((c : Thread nD τ).loc main_arg0)) (m ((c : Thread nD τ).loc main_arg2)) (⟨3072 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin6 m c _ r' q) (fun r' q => supblk6 m c _ r' q) (fun r' q => t1blk6 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_14 e')
    (fun e' => by rw [load_whole (S := S1x128) _ _ hz2]; exact iblk4_apply m c t0_14 e') r e).trans ?_
  rfl

set_option maxHeartbeats 2000000 in
/-- Row block 7 of t2 after the eight streaming points: rows of adj · (adj · sup). -/
theorem t2fin7 (c : Dev nD) (v : View sig .tc .vmem S4096x128 .f32) (r : Fin 512) (k : Fin 128) :
    v.readCov [⟨Rect.unit (s := S4096x128) ![3072, 0] S512x128.size inb_S4096x128_S512x128_3072_0, (pv7_6 m c)⟩, ⟨Rect.unit (s := S4096x128) ![2560, 0] S512x128.size inb_S4096x128_S512x128_2560_0, (pv7_5 m c)⟩, ⟨Rect.unit (s := S4096x128) ![2048, 0] S512x128.size inb_S4096x128_S512x128_2048_0, (pv7_4 m c)⟩, ⟨Rect.unit (s := S4096x128) ![1536, 0] S512x128.size inb_S4096x128_S512x128_1536_0, (pv7_3 m c)⟩, ⟨Rect.unit (s := S4096x128) ![1024, 0] S512x128.size inb_S4096x128_S512x128_1024_0, (pv7_2 m c)⟩, ⟨Rect.unit (s := S4096x128) ![512, 0] S512x128.size inb_S4096x128_S512x128_512_0, (pv7_1 m c)⟩, ⟨Rect.unit (s := S4096x128) ![0, 0] S512x128.size inb_S4096x128_S512x128_0_0, (pv7_0 m c)⟩, ⟨Rect.unit (s := S4096x128) ![3584, 0] S512x128.size inb_S4096x128_S512x128_3584_0, (dv7 m c)⟩, ⟨Rect.unit (s := S4096x128) ![2560, 0] S512x128.size inb_S4096x128_S512x128_2560_0, (pv6_5 m c)⟩, ⟨Rect.unit (s := S4096x128) ![2048, 0] S512x128.size inb_S4096x128_S512x128_2048_0, (pv6_4 m c)⟩, ⟨Rect.unit (s := S4096x128) ![1536, 0] S512x128.size inb_S4096x128_S512x128_1536_0, (pv6_3 m c)⟩, ⟨Rect.unit (s := S4096x128) ![1024, 0] S512x128.size inb_S4096x128_S512x128_1024_0, (pv6_2 m c)⟩, ⟨Rect.unit (s := S4096x128) ![512, 0] S512x128.size inb_S4096x128_S512x128_512_0, (pv6_1 m c)⟩, ⟨Rect.unit (s := S4096x128) ![0, 0] S512x128.size inb_S4096x128_S512x128_0_0, (pv6_0 m c)⟩, ⟨Rect.unit (s := S4096x128) ![3072, 0] S512x128.size inb_S4096x128_S512x128_3072_0, (dv6 m c)⟩, ⟨Rect.unit (s := S4096x128) ![2048, 0] S512x128.size inb_S4096x128_S512x128_2048_0, (pv5_4 m c)⟩, ⟨Rect.unit (s := S4096x128) ![1536, 0] S512x128.size inb_S4096x128_S512x128_1536_0, (pv5_3 m c)⟩, ⟨Rect.unit (s := S4096x128) ![1024, 0] S512x128.size inb_S4096x128_S512x128_1024_0, (pv5_2 m c)⟩, ⟨Rect.unit (s := S4096x128) ![512, 0] S512x128.size inb_S4096x128_S512x128_512_0, (pv5_1 m c)⟩, ⟨Rect.unit (s := S4096x128) ![0, 0] S512x128.size inb_S4096x128_S512x128_0_0, (pv5_0 m c)⟩, ⟨Rect.unit (s := S4096x128) ![2560, 0] S512x128.size inb_S4096x128_S512x128_2560_0, (dv5 m c)⟩, ⟨Rect.unit (s := S4096x128) ![1536, 0] S512x128.size inb_S4096x128_S512x128_1536_0, (pv4_3 m c)⟩, ⟨Rect.unit (s := S4096x128) ![1024, 0] S512x128.size inb_S4096x128_S512x128_1024_0, (pv4_2 m c)⟩, ⟨Rect.unit (s := S4096x128) ![512, 0] S512x128.size inb_S4096x128_S512x128_512_0, (pv4_1 m c)⟩, ⟨Rect.unit (s := S4096x128) ![0, 0] S512x128.size inb_S4096x128_S512x128_0_0, (pv4_0 m c)⟩, ⟨Rect.unit (s := S4096x128) ![2048, 0] S512x128.size inb_S4096x128_S512x128_2048_0, (dv4 m c)⟩, ⟨Rect.unit (s := S4096x128) ![1024, 0] S512x128.size inb_S4096x128_S512x128_1024_0, (pv3_2 m c)⟩, ⟨Rect.unit (s := S4096x128) ![512, 0] S512x128.size inb_S4096x128_S512x128_512_0, (pv3_1 m c)⟩, ⟨Rect.unit (s := S4096x128) ![0, 0] S512x128.size inb_S4096x128_S512x128_0_0, (pv3_0 m c)⟩, ⟨Rect.unit (s := S4096x128) ![1536, 0] S512x128.size inb_S4096x128_S512x128_1536_0, (dv3 m c)⟩, ⟨Rect.unit (s := S4096x128) ![512, 0] S512x128.size inb_S4096x128_S512x128_512_0, (pv2_1 m c)⟩, ⟨Rect.unit (s := S4096x128) ![0, 0] S512x128.size inb_S4096x128_S512x128_0_0, (pv2_0 m c)⟩, ⟨Rect.unit (s := S4096x128) ![1024, 0] S512x128.size inb_S4096x128_S512x128_1024_0, (dv2 m c)⟩, ⟨Rect.unit (s := S4096x128) ![0, 0] S512x128.size inb_S4096x128_S512x128_0_0, (pv1_0 m c)⟩, ⟨Rect.unit (s := S4096x128) ![512, 0] S512x128.size inb_S4096x128_S512x128_512_0, (dv1 m c)⟩, ⟨Rect.unit (s := S4096x128) ![0, 0] S512x128.size inb_S4096x128_S512x128_0_0, (dv0 m c)⟩] (Rect.unit (s := S4096x128) ![3584, 0] S512x128.size inb_S4096x128_S512x128_3584_0).toLoadRect (ix2 r k)
      = hop (m ((c : Thread nD τ).loc main_arg1)) (hop (m ((c : Thread nD τ).loc main_arg1)) (sup (m ((c : Thread nD τ).loc main_arg0)) (m ((c : Thread nD τ).loc main_arg2)))) (⟨3584 + r.val, by omega⟩ : Fin 4096) k := by
  rw [readCov_box_apply (M := 4096) (N := 128) v _ _ r k (⟨3584 + r.val, by omega⟩ : Fin 4096) k rfl (Nat.zero_add _),
      canon_rows_miss (M := 4096) (N := 128) (h := 512) (o := 3072) _ _ _ _ _ (by show 3584 + r.val < 3072 ∨ 3072 + 512 ≤ 3584 + r.val; omega),
      canon_rows_miss (M := 4096) (N := 128) (h := 512) (o := 2560) _ _ _ _ _ (by show 3584 + r.val < 2560 ∨ 2560 + 512 ≤ 3584 + r.val; omega),
      canon_rows_miss (M := 4096) (N := 128) (h := 512) (o := 2048) _ _ _ _ _ (by show 3584 + r.val < 2048 ∨ 2048 + 512 ≤ 3584 + r.val; omega),
      canon_rows_miss (M := 4096) (N := 128) (h := 512) (o := 1536) _ _ _ _ _ (by show 3584 + r.val < 1536 ∨ 1536 + 512 ≤ 3584 + r.val; omega),
      canon_rows_miss (M := 4096) (N := 128) (h := 512) (o := 1024) _ _ _ _ _ (by show 3584 + r.val < 1024 ∨ 1024 + 512 ≤ 3584 + r.val; omega),
      canon_rows_miss (M := 4096) (N := 128) (h := 512) (o := 512) _ _ _ _ _ (by show 3584 + r.val < 512 ∨ 512 + 512 ≤ 3584 + r.val; omega),
      canon_rows_miss (M := 4096) (N := 128) (h := 512) (o := 0) _ _ _ _ _ (by show 3584 + r.val < 0 ∨ 0 + 512 ≤ 3584 + r.val; omega),
      canon_rows_hit (M := 4096) (N := 128) (h := 512) (o := 3584) _ _ _ _ _ r (by rfl),
      dv7_apply]
  exact part_full _ _ (⟨512 * 7 + r.val, by omega⟩ : Fin 4096) k

set_option maxHeartbeats 1000000 in
/-- Row block 7 of t1 after the eight streaming points. -/
theorem t1blk7 (c : Dev nD) (v : View sig .tc .vmem S4096x128 .bf16) (r : Fin 512) (k : Fin 128) :
    v.readCov [⟨Rect.unit (s := S4096x128) ![3584, 0] S512x128.size inb_S4096x128_S512x128_3584_0, (bv7 m c)⟩, ⟨Rect.unit (s := S4096x128) ![3072, 0] S512x128.size inb_S4096x128_S512x128_3072_0, (bv6 m c)⟩, ⟨Rect.unit (s := S4096x128) ![2560, 0] S512x128.size inb_S4096x128_S512x128_2560_0, (bv5 m c)⟩, ⟨Rect.unit (s := S4096x128) ![2048, 0] S512x128.size inb_S4096x128_S512x128_2048_0, (bv4 m c)⟩, ⟨Rect.unit (s := S4096x128) ![1536, 0] S512x128.size inb_S4096x128_S512x128_1536_0, (bv3 m c)⟩, ⟨Rect.unit (s := S4096x128) ![1024, 0] S512x128.size inb_S4096x128_S512x128_1024_0, (bv2 m c)⟩, ⟨Rect.unit (s := S4096x128) ![512, 0] S512x128.size inb_S4096x128_S512x128_512_0, (bv1 m c)⟩, ⟨Rect.unit (s := S4096x128) ![0, 0] S512x128.size inb_S4096x128_S512x128_0_0, (bv0 m c)⟩] (Rect.unit (s := S4096x128) ![3584, 0] S512x128.size inb_S4096x128_S512x128_3584_0).toLoadRect (ix2 r k)
      = hop (m ((c : Thread nD τ).loc main_arg1)) (sup (m ((c : Thread nD τ).loc main_arg0)) (m ((c : Thread nD τ).loc main_arg2))) (⟨3584 + r.val, by omega⟩ : Fin 4096) k := by
  rw [readCov_box_apply (M := 4096) (N := 128) v _ _ r k (⟨3584 + r.val, by omega⟩ : Fin 4096) k rfl (Nat.zero_add _),
      canon_rows_hit (M := 4096) (N := 128) (h := 512) (o := 3584) _ _ _ _ _ r (by rfl),
      bv7_apply]
  try exact congrArg (fun z => hop (m ((c : Thread nD τ).loc main_arg1)) (sup (m ((c : Thread nD τ).loc main_arg0)) (m ((c : Thread nD τ).loc main_arg2))) z k) (Fin.ext (by show 512 * 7 + r.val = 3584 + r.val; omega))

/-- Row block 7 of the support. -/
theorem supblk7 (c : Dev nD) (v : View sig .tc .vmem S4096x128 .bf16) (r : Fin 512) (k : Fin 128) :
    v.readCov [⟨Rect.unit (s := S4096x128) ![0, 0] S4096x128.size inb_S4096x128_S4096x128_0_0, (sv m c)⟩] (Rect.unit (s := S4096x128) ![3584, 0] S512x128.size inb_S4096x128_S512x128_3584_0).toLoadRect (ix2 r k)
      = sup (m ((c : Thread nD τ).loc main_arg0)) (m ((c : Thread nD τ).loc main_arg2)) (⟨3584 + r.val, by omega⟩ : Fin 4096) k := by
  rw [readCov_box_apply (M := 4096) (N := 128) v _ _ r k (⟨3584 + r.val, by omega⟩ : Fin 4096) k rfl (Nat.zero_add _),
      canon_rows_hit (M := 4096) (N := 128) (h := 4096) (o := 0) _ _ _ _ _ (⟨3584 + r.val, by omega⟩ : Fin 4096) (Nat.zero_add _), sv_apply]

set_option maxHeartbeats 2000000 in
/-- The block the run at point 15 stores is row block 7 of the specification. -/
theorem o7_apply (c : Dev nD) (r : Fin 512) (e : Fin 128) :
    (R15 m c).1 (ix2 r e) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨3584 + r.val, by omega⟩ : Fin 4096) e := by
  unfold R15 run15
  dsimp only
  rw [show k0_pay8 (F := Ideal) = k0_pay1 (F := Ideal) from rfl]
  refine (pay1_apply _ _ _ _ _ _ _
    (fun r' q => hop (m ((c : Thread nD τ).loc main_arg1)) (hop (m ((c : Thread nD τ).loc main_arg1)) (sup (m ((c : Thread nD τ).loc main_arg0)) (m ((c : Thread nD τ).loc main_arg2)))) (⟨3584 + r'.val, by omega⟩ : Fin 4096) q)
    (fun r' q => hop (m ((c : Thread nD τ).loc main_arg1)) (sup (m ((c : Thread nD τ).loc main_arg0)) (m ((c : Thread nD τ).loc main_arg2))) (⟨3584 + r'.val, by omega⟩ : Fin 4096) q)
    (fun r' q => sup (m ((c : Thread nD τ).loc main_arg0)) (m ((c : Thread nD τ).loc main_arg2)) (⟨3584 + r'.val, by omega⟩ : Fin 4096) q)
    (fun e' q => (m ((c : Thread nD τ).loc main_arg4)) (ix2 e' (colL q))) (fun e' q => (m ((c : Thread nD τ).loc main_arg4)) (ix2 e' (colR q)))
    (fun e' => (m ((c : Thread nD τ).loc main_arg5)) (ix1 e')) (fun e' => (m ((c : Thread nD τ).loc main_arg3)) (ix1 e'))
    (fun r' q => t2fin7 m c _ r' q) (fun r' q => supblk7 m c _ r' q) (fun r' q => t1blk7 m c _ r' q)
    (fun e' q => by rw [load_box, catw_emb 0 _ e' q (colL q) (Nat.zero_add _), iblk3_apply, V_main_arg4])
    (fun e' q => by rw [load_box, catw_emb 128 _ e' q (colR q) rfl, iblk3_apply, V_main_arg4])
    (fun e' => by rw [load_whole (S := S1x128) _ _ hz2]; exact iblk5_apply m c t0_15 e')
    (fun e' => by rw [load_whole (S := S1x128) _ _ hz2]; exact iblk4_apply m c t0_15 e') r e).trans ?_
  rfl

end Cert.KernelIdeal.Body

end
-- ==== Proof.Body.KIVal6.lean ====
import proofs.«166091_g16140487098644_cont_week2b_486_32_alg».proof.Proof.Body.KIVal5
import proofs.«166091_g16140487098644_cont_week2b_486_32_alg».proof.Proof.Body.KIBlocks

/-!
The result array is the specification array.

The block written back at point 8 + b is what the run there stored into the output's buffer, read back: entry (r, e) of it is
the specification at (512 b + r, e), which is entry (r, e) of row block b of the specification array. The eight blocks tile the
array, so the array the kernel leaves is the specification array.
-/
set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.GraphConv

variable (m : (ℓ : Loc nD τ sig) → Buf (Elt Ideal) ℓ)

set_option maxHeartbeats 1000000 in
/-- The block written back at point 8 is row block 0 of the specification array. -/
theorem flushed_block0 (c : Dev nD) :
    (dats m 0 c).flushed 6 t0_8 = ((cfg0.win 6).blk t0_8).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_8) ((dats m 0 c).after 6 t0_8) = _
  rw [after0_6]
  show (cfg0.win 6).cut (grid0.coords t0_8) (outOf (R8 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R8 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_8).view.emb (ix2 r e))
  rw [o0_apply]
  obtain ⟨e0, e1⟩ := idx6 t0_8
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 0 + r.val = win0_6.index t0_8 (0 : Fin 2) * 512 + 1 * r.val
    rw [e0]; show _ = (8 - 8) * 512 + 1 * r.val; omega
  · show e.val = win0_6.index t0_8 (1 : Fin 2) * 128 + 1 * e.val
    rw [e1]; omega

set_option maxHeartbeats 1000000 in
/-- The block written back at point 9 is row block 1 of the specification array. -/
theorem flushed_block1 (c : Dev nD) :
    (dats m 0 c).flushed 6 t0_9 = ((cfg0.win 6).blk t0_9).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_9) ((dats m 0 c).after 6 t0_9) = _
  rw [after0_6]
  show (cfg0.win 6).cut (grid0.coords t0_9) (outOf (R9 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R9 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_9).view.emb (ix2 r e))
  rw [o1_apply]
  obtain ⟨e0, e1⟩ := idx6 t0_9
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 512 + r.val = win0_6.index t0_9 (0 : Fin 2) * 512 + 1 * r.val
    rw [e0]; show _ = (9 - 8) * 512 + 1 * r.val; omega
  · show e.val = win0_6.index t0_9 (1 : Fin 2) * 128 + 1 * e.val
    rw [e1]; omega

set_option maxHeartbeats 1000000 in
/-- The block written back at point 10 is row block 2 of the specification array. -/
theorem flushed_block2 (c : Dev nD) :
    (dats m 0 c).flushed 6 t0_10 = ((cfg0.win 6).blk t0_10).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_10) ((dats m 0 c).after 6 t0_10) = _
  rw [after0_6]
  show (cfg0.win 6).cut (grid0.coords t0_10) (outOf (R10 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R10 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_10).view.emb (ix2 r e))
  rw [o2_apply]
  obtain ⟨e0, e1⟩ := idx6 t0_10
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 1024 + r.val = win0_6.index t0_10 (0 : Fin 2) * 512 + 1 * r.val
    rw [e0]; show _ = (10 - 8) * 512 + 1 * r.val; omega
  · show e.val = win0_6.index t0_10 (1 : Fin 2) * 128 + 1 * e.val
    rw [e1]; omega

set_option maxHeartbeats 1000000 in
/-- The block written back at point 11 is row block 3 of the specification array. -/
theorem flushed_block3 (c : Dev nD) :
    (dats m 0 c).flushed 6 t0_11 = ((cfg0.win 6).blk t0_11).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_11) ((dats m 0 c).after 6 t0_11) = _
  rw [after0_6]
  show (cfg0.win 6).cut (grid0.coords t0_11) (outOf (R11 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R11 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_11).view.emb (ix2 r e))
  rw [o3_apply]
  obtain ⟨e0, e1⟩ := idx6 t0_11
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 1536 + r.val = win0_6.index t0_11 (0 : Fin 2) * 512 + 1 * r.val
    rw [e0]; show _ = (11 - 8) * 512 + 1 * r.val; omega
  · show e.val = win0_6.index t0_11 (1 : Fin 2) * 128 + 1 * e.val
    rw [e1]; omega

set_option maxHeartbeats 1000000 in
/-- The block written back at point 12 is row block 4 of the specification array. -/
theorem flushed_block4 (c : Dev nD) :
    (dats m 0 c).flushed 6 t0_12 = ((cfg0.win 6).blk t0_12).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_12) ((dats m 0 c).after 6 t0_12) = _
  rw [after0_6]
  show (cfg0.win 6).cut (grid0.coords t0_12) (outOf (R12 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R12 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_12).view.emb (ix2 r e))
  rw [o4_apply]
  obtain ⟨e0, e1⟩ := idx6 t0_12
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 2048 + r.val = win0_6.index t0_12 (0 : Fin 2) * 512 + 1 * r.val
    rw [e0]; show _ = (12 - 8) * 512 + 1 * r.val; omega
  · show e.val = win0_6.index t0_12 (1 : Fin 2) * 128 + 1 * e.val
    rw [e1]; omega

set_option maxHeartbeats 1000000 in
/-- The block written back at point 13 is row block 5 of the specification array. -/
theorem flushed_block5 (c : Dev nD) :
    (dats m 0 c).flushed 6 t0_13 = ((cfg0.win 6).blk t0_13).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_13) ((dats m 0 c).after 6 t0_13) = _
  rw [after0_6]
  show (cfg0.win 6).cut (grid0.coords t0_13) (outOf (R13 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R13 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_13).view.emb (ix2 r e))
  rw [o5_apply]
  obtain ⟨e0, e1⟩ := idx6 t0_13
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 2560 + r.val = win0_6.index t0_13 (0 : Fin 2) * 512 + 1 * r.val
    rw [e0]; show _ = (13 - 8) * 512 + 1 * r.val; omega
  · show e.val = win0_6.index t0_13 (1 : Fin 2) * 128 + 1 * e.val
    rw [e1]; omega

set_option maxHeartbeats 1000000 in
/-- The block written back at point 14 is row block 6 of the specification array. -/
theorem flushed_block6 (c : Dev nD) :
    (dats m 0 c).flushed 6 t0_14 = ((cfg0.win 6).blk t0_14).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_14) ((dats m 0 c).after 6 t0_14) = _
  rw [after0_6]
  show (cfg0.win 6).cut (grid0.coords t0_14) (outOf (R14 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R14 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_14).view.emb (ix2 r e))
  rw [o6_apply]
  obtain ⟨e0, e1⟩ := idx6 t0_14
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 3072 + r.val = win0_6.index t0_14 (0 : Fin 2) * 512 + 1 * r.val
    rw [e0]; show _ = (14 - 8) * 512 + 1 * r.val; omega
  · show e.val = win0_6.index t0_14 (1 : Fin 2) * 128 + 1 * e.val
    rw [e1]; omega

set_option maxHeartbeats 1000000 in
/-- The block written back at point 15 is row block 7 of the specification array. -/
theorem flushed_block7 (c : Dev nD) :
    (dats m 0 c).flushed 6 t0_15 = ((cfg0.win 6).blk t0_15).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  show (cfg0.win 6).cut (grid0.coords t0_15) ((dats m 0 c).after 6 t0_15) = _
  rw [after0_6]
  show (cfg0.win 6).cut (grid0.coords t0_15) (outOf (R15 m c).1) = _
  unfold outOf
  rw [View.read_writes_junk_eq_canon, View.canon_unit_zero hz2]
  funext y
  obtain ⟨r, e, rfl⟩ : ∃ (r : Fin 512) (e : Fin 128), y = ix2 r e :=
    ⟨⟨(y 0).val, (y 0).isLt⟩, ⟨(y 1).val, (y 1).isLt⟩, funext fun a => Fin.ext (by match a with | ⟨0, _⟩ => rfl | ⟨1, _⟩ => rfl)⟩
  show (R15 m c).1 (ix2 r e) = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) (((cfg0.win 6).blk t0_15).view.emb (ix2 r e))
  rw [o7_apply]
  obtain ⟨e0, e1⟩ := idx6 t0_15
  refine congrArg₂ (out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_) (Fin.ext ?_)
  · show 3584 + r.val = win0_6.index t0_15 (0 : Fin 2) * 512 + 1 * r.val
    rw [e0]; show _ = (15 - 8) * 512 + 1 * r.val; omega
  · show e.val = win0_6.index t0_15 (1 : Fin 2) * 128 + 1 * e.val
    rw [e1]; omega

/-- At every point that writes the output back, the block written is that point's block of the specification array. -/
theorem blocks (c : Dev nD) (t : Fin cfg0.N) (ht : 8 ≤ t.val) :
    (dats m 0 c).flushed 6 t = ((cfg0.win 6).blk t).view.read (Elt Ideal) (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) := by
  rcases fin_N0 t with rfl | rfl | rfl | rfl | rfl | rfl | rfl | rfl | rfl | rfl | rfl | rfl | rfl | rfl | rfl | rfl
  · exact absurd ht (by decide)
  · exact absurd ht (by decide)
  · exact absurd ht (by decide)
  · exact absurd ht (by decide)
  · exact absurd ht (by decide)
  · exact absurd ht (by decide)
  · exact absurd ht (by decide)
  · exact absurd ht (by decide)
  · exact flushed_block0 m c
  · exact flushed_block1 m c
  · exact flushed_block2 m c
  · exact flushed_block3 m c
  · exact flushed_block4 m c
  · exact flushed_block5 m c
  · exact flushed_block6 m c
  · exact flushed_block7 m c

/-- The array the kernel leaves is the specification array. -/
theorem value (c : Dev nD) : (dats m 0 c).arrAt 6 cfg0.N = (fun i : S4096x128.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (⟨(i 0).val, idx2_lt0 i⟩ : Fin 4096) (⟨(i 1).val, idx2_lt1 i⟩ : Fin 128)) :=
  arr_of_blocks m c _ (blocks m c)

end Cert.KernelIdeal.Body

end
-- ==== Proof.lean ====
/-
  The certificate of the fused graph-convolution kernel against its jnp reference.

  Both programs compute, from feature (4096×128), adj (4096×4096), weight (128×128), bias (128), cat_w (128×256)
  and cat_b (128):  sup = max(feature · weight, 0),  low = adj · sup + sup,  mid = adj · (adj · sup) − sup,
  lin = [low, mid] · cat_wᵀ + cat_b,  out = (lin where lin ≥ 0, else 0.2 · lin) + bias
  (Proof/Spec.lean states this entry by entry over the extended reals).

  The reference does it with four host matrix products (Proof/RefRun.lean is its run, Proof/RefValue.lean reads its
  result at an entry as the specification). The kernel walks the 8 row blocks of adj once over 16 grid points:
  at point j < 8 it stores block j of adj and of t1 = adj · sup in scratch, sets block j of t2 = adj · t1 to the
  part of the sum over the columns seen so far, and adds to each earlier block of t2 the part over the columns
  of block j; at point 8 + b it forms block b of the result from the scratch. At the ideal values the changes
  of float format are the identity and block b of t2 ends at the whole sum over the 4096 columns, split into
  its 8 column blocks, so the two programs agree; the only law needed is the splitting of a finite sum.

  The kernel's frames (Proof/Body/): the body is run at each of the 16 grid points with the four scratch buffers carried
  from point to point as the pieces stored so far over whatever they held at entry; the library's tracked frame run gives
  the frame at the word level and at the ideal values from the same text.

  The kernel's value (Proof/Body/KIVal0 … KIVal6): the values the runs store, in closed form point by point — the support, the row
  blocks of adj's copy and of t1, the diagonal and the rewritten row blocks of t2 as partial sums over the columns seen so far
  (Proof/PartSums.lean), and the eight blocks of the result — and the blocks tile the result array (Proof/Body/KIBlocks.lean).
-/
import proofs.«166091_g16140487098644_cont_week2b_486_32_alg».proof.Defs
import proofs.«166091_g16140487098644_cont_week2b_486_32_alg».proof.Proof.Gen.Kernel
import proofs.«166091_g16140487098644_cont_week2b_486_32_alg».proof.Proof.Gen.KernelIdeal
import proofs.«166091_g16140487098644_cont_week2b_486_32_alg».proof.Proof.Gen.ReferenceIdeal
import proofs.«166091_g16140487098644_cont_week2b_486_32_alg».proof.Proof.Gen.Pre_finite_inputs
import proofs.«166091_g16140487098644_cont_week2b_486_32_alg».proof.Proof.RefRun
import proofs.«166091_g16140487098644_cont_week2b_486_32_alg».proof.Proof.RefValue
import proofs.«166091_g16140487098644_cont_week2b_486_32_alg».proof.Proof.Body.KFrame
import proofs.«166091_g16140487098644_cont_week2b_486_32_alg».proof.Proof.Body.KIFrame
import proofs.«166091_g16140487098644_cont_week2b_486_32_alg».proof.Proof.Body.KIValue
import proofs.«166091_g16140487098644_cont_week2b_486_32_alg».proof.Proof.Body.KIBlocks
import proofs.«166091_g16140487098644_cont_week2b_486_32_alg».proof.Proof.Body.KIVal6
import Idealize.ShloMosaic.Adequacy
import Idealize.ShloMosaic.Init

noncomputable section

namespace Cert.Proof

open Idealize.ShloMosaic Idealize.SL.Sem

/-- The kernel at the word level runs to the end, faults nowhere and leaves its arguments unchanged. -/
theorem frame_k : Cert.frame_Kernel (hKernel := Cert.Kernel.Gen.facts) (hPre_finite_inputs := Cert.Pre_finite_inputs.Gen.facts) :=
  fun m ρ _ => Cert.Kernel.Body.frame m ρ

/-- The same at the ideal values. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference runs to the end, faults nowhere and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.run (F := Ideal) m ρ)

/-- The idealization rewrote no operation: nothing to preserve. -/
theorem preserves : Cert.preserves_Kernel_KernelIdeal := trivial

/-- The kernel's result array is the specification array: each block written back at the points 8..15 is that point's block of
    the specification (Proof/Body/KIVal0 … KIVal6: the stored values in closed form, point by point), and the blocks tile the array. -/
theorem kernel_value (m : (ℓ : Loc Cert.KernelIdeal.nD Cert.KernelIdeal.τ Cert.KernelIdeal.sig) → Buf (Elt Ideal) ℓ) (c : Dev Cert.KernelIdeal.nD) :
    (Cert.KernelIdeal.Body.dats (F := Ideal) m 0 c).arrAt 6 Cert.KernelIdeal.cfg0.N
      = Cert.ReferenceIdeal.RefValue.specArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  Cert.KernelIdeal.Body.value m c

/-- From memories agreeing on the arguments both programs end with the specification array as their result. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.ReferenceIdeal.RefValue.specArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Body.run_value m ρ _ (kernel_value m), ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1, (hagree c).2.2.1, (hagree c).2.2.2.1, (hagree c).2.2.2.2.1, (hagree c).2.2.2.2.2]
  exact Cert.ReferenceIdeal.RefValue.result_eq _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
